-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg1 : IVec S4096x200 32) (main_v15 : IVec S_ 1) (main_c_5 : IVec S_ 32) : IVec S_ 1 :=
  let main_v16 : IVec S4096x200 32 := broadcastInDim S4096x200 ![] bcast_S_S4096x200 main_c_5
  let main_v17 : IVec S4096x200 1 := cmpi .sge main_arg1 main_v16
  let main_c_6 : IVec S_ 32 := constantI S_ 32 1#32
  let main_v18 : IVec S4096x200 32 := broadcastInDim S4096x200 ![] bcast_S_S4096x200 main_c_6
  let main_v19 : IVec S4096x200 1 := cmpi .sle main_arg1 main_v18
  let main_v20 : IVec S4096x200 1 := andi main_v17 main_v19
  let main_c_7 : IVec S_ 1 := constantI S_ 1 1#1
  let main_v21 : IVec S_ 1 := (fun x v => Host.reduce IntOp.andi x v reducesTo_S4096x200_S_d0_1 h_S_) main_v20 main_c_7
  let main_v22 : IVec S_ 1 := andi main_v15 main_v21
  main_v22

def fn {F : FTy → Type} [FloatOps F] (main_arg0 : IVec S4096x200 32) (main_arg1 : IVec S4096x200 32) (main_arg2 : FVec F S100000x128 .f32) (main_arg3 : FVec F S2x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x200 : Shape := ⟨2, ![4096, 200]⟩
abbrev S100000x128 : Shape := ⟨2, ![100000, 128]⟩
abbrev S2x128 : Shape := ⟨2, ![2, 128]⟩
abbrev S6400x1x128 : Shape := ⟨3, ![6400, 1, 128]⟩
abbrev S6400x2x128 : Shape := ⟨3, ![6400, 2, 128]⟩
abbrev S819200x128 : Shape := ⟨2, ![819200, 128]⟩
abbrev S4x2x128 : Shape := ⟨3, ![4, 2, 128]⟩
abbrev S4x128x128 : Shape := ⟨3, ![4, 128, 128]⟩
abbrev S_ : Shape := ⟨0, ![]⟩
abbrev S1x2x128 : Shape := ⟨3, ![1, 2, 128]⟩
abbrev S1x128x128 : Shape := ⟨3, ![1, 128, 128]⟩
abbrev S128x128 : Shape := ⟨2, ![128, 128]⟩
abbrev S1x1x128 : Shape := ⟨3, ![1, 1, 128]⟩
abbrev S128 : Shape := ⟨1, ![128]⟩
abbrev S1x16 : Shape := ⟨2, ![1, 16]⟩
abbrev S16 : Shape := ⟨1, ![16]⟩
abbrev S1x1x16 : Shape := ⟨3, ![1, 1, 16]⟩
abbrev S1 : Shape := ⟨1, ![1]⟩
abbrev S4096x200x128 : Shape := ⟨3, ![4096, 200, 128]⟩

abbrev nBuf : Table → Nat
  | .hbm => 9
  | .local .scVector .vmem => 3
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S100000x128, .f32⟩
  | .hbm, ⟨3, _⟩ => ⟨S2x128, .f32⟩
  | .hbm, ⟨4, _⟩ => ⟨S6400x1x128, .i32⟩
  | .hbm, ⟨5, _⟩ => ⟨S6400x1x128, .i32⟩
  | .hbm, ⟨6, _⟩ => ⟨S6400x2x128, .i32⟩
  | .hbm, ⟨7, _⟩ => ⟨S819200x128, .f32⟩
  | .hbm, ⟨8, _⟩ => ⟨S4096x200x128, .f32⟩
  | .local .scVector .vmem, ⟨0, _⟩ => ⟨S4x2x128, .i32⟩
  | .local .scVector .vmem, ⟨1, _⟩ => ⟨S4x128x128, .f32⟩
  | .local .scVector .vmem, ⟨2, _⟩ => ⟨S2x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_arg2_scv : Ref sig .scVector := ⟨.hbm, 2, rfl⟩
abbrev main_arg3_scv : Ref sig .scVector := ⟨.hbm, 3, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v3 : BitVec 32 := Scalar.addi v2 c0_i32
  let c0_i32_3 : BitVec 32 := 0#32
  let c0_i32_4 : BitVec 32 := 0#32
  ![v3.toNat, 0, 0]
@[reducible] def k0_t1_loop : Scf.Loop 32 :=
  let c0_i32_76 : BitVec 32 := 0#32
  let c50_i32 : BitVec 32 := 50#32
  let v68 : BitVec 32 := Scalar.addi c0_i32_76 c50_i32
  let c1_i32_77 : BitVec 32 := 1#32
  ⟨c0_i32_76, v68, c1_i32_77⟩
@[reducible] def k0_t2_loop : Scf.Loop 32 :=
  let c0_i32_128 : BitVec 32 := 0#32
  let c8_i32 : BitVec 32 := 8#32
  let v106 : BitVec 32 := Scalar.addi c0_i32_128 c8_i32
  let c1_i32_129 : BitVec 32 := 1#32
  ⟨c0_i32_128, v106, c1_i32_129⟩
def k0_off2 (k0_t2 : Fin k0_t2_loop.trips) : Fin 3 → Nat :=
  let c0_i32_283 : BitVec 32 := 0#32
  let v272 : Index := Scalar.indexCast c0_i32_283
  let c1_i32_284 : BitVec 32 := 1#32
  let v273 : Index := Scalar.indexCast c1_i32_284
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32 : BitVec 32 := 16#32
  let v271 : BitVec 32 := Scalar.muli v214 c16_i32
  let v274 : Index := Scalar.indexCast v271
  ![0, 1, v274.toNat]
def k0_off3 (k0_t2 : Fin k0_t2_loop.trips) (c0_i32_286 : BitVec 32) : Fin 3 → Nat :=
  let c0_i32_287 : BitVec 32 := 0#32
  let v283 : Index := Scalar.indexCast c0_i32_287
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v284 : Index := Scalar.indexCast v282
  let c0_288 : Index := 0#32
  ![0, v284.toNat, 0]
def k0_off4 (k0_t2 : Fin k0_t2_loop.trips) (c0_i32_286 : BitVec 32) : Fin 3 → Nat :=
  let c0_i32_291 : BitVec 32 := 0#32
  let v295 : Index := Scalar.indexCast c0_i32_291
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v296 : Index := Scalar.indexCast v282
  let c16_292 : Index := 16#32
  ![0, v296.toNat, 16]
def k0_off5 (k0_t2 : Fin k0_t2_loop.trips) (c0_i32_286 : BitVec 32) : Fin 3 → Nat :=
  let c0_i32_295 : BitVec 32 := 0#32
  let v307 : Index := Scalar.indexCast c0_i32_295
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v308 : Index := Scalar.indexCast v282
  let c32_296 : Index := 32#32
  ![0, v308.toNat, 32]
def k0_off6 (k0_t2 : Fin k0_t2_loop.trips) (c0_i32_286 : BitVec 32) : Fin 3 → Nat :=
  let c0_i32_299 : BitVec 32 := 0#32
  let v319 : Index := Scalar.indexCast c0_i32_299
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v320 : Index := Scalar.indexCast v282
  let c48_300 : Index := 48#32
  ![0, v320.toNat, 48]
def k0_off7 (k0_t2 : Fin k0_t2_loop.trips) (c0_i32_286 : BitVec 32) : Fin 3 → Nat :=
  let c0_i32_303 : BitVec 32 := 0#32
  let v331 : Index := Scalar.indexCast c0_i32_303
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v332 : Index := Scalar.indexCast v282
  let c64_304 : Index := 64#32
  ![0, v332.toNat, 64]
def k0_off8 (k0_t2 : Fin k0_t2_loop.trips) (c0_i32_286 : BitVec 32) : Fin 3 → Nat :=
  let c0_i32_307 : BitVec 32 := 0#32
  let v343 : Index := Scalar.indexCast c0_i32_307
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v344 : Index := Scalar.indexCast v282
  let c80_308 : Index := 80#32
  ![0, v344.toNat, 80]
def k0_off9 (k0_t2 : Fin k0_t2_loop.trips) (c0_i32_286 : BitVec 32) : Fin 3 → Nat :=
  let c0_i32_311 : BitVec 32 := 0#32
  let v355 : Index := Scalar.indexCast c0_i32_311
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v356 : Index := Scalar.indexCast v282
  let c96_312 : Index := 96#32
  ![0, v356.toNat, 96]
def k0_off10 (k0_t2 : Fin k0_t2_loop.trips) (c0_i32_286 : BitVec 32) : Fin 3 → Nat :=
  let c0_i32_315 : BitVec 32 := 0#32
  let v367 : Index := Scalar.indexCast c0_i32_315
  let c0_i32_258 : BitVec 32 := 0#32
  let c0_i32_128 : BitVec 32 := 0#32
  let c1_i32_129 : BitVec 32 := 1#32
  let arg22 : BitVec 32 := Scf.iv c0_i32_128 c1_i32_129 k0_t2
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v368 : Index := Scalar.indexCast v282
  let c112_316 : Index := 112#32
  ![0, v368.toNat, 112]
def k0_cond2 (k0_t1 : Fin k0_t1_loop.trips) : BitVec 1 :=
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c49_i32 : BitVec 32 := 49#32
  let v107 : BitVec 1 := Scalar.cmpi .slt v82 c49_i32
  let v108 : BitVec 32 := Scalar.extui v107
  let c0_i32_131 : BitVec 32 := 0#32
  let v109 : BitVec 1 := Scalar.cmpi .ne v108 c0_i32_131
  v109

def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32_258 : BitVec 32 := 200#32
  let v214 : BitVec 32 := Scalar.muli v1 c200_i32_258
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c4_i32 : BitVec 32 := 4#32
  let v83 : BitVec 32 := Scalar.muli v82 c4_i32
  let c0_i32_99 : BitVec 32 := 0#32
  let v84 : BitVec 32 := Scalar.addi v83 c0_i32_99
  let c4_i32_257 : BitVec 32 := 4#32
  let v213 : BitVec 32 := Scalar.addi v84 c4_i32_257
  let v215 : BitVec 32 := Scalar.addi v214 v213
  let c0_i32_262 : BitVec 32 := 0#32
  let c0_i32_263 : BitVec 32 := 0#32
  ![v215.toNat, 0, 0]
def k0_off12 (i : grid0.Coords) (k0_t1 : Fin k0_t1_loop.trips) (c0_i32_99 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32_132 : BitVec 32 := 200#32
  let v110 : BitVec 32 := Scalar.muli v1 c200_i32_132
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c4_i32 : BitVec 32 := 4#32
  let v83 : BitVec 32 := Scalar.muli v82 c4_i32
  let v84 : BitVec 32 := Scalar.addi v83 c0_i32_99
  let v111 : BitVec 32 := Scalar.addi v110 v84
  let c128_i32 : BitVec 32 := 128#32
  let v112 : BitVec 32 := Scalar.muli v111 c128_i32
  let c0_i32_136 : BitVec 32 := 0#32
  ![v112.toNat, 0]
@[reducible] def k0_t3_loop : Scf.Loop 32 :=
  let c0_i32_170 : BitVec 32 := 0#32
  let c8_i32_171 : BitVec 32 := 8#32
  let v142 : BitVec 32 := Scalar.addi c0_i32_170 c8_i32_171
  let c1_i32_172 : BitVec 32 := 1#32
  ⟨c0_i32_170, v142, c1_i32_172⟩
def k0_off13 (k0_t3 : Fin k0_t3_loop.trips) : Fin 3 → Nat :=
  let c1_i32_283 : BitVec 32 := 1#32
  let v272 : Index := Scalar.indexCast c1_i32_283
  let c1_i32_284 : BitVec 32 := 1#32
  let v273 : Index := Scalar.indexCast c1_i32_284
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32 : BitVec 32 := 16#32
  let v271 : BitVec 32 := Scalar.muli v214 c16_i32
  let v274 : Index := Scalar.indexCast v271
  ![1, 1, v274.toNat]
def k0_off14 (k0_t3 : Fin k0_t3_loop.trips) (c0_i32_286 : BitVec 32) : Fin 3 → Nat :=
  let c1_i32_287 : BitVec 32 := 1#32
  let v283 : Index := Scalar.indexCast c1_i32_287
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v284 : Index := Scalar.indexCast v282
  let c0_288 : Index := 0#32
  ![1, v284.toNat, 0]
def k0_off15 (k0_t3 : Fin k0_t3_loop.trips) (c0_i32_286 : BitVec 32) : Fin 3 → Nat :=
  let c1_i32_291 : BitVec 32 := 1#32
  let v295 : Index := Scalar.indexCast c1_i32_291
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v296 : Index := Scalar.indexCast v282
  let c16_292 : Index := 16#32
  ![1, v296.toNat, 16]
def k0_off16 (k0_t3 : Fin k0_t3_loop.trips) (c0_i32_286 : BitVec 32) : Fin 3 → Nat :=
  let c1_i32_295 : BitVec 32 := 1#32
  let v307 : Index := Scalar.indexCast c1_i32_295
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v308 : Index := Scalar.indexCast v282
  let c32_296 : Index := 32#32
  ![1, v308.toNat, 32]
def k0_off17 (k0_t3 : Fin k0_t3_loop.trips) (c0_i32_286 : BitVec 32) : Fin 3 → Nat :=
  let c1_i32_299 : BitVec 32 := 1#32
  let v319 : Index := Scalar.indexCast c1_i32_299
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v320 : Index := Scalar.indexCast v282
  let c48_300 : Index := 48#32
  ![1, v320.toNat, 48]
def k0_off18 (k0_t3 : Fin k0_t3_loop.trips) (c0_i32_286 : BitVec 32) : Fin 3 → Nat :=
  let c1_i32_303 : BitVec 32 := 1#32
  let v331 : Index := Scalar.indexCast c1_i32_303
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v332 : Index := Scalar.indexCast v282
  let c64_304 : Index := 64#32
  ![1, v332.toNat, 64]
def k0_off19 (k0_t3 : Fin k0_t3_loop.trips) (c0_i32_286 : BitVec 32) : Fin 3 → Nat :=
  let c1_i32_307 : BitVec 32 := 1#32
  let v343 : Index := Scalar.indexCast c1_i32_307
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v344 : Index := Scalar.indexCast v282
  let c80_308 : Index := 80#32
  ![1, v344.toNat, 80]
def k0_off20 (k0_t3 : Fin k0_t3_loop.trips) (c0_i32_286 : BitVec 32) : Fin 3 → Nat :=
  let c1_i32_311 : BitVec 32 := 1#32
  let v355 : Index := Scalar.indexCast c1_i32_311
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v356 : Index := Scalar.indexCast v282
  let c96_312 : Index := 96#32
  ![1, v356.toNat, 96]
def k0_off21 (k0_t3 : Fin k0_t3_loop.trips) (c0_i32_286 : BitVec 32) : Fin 3 → Nat :=
  let c1_i32_315 : BitVec 32 := 1#32
  let v367 : Index := Scalar.indexCast c1_i32_315
  let c0_i32_258 : BitVec 32 := 0#32
  let c0_i32_170 : BitVec 32 := 0#32
  let c1_i32_172 : BitVec 32 := 1#32
  let arg22 : BitVec 32 := Scf.iv c0_i32_170 c1_i32_172 k0_t3
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v368 : Index := Scalar.indexCast v282
  let c112_316 : Index := 112#32
  ![1, v368.toNat, 112]
def k0_cond4 (k0_t1 : Fin k0_t1_loop.trips) : BitVec 1 :=
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c49_i32_174 : BitVec 32 := 49#32
  let v143 : BitVec 1 := Scalar.cmpi .slt v82 c49_i32_174
  let v144 : BitVec 32 := Scalar.extui v143
  let c0_i32_175 : BitVec 32 := 0#32
  let v145 : BitVec 1 := Scalar.cmpi .ne v144 c0_i32_175
  v145

def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32_258 : BitVec 32 := 200#32
  let v214 : BitVec 32 := Scalar.muli v1 c200_i32_258
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c4_i32_140 : BitVec 32 := 4#32
  let v119 : BitVec 32 := Scalar.muli v82 c4_i32_140
  let c1_i32_141 : BitVec 32 := 1#32
  let v120 : BitVec 32 := Scalar.addi v119 c1_i32_141
  let c4_i32_257 : BitVec 32 := 4#32
  let v213 : BitVec 32 := Scalar.addi v120 c4_i32_257
  let v215 : BitVec 32 := Scalar.addi v214 v213
  let c0_i32_262 : BitVec 32 := 0#32
  let c0_i32_263 : BitVec 32 := 0#32
  ![v215.toNat, 0, 0]
@[reducible] def k0_t4_loop : Scf.Loop 32 :=
  let c0_i32_206 : BitVec 32 := 0#32
  let c8_i32_207 : BitVec 32 := 8#32
  let v171 : BitVec 32 := Scalar.addi c0_i32_206 c8_i32_207
  let c1_i32_208 : BitVec 32 := 1#32
  ⟨c0_i32_206, v171, c1_i32_208⟩
def k0_off23 (k0_t4 : Fin k0_t4_loop.trips) : Fin 3 → Nat :=
  let c2_i32_283 : BitVec 32 := 2#32
  let v272 : Index := Scalar.indexCast c2_i32_283
  let c1_i32_284 : BitVec 32 := 1#32
  let v273 : Index := Scalar.indexCast c1_i32_284
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32 : BitVec 32 := 16#32
  let v271 : BitVec 32 := Scalar.muli v214 c16_i32
  let v274 : Index := Scalar.indexCast v271
  ![2, 1, v274.toNat]
def k0_off24 (k0_t4 : Fin k0_t4_loop.trips) (c0_i32_286 : BitVec 32) : Fin 3 → Nat :=
  let c2_i32_287 : BitVec 32 := 2#32
  let v283 : Index := Scalar.indexCast c2_i32_287
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v284 : Index := Scalar.indexCast v282
  let c0_288 : Index := 0#32
  ![2, v284.toNat, 0]
def k0_off25 (k0_t4 : Fin k0_t4_loop.trips) (c0_i32_286 : BitVec 32) : Fin 3 → Nat :=
  let c2_i32_291 : BitVec 32 := 2#32
  let v295 : Index := Scalar.indexCast c2_i32_291
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v296 : Index := Scalar.indexCast v282
  let c16_292 : Index := 16#32
  ![2, v296.toNat, 16]
def k0_off26 (k0_t4 : Fin k0_t4_loop.trips) (c0_i32_286 : BitVec 32) : Fin 3 → Nat :=
  let c2_i32_295 : BitVec 32 := 2#32
  let v307 : Index := Scalar.indexCast c2_i32_295
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v308 : Index := Scalar.indexCast v282
  let c32_296 : Index := 32#32
  ![2, v308.toNat, 32]
def k0_off27 (k0_t4 : Fin k0_t4_loop.trips) (c0_i32_286 : BitVec 32) : Fin 3 → Nat :=
  let c2_i32_299 : BitVec 32 := 2#32
  let v319 : Index := Scalar.indexCast c2_i32_299
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v320 : Index := Scalar.indexCast v282
  let c48_300 : Index := 48#32
  ![2, v320.toNat, 48]
def k0_off28 (k0_t4 : Fin k0_t4_loop.trips) (c0_i32_286 : BitVec 32) : Fin 3 → Nat :=
  let c2_i32_303 : BitVec 32 := 2#32
  let v331 : Index := Scalar.indexCast c2_i32_303
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v332 : Index := Scalar.indexCast v282
  let c64_304 : Index := 64#32
  ![2, v332.toNat, 64]
def k0_off29 (k0_t4 : Fin k0_t4_loop.trips) (c0_i32_286 : BitVec 32) : Fin 3 → Nat :=
  let c2_i32_307 : BitVec 32 := 2#32
  let v343 : Index := Scalar.indexCast c2_i32_307
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v344 : Index := Scalar.indexCast v282
  let c80_308 : Index := 80#32
  ![2, v344.toNat, 80]
def k0_off30 (k0_t4 : Fin k0_t4_loop.trips) (c0_i32_286 : BitVec 32) : Fin 3 → Nat :=
  let c2_i32_311 : BitVec 32 := 2#32
  let v355 : Index := Scalar.indexCast c2_i32_311
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v356 : Index := Scalar.indexCast v282
  let c96_312 : Index := 96#32
  ![2, v356.toNat, 96]
def k0_off31 (k0_t4 : Fin k0_t4_loop.trips) (c0_i32_286 : BitVec 32) : Fin 3 → Nat :=
  let c2_i32_315 : BitVec 32 := 2#32
  let v367 : Index := Scalar.indexCast c2_i32_315
  let c0_i32_258 : BitVec 32 := 0#32
  let c0_i32_206 : BitVec 32 := 0#32
  let c1_i32_208 : BitVec 32 := 1#32
  let arg22 : BitVec 32 := Scf.iv c0_i32_206 c1_i32_208 k0_t4
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v368 : Index := Scalar.indexCast v282
  let c112_316 : Index := 112#32
  ![2, v368.toNat, 112]
def k0_cond6 (k0_t1 : Fin k0_t1_loop.trips) : BitVec 1 :=
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c49_i32_210 : BitVec 32 := 49#32
  let v172 : BitVec 1 := Scalar.cmpi .slt v82 c49_i32_210
  let v173 : BitVec 32 := Scalar.extui v172
  let c0_i32_211 : BitVec 32 := 0#32
  let v174 : BitVec 1 := Scalar.cmpi .ne v173 c0_i32_211
  v174

def k0_off32 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32_258 : BitVec 32 := 200#32
  let v214 : BitVec 32 := Scalar.muli v1 c200_i32_258
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c4_i32_185 : BitVec 32 := 4#32
  let v155 : BitVec 32 := Scalar.muli v82 c4_i32_185
  let c2_i32_186 : BitVec 32 := 2#32
  let v156 : BitVec 32 := Scalar.addi v155 c2_i32_186
  let c4_i32_257 : BitVec 32 := 4#32
  let v213 : BitVec 32 := Scalar.addi v156 c4_i32_257
  let v215 : BitVec 32 := Scalar.addi v214 v213
  let c0_i32_262 : BitVec 32 := 0#32
  let c0_i32_263 : BitVec 32 := 0#32
  ![v215.toNat, 0, 0]
@[reducible] def k0_t5_loop : Scf.Loop 32 :=
  let c0_i32_242 : BitVec 32 := 0#32
  let c8_i32_243 : BitVec 32 := 8#32
  let v200 : BitVec 32 := Scalar.addi c0_i32_242 c8_i32_243
  let c1_i32_244 : BitVec 32 := 1#32
  ⟨c0_i32_242, v200, c1_i32_244⟩
def k0_off33 (k0_t5 : Fin k0_t5_loop.trips) : Fin 3 → Nat :=
  let c3_i32_283 : BitVec 32 := 3#32
  let v272 : Index := Scalar.indexCast c3_i32_283
  let c1_i32_284 : BitVec 32 := 1#32
  let v273 : Index := Scalar.indexCast c1_i32_284
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32 : BitVec 32 := 16#32
  let v271 : BitVec 32 := Scalar.muli v214 c16_i32
  let v274 : Index := Scalar.indexCast v271
  ![3, 1, v274.toNat]
def k0_off34 (k0_t5 : Fin k0_t5_loop.trips) (c0_i32_286 : BitVec 32) : Fin 3 → Nat :=
  let c3_i32_287 : BitVec 32 := 3#32
  let v283 : Index := Scalar.indexCast c3_i32_287
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v284 : Index := Scalar.indexCast v282
  let c0_288 : Index := 0#32
  ![3, v284.toNat, 0]
def k0_off35 (k0_t5 : Fin k0_t5_loop.trips) (c0_i32_286 : BitVec 32) : Fin 3 → Nat :=
  let c3_i32_291 : BitVec 32 := 3#32
  let v295 : Index := Scalar.indexCast c3_i32_291
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v296 : Index := Scalar.indexCast v282
  let c16_292 : Index := 16#32
  ![3, v296.toNat, 16]
def k0_off36 (k0_t5 : Fin k0_t5_loop.trips) (c0_i32_286 : BitVec 32) : Fin 3 → Nat :=
  let c3_i32_295 : BitVec 32 := 3#32
  let v307 : Index := Scalar.indexCast c3_i32_295
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v308 : Index := Scalar.indexCast v282
  let c32_296 : Index := 32#32
  ![3, v308.toNat, 32]
def k0_off37 (k0_t5 : Fin k0_t5_loop.trips) (c0_i32_286 : BitVec 32) : Fin 3 → Nat :=
  let c3_i32_299 : BitVec 32 := 3#32
  let v319 : Index := Scalar.indexCast c3_i32_299
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v320 : Index := Scalar.indexCast v282
  let c48_300 : Index := 48#32
  ![3, v320.toNat, 48]
def k0_off38 (k0_t5 : Fin k0_t5_loop.trips) (c0_i32_286 : BitVec 32) : Fin 3 → Nat :=
  let c3_i32_303 : BitVec 32 := 3#32
  let v331 : Index := Scalar.indexCast c3_i32_303
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v332 : Index := Scalar.indexCast v282
  let c64_304 : Index := 64#32
  ![3, v332.toNat, 64]
def k0_off39 (k0_t5 : Fin k0_t5_loop.trips) (c0_i32_286 : BitVec 32) : Fin 3 → Nat :=
  let c3_i32_307 : BitVec 32 := 3#32
  let v343 : Index := Scalar.indexCast c3_i32_307
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v344 : Index := Scalar.indexCast v282
  let c80_308 : Index := 80#32
  ![3, v344.toNat, 80]
def k0_off40 (k0_t5 : Fin k0_t5_loop.trips) (c0_i32_286 : BitVec 32) : Fin 3 → Nat :=
  let c3_i32_311 : BitVec 32 := 3#32
  let v355 : Index := Scalar.indexCast c3_i32_311
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v356 : Index := Scalar.indexCast v282
  let c96_312 : Index := 96#32
  ![3, v356.toNat, 96]
def k0_off41 (k0_t5 : Fin k0_t5_loop.trips) (c0_i32_286 : BitVec 32) : Fin 3 → Nat :=
  let c3_i32_315 : BitVec 32 := 3#32
  let v367 : Index := Scalar.indexCast c3_i32_315
  let c0_i32_258 : BitVec 32 := 0#32
  let c0_i32_242 : BitVec 32 := 0#32
  let c1_i32_244 : BitVec 32 := 1#32
  let arg22 : BitVec 32 := Scf.iv c0_i32_242 c1_i32_244 k0_t5
  let c1_i32_257 : BitVec 32 := 1#32
  let v213 : BitVec 32 := Scalar.muli arg22 c1_i32_257
  let v214 : BitVec 32 := Scalar.addi c0_i32_258 v213
  let c16_i32_285 : BitVec 32 := 16#32
  let v281 : BitVec 32 := Scalar.muli v214 c16_i32_285
  let v282 : BitVec 32 := Scalar.addi v281 c0_i32_286
  let v368 : Index := Scalar.indexCast v282
  let c112_316 : Index := 112#32
  ![3, v368.toNat, 112]
def k0_cond8 (k0_t1 : Fin k0_t1_loop.trips) : BitVec 1 :=
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c49_i32_246 : BitVec 32 := 49#32
  let v201 : BitVec 1 := Scalar.cmpi .slt v82 c49_i32_246
  let v202 : BitVec 32 := Scalar.extui v201
  let c0_i32_247 : BitVec 32 := 0#32
  let v203 : BitVec 1 := Scalar.cmpi .ne v202 c0_i32_247
  v203

def k0_off42 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32_258 : BitVec 32 := 200#32
  let v214 : BitVec 32 := Scalar.muli v1 c200_i32_258
  let c0_i32_98 : BitVec 32 := 0#32
  let c0_i32_76 : BitVec 32 := 0#32
  let c1_i32_77 : BitVec 32 := 1#32
  let arg21 : BitVec 32 := Scf.iv c0_i32_76 c1_i32_77 k0_t1
  let c1_i32_97 : BitVec 32 := 1#32
  let v81 : BitVec 32 := Scalar.muli arg21 c1_i32_97
  let v82 : BitVec 32 := Scalar.addi c0_i32_98 v81
  let c4_i32_221 : BitVec 32 := 4#32
  let v184 : BitVec 32 := Scalar.muli v82 c4_i32_221
  let c3_i32_222 : BitVec 32 := 3#32
  let v185 : BitVec 32 := Scalar.addi v184 c3_i32_222
  let c4_i32_257 : BitVec 32 := 4#32
  let v213 : BitVec 32 := Scalar.addi v185 c4_i32_257
  let v215 : BitVec 32 := Scalar.addi v214 v213
  let c0_i32_262 : BitVec 32 := 0#32
  let c0_i32_263 : BitVec 32 := 0#32
  ![v215.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S6400x1x128 : S4096x200.ShapeCasts S6400x1x128
  concatenates_S6400x1x128_S6400x1x128_S6400x2x128_d1 : Shape.Concatenates [S6400x1x128, S6400x1x128] S6400x2x128 1
  inb_S4x2x128_S1x2x128_0_0_0 : ∀ a, (![0, 0, 0] : Fin 3 → Nat) a + S1x2x128.size a ≤ S4x2x128.size a
  squeezes_S1x2x128_S2x128 : S1x2x128.Squeezes S2x128
  inb_S4x2x128_S1x2x128_1_0_0 : ∀ a, (![1, 0, 0] : Fin 3 → Nat) a + S1x2x128.size a ≤ S4x2x128.size a
  inb_S4x2x128_S1x2x128_2_0_0 : ∀ a, (![2, 0, 0] : Fin 3 → Nat) a + S1x2x128.size a ≤ S4x2x128.size a
  inb_S4x2x128_S1x2x128_3_0_0 : ∀ a, (![3, 0, 0] : Fin 3 → Nat) a + S1x2x128.size a ≤ S4x2x128.size a
  inb_S6400x2x128_S1x2x128_0_0_0 : ∀ a, (![0, 0, 0] : Fin 3 → Nat) a + S1x2x128.size a ≤ S6400x2x128.size a
  inb_S4x128x128_S1x128x128_0_0_0 : ∀ a, (![0, 0, 0] : Fin 3 → Nat) a + S1x128x128.size a ≤ S4x128x128.size a
  squeezes_S1x128x128_S128x128 : S1x128x128.Squeezes S128x128
  inb_S4x2x128_S1x1x128_0_0_0 : ∀ a, (![0, 0, 0] : Fin 3 → Nat) a + S1x1x128.size a ≤ S4x2x128.size a
  squeezes_S1x1x128_S128 : S1x1x128.Squeezes S128
  inb_S100000x128_S100000x128_0_0 : ∀ a, (![0, 0] : Fin 2 → Nat) a + S100000x128.size a ≤ S100000x128.size a
  gathers_S100000x128_S128x128 : S100000x128.Gathers 0 S128x128
  inb_S4x128x128_S1x128x128_1_0_0 : ∀ a, (![1, 0, 0] : Fin 3 → Nat) a + S1x128x128.size a ≤ S4x128x128.size a
  inb_S4x2x128_S1x1x128_1_0_0 : ∀ a, (![1, 0, 0] : Fin 3 → Nat) a + S1x1x128.size a ≤ S4x2x128.size a
  inb_S4x128x128_S1x128x128_2_0_0 : ∀ a, (![2, 0, 0] : Fin 3 → Nat) a + S1x128x128.size a ≤ S4x128x128.size a
  inb_S819200x128_S128x128_0_0 : ∀ a, (![0, 0] : Fin 2 → Nat) a + S128x128.size a ≤ S819200x128.size a
  inb_S4x2x128_S1x1x128_2_0_0 : ∀ a, (![2, 0, 0] : Fin 3 → Nat) a + S1x1x128.size a ≤ S4x2x128.size a
  inb_S2x128_S1x16_0_0 : ∀ a, (![0, 0] : Fin 2 → Nat) a + S1x16.size a ≤ S2x128.size a
  h_S1x16 : 0 < S1x16.numel
  shapeCasts_S1x16_S16 : S1x16.ShapeCasts S16
  inb_S2x128_S1x16_0_16 : ∀ a, (![0, 16] : Fin 2 → Nat) a + S1x16.size a ≤ S2x128.size a
  inb_S2x128_S1x16_0_32 : ∀ a, (![0, 32] : Fin 2 → Nat) a + S1x16.size a ≤ S2x128.size a
  inb_S2x128_S1x16_0_48 : ∀ a, (![0, 48] : Fin 2 → Nat) a + S1x16.size a ≤ S2x128.size a
  inb_S2x128_S1x16_0_64 : ∀ a, (![0, 64] : Fin 2 → Nat) a + S1x16.size a ≤ S2x128.size a
  inb_S2x128_S1x16_0_80 : ∀ a, (![0, 80] : Fin 2 → Nat) a + S1x16.size a ≤ S2x128.size a
  inb_S2x128_S1x16_0_96 : ∀ a, (![0, 96] : Fin 2 → Nat) a + S1x16.size a ≤ S2x128.size a
  inb_S2x128_S1x16_0_112 : ∀ a, (![0, 112] : Fin 2 → Nat) a + S1x16.size a ≤ S2x128.size a
  inb_S2x128_S1x16_1_0 : ∀ a, (![1, 0] : Fin 2 → Nat) a + S1x16.size a ≤ S2x128.size a
  inb_S2x128_S1x16_1_16 : ∀ a, (![1, 16] : Fin 2 → Nat) a + S1x16.size a ≤ S2x128.size a
  inb_S2x128_S1x16_1_32 : ∀ a, (![1, 32] : Fin 2 → Nat) a + S1x16.size a ≤ S2x128.size a
  inb_S2x128_S1x16_1_48 : ∀ a, (![1, 48] : Fin 2 → Nat) a + S1x16.size a ≤ S2x128.size a
  inb_S2x128_S1x16_1_64 : ∀ a, (![1, 64] : Fin 2 → Nat) a + S1x16.size a ≤ S2x128.size a
  inb_S2x128_S1x16_1_80 : ∀ a, (![1, 80] : Fin 2 → Nat) a + S1x16.size a ≤ S2x128.size a
  inb_S2x128_S1x16_1_96 : ∀ a, (![1, 96] : Fin 2 → Nat) a + S1x16.size a ≤ S2x128.size a
  inb_S2x128_S1x16_1_112 : ∀ a, (![1, 112] : Fin 2 → Nat) a + S1x16.size a ≤ S2x128.size a
  h_S1x1x16 : 0 < S1x1x16.numel
  shapeCasts_S1x1x16_S16 : S1x1x16.ShapeCasts S16
  slices_S16_o0_S1 : S16.Slices ![0] S1
  inpos_S1_p0 : ∀ a, (![0] : Fin 1 → Nat) a < S1.size a
  shapeCasts_S16_S1x1x16 : S16.ShapeCasts S1x1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S4x128x128_S1x128x128_3_0_0 : ∀ a, (![3, 0, 0] : Fin 3 → Nat) a + S1x128x128.size a ≤ S4x128x128.size a
  inb_S4x2x128_S1x1x128_3_0_0 : ∀ a, (![3, 0, 0] : Fin 3 → Nat) a + S1x1x128.size a ≤ S4x2x128.size a
  shapeCasts_S819200x128_S4096x200x128 : S819200x128.ShapeCasts S4096x200x128
  hcc0_scratch3 : 0 + S_.numel ≤ 13
  hcc0_scratch4 : 1 + S_.numel ≤ 13
  hcc0_scratch5 : 2 + S_.numel ≤ 13
  hcc0_scratch6 : 3 + S_.numel ≤ 13
  hcc0_scratch7 : 4 + S_.numel ≤ 13
  hcc0_scratch8 : 5 + S_.numel ≤ 13
  hcc0_scratch9 : 6 + S_.numel ≤ 13
  hcc0_scratch10 : 7 + S_.numel ≤ 13
  hcc0_scratch11 : 8 + S_.numel ≤ 13
  hcc0_scratch12 : 9 + S_.numel ≤ 13
  hcc0_scratch13 : 10 + S_.numel ≤ 13
  hcc0_scratch14 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 r.val)) a + S1x2x128.size a ≤ S6400x2x128.size a
  k0_t1_ok : k0_t1_loop.OK
  k0_t2_ok : k0_t2_loop.OK
  k0_off2_inb : ∀ k0_t2 : Fin k0_t2_loop.trips, ∀ a, (k0_off2 k0_t2) a + S1x1x16.size a ≤ S4x2x128.size a
  k0_off3_inb : ∀ k0_t2 : Fin k0_t2_loop.trips, ∀ (r : Fin 16), ∀ a, (k0_off3 k0_t2 (BitVec.ofNat 32 r.val)) a + S1x1x16.size a ≤ S4x128x128.size a
  k0_off4_inb : ∀ k0_t2 : Fin k0_t2_loop.trips, ∀ (r : Fin 16), ∀ a, (k0_off4 k0_t2 (BitVec.ofNat 32 r.val)) a + S1x1x16.size a ≤ S4x128x128.size a
  k0_off5_inb : ∀ k0_t2 : Fin k0_t2_loop.trips, ∀ (r : Fin 16), ∀ a, (k0_off5 k0_t2 (BitVec.ofNat 32 r.val)) a + S1x1x16.size a ≤ S4x128x128.size a
  k0_off6_inb : ∀ k0_t2 : Fin k0_t2_loop.trips, ∀ (r : Fin 16), ∀ a, (k0_off6 k0_t2 (BitVec.ofNat 32 r.val)) a + S1x1x16.size a ≤ S4x128x128.size a
  k0_off7_inb : ∀ k0_t2 : Fin k0_t2_loop.trips, ∀ (r : Fin 16), ∀ a, (k0_off7 k0_t2 (BitVec.ofNat 32 r.val)) a + S1x1x16.size a ≤ S4x128x128.size a
  k0_off8_inb : ∀ k0_t2 : Fin k0_t2_loop.trips, ∀ (r : Fin 16), ∀ a, (k0_off8 k0_t2 (BitVec.ofNat 32 r.val)) a + S1x1x16.size a ≤ S4x128x128.size a
  k0_off9_inb : ∀ k0_t2 : Fin k0_t2_loop.trips, ∀ (r : Fin 16), ∀ a, (k0_off9 k0_t2 (BitVec.ofNat 32 r.val)) a + S1x1x16.size a ≤ S4x128x128.size a
  k0_off10_inb : ∀ k0_t2 : Fin k0_t2_loop.trips, ∀ (r : Fin 16), ∀ a, (k0_off10 k0_t2 (BitVec.ofNat 32 r.val)) a + S1x1x16.size a ≤ S4x128x128.size a
  k0_off11_inb : ∀ (i : grid0.Coords) (k0_t1 : Fin k0_t1_loop.trips), ∀ (k0_h2 : k0_cond2 k0_t1 = 1#1), ∀ a, (k0_off11 i k0_t1) a + S1x2x128.size a ≤ S6400x2x128.size a
  k0_off12_inb : ∀ (i : grid0.Coords) (k0_t1 : Fin k0_t1_loop.trips), ∀ (r : Fin 4), ∀ a, (k0_off12 i k0_t1 (BitVec.ofNat 32 r.val)) a + S128x128.size a ≤ S819200x128.size a
  k0_t3_ok : k0_t3_loop.OK
  k0_off13_inb : ∀ k0_t3 : Fin k0_t3_loop.trips, ∀ a, (k0_off13 k0_t3) a + S1x1x16.size a ≤ S4x2x128.size a
  k0_off14_inb : ∀ k0_t3 : Fin k0_t3_loop.trips, ∀ (r : Fin 16), ∀ a, (k0_off14 k0_t3 (BitVec.ofNat 32 r.val)) a + S1x1x16.size a ≤ S4x128x128.size a
  k0_off15_inb : ∀ k0_t3 : Fin k0_t3_loop.trips, ∀ (r : Fin 16), ∀ a, (k0_off15 k0_t3 (BitVec.ofNat 32 r.val)) a + S1x1x16.size a ≤ S4x128x128.size a
  k0_off16_inb : ∀ k0_t3 : Fin k0_t3_loop.trips, ∀ (r : Fin 16), ∀ a, (k0_off16 k0_t3 (BitVec.ofNat 32 r.val)) a + S1x1x16.size a ≤ S4x128x128.size a
  k0_off17_inb : ∀ k0_t3 : Fin k0_t3_loop.trips, ∀ (r : Fin 16), ∀ a, (k0_off17 k0_t3 (BitVec.ofNat 32 r.val)) a + S1x1x16.size a ≤ S4x128x128.size a
  k0_off18_inb : ∀ k0_t3 : Fin k0_t3_loop.trips, ∀ (r : Fin 16), ∀ a, (k0_off18 k0_t3 (BitVec.ofNat 32 r.val)) a + S1x1x16.size a ≤ S4x128x128.size a
  k0_off19_inb : ∀ k0_t3 : Fin k0_t3_loop.trips, ∀ (r : Fin 16), ∀ a, (k0_off19 k0_t3 (BitVec.ofNat 32 r.val)) a + S1x1x16.size a ≤ S4x128x128.size a
  k0_off20_inb : ∀ k0_t3 : Fin k0_t3_loop.trips, ∀ (r : Fin 16), ∀ a, (k0_off20 k0_t3 (BitVec.ofNat 32 r.val)) a + S1x1x16.size a ≤ S4x128x128.size a
  k0_off21_inb : ∀ k0_t3 : Fin k0_t3_loop.trips, ∀ (r : Fin 16), ∀ a, (k0_off21 k0_t3 (BitVec.ofNat 32 r.val)) a + S1x1x16.size a ≤ S4x128x128.size a
  k0_off22_inb : ∀ (i : grid0.Coords) (k0_t1 : Fin k0_t1_loop.trips), ∀ (k0_h4 : k0_cond4 k0_t1 = 1#1), ∀ a, (k0_off22 i k0_t1) a + S1x2x128.size a ≤ S6400x2x128.size a
  k0_t4_ok : k0_t4_loop.OK
  k0_off23_inb : ∀ k0_t4 : Fin k0_t4_loop.trips, ∀ a, (k0_off23 k0_t4) a + S1x1x16.size a ≤ S4x2x128.size a
  k0_off24_inb : ∀ k0_t4 : Fin k0_t4_loop.trips, ∀ (r : Fin 16), ∀ a, (k0_off24 k0_t4 (BitVec.ofNat 32 r.val)) a + S1x1x16.size a ≤ S4x128x128.size a
  k0_off25_inb : ∀ k0_t4 : Fin k0_t4_loop.trips, ∀ (r : Fin 16), ∀ a, (k0_off25 k0_t4 (BitVec.ofNat 32 r.val)) a + S1x1x16.size a ≤ S4x128x128.size a
  k0_off26_inb : ∀ k0_t4 : Fin k0_t4_loop.trips, ∀ (r : Fin 16), ∀ a, (k0_off26 k0_t4 (BitVec.ofNat 32 r.val)) a + S1x1x16.size a ≤ S4x128x128.size a
  k0_off27_inb : ∀ k0_t4 : Fin k0_t4_loop.trips, ∀ (r : Fin 16), ∀ a, (k0_off27 k0_t4 (BitVec.ofNat 32 r.val)) a + S1x1x16.size a ≤ S4x128x128.size a
  k0_off28_inb : ∀ k0_t4 : Fin k0_t4_loop.trips, ∀ (r : Fin 16), ∀ a, (k0_off28 k0_t4 (BitVec.ofNat 32 r.val)) a + S1x1x16.size a ≤ S4x128x128.size a
  k0_off29_inb : ∀ k0_t4 : Fin k0_t4_loop.trips, ∀ (r : Fin 16), ∀ a, (k0_off29 k0_t4 (BitVec.ofNat 32 r.val)) a + S1x1x16.size a ≤ S4x128x128.size a
  k0_off30_inb : ∀ k0_t4 : Fin k0_t4_loop.trips, ∀ (r : Fin 16), ∀ a, (k0_off30 k0_t4 (BitVec.ofNat 32 r.val)) a + S1x1x16.size a ≤ S4x128x128.size a
  k0_off31_inb : ∀ k0_t4 : Fin k0_t4_loop.trips, ∀ (r : Fin 16), ∀ a, (k0_off31 k0_t4 (BitVec.ofNat 32 r.val)) a + S1x1x16.size a ≤ S4x128x128.size a
  k0_off32_inb : ∀ (i : grid0.Coords) (k0_t1 : Fin k0_t1_loop.trips), ∀ (k0_h6 : k0_cond6 k0_t1 = 1#1), ∀ a, (k0_off32 i k0_t1) a + S1x2x128.size a ≤ S6400x2x128.size a
  k0_t5_ok : k0_t5_loop.OK
  k0_off33_inb : ∀ k0_t5 : Fin k0_t5_loop.trips, ∀ a, (k0_off33 k0_t5) a + S1x1x16.size a ≤ S4x2x128.size a
  k0_off34_inb : ∀ k0_t5 : Fin k0_t5_loop.trips, ∀ (r : Fin 16), ∀ a, (k0_off34 k0_t5 (BitVec.ofNat 32 r.val)) a + S1x1x16.size a ≤ S4x128x128.size a
  k0_off35_inb : ∀ k0_t5 : Fin k0_t5_loop.trips, ∀ (r : Fin 16), ∀ a, (k0_off35 k0_t5 (BitVec.ofNat 32 r.val)) a + S1x1x16.size a ≤ S4x128x128.size a
  k0_off36_inb : ∀ k0_t5 : Fin k0_t5_loop.trips, ∀ (r : Fin 16), ∀ a, (k0_off36 k0_t5 (BitVec.ofNat 32 r.val)) a + S1x1x16.size a ≤ S4x128x128.size a
  k0_off37_inb : ∀ k0_t5 : Fin k0_t5_loop.trips, ∀ (r : Fin 16), ∀ a, (k0_off37 k0_t5 (BitVec.ofNat 32 r.val)) a + S1x1x16.size a ≤ S4x128x128.size a
  k0_off38_inb : ∀ k0_t5 : Fin k0_t5_loop.trips, ∀ (r : Fin 16), ∀ a, (k0_off38 k0_t5 (BitVec.ofNat 32 r.val)) a + S1x1x16.size a ≤ S4x128x128.size a
  k0_off39_inb : ∀ k0_t5 : Fin k0_t5_loop.trips, ∀ (r : Fin 16), ∀ a, (k0_off39 k0_t5 (BitVec.ofNat 32 r.val)) a + S1x1x16.size a ≤ S4x128x128.size a
  k0_off40_inb : ∀ k0_t5 : Fin k0_t5_loop.trips, ∀ (r : Fin 16), ∀ a, (k0_off40 k0_t5 (BitVec.ofNat 32 r.val)) a + S1x1x16.size a ≤ S4x128x128.size a
  k0_off41_inb : ∀ k0_t5 : Fin k0_t5_loop.trips, ∀ (r : Fin 16), ∀ a, (k0_off41 k0_t5 (BitVec.ofNat 32 r.val)) a + S1x1x16.size a ≤ S4x128x128.size a
  k0_off42_inb : ∀ (i : grid0.Coords) (k0_t1 : Fin k0_t1_loop.trips), ∀ (k0_h8 : k0_cond8 k0_t1 = 1#1), ∀ a, (k0_off42 i k0_t1) a + S1x2x128.size a ≤ S6400x2x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scoped0 : DmaSems sig S_ := SemArray.consecutive 12 S_ hcc0_scoped0

class Facts : Prop extends Facts₀ where

variable [Facts]
-- ==== ReferenceIdeal.lean ====
abbrev S4096x200 : Shape := ⟨2, ![4096, 200]⟩
abbrev S100000x128 : Shape := ⟨2, ![100000, 128]⟩
abbrev S2x128 : Shape := ⟨2, ![2, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S100000x128, .f32⟩
  | .hbm, ⟨3, _⟩ => ⟨S2x128, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | .hbm, ⟨27, _⟩ => ⟨S_, .i32⟩
  | .hbm, ⟨28, _⟩ => ⟨S4096x200, .i32⟩
  | .hbm, ⟨29, _⟩ => ⟨S4096x200, .i1⟩
  | .hbm, ⟨30, _⟩ => ⟨S_, .i32⟩
  | .hbm, ⟨31, _⟩ => ⟨S4096x200, .i32⟩
  | .hbm, ⟨32, _⟩ => ⟨S4096x200, .i32⟩
  | .hbm, ⟨33, _⟩ => ⟨S4096x200, .i32⟩
  | .hbm, ⟨34, _⟩ => ⟨S4096x200x1, .i32⟩
  | .hbm, ⟨35, _⟩ => ⟨S1, .i32⟩
  | .hbm, ⟨36, _⟩ => ⟨S_, .i32⟩
  | .hbm, ⟨37, _⟩ => ⟨S4096x200x1, .i32⟩
  | .hbm, ⟨38, _⟩ => ⟨S4096x200x1, .i1⟩
  | .hbm, ⟨39, _⟩ => ⟨S1x1x1, .i32⟩
  | .hbm, ⟨40, _⟩ => ⟨S4096x200x1, .i32⟩
  | .hbm, ⟨41, _⟩ => ⟨S4096x200x1, .i1⟩
  | .hbm, ⟨42, _⟩ => ⟨S4096x200x1, .i1⟩
  | .hbm, ⟨43, _⟩ => ⟨S_, .i1⟩
  | .hbm, ⟨44, _⟩ => ⟨S4096x200, .i1⟩
  | .hbm, ⟨45, _⟩ => ⟨S4096x200x128, .f32⟩
  | .hbm, ⟨46, _⟩ => ⟨S4096x200x128, .i1⟩
  | .hbm, ⟨47, _⟩ => ⟨S_, .f32⟩
  | .hbm, ⟨48, _⟩ => ⟨S4096x200x128, .f32⟩
  | .hbm, ⟨49, _⟩ => ⟨S4096x200x128, .f32⟩
  | .hbm, ⟨50, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100000x128_S4096x200x1_S4096x200x128_2_0_n_n_0_2_1128_wf : GatherDims.WF S100000x128 S4096x200x1 S4096x200x128 [2] [0] [] [0] [] 2 ![1, 128]
  gather_S2x128_S4096x200x1_S4096x200x128_2_0_n_n_0_2_1128_wf : GatherDims.WF S2x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S2x128_S4096x200x1_S4096x200x128_2_0_n_n_0_2_1128 : GatherDims S2x128 S4096x200x1 S4096x200x128 where
  offsetDims := [2]
  collapsedSliceDims := [0]
  operandBatchingDims := []
  startIndicesBatchingDims := []
  startIndexMap := [0]
  indexVectorDim := 2
  sliceSizes := ![1, 128]
  wf := gather_S2x128_S4096x200x1_S4096x200x128_2_0_n_n_0_2_1128_wf

class Facts : Prop extends Facts₀ where

variable [Facts]
-- ==== Proof.Mirror.lean ====
/-
  The arithmetic of one store of the kernel's inner loop, written once as a function of the three scratch buffers.
  A trip of the loop handles sixteen consecutive token rows of one slot of the row buffer; for token row r and column
  group d it reads the sixteen lanes (r, 16 d .. 16 d + 15) of the slot, adds to each lane the blend
  row0 + t · (row1 - row0) of the two type rows at that column, with t the float of the token's type index, and
  stores the sum back. `storeVal` is that stored vector, spelt with the kernel's own vector operations;
  `finOf` is what a whole slot holds once every row has been handled; `Mix` says how far the handling has got.
-/
import proofs.«207534_g35055523070033_cont_8to1_b_222_9_alg».proof.KernelIdeal
import proofs.«207534_g35055523070033_cont_8to1_b_222_9_alg».proof.Proof.Gen.KernelIdeal
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- The kernel's scratch buffers as it addresses them: index/type words [4, 2, 128], gathered rows [4, 128, 128], the
    two type rows [2, 128]. -/
abbrev a6 : Memref sig .scVector .vmem S4x2x128 .i32 := Memref.whole cc0_scratch0
abbrev a7 : Memref sig .scVector .vmem S4x128x128 .f32 := Memref.whole cc0_scratch1
abbrev a8 : Memref sig .scVector .vmem S2x128 .f32 := Memref.whole cc0_scratch2

abbrev C6 (F : FTy → Type) : Type := (a6).view.ty.Contents (Elt F)
abbrev C7 (F : FTy → Type) : Type := (a7).view.ty.Contents (Elt F)
abbrev C8 (F : FTy → Type) : Type := (a8).view.ty.Contents (Elt F)

/-- Sixteen lanes of type row 0 at column c. -/
def row0 (f8 : C8 F) (c : ℕ) (h0 : ∀ a, (![0, c] : Fin 2 → ℕ) a + S1x16.size a ≤ S2x128.size a) : FVec F S16 .f32 :=
  shapeCast S16 (View.readAt (Elt F) (a8).view (Rect.unit (s := S2x128) ![0, c] S1x16.size h0).toLoadRect f8) shapeCasts_S1x16_S16

/-- Sixteen lanes of (type row 1 - type row 0) at column c. -/
def diffRow (f8 : C8 F) (c : ℕ) (h0 : ∀ a, (![0, c] : Fin 2 → ℕ) a + S1x16.size a ≤ S2x128.size a)
    (h1 : ∀ a, (![1, c] : Fin 2 → ℕ) a + S1x16.size a ≤ S2x128.size a) : FVec F S16 .f32 :=
  subf (shapeCast S16 (View.readAt (Elt F) (a8).view (Rect.unit (s := S2x128) ![1, c] S1x16.size h1).toLoadRect f8) shapeCasts_S1x16_S16)
    (row0 f8 c h0)

/-- Sixteen consecutive type indices, as floats. -/
def typeF (f6 : C6 F) (o6 : Fin 3 → ℕ) (h6 : ∀ a, o6 a + S1x1x16.size a ≤ S4x2x128.size a) : FVec F S16 .f32 :=
  sitofp .f32 (shapeCast S16 (View.readAt (Elt F) (a6).view (Rect.unit (s := S4x2x128) o6 S1x1x16.size h6).toLoadRect f6) shapeCasts_S1x1x16_S16)

/-- Lane kk of a vector, in all sixteen lanes. -/
def splat (v : FVec F S16 .f32) (kk : ℕ) (hs : S16.Slices ![kk] S1) : FVec F S16 .f32 :=
  broadcast S16 (extractAt ![0] (extractStridedSlice S1 ![kk] v hs) inpos_S1_p0)

/-- The vector one store of the inner loop writes. -/
def storeVal (f6 : C6 F) (f8 : C8 F) (X : C7 F) (o6 : Fin 3 → ℕ) (h6 : ∀ a, o6 a + S1x1x16.size a ≤ S4x2x128.size a)
    (kk : ℕ) (hs : S16.Slices ![kk] S1) (c : ℕ) (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a) : FVec F S1x1x16 .f32 :=
  shapeCast S1x1x16
    (addf (shapeCast S16 (View.readAt (Elt F) (a7).view (Rect.unit (s := S4x128x128) o7 S1x1x16.size h7).toLoadRect X) shapeCasts_S1x1x16_S16)
      (addf (row0 f8 c h0) (mulf (splat (typeF f6 o6 h6) kk hs) (diffRow f8 c h0 h1))))
    shapeCasts_S16_S1x1x16

/-- What slot b of the row buffer holds once the loop has handled every row, from what it held at the loop's entry. -/
def finOf (f6 : C6 F) (f8 : C8 F) (b : Fin 4) (X0 : C7 F) : C7 F := fun i =>
  FloatOps.addf (X0 i)
    (FloatOps.addf (f8 (ix2 (0 : Fin 2) (i 2)))
      (FloatOps.mulf (FloatOps.sitofp .f32 (f6 (ix3 b (1 : Fin 2) (i 1))))
        (FloatOps.subf (f8 (ix2 (1 : Fin 2) (i 2))) (f8 (ix2 (0 : Fin 2) (i 2))))))

/-- The first N pieces of slot b (a piece: sixteen lanes; pieces counted row by row, eight to a row) are handled, the
    others as at the loop's entry. -/
def Mix (b : Fin 4) (N : ℕ) (f6 : C6 F) (f8 : C8 F) (X0 X : C7 F) : Prop :=
  ∀ i : S4x128x128.Idx, (i 0).val = b.val →
    X i = if 8 * (i 1).val + (i 2).val / 16 < N then finOf f6 f8 b X0 i else X0 i

end Cert.Proof.KI

end
-- ==== Proof.Slots.lean ====
/-
  The four slots of the kernel's two ring buffers, each spelt as the program slices it: slot b of the index/type words
  (two rows of 128 words: row 0 the word indices a gather reads as its list, row 1 the type indices), and slot b of
  the gathered rows (128 rows of 128 floats).
-/
import proofs.«207534_g35055523070033_cont_8to1_b_222_9_alg».proof.Proof.Mirror

noncomputable section

namespace Cert.Proof.KI

open Cert.KernelIdeal Cert.KernelIdeal.Gen
open Idealize.ShloMosaic

abbrev s60 : Memref sig .scVector .vmem S2x128 .i32 := ((a6).slice (Rect.unit (s := S4x2x128) ![0, 0, 0] S1x2x128.size inb_S4x2x128_S1x2x128_0_0_0) (fun _ => rfl)).squeeze S2x128 squeezes_S1x2x128_S2x128
abbrev l60 : Memref sig .scVector .vmem S128 .i32 := ((a6).slice (Rect.unit (s := S4x2x128) ![0, 0, 0] S1x1x128.size inb_S4x2x128_S1x1x128_0_0_0) (fun _ => rfl)).squeeze S128 squeezes_S1x1x128_S128
abbrev s70 : Memref sig .scVector .vmem S128x128 .f32 := ((a7).slice (Rect.unit (s := S4x128x128) ![0, 0, 0] S1x128x128.size inb_S4x128x128_S1x128x128_0_0_0) (fun _ => rfl)).squeeze S128x128 squeezes_S1x128x128_S128x128
abbrev s61 : Memref sig .scVector .vmem S2x128 .i32 := ((a6).slice (Rect.unit (s := S4x2x128) ![1, 0, 0] S1x2x128.size inb_S4x2x128_S1x2x128_1_0_0) (fun _ => rfl)).squeeze S2x128 squeezes_S1x2x128_S2x128
abbrev l61 : Memref sig .scVector .vmem S128 .i32 := ((a6).slice (Rect.unit (s := S4x2x128) ![1, 0, 0] S1x1x128.size inb_S4x2x128_S1x1x128_1_0_0) (fun _ => rfl)).squeeze S128 squeezes_S1x1x128_S128
abbrev s71 : Memref sig .scVector .vmem S128x128 .f32 := ((a7).slice (Rect.unit (s := S4x128x128) ![1, 0, 0] S1x128x128.size inb_S4x128x128_S1x128x128_1_0_0) (fun _ => rfl)).squeeze S128x128 squeezes_S1x128x128_S128x128
abbrev s62 : Memref sig .scVector .vmem S2x128 .i32 := ((a6).slice (Rect.unit (s := S4x2x128) ![2, 0, 0] S1x2x128.size inb_S4x2x128_S1x2x128_2_0_0) (fun _ => rfl)).squeeze S2x128 squeezes_S1x2x128_S2x128
abbrev l62 : Memref sig .scVector .vmem S128 .i32 := ((a6).slice (Rect.unit (s := S4x2x128) ![2, 0, 0] S1x1x128.size inb_S4x2x128_S1x1x128_2_0_0) (fun _ => rfl)).squeeze S128 squeezes_S1x1x128_S128
abbrev s72 : Memref sig .scVector .vmem S128x128 .f32 := ((a7).slice (Rect.unit (s := S4x128x128) ![2, 0, 0] S1x128x128.size inb_S4x128x128_S1x128x128_2_0_0) (fun _ => rfl)).squeeze S128x128 squeezes_S1x128x128_S128x128
abbrev s63 : Memref sig .scVector .vmem S2x128 .i32 := ((a6).slice (Rect.unit (s := S4x2x128) ![3, 0, 0] S1x2x128.size inb_S4x2x128_S1x2x128_3_0_0) (fun _ => rfl)).squeeze S2x128 squeezes_S1x2x128_S2x128
abbrev l63 : Memref sig .scVector .vmem S128 .i32 := ((a6).slice (Rect.unit (s := S4x2x128) ![3, 0, 0] S1x1x128.size inb_S4x2x128_S1x1x128_3_0_0) (fun _ => rfl)).squeeze S128 squeezes_S1x1x128_S128
abbrev s73 : Memref sig .scVector .vmem S128x128 .f32 := ((a7).slice (Rect.unit (s := S4x128x128) ![3, 0, 0] S1x128x128.size inb_S4x128x128_S1x128x128_3_0_0) (fun _ => rfl)).squeeze S128x128 squeezes_S1x128x128_S128x128

end Cert.Proof.KI

end
-- ==== Proof.Spec.lean ====
/-
  The mathematics of the lookup, stated once, over literal shapes and with no program in sight.
  A token at batch position (b, s) carries a word index ids[b, s] and a type index tids[b, s]. The result row for
  that token is the word table's row ids[b, s] plus the type table's row tids[b, s] (the reference's form, `refVal`).
  The kernel computes the second summand without a second lookup: it blends the two rows of the type table,
  row0 + t · (row1 - row0) with t the type index read as a float (the kernel's form, `kerVal`). For t = 0 the
  blend is row0 + 0 · (row1 - row0) = row0, for t = 1 it is row0 + (row1 - row0) = row1; the second identity needs
  row0 finite, since on the extended reals x + (y - x) = y fails at x = ±∞.
-/
import Idealize.ShloMosaic.PureOps.Ideal
import Idealize.ShloMosaic.Lib.ValueIdx

noncomputable section

namespace Cert.Proof.Spec

open Idealize.ShloMosaic Idealize.ShloMosaic.ValueIdx

abbrev SIds : Shape := ⟨2, ![4096, 200]⟩
abbrev STab : Shape := ⟨2, ![100000, 128]⟩
abbrev STT : Shape := ⟨2, ![2, 128]⟩
abbrev SOut : Shape := ⟨3, ![4096, 200, 128]⟩

/-- Every word index names a row of the word table and every type index a row of the type table. -/
def InRange (ids tids : IVec SIds 32) : Prop := (∀ i, (ids i).toNat < 100000) ∧ (∀ i, (tids i).toNat < 2)

/-- The word-table row of token (b, s). (Reduced modulo the table's height so that the definition needs no proof;
    in range the reduction does nothing.) -/
def wordRow (ids : IVec SIds 32) (b : Fin 4096) (s : Fin 200) : Fin 100000 :=
  ⟨(ids (ix2 b s)).toNat % 100000, Nat.mod_lt _ (by decide)⟩

/-- The type-table row of token (b, s). -/
def typeRow (tids : IVec SIds 32) (b : Fin 4096) (s : Fin 200) : Fin 2 :=
  ⟨(tids (ix2 b s)).toNat % 2, Nat.mod_lt _ (by decide)⟩

section
variable {F : FTy → Type} [FloatOps F]

/-- The kernel's result: word row plus the blend row0 + t · (row1 - row0) of the two type rows. -/
def kerVal (ids tids : IVec SIds 32) (W : FVec F STab .f32) (TT : FVec F STT .f32) : FVec F SOut .f32 := fun j =>
  FloatOps.addf (W (ix2 (wordRow ids (j 0) (j 1)) (j 2)))
    (FloatOps.addf (TT (ix2 (0 : Fin 2) (j 2)))
      (FloatOps.mulf (FloatOps.sitofp .f32 (tids (ix2 (j 0) (j 1))))
        (FloatOps.subf (TT (ix2 (1 : Fin 2) (j 2))) (TT (ix2 (0 : Fin 2) (j 2))))))
end

/-- The reference's result: word row plus type row. -/
def refVal (ids tids : IVec SIds 32) (W : FVec Ideal STab .f32) (TT : FVec Ideal STT .f32) : FVec Ideal SOut .f32 := fun j =>
  FloatOps.addf (W (ix2 (wordRow ids (j 0) (j 1)) (j 2))) (TT (ix2 (typeRow tids (j 0) (j 1)) (j 2)))

end Cert.Proof.Spec

end
-- ==== Proof.FlatSpec.lean ====
/-
  The same lookup over the kernel's flat layout. The host side of the kernel stacks the two index arrays, each cut
  into 6400 chunks of 128 tokens, as a [6400, 2, 128] array (row 0 of a chunk its word indices, row 1 its type
  indices), the kernel writes a flat [819200, 128] result (row n = 128 · chunk + position), and the host reshapes
  it to [4096, 200, 128]: token (b, s) is flat row 200 · b + s. `outFlat` is the flat result as one function.
-/
import proofs.«207534_g35055523070033_cont_8to1_b_222_9_alg».proof.Proof.Spec

noncomputable section

namespace Cert.Proof.Spec

open Idealize.ShloMosaic Idealize.ShloMosaic.ValueIdx

abbrev SV2 : Shape := ⟨3, ![6400, 2, 128]⟩
abbrev SHalf : Shape := ⟨3, ![6400, 1, 128]⟩
abbrev SFlat : Shape := ⟨2, ![819200, 128]⟩

/-- The chunk a flat row lies in, and its position in the chunk. -/
def chunkOf (n : Fin 819200) : Fin 6400 := ⟨n.val / 128, by have := n.isLt; omega⟩
def posOf (n : Fin 819200) : Fin 128 := ⟨n.val % 128, Nat.mod_lt _ (by decide)⟩

section
variable {F : FTy → Type} [FloatOps F]

/-- The flat result: row n is the word row named by the stacked array's entry (chunk, 0, position), plus the blend of
    the two type rows at the float of its entry (chunk, 1, position). -/
def outFlat (f2 : IVec SV2 32) (W : FVec F STab .f32) (TT : FVec F STT .f32) : FVec F SFlat .f32 := fun n =>
  FloatOps.addf (W (ix2 (⟨(f2 (ix3 (chunkOf (n 0)) (0 : Fin 2) (posOf (n 0)))).toNat % 100000, Nat.mod_lt _ (by decide)⟩ : Fin 100000) (n 1)))
    (FloatOps.addf (TT (ix2 (0 : Fin 2) (n 1)))
      (FloatOps.mulf (FloatOps.sitofp .f32 (f2 (ix3 (chunkOf (n 0)) (1 : Fin 2) (posOf (n 0)))))
        (FloatOps.subf (TT (ix2 (1 : Fin 2) (n 1))) (TT (ix2 (0 : Fin 2) (n 1))))))
end

end Cert.Proof.Spec

end
-- ==== Proof.KerDefs.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Slots
import proofs.«207534_g35055523070033_cont_8to1_b_222_9_alg».proof.Proof.FlatSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays in HBM as a vector subcore addresses them -/

abbrev a2 : Memref sig .scVector .hbm S6400x2x128 .i32 := Memref.whole main_v2_scv
abbrev a3 : Memref sig .scVector .hbm S100000x128 .f32 := Memref.whole main_arg2_scv
abbrev a4 : Memref sig .scVector .hbm S2x128 .f32 := Memref.whole main_arg3_scv
abbrev a5 : Memref sig .scVector .hbm S819200x128 .f32 := Memref.whole main_v3_scv

abbrev C2 (F : FTy → Type) : Type := (a2).view.ty.Contents (Elt F)
abbrev C3 (F : FTy → Type) : Type := (a3).view.ty.Contents (Elt F)
abbrev C4 (F : FTy → Type) : Type := (a4).view.ty.Contents (Elt F)
abbrev C5 (F : FTy → Type) : Type := (a5).view.ty.Contents (Elt F)

/-! ## A tile, its thread and its two hundred chunks -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem L0_lt (L : grid0.Coords) : (L 0).val < 2 := (L 0).isLt
theorem L1_lt (L : grid0.Coords) : (L 1).val < 16 := (L 1).isLt

/-- The number of the tile's first chunk: worker w = 2 · subcore + core takes chunks 200 w … 200 w + 199. -/
def c0 (L : grid0.Coords) : ℕ := 400 * (L 1).val + 200 * (L 0).val

theorem c0_le (L : grid0.Coords) : c0 L + 200 ≤ 6400 := by
  have h0 := L0_lt L; have h1 := L1_lt L; unfold c0; omega

theorem inbA2 (L : grid0.Coords) (g : Fin 200) :
    ∀ a, (![c0 L + g.val, 0, 0] : Fin 3 → ℕ) a + S1x2x128.size a ≤ S6400x2x128.size a := by
  have h := c0_le L; have hg := g.isLt
  intro a; fin_cases a
  · show c0 L + g.val + 1 ≤ 6400; omega
  · show 0 + 2 ≤ 2; omega
  · show 0 + 128 ≤ 128; omega

theorem inbA5 (L : grid0.Coords) (g : Fin 200) :
    ∀ a, (![128 * (c0 L + g.val), 0] : Fin 2 → ℕ) a + S128x128.size a ≤ S819200x128.size a := by
  have h := c0_le L; have hg := g.isLt
  intro a; fin_cases a
  · show 128 * (c0 L + g.val) + 128 ≤ 819200; omega
  · show 0 + 128 ≤ 128; omega

/-- Chunk g of the tile in the stacked index array: two rows of 128 words. -/
abbrev chunkA2 (L : grid0.Coords) (g : Fin 200) : Memref sig .scVector .hbm S2x128 .i32 :=
  ((a2).slice (Rect.unit (s := S6400x2x128) ![c0 L + g.val, 0, 0] S1x2x128.size (inbA2 L g)) (fun _ => rfl)).squeeze S2x128 squeezes_S1x2x128_S2x128

/-- Chunk g of the tile in the flat result: 128 rows of 128 floats. -/
abbrev chunkA5 (L : grid0.Coords) (g : Fin 200) : Memref sig .scVector .hbm S128x128 .f32 :=
  (a5).slice (Rect.unit (s := S819200x128) ![128 * (c0 L + g.val), 0] S128x128.size (inbA5 L g)) (fun _ => rfl)

/-! ## Families over the chunks still to come, and over the chunks done -/

section Families
variable {I : Type}

/-- What is held for the chunks numbered n and above. -/
def todo (n : ℕ) (Φ : Fin 200 → sProp 𝕄) : sProp 𝕄 := bigSep (Finset.univ.filter fun g : Fin 200 => n ≤ g.val) Φ
/-- What is held for the chunks numbered below n. -/
def done (n : ℕ) (Φ : Fin 200 → sProp 𝕄) : sProp 𝕄 := bigSep (Finset.univ.filter fun g : Fin 200 => g.val < n) Φ

theorem todo_take (n : ℕ) (h : n < 200) (Φ : Fin 200 → sProp 𝕄) : todo (F := F) n Φ = iprop(Φ ⟨n, h⟩ ∗ todo (F := F) (n + 1) Φ) := by
  unfold todo
  rw [show (Finset.univ.filter fun g : Fin 200 => n ≤ g.val) = insert (⟨n, h⟩ : Fin 200) (Finset.univ.filter fun g : Fin 200 => n + 1 ≤ g.val) from by
    ext g; simp only [Finset.mem_filter, Finset.mem_univ, true_and, Finset.mem_insert, Fin.ext_iff]; omega]
  exact SparseCore.bigSep_insert' (by simp)

theorem done_put (n : ℕ) (h : n < 200) (Φ : Fin 200 → sProp 𝕄) : done (F := F) (n + 1) Φ = iprop(Φ ⟨n, h⟩ ∗ done (F := F) n Φ) := by
  unfold done
  rw [show (Finset.univ.filter fun g : Fin 200 => g.val < n + 1) = insert (⟨n, h⟩ : Fin 200) (Finset.univ.filter fun g : Fin 200 => g.val < n) from by
    ext g; simp only [Finset.mem_filter, Finset.mem_univ, true_and, Finset.mem_insert, Fin.ext_iff]; omega]
  exact SparseCore.bigSep_insert' (by simp)

theorem todo_all (Φ : Fin 200 → sProp 𝕄) : todo (F := F) 0 Φ = bigSep Finset.univ Φ := by
  unfold todo; congr 1
theorem done_all (Φ : Fin 200 → sProp 𝕄) : done (F := F) 200 Φ = bigSep Finset.univ Φ := by
  unfold done; congr 1
theorem done_none (Φ : Fin 200 → sProp 𝕄) : done (F := F) 0 Φ = iprop(emp) := by
  unfold done
  rw [show (Finset.univ.filter fun g : Fin 200 => g.val < 0) = ∅ from by ext g; simp]
  exact bigSep_empty

end Families

end Cert.Proof.KI

end
-- ==== Proof.Canon.lean ====
/-
  What the kernel's buffers hold at the quiet points of its ring, each as one function of the three arrays it reads:
  the stacked index array f2 ([6400, 2, 128]: row 0 of chunk c the word indices, row 1 the type indices), the word
  table f3 and the two type rows f4. A slot of the word buffer that chunk c's copy has landed in holds the chunk's two
  rows (`itvC`); a slot of the row buffer that chunk c's gather has landed in holds, in row k, the table's row named
  by word index k of the chunk (`gathC`); the type-row scratch holds the two type rows (`ttC`); after the inner loop
  the slot holds gathered row plus blend (`finC`); and the flat result holds `outC` = `Spec.outFlat`.
-/
import proofs.«207534_g35055523070033_cont_8to1_b_222_9_alg».proof.Proof.KerDefs

noncomputable section

namespace Cert.Proof.KI

open Cert.KernelIdeal Cert.KernelIdeal.Gen
open Idealize.ShloMosaic Idealize.ShloMosaic.ValueIdx

variable {F : FTy → Type} [FloatOps F]

/-- A slot of the word buffer holding chunk c: entry (slot, r, k) is the stacked array's (c, r, k). -/
def itvC (f2 : C2 F) (c : Fin 6400) : C6 F := fun i => f2 (ix3 c (i 1) (i 2))

/-- The table row a word names (reduced modulo the table's height: in range the reduction does nothing). -/
def wordOf (w : BitVec 32) : Fin 100000 := ⟨w.toNat % 100000, Nat.mod_lt _ (by decide)⟩

/-- A slot of the row buffer holding chunk c's gathered rows: entry (slot, k, e) is the table's (word k of c, e). -/
def gathC (f2 : C2 F) (f3 : C3 F) (c : Fin 6400) : C7 F := fun i => f3 (ix2 (wordOf (f2 (ix3 c (0 : Fin 2) (i 1)))) (i 2))

/-- The type-row scratch after the kernel's first copy: the two type rows. -/
def ttC (f4 : C4 F) : C8 F := fun i => f4 i

/-- A slot of the row buffer after the inner loop on chunk c. -/
def finC (f2 : C2 F) (f3 : C3 F) (f4 : C4 F) (b : Fin 4) (c : Fin 6400) : C7 F :=
  finOf (itvC f2 c) (ttC f4) b (gathC f2 f3 c)

/-- The flat result. -/
def outC (f2 : C2 F) (f3 : C3 F) (f4 : C4 F) : C5 F := Cert.Proof.Spec.outFlat f2 f3 f4

/-- The tile's chunk g as a chunk of the whole array. -/
def chunkNo (L : grid0.Coords) (g : Fin 200) : Fin 6400 := ⟨c0 L + g.val, by have := c0_le L; have := g.isLt; omega⟩

end Cert.Proof.KI

end
-- ==== Proof.KerPay.lean ====
/-
  What the launch hands each tile and takes back. Every tile reads the stacked index array, the word table and the
  two type rows, and writes its own two hundred chunks of the flat result. So a tile is handed: for each of its
  chunks, the chunk's two rows of the stacked array (at a share of the tile's own), a share of the whole word table
  (one per chunk: a gather keeps its share of the table while it is in flight, and the tile never gives one back),
  and the chunk's 128 rows of the flat result outright; and a share of the type rows. It hands back the 128 rows of
  each chunk holding the lookup's result. The read shares are not returned: the TensorCore keeps a share of each
  array it needs afterwards.
-/
import proofs.«207534_g35055523070033_cont_8to1_b_222_9_alg».proof.Proof.Canon

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

theorem nCore_zero : (K (F := F)).nCore 0 = 2 := rfl
theorem nSub_zero : (K (F := F)).nSub 0 = 16 := rfl

/-- The grid coordinates of tile (c, s). -/
def coordsV (c : Fin (grid0.bound 0)) (s : Fin (grid0.bound 1)) : grid0.Coords :=
  fun | 0 => c | 1 => s | ⟨_ + 2, h⟩ => absurd h (Nat.not_lt.2 (Nat.le_add_left _ _))

/-- A number for the tile, to index its shares by. -/
def tileNo (L : grid0.Coords) : ℕ := 16 * (L 0).val + (L 1).val

/-- The tile's share of the stacked index array and of the type rows, and its share of the word table for chunk g. -/
def shA (L : grid0.Coords) : PosShare TreeShare := shareTokN fullShare (tileNo L)
def shT (L : grid0.Coords) (g : Fin 200) : PosShare TreeShare := shareTokN fullShare (200 * tileNo L + g.val)

section Res
variable [FloatOps F] (d : Dev nD) (L : grid0.Coords) (f2 : C2 F) (f3 : C3 F) (f4 : C4 F)

/-- Chunk g's two rows of the stacked array, at the tile's share. -/
abbrev a2piece (g : Fin 200) : sProp 𝕄 := (chunkA2 L g).view.loc (thr d L) ↦[(chunkA2 L g).view.set]{shA L} f2
/-- A share of the whole word table, for chunk g's gather. -/
abbrev a3tok (g : Fin 200) : sProp 𝕄 := (a3).view.loc (thr d L) ↦{shT L g} f3
/-- Chunk g's 128 rows of the flat result, outright, at contents X. -/
abbrev outpiece (X : C5 F) (g : Fin 200) : sProp 𝕄 := (chunkA5 L g).view.loc (thr d L) ↦[(chunkA5 L g).view.set]{fullShare} X

/-- What a tile is handed. -/
def goRes (fo : C5 F) : sProp 𝕄 :=
  iprop((bigSep Finset.univ fun g : Fin 200 => a2piece d L f2 g) ∗ (bigSep Finset.univ fun g : Fin 200 => a3tok d L f3 g)
    ∗ ((a4).view.loc (thr d L) ↦{shA L} f4) ∗ bigSep Finset.univ fun g : Fin 200 => outpiece d L fo g)

/-- What a tile hands back. -/
def tdRes : sProp 𝕄 := bigSep Finset.univ fun g : Fin 200 => outpiece d L (outC f2 f3 f4) g

end Res

/-! ## The call's payloads -/

section Pay
variable [FloatOps F] (m : (ℓ : Loc nD τ sig) → Buf (Elt F) ℓ) (V2 : Dev nD → C2 F)

abbrev v2Loc (d : Dev nD) : Loc nD τ sig := (SparseCore.T d).loc main_v2
abbrev tabLoc (d : Dev nD) : Loc nD τ sig := (SparseCore.T d).loc main_arg2
abbrev ttLoc (d : Dev nD) : Loc nD τ sig := (SparseCore.T d).loc main_arg3
abbrev v3Loc (d : Dev nD) : Loc nD τ sig := (SparseCore.T d).loc main_v3

/-- Tile (c, i) of device d is handed its chunks of the stacked array (at contents `V2 d`, what @main has built by
    then), its shares of the word table and the type rows (at their launch contents), and its chunks of the flat
    result (at whatever the result buffer held). -/
def tileGo (d : Dev nD) (c : Fin 2) (i : Fin 16) : sProp 𝕄 :=
  goRes d (coordsV c i) (V2 d) (m (tabLoc d)) (m (ttLoc d)) (m (v3Loc d))
/-- And hands back its chunks of the flat result, holding the lookup. -/
def tileTd (d : Dev nD) (c : Fin 2) (i : Fin 16) : sProp 𝕄 :=
  tdRes d (coordsV c i) (V2 d) (m (tabLoc d)) (m (ttLoc d))

/-- The one call's payloads: a SparseCore's are its sixteen tiles', both ways; nothing of a protocol of the kernel's own. -/
def P : (K (F := F)).Pay (nD := nD) (Val := Elt F) (Name := ℕ) (U := UU) where
  st := fun q d c => match q with | 0 => bigSep Finset.univ fun i : Fin 16 => tileGo m V2 d (Fin.cast nCore_zero c) i
  dn := fun q d c => match q with | 0 => bigSep Finset.univ fun i : Fin 16 => tileTd m V2 d (Fin.cast nCore_zero c) i
  go := fun q d c i => match q with | 0 => tileGo m V2 d (Fin.cast nCore_zero c) (Fin.cast nSub_zero i)
  td := fun q d c i => match q with | 0 => tileTd m V2 d (Fin.cast nCore_zero c) (Fin.cast nSub_zero i)
  x := fun _ _ => iprop(emp)

end Pay

end Cert.Proof.KI

end
-- ==== Proof.KerMain.lean ====
/-
  The kernel program's @main on the TensorCore.

  @main cuts the two index arrays into chunks and stacks them, starts the lookup on the vector subcores, waits for it,
  and reads the flat result as [4096, 200, 128]. Around the call the TensorCore's whole arrays have to be dealt to the
  thirty-two tiles and collected again:
  * the stacked index array is only read: each tile gets a read share of it, restricted to the tile's own two hundred
    chunks (chunk n is row n of the array), cut chunk by chunk;
  * the word table is read whole by every gather: one read share per (tile, chunk), 6400 in all, and a remainder the
    TensorCore keeps;
  * the two type rows are read whole by every tile: one read share per tile, and a remainder kept;
  * the flat result is written: chunk n is rows 128 n … 128 n + 127, the 6400 chunks are pairwise disjoint and cover the
    array, and tile (c, i) owns chunks 400 i + 200 c + g for g < 200 — each of the 6400 numbers exactly once. So the
    whole array is the separating conjunction of the chunks, before the call (at whatever it held) and after it (every
    chunk at the one function `outC`), which is the whole array at `outC`.
-/
import proofs.«207534_g35055523070033_cont_8to1_b_222_9_alg».proof.Proof.KerPay

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.StableHlo (held held_split held_sdiff_result wp_hlo_within)

variable {F : FTy → Type}

local notation "𝕄" => MT nD τ sig (HIx 1) (Elt F) ℕ UU ℕ

/-! ## The chunks of the two arrays the tiles share by rows -/

theorem c0_coordsV (c : Fin 2) (i : Fin 16) : c0 (coordsV c i) = 400 * i.val + 200 * c.val := rfl
theorem tileNo_coordsV (c : Fin 2) (i : Fin 16) : tileNo (coordsV c i) = 16 * c.val + i.val := rfl

/-- Chunk g of tile L in the flat result is rows 128 n … 128 n + 127 for n the chunk's number. -/
theorem mem_set5 (L : grid0.Coords) (g : Fin 200) (x : S819200x128.Idx) :
    x ∈ (chunkA5 L g).view.set ↔ 128 * (c0 L + g.val) ≤ (x 0).val ∧ (x 0).val < 128 * (c0 L + g.val) + 128 := by
  have h1 : (x 1).val < 128 := (x 1).isLt
  refine (Finset.ext_iff.mp (View.set_slice_whole (main_v3_scv : Ref sig .scVector)
    (Rect.unit (s := S819200x128) ![128 * (c0 L + g.val), 0] S128x128.size (inbA5 L g))) x).trans
    (Rect.mem_set_unit.trans (Fin.forall_fin_two.trans ?_))
  show (128 * (c0 L + g.val) ≤ (x 0).val ∧ (x 0).val < 128 * (c0 L + g.val) + 128) ∧ (0 ≤ (x 1).val ∧ (x 1).val < 0 + 128) ↔ _
  constructor
  · intro h; exact h.1
  · intro h; exact ⟨h, Nat.zero_le _, by omega⟩

/-- Chunk g of tile L in the stacked index array is row n for n the chunk's number. -/
theorem mem_set2 (L : grid0.Coords) (g : Fin 200) (x : S6400x2x128.Idx) :
    x ∈ (chunkA2 L g).view.set ↔ (x 0).val = c0 L + g.val := by
  have h1 : (x 1).val < 2 := (x 1).isLt
  have h2 : (x 2).val < 128 := (x 2).isLt
  have e : (chunkA2 L g).view.set
      = (Rect.unit (s := S6400x2x128) ![c0 L + g.val, 0, 0] S1x2x128.size (inbA2 L g)).set := by
    show (((View.whole (main_v2_scv : Ref sig .scVector)).slice
      (Rect.unit (s := S6400x2x128) ![c0 L + g.val, 0, 0] S1x2x128.size (inbA2 L g))).reshape S2x128
        squeezes_S1x2x128_S2x128.numel_eq).set = _
    rw [View.set_reshape]
    exact View.set_slice_whole _ _
  rw [e, Rect.mem_set_unit]
  constructor
  · intro h; have := h 0
    have h0 : c0 L + g.val ≤ (x 0).val ∧ (x 0).val < c0 L + g.val + 1 := this
    omega
  · intro h a
    match a with
    | ⟨0, _⟩ => show c0 L + g.val ≤ (x 0).val ∧ (x 0).val < c0 L + g.val + 1; omega
    | ⟨1, _⟩ => show 0 ≤ (x 1).val ∧ (x 1).val < 0 + 2; omega
    | ⟨2, _⟩ => show 0 ≤ (x 2).val ∧ (x 2).val < 0 + 128; omega

/-- A tile and one of its chunks. -/
abbrev Tri : Type := Fin 2 × Fin 16 × Fin 200

/-- The chunk's set of the flat result. -/
abbrev K5 (t : Tri) : Finset S819200x128.Idx := (chunkA5 (coordsV t.1 t.2.1) t.2.2).view.set

theorem K5_disjoint : ∀ t ∈ (Finset.univ : Finset Tri), ∀ t' ∈ (Finset.univ : Finset Tri), t ≠ t' → Disjoint (K5 t) (K5 t') := by
  rintro ⟨c, i, g⟩ - ⟨c', i', g'⟩ - hne
  rw [Finset.disjoint_left]
  intro x hx hx'
  rw [mem_set5, c0_coordsV] at hx hx'
  have hx : 128 * (400 * i.val + 200 * c.val + g.val) ≤ (x 0).val ∧ (x 0).val < 128 * (400 * i.val + 200 * c.val + g.val) + 128 := hx
  have hx' : 128 * (400 * i'.val + 200 * c'.val + g'.val) ≤ (x 0).val ∧ (x 0).val < 128 * (400 * i'.val + 200 * c'.val + g'.val) + 128 := hx'
  have hc := c.isLt; have hc' := c'.isLt; have hg := g.isLt; have hg' := g'.isLt
  apply hne
  have e1 : i.val = i'.val := by omega
  have e2 : c.val = c'.val := by omega
  have e3 : g.val = g'.val := by omega
  exact Prod.ext (Fin.ext e2) (Prod.ext (Fin.ext e1) (Fin.ext e3))

theorem K5_cover : (Finset.univ : Finset Tri).biUnion K5 = Finset.univ := by
  ext x
  simp only [Finset.mem_biUnion, Finset.mem_univ, true_and, iff_true]
  have hx : (x 0).val < 819200 := (x 0).isLt
  refine ⟨(⟨((x 0).val / 128 % 400) / 200, by omega⟩, ⟨(x 0).val / 128 / 400, by omega⟩, ⟨(x 0).val / 128 % 200, by omega⟩), ?_⟩
  rw [mem_set5, c0_coordsV]
  show 128 * (400 * ((x 0).val / 128 / 400) + 200 * (((x 0).val / 128 % 400) / 200) + (x 0).val / 128 % 200) ≤ (x 0).val
    ∧ (x 0).val < 128 * (400 * ((x 0).val / 128 / 400) + 200 * (((x 0).val / 128 % 400) / 200) + (x 0).val / 128 % 200) + 128
  omega

/-- The chunk's set of the stacked index array. -/
abbrev K2 (c : Fin 2) (i : Fin 16) (g : Fin 200) : Finset S6400x2x128.Idx := (chunkA2 (coordsV c i) g).view.set

theorem K2_disjoint (c : Fin 2) (i : Fin 16) :
    ∀ g ∈ (Finset.univ : Finset (Fin 200)), ∀ g' ∈ (Finset.univ : Finset (Fin 200)), g ≠ g' → Disjoint (K2 c i g) (K2 c i g') := by
  intro g _ g' _ hne
  rw [Finset.disjoint_left]
  intro x hx hx'
  rw [mem_set2] at hx hx'
  exact hne (Fin.ext (by omega))

/-! ## Dealing read shares -/

theorem drop_left {A B : sProp 𝕄} : iprop(A ∗ B) ⊢ B := by iintro ⟨-, H⟩; iexact H
theorem drop_right {A B : sProp 𝕄} : iprop(A ∗ B) ⊢ A := by iintro ⟨H, -⟩; iexact H

section Deal
variable {ℓ : Loc nD τ sig} {S : Finset (Idx ℓ)} {f : Buf (Elt F) ℓ}

/-- A points-to at a share `q` yields one read token per member of a finite family numbered injectively below `n`, and
    the remainder after `n` tokens. -/
theorem toks_deal (q : PosShare TreeShare) {X : Type} [Fintype X] [DecidableEq X] (n : ℕ) (e : X → ℕ)
    (he : Function.Injective e) (hlt : ∀ t, e t < n) :
    (ℓ ↦[S]{q} f : sProp 𝕄)
      ⊢ iprop((ℓ ↦[S]{shareDrop q n} f) ∗ bigSep (Finset.univ : Finset X) fun t => ℓ ↦[S]{shareTokN q (e t)} f) := by
  refine (pointsTo_toks_range q n).1.trans (sep_mono_right ?_)
  refine (bigSep_subset (t := (Finset.univ : Finset X).image e)
    (Finset.image_subset_iff.mpr fun t _ => Finset.mem_range.mpr (hlt t))).trans ?_
  exact Entails.of_eq (bigSep_image_of_injOn he.injOn _)

end Deal

/-- Numbering the tiles, and the (tile, chunk) pairs. -/
def tNo (p : Fin 2 × Fin 16) : ℕ := 16 * p.1.val + p.2.val
def tgNo (t : Tri) : ℕ := 200 * (16 * t.1.val + t.2.1.val) + t.2.2.val

theorem tNo_inj : Function.Injective tNo := by
  rintro ⟨c, i⟩ ⟨c', i'⟩ h
  have h : 16 * c.val + i.val = 16 * c'.val + i'.val := h
  have hi := i.isLt; have hi' := i'.isLt
  exact Prod.ext (Fin.ext (show c.val = c'.val by omega)) (Fin.ext (show i.val = i'.val by omega))
theorem tNo_lt (p : Fin 2 × Fin 16) : tNo p < 32 := by
  obtain ⟨c, i⟩ := p
  show 16 * c.val + i.val < 32
  have := c.isLt; have := i.isLt; omega
theorem tgNo_inj : Function.Injective tgNo := by
  rintro ⟨c, i, g⟩ ⟨c', i', g'⟩ h
  have h : 200 * (16 * c.val + i.val) + g.val = 200 * (16 * c'.val + i'.val) + g'.val := h
  have hi := i.isLt; have hi' := i'.isLt; have hg := g.isLt; have hg' := g'.isLt
  exact Prod.ext (Fin.ext (show c.val = c'.val by omega))
    (Prod.ext (Fin.ext (show i.val = i'.val by omega)) (Fin.ext (show g.val = g'.val by omega)))
theorem tgNo_lt (t : Tri) : tgNo t < 6400 := by
  obtain ⟨c, i, g⟩ := t
  show 200 * (16 * c.val + i.val) + g.val < 6400
  have := c.isLt; have := i.isLt; have := g.isLt; omega

section Splits
variable (d : Dev nD)

/-- THE FLAT RESULT, whole, is its 6400 chunks, tile by tile. -/
theorem out_split (f : Buf (Elt F) (v3Loc d)) :
    (v3Loc d ↦{fullShare} f : sProp 𝕄) = bigSep Finset.univ fun c : Fin 2 => bigSep Finset.univ fun i : Fin 16 =>
      bigSep Finset.univ fun g : Fin 200 => (v3Loc d ↦[(chunkA5 (coordsV c i) g).view.set]{fullShare} f) := by
  have h : (v3Loc d ↦{fullShare} f : sProp 𝕄) = bigSep Finset.univ fun t : Tri => v3Loc d ↦[K5 t]{fullShare} f := by
    rw [← pointsTo_biUnion Finset.univ (ℓ := v3Loc d) K5 K5_disjoint, K5_cover]
  rw [h, bigSep_univ_prod]
  refine bigSep_congr fun c _ => ?_
  rw [bigSep_univ_prod]

/-- THE STACKED INDEX ARRAY, whole: every tile's read share of each of its chunks (the rest is let go). -/
theorem v2_deal (f : Buf (Elt F) (v2Loc d)) :
    (v2Loc d ↦{fullShare} f : sProp 𝕄) ⊢ bigSep Finset.univ fun c : Fin 2 => bigSep Finset.univ fun i : Fin 16 =>
      bigSep Finset.univ fun g : Fin 200 => (v2Loc d ↦[(chunkA2 (coordsV c i) g).view.set]{shA (coordsV c i)} f) := by
  refine (toks_deal (F := F) fullShare 32 tNo tNo_inj tNo_lt).trans (drop_left.trans ?_)
  rw [bigSep_univ_prod]
  refine bigSep_mono fun c _ => bigSep_mono fun i _ => ?_
  -- one tile's share, restricted to the tile's chunks, cut chunk by chunk
  rw [← pointsTo_biUnion Finset.univ (ℓ := v2Loc d) (K2 c i) (K2_disjoint c i)]
  exact (pointsTo_split_subset (Finset.subset_univ _)).1.trans drop_right

/-- THE WORD TABLE, whole: one read share per tile and chunk, and the remainder. -/
theorem tab_deal (f : Buf (Elt F) (tabLoc d)) :
    (tabLoc d ↦{fullShare} f : sProp 𝕄) ⊢ iprop((tabLoc d ↦{shareDrop fullShare 6400} f) ∗
      bigSep Finset.univ fun c : Fin 2 => bigSep Finset.univ fun i : Fin 16 =>
        bigSep Finset.univ fun g : Fin 200 => (tabLoc d ↦{shT (coordsV c i) g} f)) := by
  refine (toks_deal (F := F) fullShare 6400 tgNo tgNo_inj tgNo_lt).trans (sep_mono_right ?_)
  rw [bigSep_univ_prod]
  refine Entails.of_eq (bigSep_congr fun c _ => ?_)
  rw [bigSep_univ_prod]
  rfl

/-- THE TYPE ROWS, whole: one read share per tile, and the remainder. -/
theorem tt_deal (f : Buf (Elt F) (ttLoc d)) :
    (ttLoc d ↦{fullShare} f : sProp 𝕄) ⊢ iprop((ttLoc d ↦{shareDrop fullShare 32} f) ∗
      bigSep Finset.univ fun c : Fin 2 => bigSep Finset.univ fun i : Fin 16 => (ttLoc d ↦{shA (coordsV c i)} f)) := by
  refine (toks_deal (F := F) fullShare 32 tNo tNo_inj tNo_lt).trans (sep_mono_right ?_)
  rw [bigSep_univ_prod]
  rfl

end Splits

/-! ## @main's host operations -/

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v4Loc (d : Dev nD) : Loc nD τ sig := (SparseCore.T d).loc main_v4

abbrev r0 : DevRef τ sig := Proc.devRef .tc (main_arg0 : Ref sig .tc)
abbrev r1 : DevRef τ sig := Proc.devRef .tc (main_arg1 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)

/-- The two cuts, the stacking, and the reading of the flat result. -/
abbrev op1 : HloOp τ sig (Elt F) := StableHlo.reshape main_arg0 main_v0 rfl shapeCasts_S4096x200_S6400x1x128
abbrev op2 : HloOp τ sig (Elt F) := StableHlo.reshape main_arg1 main_v1 rfl shapeCasts_S4096x200_S6400x1x128
abbrev op3 : HloOp τ sig (Elt F) :=
  StableHlo.binary main_v0 main_v1 main_v2 ((fun a b => concatenate S6400x2x128 1 [⟨S6400x1x128, a⟩, ⟨S6400x1x128, b⟩]
    concatenates_S6400x1x128_S6400x1x128_S6400x2x128_d1) : (⟨S6400x1x128, .i32⟩ : BufTy).Contents (Elt F) →
      (⟨S6400x1x128, .i32⟩ : BufTy).Contents (Elt F) → (⟨S6400x2x128, .i32⟩ : BufTy).Contents (Elt F))
abbrev op5 : HloOp τ sig (Elt F) := StableHlo.reshape main_v3 main_v4 rfl shapeCasts_S819200x128_S4096x200x128

/-- The buffers of the three operations before the call, and of the one after it. -/
abbrev S5 : Finset (DevRef τ sig) := {r0, r1, rv0, rv1, rv2}
abbrev S2 : Finset (DevRef τ sig) := {rv3, rv4}

theorem hop1 : (op1 (F := F)).bufs ⊆ S5 := show ({r0, rv0} : Finset (DevRef τ sig)) ⊆ S5 by decide
theorem hop2 : (op2 (F := F)).bufs ⊆ S5 := show ({r1, rv1} : Finset (DevRef τ sig)) ⊆ S5 by decide
theorem hop3 : (op3 (F := F)).bufs ⊆ S5 := show ({rv0, rv1, rv2} : Finset (DevRef τ sig)) ⊆ S5 by decide
theorem hop5 : (op5 (F := F)).bufs ⊆ S2 := show ({rv3, rv4} : Finset (DevRef τ sig)) ⊆ S2 by decide

theorem held_S5 (d : Dev nD) (W : Valuation τ sig (Elt F)) :
    (held (T d) S5 W : sProp 𝕄) = iprop((a0Loc d ↦{fullShare} W r0) ∗ (a1Loc d ↦{fullShare} W r1) ∗ (v0Loc d ↦{fullShare} W rv0)
      ∗ (v1Loc d ↦{fullShare} W rv1) ∗ v2Loc d ↦{fullShare} W rv2) := by
  unfold held S5
  rw [SparseCore.bigSep_insert' (by decide), SparseCore.bigSep_insert' (by decide), SparseCore.bigSep_insert' (by decide),
    SparseCore.bigSep_insert' (by decide), bigSep_singleton]

theorem held_S2 (d : Dev nD) (W : Valuation τ sig (Elt F)) :
    (held (T d) S2 W : sProp 𝕄) = iprop((v3Loc d ↦{fullShare} W rv3) ∗ v4Loc d ↦{fullShare} W rv4) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (tabLoc d ↦{fullShare} W main_arg2) ∗ (ttLoc d ↦{fullShare} W main_arg3) ∗ (v0Loc d ↦{fullShare} W main_v0)
      ∗ (v1Loc d ↦{fullShare} W main_v1) ∗ (v2Loc d ↦{fullShare} W main_v2) ∗ (v3Loc d ↦{fullShare} W main_v3)
      ∗ v4Loc d ↦{fullShare} W main_v4) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

section Vals
variable (m : (ℓ : Loc nD τ sig) → Buf (Elt F) ℓ)

/-- The launch valuation. -/
def V0 (d : Dev nD) : Valuation τ sig (Elt F) := fun b => m (d, b)

/-- The stacked index array @main builds: the two index arrays cut into chunks and stacked along the middle axis. -/
def V2 (d : Dev nD) : C2 F :=
  concatenate S6400x2x128 1
    [⟨S6400x1x128, shapeCast S6400x1x128 (m (a0Loc d) : IVec S4096x200 32) shapeCasts_S4096x200_S6400x1x128⟩,
     ⟨S6400x1x128, shapeCast S6400x1x128 (m (a1Loc d) : IVec S4096x200 32) shapeCasts_S4096x200_S6400x1x128⟩]
    concatenates_S6400x1x128_S6400x1x128_S6400x2x128_d1

open Idealize.ShloMosaic.StableHlo in
theorem val_a0 (W : Valuation τ sig (Elt F)) : (op3 (F := F)).result ((op2 (F := F)).result ((op1 (F := F)).result W)) r0 = W r0 := by
  show after [op1, op2, op3] W (Proc.devRef .tc main_arg0) = _
  after_results_simp
open Idealize.ShloMosaic.StableHlo in
theorem val_a1 (W : Valuation τ sig (Elt F)) : (op3 (F := F)).result ((op2 (F := F)).result ((op1 (F := F)).result W)) r1 = W r1 := by
  show after [op1, op2, op3] W (Proc.devRef .tc main_arg1) = _
  after_results_simp
open Idealize.ShloMosaic.StableHlo in
theorem val_v2 (d : Dev nD) : (op3 (F := F)).result ((op2 (F := F)).result ((op1 (F := F)).result (V0 m d))) rv2 = V2 m d := by
  show after [op1, op2, op3] (V0 m d) (Proc.devRef .tc main_v2) = _
  after_results_simp
  rfl

/-- After the call: the flat result at `X`, everything else as launched. -/
def V5 (d : Dev nD) (X : Buf (Elt F) (v3Loc d)) : Valuation τ sig (Elt F) := Function.update (V0 m d) rv3 X

theorem V5_v3 (d : Dev nD) (X : Buf (Elt F) (v3Loc d)) : V5 m d X rv3 = X := Function.update_self _ _ _
theorem V5_v4 (d : Dev nD) (X : Buf (Elt F) (v3Loc d)) : V5 m d X rv4 = m (v4Loc d) :=
  Function.update_of_ne (show rv4 ≠ rv3 by decide) _ _

open Idealize.ShloMosaic.StableHlo in
theorem val5_v3 (d : Dev nD) (X : Buf (Elt F) (v3Loc d)) : (op5 (F := F)).result (V5 m d X) rv3 = X := by
  rw [show (op5 (F := F)).result (V5 m d X) rv3 = V5 m d X rv3 from reshape_result_ne _ _ _ _ _ _ _ (by decide), V5_v3]
open Idealize.ShloMosaic.StableHlo in
theorem val5_v4 (d : Dev nD) (X : Buf (Elt F) (v3Loc d)) :
    (op5 (F := F)).result (V5 m d X) rv4 = shapeCast S4096x200x128 (X : FVec F S819200x128 .f32) shapeCasts_S819200x128_S4096x200x128 := by
  rw [show (op5 (F := F)).result (V5 m d X) rv4 = _ from reshape_result _ _ _ _ _ _ _, V5_v3]
  rfl

end Vals

/-! ## What the call takes and gives back -/

section Call
variable [FloatOps F] (m : (ℓ : Loc nD τ sig) → Buf (Elt F) ℓ) (ρ : Dev nD → PrngReg)

omit [FloatOps F] in
/-- Four families over the tiles, conjoined tile by tile, are the four families conjoined. -/
theorem bigSep2_sep4 (A B C E : Fin 2 → Fin 16 → sProp 𝕄) :
    (bigSep Finset.univ fun c : Fin 2 => bigSep Finset.univ fun i : Fin 16 => iprop(A c i ∗ B c i ∗ C c i ∗ E c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)
        ∗ (bigSep Finset.univ fun c : Fin 2 => bigSep Finset.univ fun i : Fin 16 => E c i)) := by
  simp only [bigSep_sep']

/-- What a tile is handed, with every location written as the TensorCore names it. -/
theorem tileGo_eq (d : Dev nD) (c : Fin 2) (i : Fin 16) :
    tileGo m (V2 m) d c i = iprop(
      (bigSep Finset.univ fun g : Fin 200 => (v2Loc d ↦[(chunkA2 (coordsV c i) g).view.set]{shA (coordsV c i)} V2 m d))
      ∗ (bigSep Finset.univ fun g : Fin 200 => (tabLoc d ↦{shT (coordsV c i) g} m (tabLoc d)))
      ∗ (ttLoc d ↦{shA (coordsV c i)} m (ttLoc d))
      ∗ (bigSep Finset.univ fun g : Fin 200 => (v3Loc d ↦[(chunkA5 (coordsV c i) g).view.set]{fullShare} m (v3Loc d)))) := by
  unfold tileGo goRes
  rfl

/-- What a tile hands back, likewise. -/
theorem tileTd_eq (d : Dev nD) (c : Fin 2) (i : Fin 16) :
    tileTd m (V2 m) d c i = bigSep Finset.univ fun g : Fin 200 =>
      (v3Loc d ↦[(chunkA5 (coordsV c i) g).view.set]{fullShare} outC (V2 m d) (m (tabLoc d)) (m (ttLoc d))) := by
  unfold tileTd tdRes
  rfl

theorem P_st (d : Dev nD) (c : Fin ((K (F := F)).nCore 0)) :
    (P m (V2 m)).st 0 d c = bigSep Finset.univ fun i : Fin 16 => tileGo m (V2 m) d (Fin.cast nCore_zero c) i := by
  unfold P; dsimp only
theorem P_dn (d : Dev nD) (c : Fin ((K (F := F)).nCore 0)) :
    (P m (V2 m)).dn 0 d c = bigSep Finset.univ fun i : Fin 16 => tileTd m (V2 m) d (Fin.cast nCore_zero c) i := by
  unfold P; dsimp only

theorem st_tiles (d : Dev nD) :
    (bigSep Finset.univ fun c : Fin ((K (F := F)).nCore 0) => (P m (V2 m)).st 0 d c)
      = bigSep Finset.univ fun c : Fin 2 => bigSep Finset.univ fun i : Fin 16 => tileGo m (V2 m) d c i :=
  bigSep_congr fun c _ => (P_st m d c).trans
    (congrArg (fun c' : Fin 2 => bigSep Finset.univ fun i : Fin 16 => tileGo m (V2 m) d c' i) (Fin.ext rfl))

theorem dn_tiles (d : Dev nD) :
    (bigSep Finset.univ fun c : Fin ((K (F := F)).nCore 0) => (P m (V2 m)).dn 0 d c)
      = bigSep Finset.univ fun c : Fin 2 => bigSep Finset.univ fun i : Fin 16 => tileTd m (V2 m) d c i :=
  bigSep_congr fun c _ => (P_dn m d c).trans
    (congrArg (fun c' : Fin 2 => bigSep Finset.univ fun i : Fin 16 => tileTd m (V2 m) d c' i) (Fin.ext rfl))

theorem st0_eq (d : Dev nD) :
    (bigSep Finset.univ fun c : Fin ((K (F := F)).nCore 0) => (P m (V2 m)).st 0 d c)
      = iprop((bigSep Finset.univ fun c : Fin 2 => bigSep Finset.univ fun i : Fin 16 => bigSep Finset.univ fun g : Fin 200 =>
            (v2Loc d ↦[(chunkA2 (coordsV c i) g).view.set]{shA (coordsV c i)} V2 m d))
        ∗ (bigSep Finset.univ fun c : Fin 2 => bigSep Finset.univ fun i : Fin 16 => bigSep Finset.univ fun g : Fin 200 =>
            (tabLoc d ↦{shT (coordsV c i) g} m (tabLoc d)))
        ∗ (bigSep Finset.univ fun c : Fin 2 => bigSep Finset.univ fun i : Fin 16 => (ttLoc d ↦{shA (coordsV c i)} m (ttLoc d)))
        ∗ (bigSep Finset.univ fun c : Fin 2 => bigSep Finset.univ fun i : Fin 16 => bigSep Finset.univ fun g : Fin 200 =>
            (v3Loc d ↦[(chunkA5 (coordsV c i) g).view.set]{fullShare} m (v3Loc d)))) := by
  rw [st_tiles, bigSep_congr (fun c _ => bigSep_congr (fun i _ => tileGo_eq m d c i))]
  exact bigSep2_sep4 _ _ _ _

theorem dn0_eq (d : Dev nD) :
    (bigSep Finset.univ fun c : Fin ((K (F := F)).nCore 0) => (P m (V2 m)).dn 0 d c)
      = (v3Loc d ↦{fullShare} outC (V2 m d) (m (tabLoc d)) (m (ttLoc d)) : sProp 𝕄) := by
  rw [dn_tiles, out_split, bigSep_congr (fun c _ => bigSep_congr (fun i _ => tileTd_eq m d c i))]

/-- The flat result read as [4096, 200, 128]. -/
def v4Val (d : Dev nD) : FVec F S4096x200x128 .f32 :=
  shapeCast S4096x200x128 (outC (V2 m d) (m (tabLoc d)) (m (ttLoc d)) : FVec F S819200x128 .f32) shapeCasts_S819200x128_S4096x200x128

/-- What @main leaves the claim: the two index arrays whole, a share of each table, all at their launch contents, and
    the result whole at the flat lookup read as [4096, 200, 128]. -/
def FIN (d : Dev nD) : sProp 𝕄 :=
  iprop((a0Loc d ↦{fullShare} m (a0Loc d)) ∗ (a1Loc d ↦{fullShare} m (a1Loc d))
    ∗ (tabLoc d ↦{shareDrop fullShare 6400} m (tabLoc d)) ∗ (ttLoc d ↦{shareDrop fullShare 32} m (ttLoc d))
    ∗ v4Loc d ↦{fullShare} v4Val m d)

end Call

/-! ## @main on the TensorCore -/

section Main
variable [FloatOps F] (m : (ℓ : Loc nD τ sig) → Buf (Elt F) ℓ) (ρ : Dev nD → PrngReg)

/-- @main on device `d`'s TensorCore: the two cuts and the stacking over the whole arrays; the arrays dealt to the
    tiles; the call; the chunks of the flat result collected; the flat result read as [4096, 200, 128]. -/
theorem hmain (κ : GSem nD τ sig → ℕ) (d : Dev nD) :
    iprop((K (F := F)).ctx EH (P m (V2 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, H3, Hv0, Hv1, Hv2, Hv3, Hv4⟩, -, -⟩, -⟩
  -- the first cut
  iapply (wp_hlo_within 𝒱 (SparseCore.T d) none Set.univ (op := op1) (S := S5) hop1 (V := V0 m d)) $$ [Hb H0 H1 Hv0 Hv1 Hv2]
  · isplitl [Hb]; · iexact Hb
    rw [held_S5]
    isplitl [H0]; · iexact H0
    isplitl [H1]; · iexact H1
    isplitl [Hv0]; · iexact Hv0
    isplitl [Hv1]; · iexact Hv1
    iexact Hv2
  iintro ⟨Hb, Hh⟩
  rw [wp_ret]; imodintro
  -- the second cut
  iapply (wp_hlo_within 𝒱 (SparseCore.T d) none Set.univ (op := op2) (S := S5) hop2 (V := (op1 (F := F)).result (V0 m d))) $$ [Hb Hh]
  · isplitl [Hb]; · iexact Hb
    iexact Hh
  iintro ⟨Hb, Hh⟩
  rw [wp_ret]; imodintro
  -- the stacking
  iapply (wp_hlo_within 𝒱 (SparseCore.T d) none Set.univ (op := op3) (S := S5) hop3
    (V := (op2 (F := F)).result ((op1 (F := F)).result (V0 m d)))) $$ [Hb Hh]
  · isplitl [Hb]; · iexact Hb
    iexact Hh
  iintro ⟨Hb, Hh⟩
  rw [wp_ret]; imodintro
  ihave Hh' := (Entails.of_eq (held_S5 (F := F) d _)) $$ Hh
  rw [val_a0, val_a1, val_v2]
  icases Hh' with ⟨H0, H1, -, -, Hv2⟩
  -- the arrays dealt to the tiles
  ihave Hv2' := (v2_deal d (V2 m d)) $$ Hv2
  ihave H2' := (tab_deal d (m (tabLoc d))) $$ H2
  icases H2' with ⟨H2k, H2t⟩
  ihave H3' := (tt_deal d (m (ttLoc d))) $$ H3
  icases H3' with ⟨H3k, H3t⟩
  ihave Hv3' := (Entails.of_eq (out_split d (m (v3Loc d)))) $$ Hv3
  -- the call
  iapply ((K (F := F)).wp_run (D (F := F)) 𝒱 (EH := EH) (P := P m (V2 m)) κ d 0) $$ [Hst Hv2' H2t H3t Hv3' Hb H0 H1 H2k H3k Hv4]
  isplitr; · iexact Hctx
  isplitl [Hst]; · iexact Hst
  isplitl [Hv2' H2t H3t Hv3']
  · rw [st0_eq]
    isplitl [Hv2']; · iexact Hv2'
    isplitl [H2t]; · iexact H2t
    isplitl [H3t]; · iexact H3t
    iexact Hv3'
  iintro ⟨Hst, Hdn⟩
  ihave Hdn' := (Entails.of_eq (dn0_eq m d)) $$ Hdn
  -- the flat result read as [4096, 200, 128]
  iapply (wp_hlo_within 𝒱 (SparseCore.T d) none Set.univ (op := op5) (S := S2) hop5
    (V := V5 m d (outC (V2 m d) (m (tabLoc d)) (m (ttLoc d))))) $$ [Hb Hdn' Hv4]
  · isplitl [Hb]; · iexact Hb
    rw [held_S2, V5_v3, V5_v4]
    isplitl [Hdn']; · iexact Hdn'
    iexact Hv4
  iintro ⟨Hb, Hh⟩
  ihave Hh' := (Entails.of_eq (held_S2 (F := F) d _)) $$ Hh
  rw [val5_v4]
  icases Hh' with ⟨-, Hv4⟩
  rw [wp_ret]; imodintro; imodintro
  isplitl [Hst]; · iexact Hst
  unfold FIN
  isplitl [H0]; · iexact H0
  isplitl [H1]; · iexact H1
  isplitl [H2k]; · iexact H2k
  isplitl [H3k]; · iexact H3k
  iexact Hv4

/-- What the final memory is read for: the result at the flat lookup read as [4096, 200, 128], the arguments at their
    launch contents. -/
def fq (d : Dev nD) (s' : Phys nD τ sig (Elt F)) : Prop :=
  s'.mem.mem (v4Loc d) = v4Val m d ∧ s'.mem.mem (a0Loc d) = m (a0Loc d) ∧ s'.mem.mem (a1Loc d) = m (a1Loc d)
    ∧ s'.mem.mem (tabLoc d) = m (tabLoc d) ∧ s'.mem.mem (ttLoc d) = m (ttLoc d)

theorem hfin (d : Dev nD) (s' : Phys nD τ sig (Elt F)) : iprop(FIN m d ∗ SI s') ⊢ (⌜fq m d s'⌝ : sProp 𝕄) := by
  unfold FIN
  iintro ⟨⟨H0, H1, H2, H3, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := tabLoc d) (I := Finset.univ) (q := shareDrop fullShare 6400) (f := m (tabLoc d)))) $$ [HSI H2]
  · isplitl [HSI] <;> iassumption
  icases H with ⟨%h2, HSI, -⟩
  ihave H := (persistent_entails_right (SI_pointsTo_agree (st := s') (ℓ := ttLoc d) (I := Finset.univ) (q := shareDrop fullShare 32) (f := m (ttLoc d)))) $$ [HSI H3]
  · isplitl [HSI] <;> iassumption
  icases H with ⟨%h3, HSI, -⟩
  ihave H := (SI_pointsTo_agree (st := s') (ℓ := v4Loc d) (I := Finset.univ) (q := fullShare) (f := v4Val m d)) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

end Main

end Cert.Proof.KI

end
-- ==== Proof.KerLaunch.lean ====
/-
  The small obligations of the launch: the configuration's side facts; that what a tile is handed and hands back can
  travel inside an invariant; that a SparseCore's operands are by definition its sixteen tiles' (so the split into
  tiles and the gathering back are the identity); and the launch element of the ghost state, of which only the
  handshakes' rounds are used.
-/
import proofs.«207534_g35055523070033_cont_8to1_b_222_9_alg».proof.Proof.KerPay

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Launch
variable [FloatOps F] (m : (ℓ : Loc nD τ sig) → Buf (Elt F) ℓ) (V2 : Dev nD → C2 F)

/-! ## What a tile is handed and hands back are separating products of points-tos -/

instance goRes_storable (d : Dev nD) (L : grid0.Coords) (f2 : C2 F) (f3 : C3 F) (f4 : C4 F) (fo : C5 F) :
    BI.Storable (upEmb : UEmb _ 𝕄) (goRes d L f2 f3 f4 fo) := by
  unfold goRes; infer_instance

instance tdRes_storable (d : Dev nD) (L : grid0.Coords) (f2 : C2 F) (f3 : C3 F) (f4 : C4 F) :
    BI.Storable (upEmb : UEmb _ 𝕄) (tdRes d L f2 f3 f4) := by
  unfold tdRes; infer_instance

instance tileGo_storable (d : Dev nD) (c : Fin 2) (i : Fin 16) : BI.Storable (upEmb : UEmb _ 𝕄) (tileGo m V2 d c i) := by
  unfold tileGo; infer_instance

instance tileTd_storable (d : Dev nD) (c : Fin 2) (i : Fin 16) : BI.Storable (upEmb : UEmb _ 𝕄) (tileTd m V2 d c i) := by
  unfold tileTd; infer_instance

instance P_storable : (P (F := F) m V2).IsStorable where
  st q d c := by
    match q with
    | 0 => unfold P; dsimp only; infer_instance
  dn q d c := by
    match q with
    | 0 => unfold P; dsimp only; infer_instance
  go q d c i := by
    match q with
    | 0 => unfold P; dsimp only; infer_instance
  td q d c i := by
    match q with
    | 0 => unfold P; dsimp only; infer_instance

/-! ## A SparseCore's operands are its sixteen tiles' -/

omit [FloatOps F] in
/-- A family over the sixteen tiles, indexed by the configuration's count of them or by sixteen: the same. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m V2) 0 := by
  intro d c
  unfold P; dsimp only
  rw [bigSep_tasks (F := F) (fun i => tileGo m V2 d (Fin.cast nCore_zero c) i),
    bigSep_tasks (F := F) (fun i => tileTd m V2 d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m V2).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

end Cert.Proof.KI

end
-- ==== Proof.FlatBridge.lean ====
/-
  The flat layout and the batch layout hold the same numbers. A token (b, s) of the [4096, 200] index arrays has
  row-major position n = 200 · b + s. Cutting each index array into [6400, 1, 128] keeps row-major positions, so its
  entry (c, 0, p) is the entry of the original at position 128 · c + p; stacking the two cuts along the middle axis
  puts the word indices at (c, 0, p) and the type indices at (c, 1, p). For c = n / 128 and p = n % 128 that
  position is n again, so the stacked array read at (n / 128, 0, n % 128) is the word index of token (b, s) and at
  (n / 128, 1, n % 128) its type index. Reading the flat [819200, 128] result as [4096, 200, 128] also keeps
  row-major positions: entry (b, s, e) is flat entry (200 · b + s, e). With the same two indices in hand the flat
  form and the batch form are the same expression.
-/
import proofs.«207534_g35055523070033_cont_8to1_b_222_9_alg».proof.Proof.FlatSpec
import Idealize.ShloMosaic.Lib.Pipeline.Value

noncomputable section

namespace Cert.Proof.FlatBridge

open Idealize.ShloMosaic Idealize.ShloMosaic.ValueIdx Cert.Proof.Spec

/-- An index array cut into chunks, read at (c, 0, p), is the array at the token whose row-major position is
    128 · c + p. -/
theorem cut_apply (x : IVec SIds 32) (h1 : SIds.ShapeCasts SHalf) (c : Fin 6400) (p : Fin 128) (b : Fin 4096) (s : Fin 200)
    (hn : 128 * c.val + p.val = 200 * b.val + s.val) :
    shapeCast SHalf x h1 (ix3 c (0 : Fin 1) p) = x (ix2 b s) := by
  refine shapeCast_apply x h1 _ (ix2 b s) ?_
  rw [Shape.rowMajor_val_two, Shape.rowMajor_val_three]
  show b.val * 200 + s.val = (c.val * 1 + 0) * 128 + p.val
  omega

/-- The stacked array's row 0 of chunk c, position p, is the word index of the token at position 128 · c + p. -/
theorem stack_row0 (ids tids : IVec SIds 32) (h1 : SIds.ShapeCasts SHalf) (hc : Shape.Concatenates [SHalf, SHalf] SV2 1)
    (c : Fin 6400) (p : Fin 128) (b : Fin 4096) (s : Fin 200) (hn : 128 * c.val + p.val = 200 * b.val + s.val) :
    concatenate SV2 1 [⟨SHalf, shapeCast SHalf ids h1⟩, ⟨SHalf, shapeCast SHalf tids h1⟩] hc (ix3 c (0 : Fin 2) p)
      = ids (ix2 b s) := by
  rw [concatenate_pair_apply_left (1 : Fin SV2.rank) (shapeCast SHalf ids h1) (shapeCast SHalf tids h1) hc
    (ix3 c (0 : Fin 2) p) rfl (ix3 c (0 : Fin 1) p)
    (fun d => match d with | ⟨0, _⟩ => rfl | ⟨1, _⟩ => rfl | ⟨2, _⟩ => rfl)]
  exact cut_apply ids h1 c p b s hn

/-- The stacked array's row 1 of chunk c, position p, is the type index of the token at position 128 · c + p. -/
theorem stack_row1 (ids tids : IVec SIds 32) (h1 : SIds.ShapeCasts SHalf) (hc : Shape.Concatenates [SHalf, SHalf] SV2 1)
    (c : Fin 6400) (p : Fin 128) (b : Fin 4096) (s : Fin 200) (hn : 128 * c.val + p.val = 200 * b.val + s.val) :
    concatenate SV2 1 [⟨SHalf, shapeCast SHalf ids h1⟩, ⟨SHalf, shapeCast SHalf tids h1⟩] hc (ix3 c (1 : Fin 2) p)
      = tids (ix2 b s) := by
  rw [concatenate_pair_apply_right (1 : Fin SV2.rank) (shapeCast SHalf ids h1) (shapeCast SHalf tids h1) hc
    (ix3 c (1 : Fin 2) p) rfl rfl (ix3 c (0 : Fin 1) p)
    (fun d => match d with | ⟨0, _⟩ => fun _ => rfl | ⟨1, _⟩ => fun hd => absurd rfl hd | ⟨2, _⟩ => fun _ => rfl)
    rfl]
  exact cut_apply tids h1 c p b s hn

section
variable {F : FTy → Type} [FloatOps F]

/-- The flat result at row n, once the two stacked entries of that row are known. -/
theorem outFlat_of_entries (f2 : IVec SV2 32) (W : FVec F STab .f32) (TT : FVec F STT .f32) (n : Fin 819200) (e : Fin 128)
    (x y : BitVec 32) (hx : f2 (ix3 (chunkOf n) (0 : Fin 2) (posOf n)) = x) (hy : f2 (ix3 (chunkOf n) (1 : Fin 2) (posOf n)) = y) :
    outFlat f2 W TT (ix2 n e) =
      FloatOps.addf (W (ix2 (⟨x.toNat % 100000, Nat.mod_lt _ (by decide)⟩ : Fin 100000) e))
        (FloatOps.addf (TT (ix2 (0 : Fin 2) e))
          (FloatOps.mulf (FloatOps.sitofp .f32 y) (FloatOps.subf (TT (ix2 (1 : Fin 2) e)) (TT (ix2 (0 : Fin 2) e))))) := by
  subst hx; subst hy; rfl

/-- The flat result read as [4096, 200, 128], at the entry (b, s, e). -/
theorem reshape_outFlat_at (ids tids : IVec SIds 32) (W : FVec F STab .f32) (TT : FVec F STT .f32)
    (h1 : SIds.ShapeCasts SHalf) (hc : Shape.Concatenates [SHalf, SHalf] SV2 1) (h2 : SFlat.ShapeCasts SOut)
    (b : Fin 4096) (s : Fin 200) (e : Fin 128) :
    shapeCast SOut (outFlat (concatenate SV2 1 [⟨SHalf, shapeCast SHalf ids h1⟩, ⟨SHalf, shapeCast SHalf tids h1⟩] hc) W TT) h2
      (ix3 b s e) = kerVal ids tids W TT (ix3 b s e) := by
  have hb := b.isLt
  have hs := s.isLt
  have hlt : 200 * b.val + s.val < 819200 := by omega
  have hk : (SFlat.rowMajor (ix2 (⟨200 * b.val + s.val, hlt⟩ : Fin 819200) e)).val = (SOut.rowMajor (ix3 b s e)).val := by
    rw [Shape.rowMajor_val_two, Shape.rowMajor_val_three]
    show (200 * b.val + s.val) * 128 + e.val = (b.val * 200 + s.val) * 128 + e.val
    omega
  have hn : 128 * (chunkOf (⟨200 * b.val + s.val, hlt⟩ : Fin 819200)).val + (posOf (⟨200 * b.val + s.val, hlt⟩ : Fin 819200)).val
      = 200 * b.val + s.val := by
    show 128 * ((200 * b.val + s.val) / 128) + (200 * b.val + s.val) % 128 = 200 * b.val + s.val
    omega
  rw [shapeCast_apply _ h2 (ix3 b s e) (ix2 (⟨200 * b.val + s.val, hlt⟩ : Fin 819200) e) hk,
    outFlat_of_entries _ W TT _ e _ _ (stack_row0 ids tids h1 hc _ _ b s hn) (stack_row1 ids tids h1 hc _ _ b s hn)]
  rfl

/-- The kernel's host side around its flat result: stacking the two cut index arrays, computing the flat result and
    reading it as [4096, 200, 128] gives the kernel's form of the lookup. -/
theorem reshape_outFlat (ids tids : IVec Cert.Proof.Spec.SIds 32) (W : FVec F Cert.Proof.Spec.STab .f32)
    (TT : FVec F Cert.Proof.Spec.STT .f32) (h1 : Cert.Proof.Spec.SIds.ShapeCasts Cert.Proof.Spec.SHalf)
    (hc : Shape.Concatenates [Cert.Proof.Spec.SHalf, Cert.Proof.Spec.SHalf] Cert.Proof.Spec.SV2 1)
    (h2 : Cert.Proof.Spec.SFlat.ShapeCasts Cert.Proof.Spec.SOut) :
    shapeCast Cert.Proof.Spec.SOut
        (Cert.Proof.Spec.outFlat
          (concatenate Cert.Proof.Spec.SV2 1
            [⟨Cert.Proof.Spec.SHalf, shapeCast Cert.Proof.Spec.SHalf ids h1⟩,
             ⟨Cert.Proof.Spec.SHalf, shapeCast Cert.Proof.Spec.SHalf tids h1⟩] hc) W TT) h2
      = Cert.Proof.Spec.kerVal ids tids W TT := by
  funext j
  rw [eq_ix3 j]
  exact reshape_outFlat_at ids tids W TT h1 hc h2 (j 0) (j 1) (j 2)

end

end Cert.Proof.FlatBridge

end
-- ==== Proof.KerRun.lean ====
/-
  The kernel program's run.

  The stacked index array @main builds holds, at (c, 0, p), the word index of the token at row-major position
  128 c + p and, at (c, 1, p), its type index; so when the word indices are below 100000 and the type indices below 2,
  every entry of the stacked array is below 100000 — which is what a tile needs to know of the words it gathers by.
  With each tile's task proved, the launch theorem turns @main's proof on the TensorCore into the run of the whole
  program: every weakly fair execution terminates with the result at the flat lookup read as [4096, 200, 128] and the
  four arguments unchanged.
-/
import proofs.«207534_g35055523070033_cont_8to1_b_222_9_alg».proof.Proof.KerMain
import proofs.«207534_g35055523070033_cont_8to1_b_222_9_alg».proof.Proof.KerLaunch
import proofs.«207534_g35055523070033_cont_8to1_b_222_9_alg».proof.Proof.FlatBridge

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Run
variable (m : (ℓ : Loc nD τ sig) → Buf (Elt F) ℓ) (ρ : Dev nD → PrngReg)

/-- In range, every entry of the stacked index array is below 100000. -/
theorem V2_range (d : Dev nD) (hr : Cert.Proof.Spec.InRange (m (a0Loc d)) (m (a1Loc d))) :
    ∀ i, ((V2 (F := F) m d) i).toNat < 100000 := by
  intro i
  have hc := (i 0).isLt
  have hp := (i 2).isLt
  have hc' : (i 0).val < 6400 := hc
  have hp' : (i 2).val < 128 := hp
  have hb : (128 * (i 0).val + (i 2).val) / 200 < 4096 := by omega
  have hs : (128 * (i 0).val + (i 2).val) % 200 < 200 := Nat.mod_lt _ (by decide)
  have hbs : 128 * (i 0).val + (i 2).val
      = 200 * (⟨(128 * (i 0).val + (i 2).val) / 200, hb⟩ : Fin 4096).val + (⟨(128 * (i 0).val + (i 2).val) % 200, hs⟩ : Fin 200).val := by
    show 128 * (i 0).val + (i 2).val = 200 * ((128 * (i 0).val + (i 2).val) / 200) + (128 * (i 0).val + (i 2).val) % 200
    omega
  rw [eq_ix3 i]
  generalize i 1 = r
  match r with
  | ⟨0, _⟩ =>
    have e : V2 (F := F) m d (ix3 (i 0) (0 : Fin 2) (i 2)) = (m (a0Loc d) : IVec Cert.Proof.Spec.SIds 32) (ix2 _ _) :=
      Cert.Proof.FlatBridge.stack_row0 _ _ _ _ (i 0) (i 2) _ _ hbs
    show (V2 (F := F) m d (ix3 (i 0) (0 : Fin 2) (i 2))).toNat < 100000
    rw [e]
    exact hr.1 _
  | ⟨1, _⟩ =>
    have e : V2 (F := F) m d (ix3 (i 0) (1 : Fin 2) (i 2)) = (m (a1Loc d) : IVec Cert.Proof.Spec.SIds 32) (ix2 _ _) :=
      Cert.Proof.FlatBridge.stack_row1 _ _ _ _ (i 0) (i 2) _ _ hbs
    show (V2 (F := F) m d (ix3 (i 0) (1 : Fin 2) (i 2))).toNat < 100000
    rw [e]
    have := hr.2 (ix2 (⟨(128 * (i 0).val + (i 2).val) / 200, hb⟩ : Fin 4096) (⟨(128 * (i 0).val + (i 2).val) % 200, hs⟩ : Fin 200))
    omega

variable [FloatOps F]

/-- What the run ends with, on every device: the result at the flat lookup read as [4096, 200, 128], the four
    arguments at their launch contents. -/
def QC : PUnit × MemSt nD τ sig (Elt F) → Prop := fun r => ∀ c : Dev nD,
  r.2.mem (v4Loc c) = v4Val m c ∧ r.2.mem (a0Loc c) = m (a0Loc c) ∧ r.2.mem (a1Loc c) = m (a1Loc c)
    ∧ r.2.mem (tabLoc c) = m (tabLoc c) ∧ r.2.mem (ttLoc c) = m (ttLoc c)

/-- The result the run ends with is the kernel's form of the lookup: the flat lookup of the stacked array, read as
    [4096, 200, 128], is the word row plus the blend of the two type rows. -/
theorem v4Val_eq_kerVal (d : Dev nD) :
    v4Val (F := F) m d = Cert.Proof.Spec.kerVal (m (a0Loc d)) (m (a1Loc d)) (m (tabLoc d)) (m (ttLoc d)) := by
  unfold v4Val outC V2
  exact Cert.Proof.FlatBridge.reshape_outFlat _ _ _ _ _ _ _

/-- THE RUN, given each tile's task: the launch theorem over @main's proof. -/
theorem run_main [∀ e, Nonempty (Elt F e)] (htile : (K (F := F)).TileObl (D (F := F)) 𝒱 (P m (V2 m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (V2 m)) facts v₀
    (fun q hq => match q with | 0 => nomatch hq)
    (fun q _ => match q with | 0 => htile)
    (fun q _ => match q with | 0 => SparseCore.Cfg.VecSplit.of_plain (vecSplit m (V2 m)))
    m ρ main (fun _ => iprop(emp)) (FIN m) (u₀ (F := F)) (sep_elim_left.trans (hu₀ m (V2 m))) (hmain m ρ) (fq m) (hfin m) (QC m)
    (fun _ h => h)

end Run

end Cert.Proof.KI

end
-- ==== Proof.MirrorB.lean ====
/-
  The arithmetic of one store of the kernel's inner loop, written once as a function of the three scratch buffers.
  A trip of the loop handles sixteen consecutive token rows of one slot of the row buffer; for token row r and column
  group d it reads the sixteen lanes (r, 16 d .. 16 d + 15) of the slot, adds to each lane the blend
  row0 + t · (row1 - row0) of the two type rows at that column, with t the float of the token's type index, and
  stores the sum back. `storeVal` is that stored vector, spelt with the kernel's own vector operations;
  `finOf` is what a whole slot holds once every row has been handled; `Mix` says how far the handling has got.
-/
import proofs.«207534_g35055523070033_cont_8to1_b_222_9_alg».proof.Kernel
import proofs.«207534_g35055523070033_cont_8to1_b_222_9_alg».proof.Proof.Gen.Kernel
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- The kernel's scratch buffers as it addresses them: index/type words [4, 2, 128], gathered rows [4, 128, 128], the
    two type rows [2, 128]. -/
abbrev a6 : Memref sig .scVector .vmem S4x2x128 .i32 := Memref.whole cc0_scratch0
abbrev a7 : Memref sig .scVector .vmem S4x128x128 .f32 := Memref.whole cc0_scratch1
abbrev a8 : Memref sig .scVector .vmem S2x128 .f32 := Memref.whole cc0_scratch2

abbrev C6 (F : FTy → Type) : Type := (a6).view.ty.Contents (Elt F)
abbrev C7 (F : FTy → Type) : Type := (a7).view.ty.Contents (Elt F)
abbrev C8 (F : FTy → Type) : Type := (a8).view.ty.Contents (Elt F)

/-- Sixteen lanes of type row 0 at column c. -/
def row0 (f8 : C8 F) (c : ℕ) (h0 : ∀ a, (![0, c] : Fin 2 → ℕ) a + S1x16.size a ≤ S2x128.size a) : FVec F S16 .f32 :=
  shapeCast S16 (View.readAt (Elt F) (a8).view (Rect.unit (s := S2x128) ![0, c] S1x16.size h0).toLoadRect f8) shapeCasts_S1x16_S16

/-- Sixteen lanes of (type row 1 - type row 0) at column c. -/
def diffRow (f8 : C8 F) (c : ℕ) (h0 : ∀ a, (![0, c] : Fin 2 → ℕ) a + S1x16.size a ≤ S2x128.size a)
    (h1 : ∀ a, (![1, c] : Fin 2 → ℕ) a + S1x16.size a ≤ S2x128.size a) : FVec F S16 .f32 :=
  subf (shapeCast S16 (View.readAt (Elt F) (a8).view (Rect.unit (s := S2x128) ![1, c] S1x16.size h1).toLoadRect f8) shapeCasts_S1x16_S16)
    (row0 f8 c h0)

/-- Sixteen consecutive type indices, as floats. -/
def typeF (f6 : C6 F) (o6 : Fin 3 → ℕ) (h6 : ∀ a, o6 a + S1x1x16.size a ≤ S4x2x128.size a) : FVec F S16 .f32 :=
  sitofp .f32 (shapeCast S16 (View.readAt (Elt F) (a6).view (Rect.unit (s := S4x2x128) o6 S1x1x16.size h6).toLoadRect f6) shapeCasts_S1x1x16_S16)

/-- Lane kk of a vector, in all sixteen lanes. -/
def splat (v : FVec F S16 .f32) (kk : ℕ) (hs : S16.Slices ![kk] S1) : FVec F S16 .f32 :=
  broadcast S16 (extractAt ![0] (extractStridedSlice S1 ![kk] v hs) inpos_S1_p0)

/-- The vector one store of the inner loop writes. -/
def storeVal (f6 : C6 F) (f8 : C8 F) (X : C7 F) (o6 : Fin 3 → ℕ) (h6 : ∀ a, o6 a + S1x1x16.size a ≤ S4x2x128.size a)
    (kk : ℕ) (hs : S16.Slices ![kk] S1) (c : ℕ) (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a) : FVec F S1x1x16 .f32 :=
  shapeCast S1x1x16
    (addf (shapeCast S16 (View.readAt (Elt F) (a7).view (Rect.unit (s := S4x128x128) o7 S1x1x16.size h7).toLoadRect X) shapeCasts_S1x1x16_S16)
      (addf (row0 f8 c h0) (mulf (splat (typeF f6 o6 h6) kk hs) (diffRow f8 c h0 h1))))
    shapeCasts_S16_S1x1x16

/-- What slot b of the row buffer holds once the loop has handled every row, from what it held at the loop's entry. -/
def finOf (f6 : C6 F) (f8 : C8 F) (b : Fin 4) (X0 : C7 F) : C7 F := fun i =>
  FloatOps.addf (X0 i)
    (FloatOps.addf (f8 (ix2 (0 : Fin 2) (i 2)))
      (FloatOps.mulf (FloatOps.sitofp .f32 (f6 (ix3 b (1 : Fin 2) (i 1))))
        (FloatOps.subf (f8 (ix2 (1 : Fin 2) (i 2))) (f8 (ix2 (0 : Fin 2) (i 2))))))

/-- The first N pieces of slot b (a piece: sixteen lanes; pieces counted row by row, eight to a row) are handled, the
    others as at the loop's entry. -/
def Mix (b : Fin 4) (N : ℕ) (f6 : C6 F) (f8 : C8 F) (X0 X : C7 F) : Prop :=
  ∀ i : S4x128x128.Idx, (i 0).val = b.val →
    X i = if 8 * (i 1).val + (i 2).val / 16 < N then finOf f6 f8 b X0 i else X0 i

end Cert.Proof.KB

end
-- ==== Proof.SlotsB.lean ====
/-
  The four slots of the kernel's two ring buffers, each spelt as the program slices it: slot b of the index/type words
  (two rows of 128 words: row 0 the word indices a gather reads as its list, row 1 the type indices), and slot b of
  the gathered rows (128 rows of 128 floats).
-/
import proofs.«207534_g35055523070033_cont_8to1_b_222_9_alg».proof.Proof.MirrorB

noncomputable section

namespace Cert.Proof.KB

open Cert.Kernel Cert.Kernel.Gen
open Idealize.ShloMosaic

abbrev s60 : Memref sig .scVector .vmem S2x128 .i32 := ((a6).slice (Rect.unit (s := S4x2x128) ![0, 0, 0] S1x2x128.size inb_S4x2x128_S1x2x128_0_0_0) (fun _ => rfl)).squeeze S2x128 squeezes_S1x2x128_S2x128
abbrev l60 : Memref sig .scVector .vmem S128 .i32 := ((a6).slice (Rect.unit (s := S4x2x128) ![0, 0, 0] S1x1x128.size inb_S4x2x128_S1x1x128_0_0_0) (fun _ => rfl)).squeeze S128 squeezes_S1x1x128_S128
abbrev s70 : Memref sig .scVector .vmem S128x128 .f32 := ((a7).slice (Rect.unit (s := S4x128x128) ![0, 0, 0] S1x128x128.size inb_S4x128x128_S1x128x128_0_0_0) (fun _ => rfl)).squeeze S128x128 squeezes_S1x128x128_S128x128
abbrev s61 : Memref sig .scVector .vmem S2x128 .i32 := ((a6).slice (Rect.unit (s := S4x2x128) ![1, 0, 0] S1x2x128.size inb_S4x2x128_S1x2x128_1_0_0) (fun _ => rfl)).squeeze S2x128 squeezes_S1x2x128_S2x128
abbrev l61 : Memref sig .scVector .vmem S128 .i32 := ((a6).slice (Rect.unit (s := S4x2x128) ![1, 0, 0] S1x1x128.size inb_S4x2x128_S1x1x128_1_0_0) (fun _ => rfl)).squeeze S128 squeezes_S1x1x128_S128
abbrev s71 : Memref sig .scVector .vmem S128x128 .f32 := ((a7).slice (Rect.unit (s := S4x128x128) ![1, 0, 0] S1x128x128.size inb_S4x128x128_S1x128x128_1_0_0) (fun _ => rfl)).squeeze S128x128 squeezes_S1x128x128_S128x128
abbrev s62 : Memref sig .scVector .vmem S2x128 .i32 := ((a6).slice (Rect.unit (s := S4x2x128) ![2, 0, 0] S1x2x128.size inb_S4x2x128_S1x2x128_2_0_0) (fun _ => rfl)).squeeze S2x128 squeezes_S1x2x128_S2x128
abbrev l62 : Memref sig .scVector .vmem S128 .i32 := ((a6).slice (Rect.unit (s := S4x2x128) ![2, 0, 0] S1x1x128.size inb_S4x2x128_S1x1x128_2_0_0) (fun _ => rfl)).squeeze S128 squeezes_S1x1x128_S128
abbrev s72 : Memref sig .scVector .vmem S128x128 .f32 := ((a7).slice (Rect.unit (s := S4x128x128) ![2, 0, 0] S1x128x128.size inb_S4x128x128_S1x128x128_2_0_0) (fun _ => rfl)).squeeze S128x128 squeezes_S1x128x128_S128x128
abbrev s63 : Memref sig .scVector .vmem S2x128 .i32 := ((a6).slice (Rect.unit (s := S4x2x128) ![3, 0, 0] S1x2x128.size inb_S4x2x128_S1x2x128_3_0_0) (fun _ => rfl)).squeeze S2x128 squeezes_S1x2x128_S2x128
abbrev l63 : Memref sig .scVector .vmem S128 .i32 := ((a6).slice (Rect.unit (s := S4x2x128) ![3, 0, 0] S1x1x128.size inb_S4x2x128_S1x1x128_3_0_0) (fun _ => rfl)).squeeze S128 squeezes_S1x1x128_S128
abbrev s73 : Memref sig .scVector .vmem S128x128 .f32 := ((a7).slice (Rect.unit (s := S4x128x128) ![3, 0, 0] S1x128x128.size inb_S4x128x128_S1x128x128_3_0_0) (fun _ => rfl)).squeeze S128x128 squeezes_S1x128x128_S128x128

end Cert.Proof.KB

end
-- ==== Proof.KerDefsB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.SlotsB
import proofs.«207534_g35055523070033_cont_8to1_b_222_9_alg».proof.Proof.FlatSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays in HBM as a vector subcore addresses them -/

abbrev a2 : Memref sig .scVector .hbm S6400x2x128 .i32 := Memref.whole main_v2_scv
abbrev a3 : Memref sig .scVector .hbm S100000x128 .f32 := Memref.whole main_arg2_scv
abbrev a4 : Memref sig .scVector .hbm S2x128 .f32 := Memref.whole main_arg3_scv
abbrev a5 : Memref sig .scVector .hbm S819200x128 .f32 := Memref.whole main_v3_scv

abbrev C2 (F : FTy → Type) : Type := (a2).view.ty.Contents (Elt F)
abbrev C3 (F : FTy → Type) : Type := (a3).view.ty.Contents (Elt F)
abbrev C4 (F : FTy → Type) : Type := (a4).view.ty.Contents (Elt F)
abbrev C5 (F : FTy → Type) : Type := (a5).view.ty.Contents (Elt F)

/-! ## A tile, its thread and its two hundred chunks -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

theorem L0_lt (L : grid0.Coords) : (L 0).val < 2 := (L 0).isLt
theorem L1_lt (L : grid0.Coords) : (L 1).val < 16 := (L 1).isLt

/-- The number of the tile's first chunk: worker w = 2 · subcore + core takes chunks 200 w … 200 w + 199. -/
def c0 (L : grid0.Coords) : ℕ := 400 * (L 1).val + 200 * (L 0).val

theorem c0_le (L : grid0.Coords) : c0 L + 200 ≤ 6400 := by
  have h0 := L0_lt L; have h1 := L1_lt L; unfold c0; omega

theorem inbA2 (L : grid0.Coords) (g : Fin 200) :
    ∀ a, (![c0 L + g.val, 0, 0] : Fin 3 → ℕ) a + S1x2x128.size a ≤ S6400x2x128.size a := by
  have h := c0_le L; have hg := g.isLt
  intro a; fin_cases a
  · show c0 L + g.val + 1 ≤ 6400; omega
  · show 0 + 2 ≤ 2; omega
  · show 0 + 128 ≤ 128; omega

theorem inbA5 (L : grid0.Coords) (g : Fin 200) :
    ∀ a, (![128 * (c0 L + g.val), 0] : Fin 2 → ℕ) a + S128x128.size a ≤ S819200x128.size a := by
  have h := c0_le L; have hg := g.isLt
  intro a; fin_cases a
  · show 128 * (c0 L + g.val) + 128 ≤ 819200; omega
  · show 0 + 128 ≤ 128; omega

/-- Chunk g of the tile in the stacked index array: two rows of 128 words. -/
abbrev chunkA2 (L : grid0.Coords) (g : Fin 200) : Memref sig .scVector .hbm S2x128 .i32 :=
  ((a2).slice (Rect.unit (s := S6400x2x128) ![c0 L + g.val, 0, 0] S1x2x128.size (inbA2 L g)) (fun _ => rfl)).squeeze S2x128 squeezes_S1x2x128_S2x128

/-- Chunk g of the tile in the flat result: 128 rows of 128 floats. -/
abbrev chunkA5 (L : grid0.Coords) (g : Fin 200) : Memref sig .scVector .hbm S128x128 .f32 :=
  (a5).slice (Rect.unit (s := S819200x128) ![128 * (c0 L + g.val), 0] S128x128.size (inbA5 L g)) (fun _ => rfl)

/-! ## Families over the chunks still to come, and over the chunks done -/

section Families
variable {I : Type}

/-- What is held for the chunks numbered n and above. -/
def todo (n : ℕ) (Φ : Fin 200 → sProp 𝕄) : sProp 𝕄 := bigSep (Finset.univ.filter fun g : Fin 200 => n ≤ g.val) Φ
/-- What is held for the chunks numbered below n. -/
def done (n : ℕ) (Φ : Fin 200 → sProp 𝕄) : sProp 𝕄 := bigSep (Finset.univ.filter fun g : Fin 200 => g.val < n) Φ

theorem todo_take (n : ℕ) (h : n < 200) (Φ : Fin 200 → sProp 𝕄) : todo (F := F) n Φ = iprop(Φ ⟨n, h⟩ ∗ todo (F := F) (n + 1) Φ) := by
  unfold todo
  rw [show (Finset.univ.filter fun g : Fin 200 => n ≤ g.val) = insert (⟨n, h⟩ : Fin 200) (Finset.univ.filter fun g : Fin 200 => n + 1 ≤ g.val) from by
    ext g; simp only [Finset.mem_filter, Finset.mem_univ, true_and, Finset.mem_insert, Fin.ext_iff]; omega]
  exact SparseCore.bigSep_insert' (by simp)

theorem done_put (n : ℕ) (h : n < 200) (Φ : Fin 200 → sProp 𝕄) : done (F := F) (n + 1) Φ = iprop(Φ ⟨n, h⟩ ∗ done (F := F) n Φ) := by
  unfold done
  rw [show (Finset.univ.filter fun g : Fin 200 => g.val < n + 1) = insert (⟨n, h⟩ : Fin 200) (Finset.univ.filter fun g : Fin 200 => g.val < n) from by
    ext g; simp only [Finset.mem_filter, Finset.mem_univ, true_and, Finset.mem_insert, Fin.ext_iff]; omega]
  exact SparseCore.bigSep_insert' (by simp)

theorem todo_all (Φ : Fin 200 → sProp 𝕄) : todo (F := F) 0 Φ = bigSep Finset.univ Φ := by
  unfold todo; congr 1
theorem done_all (Φ : Fin 200 → sProp 𝕄) : done (F := F) 200 Φ = bigSep Finset.univ Φ := by
  unfold done; congr 1
theorem done_none (Φ : Fin 200 → sProp 𝕄) : done (F := F) 0 Φ = iprop(emp) := by
  unfold done
  rw [show (Finset.univ.filter fun g : Fin 200 => g.val < 0) = ∅ from by ext g; simp]
  exact bigSep_empty

end Families

end Cert.Proof.KB

end
-- ==== Proof.CanonB.lean ====
/-
  What the kernel's buffers hold at the quiet points of its ring, each as one function of the three arrays it reads:
  the stacked index array f2 ([6400, 2, 128]: row 0 of chunk c the word indices, row 1 the type indices), the word
  table f3 and the two type rows f4. A slot of the word buffer that chunk c's copy has landed in holds the chunk's two
  rows (`itvC`); a slot of the row buffer that chunk c's gather has landed in holds, in row k, the table's row named
  by word index k of the chunk (`gathC`); the type-row scratch holds the two type rows (`ttC`); after the inner loop
  the slot holds gathered row plus blend (`finC`); and the flat result holds `outC` = `Spec.outFlat`.
-/
import proofs.«207534_g35055523070033_cont_8to1_b_222_9_alg».proof.Proof.KerDefsB

noncomputable section

namespace Cert.Proof.KB

open Cert.Kernel Cert.Kernel.Gen
open Idealize.ShloMosaic Idealize.ShloMosaic.ValueIdx

variable {F : FTy → Type} [FloatOps F]

/-- A slot of the word buffer holding chunk c: entry (slot, r, k) is the stacked array's (c, r, k). -/
def itvC (f2 : C2 F) (c : Fin 6400) : C6 F := fun i => f2 (ix3 c (i 1) (i 2))

/-- The table row a word names (reduced modulo the table's height: in range the reduction does nothing). -/
def wordOf (w : BitVec 32) : Fin 100000 := ⟨w.toNat % 100000, Nat.mod_lt _ (by decide)⟩

/-- A slot of the row buffer holding chunk c's gathered rows: entry (slot, k, e) is the table's (word k of c, e). -/
def gathC (f2 : C2 F) (f3 : C3 F) (c : Fin 6400) : C7 F := fun i => f3 (ix2 (wordOf (f2 (ix3 c (0 : Fin 2) (i 1)))) (i 2))

/-- The type-row scratch after the kernel's first copy: the two type rows. -/
def ttC (f4 : C4 F) : C8 F := fun i => f4 i

/-- A slot of the row buffer after the inner loop on chunk c. -/
def finC (f2 : C2 F) (f3 : C3 F) (f4 : C4 F) (b : Fin 4) (c : Fin 6400) : C7 F :=
  finOf (itvC f2 c) (ttC f4) b (gathC f2 f3 c)

/-- The flat result. -/
def outC (f2 : C2 F) (f3 : C3 F) (f4 : C4 F) : C5 F := Cert.Proof.Spec.outFlat f2 f3 f4

/-- The tile's chunk g as a chunk of the whole array. -/
def chunkNo (L : grid0.Coords) (g : Fin 200) : Fin 6400 := ⟨c0 L + g.val, by have := c0_le L; have := g.isLt; omega⟩

end Cert.Proof.KB

end
-- ==== Proof.KerPayB.lean ====
/-
  What the launch hands each tile and takes back. Every tile reads the stacked index array, the word table and the
  two type rows, and writes its own two hundred chunks of the flat result. So a tile is handed: for each of its
  chunks, the chunk's two rows of the stacked array (at a share of the tile's own), a share of the whole word table
  (one per chunk: a gather keeps its share of the table while it is in flight, and the tile never gives one back),
  and the chunk's 128 rows of the flat result outright; and a share of the type rows. It hands back the 128 rows of
  each chunk holding the lookup's result. The read shares are not returned: the TensorCore keeps a share of each
  array it needs afterwards.
-/
import proofs.«207534_g35055523070033_cont_8to1_b_222_9_alg».proof.Proof.CanonB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

theorem nCore_zero : (K (F := F)).nCore 0 = 2 := rfl
theorem nSub_zero : (K (F := F)).nSub 0 = 16 := rfl

/-- The grid coordinates of tile (c, s). -/
def coordsV (c : Fin (grid0.bound 0)) (s : Fin (grid0.bound 1)) : grid0.Coords :=
  fun | 0 => c | 1 => s | ⟨_ + 2, h⟩ => absurd h (Nat.not_lt.2 (Nat.le_add_left _ _))

/-- A number for the tile, to index its shares by. -/
def tileNo (L : grid0.Coords) : ℕ := 16 * (L 0).val + (L 1).val

/-- The tile's share of the stacked index array and of the type rows, and its share of the word table for chunk g. -/
def shA (L : grid0.Coords) : PosShare TreeShare := shareTokN fullShare (tileNo L)
def shT (L : grid0.Coords) (g : Fin 200) : PosShare TreeShare := shareTokN fullShare (200 * tileNo L + g.val)

section Res
variable [FloatOps F] (d : Dev nD) (L : grid0.Coords) (f2 : C2 F) (f3 : C3 F) (f4 : C4 F)

/-- Chunk g's two rows of the stacked array, at the tile's share. -/
abbrev a2piece (g : Fin 200) : sProp 𝕄 := (chunkA2 L g).view.loc (thr d L) ↦[(chunkA2 L g).view.set]{shA L} f2
/-- A share of the whole word table, for chunk g's gather. -/
abbrev a3tok (g : Fin 200) : sProp 𝕄 := (a3).view.loc (thr d L) ↦{shT L g} f3
/-- Chunk g's 128 rows of the flat result, outright, at contents X. -/
abbrev outpiece (X : C5 F) (g : Fin 200) : sProp 𝕄 := (chunkA5 L g).view.loc (thr d L) ↦[(chunkA5 L g).view.set]{fullShare} X

/-- What a tile is handed. -/
def goRes (fo : C5 F) : sProp 𝕄 :=
  iprop((bigSep Finset.univ fun g : Fin 200 => a2piece d L f2 g) ∗ (bigSep Finset.univ fun g : Fin 200 => a3tok d L f3 g)
    ∗ ((a4).view.loc (thr d L) ↦{shA L} f4) ∗ bigSep Finset.univ fun g : Fin 200 => outpiece d L fo g)

/-- What a tile hands back. -/
def tdRes : sProp 𝕄 := bigSep Finset.univ fun g : Fin 200 => outpiece d L (outC f2 f3 f4) g

end Res

/-! ## The call's payloads -/

section Pay
variable [FloatOps F] (m : (ℓ : Loc nD τ sig) → Buf (Elt F) ℓ) (V2 : Dev nD → C2 F)

abbrev v2Loc (d : Dev nD) : Loc nD τ sig := (SparseCore.T d).loc main_v2
abbrev tabLoc (d : Dev nD) : Loc nD τ sig := (SparseCore.T d).loc main_arg2
abbrev ttLoc (d : Dev nD) : Loc nD τ sig := (SparseCore.T d).loc main_arg3
abbrev v3Loc (d : Dev nD) : Loc nD τ sig := (SparseCore.T d).loc main_v3

/-- Tile (c, i) of device d is handed its chunks of the stacked array (at contents `V2 d`, what @main has built by
    then), its shares of the word table and the type rows (at their launch contents), and its chunks of the flat
    result (at whatever the result buffer held). -/
def tileGo (d : Dev nD) (c : Fin 2) (i : Fin 16) : sProp 𝕄 :=
  goRes d (coordsV c i) (V2 d) (m (tabLoc d)) (m (ttLoc d)) (m (v3Loc d))
/-- And hands back its chunks of the flat result, holding the lookup. -/
def tileTd (d : Dev nD) (c : Fin 2) (i : Fin 16) : sProp 𝕄 :=
  tdRes d (coordsV c i) (V2 d) (m (tabLoc d)) (m (ttLoc d))

/-- The one call's payloads: a SparseCore's are its sixteen tiles', both ways; nothing of a protocol of the kernel's own. -/
def P : (K (F := F)).Pay (nD := nD) (Val := Elt F) (Name := ℕ) (U := UU) where
  st := fun q d c => match q with | 0 => bigSep Finset.univ fun i : Fin 16 => tileGo m V2 d (Fin.cast nCore_zero c) i
  dn := fun q d c => match q with | 0 => bigSep Finset.univ fun i : Fin 16 => tileTd m V2 d (Fin.cast nCore_zero c) i
  go := fun q d c i => match q with | 0 => tileGo m V2 d (Fin.cast nCore_zero c) (Fin.cast nSub_zero i)
  td := fun q d c i => match q with | 0 => tileTd m V2 d (Fin.cast nCore_zero c) (Fin.cast nSub_zero i)
  x := fun _ _ => iprop(emp)

end Pay

end Cert.Proof.KB

end
-- ==== Proof.KerMainB.lean ====
/-
  The kernel program's @main on the TensorCore.

  @main cuts the two index arrays into chunks and stacks them, starts the lookup on the vector subcores, waits for it,
  and reads the flat result as [4096, 200, 128]. Around the call the TensorCore's whole arrays have to be dealt to the
  thirty-two tiles and collected again:
  * the stacked index array is only read: each tile gets a read share of it, restricted to the tile's own two hundred
    chunks (chunk n is row n of the array), cut chunk by chunk;
  * the word table is read whole by every gather: one read share per (tile, chunk), 6400 in all, and a remainder the
    TensorCore keeps;
  * the two type rows are read whole by every tile: one read share per tile, and a remainder kept;
  * the flat result is written: chunk n is rows 128 n … 128 n + 127, the 6400 chunks are pairwise disjoint and cover the
    array, and tile (c, i) owns chunks 400 i + 200 c + g for g < 200 — each of the 6400 numbers exactly once. So the
    whole array is the separating conjunction of the chunks, before the call (at whatever it held) and after it (every
    chunk at the one function `outC`), which is the whole array at `outC`.
-/
import proofs.«207534_g35055523070033_cont_8to1_b_222_9_alg».proof.Proof.KerPayB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Idealize.ShloMosaic.StableHlo (held held_split held_sdiff_result wp_hlo_within)

variable {F : FTy → Type}

local notation "𝕄" => MT nD τ sig (HIx 1) (Elt F) ℕ UU ℕ

/-! ## The chunks of the two arrays the tiles share by rows -/

theorem c0_coordsV (c : Fin 2) (i : Fin 16) : c0 (coordsV c i) = 400 * i.val + 200 * c.val := rfl
theorem tileNo_coordsV (c : Fin 2) (i : Fin 16) : tileNo (coordsV c i) = 16 * c.val + i.val := rfl

/-- Chunk g of tile L in the flat result is rows 128 n … 128 n + 127 for n the chunk's number. -/
theorem mem_set5 (L : grid0.Coords) (g : Fin 200) (x : S819200x128.Idx) :
    x ∈ (chunkA5 L g).view.set ↔ 128 * (c0 L + g.val) ≤ (x 0).val ∧ (x 0).val < 128 * (c0 L + g.val) + 128 := by
  have h1 : (x 1).val < 128 := (x 1).isLt
  refine (Finset.ext_iff.mp (View.set_slice_whole (main_v3_scv : Ref sig .scVector)
    (Rect.unit (s := S819200x128) ![128 * (c0 L + g.val), 0] S128x128.size (inbA5 L g))) x).trans
    (Rect.mem_set_unit.trans (Fin.forall_fin_two.trans ?_))
  show (128 * (c0 L + g.val) ≤ (x 0).val ∧ (x 0).val < 128 * (c0 L + g.val) + 128) ∧ (0 ≤ (x 1).val ∧ (x 1).val < 0 + 128) ↔ _
  constructor
  · intro h; exact h.1
  · intro h; exact ⟨h, Nat.zero_le _, by omega⟩

/-- Chunk g of tile L in the stacked index array is row n for n the chunk's number. -/
theorem mem_set2 (L : grid0.Coords) (g : Fin 200) (x : S6400x2x128.Idx) :
    x ∈ (chunkA2 L g).view.set ↔ (x 0).val = c0 L + g.val := by
  have h1 : (x 1).val < 2 := (x 1).isLt
  have h2 : (x 2).val < 128 := (x 2).isLt
  have e : (chunkA2 L g).view.set
      = (Rect.unit (s := S6400x2x128) ![c0 L + g.val, 0, 0] S1x2x128.size (inbA2 L g)).set := by
    show (((View.whole (main_v2_scv : Ref sig .scVector)).slice
      (Rect.unit (s := S6400x2x128) ![c0 L + g.val, 0, 0] S1x2x128.size (inbA2 L g))).reshape S2x128
        squeezes_S1x2x128_S2x128.numel_eq).set = _
    rw [View.set_reshape]
    exact View.set_slice_whole _ _
  rw [e, Rect.mem_set_unit]
  constructor
  · intro h; have := h 0
    have h0 : c0 L + g.val ≤ (x 0).val ∧ (x 0).val < c0 L + g.val + 1 := this
    omega
  · intro h a
    match a with
    | ⟨0, _⟩ => show c0 L + g.val ≤ (x 0).val ∧ (x 0).val < c0 L + g.val + 1; omega
    | ⟨1, _⟩ => show 0 ≤ (x 1).val ∧ (x 1).val < 0 + 2; omega
    | ⟨2, _⟩ => show 0 ≤ (x 2).val ∧ (x 2).val < 0 + 128; omega

/-- A tile and one of its chunks. -/
abbrev Tri : Type := Fin 2 × Fin 16 × Fin 200

/-- The chunk's set of the flat result. -/
abbrev K5 (t : Tri) : Finset S819200x128.Idx := (chunkA5 (coordsV t.1 t.2.1) t.2.2).view.set

theorem K5_disjoint : ∀ t ∈ (Finset.univ : Finset Tri), ∀ t' ∈ (Finset.univ : Finset Tri), t ≠ t' → Disjoint (K5 t) (K5 t') := by
  rintro ⟨c, i, g⟩ - ⟨c', i', g'⟩ - hne
  rw [Finset.disjoint_left]
  intro x hx hx'
  rw [mem_set5, c0_coordsV] at hx hx'
  have hx : 128 * (400 * i.val + 200 * c.val + g.val) ≤ (x 0).val ∧ (x 0).val < 128 * (400 * i.val + 200 * c.val + g.val) + 128 := hx
  have hx' : 128 * (400 * i'.val + 200 * c'.val + g'.val) ≤ (x 0).val ∧ (x 0).val < 128 * (400 * i'.val + 200 * c'.val + g'.val) + 128 := hx'
  have hc := c.isLt; have hc' := c'.isLt; have hg := g.isLt; have hg' := g'.isLt
  apply hne
  have e1 : i.val = i'.val := by omega
  have e2 : c.val = c'.val := by omega
  have e3 : g.val = g'.val := by omega
  exact Prod.ext (Fin.ext e2) (Prod.ext (Fin.ext e1) (Fin.ext e3))

theorem K5_cover : (Finset.univ : Finset Tri).biUnion K5 = Finset.univ := by
  ext x
  simp only [Finset.mem_biUnion, Finset.mem_univ, true_and, iff_true]
  have hx : (x 0).val < 819200 := (x 0).isLt
  refine ⟨(⟨((x 0).val / 128 % 400) / 200, by omega⟩, ⟨(x 0).val / 128 / 400, by omega⟩, ⟨(x 0).val / 128 % 200, by omega⟩), ?_⟩
  rw [mem_set5, c0_coordsV]
  show 128 * (400 * ((x 0).val / 128 / 400) + 200 * (((x 0).val / 128 % 400) / 200) + (x 0).val / 128 % 200) ≤ (x 0).val
    ∧ (x 0).val < 128 * (400 * ((x 0).val / 128 / 400) + 200 * (((x 0).val / 128 % 400) / 200) + (x 0).val / 128 % 200) + 128
  omega

/-- The chunk's set of the stacked index array. -/
abbrev K2 (c : Fin 2) (i : Fin 16) (g : Fin 200) : Finset S6400x2x128.Idx := (chunkA2 (coordsV c i) g).view.set

theorem K2_disjoint (c : Fin 2) (i : Fin 16) :
    ∀ g ∈ (Finset.univ : Finset (Fin 200)), ∀ g' ∈ (Finset.univ : Finset (Fin 200)), g ≠ g' → Disjoint (K2 c i g) (K2 c i g') := by
  intro g _ g' _ hne
  rw [Finset.disjoint_left]
  intro x hx hx'
  rw [mem_set2] at hx hx'
  exact hne (Fin.ext (by omega))

/-! ## Dealing read shares -/

theorem drop_left {A B : sProp 𝕄} : iprop(A ∗ B) ⊢ B := by iintro ⟨-, H⟩; iexact H
theorem drop_right {A B : sProp 𝕄} : iprop(A ∗ B) ⊢ A := by iintro ⟨H, -⟩; iexact H

section Deal
variable {ℓ : Loc nD τ sig} {S : Finset (Idx ℓ)} {f : Buf (Elt F) ℓ}

/-- A points-to at a share `q` yields one read token per member of a finite family numbered injectively below `n`, and
    the remainder after `n` tokens. -/
theorem toks_deal (q : PosShare TreeShare) {X : Type} [Fintype X] [DecidableEq X] (n : ℕ) (e : X → ℕ)
    (he : Function.Injective e) (hlt : ∀ t, e t < n) :
    (ℓ ↦[S]{q} f : sProp 𝕄)
      ⊢ iprop((ℓ ↦[S]{shareDrop q n} f) ∗ bigSep (Finset.univ : Finset X) fun t => ℓ ↦[S]{shareTokN q (e t)} f) := by
  refine (pointsTo_toks_range q n).1.trans (sep_mono_right ?_)
  refine (bigSep_subset (t := (Finset.univ : Finset X).image e)
    (Finset.image_subset_iff.mpr fun t _ => Finset.mem_range.mpr (hlt t))).trans ?_
  exact Entails.of_eq (bigSep_image_of_injOn he.injOn _)

end Deal

/-- Numbering the tiles, and the (tile, chunk) pairs. -/
def tNo (p : Fin 2 × Fin 16) : ℕ := 16 * p.1.val + p.2.val
def tgNo (t : Tri) : ℕ := 200 * (16 * t.1.val + t.2.1.val) + t.2.2.val

theorem tNo_inj : Function.Injective tNo := by
  rintro ⟨c, i⟩ ⟨c', i'⟩ h
  have h : 16 * c.val + i.val = 16 * c'.val + i'.val := h
  have hi := i.isLt; have hi' := i'.isLt
  exact Prod.ext (Fin.ext (show c.val = c'.val by omega)) (Fin.ext (show i.val = i'.val by omega))
theorem tNo_lt (p : Fin 2 × Fin 16) : tNo p < 32 := by
  obtain ⟨c, i⟩ := p
  show 16 * c.val + i.val < 32
  have := c.isLt; have := i.isLt; omega
theorem tgNo_inj : Function.Injective tgNo := by
  rintro ⟨c, i, g⟩ ⟨c', i', g'⟩ h
  have h : 200 * (16 * c.val + i.val) + g.val = 200 * (16 * c'.val + i'.val) + g'.val := h
  have hi := i.isLt; have hi' := i'.isLt; have hg := g.isLt; have hg' := g'.isLt
  exact Prod.ext (Fin.ext (show c.val = c'.val by omega))
    (Prod.ext (Fin.ext (show i.val = i'.val by omega)) (Fin.ext (show g.val = g'.val by omega)))
theorem tgNo_lt (t : Tri) : tgNo t < 6400 := by
  obtain ⟨c, i, g⟩ := t
  show 200 * (16 * c.val + i.val) + g.val < 6400
  have := c.isLt; have := i.isLt; have := g.isLt; omega

section Splits
variable (d : Dev nD)

/-- THE FLAT RESULT, whole, is its 6400 chunks, tile by tile. -/
theorem out_split (f : Buf (Elt F) (v3Loc d)) :
    (v3Loc d ↦{fullShare} f : sProp 𝕄) = bigSep Finset.univ fun c : Fin 2 => bigSep Finset.univ fun i : Fin 16 =>
      bigSep Finset.univ fun g : Fin 200 => (v3Loc d ↦[(chunkA5 (coordsV c i) g).view.set]{fullShare} f) := by
  have h : (v3Loc d ↦{fullShare} f : sProp 𝕄) = bigSep Finset.univ fun t : Tri => v3Loc d ↦[K5 t]{fullShare} f := by
    rw [← pointsTo_biUnion Finset.univ (ℓ := v3Loc d) K5 K5_disjoint, K5_cover]
  rw [h, bigSep_univ_prod]
  refine bigSep_congr fun c _ => ?_
  rw [bigSep_univ_prod]

/-- THE STACKED INDEX ARRAY, whole: every tile's read share of each of its chunks (the rest is let go). -/
theorem v2_deal (f : Buf (Elt F) (v2Loc d)) :
    (v2Loc d ↦{fullShare} f : sProp 𝕄) ⊢ bigSep Finset.univ fun c : Fin 2 => bigSep Finset.univ fun i : Fin 16 =>
      bigSep Finset.univ fun g : Fin 200 => (v2Loc d ↦[(chunkA2 (coordsV c i) g).view.set]{shA (coordsV c i)} f) := by
  refine (toks_deal (F := F) fullShare 32 tNo tNo_inj tNo_lt).trans (drop_left.trans ?_)
  rw [bigSep_univ_prod]
  refine bigSep_mono fun c _ => bigSep_mono fun i _ => ?_
  -- one tile's share, restricted to the tile's chunks, cut chunk by chunk
  rw [← pointsTo_biUnion Finset.univ (ℓ := v2Loc d) (K2 c i) (K2_disjoint c i)]
  exact (pointsTo_split_subset (Finset.subset_univ _)).1.trans drop_right

/-- THE WORD TABLE, whole: one read share per tile and chunk, and the remainder. -/
theorem tab_deal (f : Buf (Elt F) (tabLoc d)) :
    (tabLoc d ↦{fullShare} f : sProp 𝕄) ⊢ iprop((tabLoc d ↦{shareDrop fullShare 6400} f) ∗
      bigSep Finset.univ fun c : Fin 2 => bigSep Finset.univ fun i : Fin 16 =>
        bigSep Finset.univ fun g : Fin 200 => (tabLoc d ↦{shT (coordsV c i) g} f)) := by
  refine (toks_deal (F := F) fullShare 6400 tgNo tgNo_inj tgNo_lt).trans (sep_mono_right ?_)
  rw [bigSep_univ_prod]
  refine Entails.of_eq (bigSep_congr fun c _ => ?_)
  rw [bigSep_univ_prod]
  rfl

/-- THE TYPE ROWS, whole: one read share per tile, and the remainder. -/
theorem tt_deal (f : Buf (Elt F) (ttLoc d)) :
    (ttLoc d ↦{fullShare} f : sProp 𝕄) ⊢ iprop((ttLoc d ↦{shareDrop fullShare 32} f) ∗
      bigSep Finset.univ fun c : Fin 2 => bigSep Finset.univ fun i : Fin 16 => (ttLoc d ↦{shA (coordsV c i)} f)) := by
  refine (toks_deal (F := F) fullShare 32 tNo tNo_inj tNo_lt).trans (sep_mono_right ?_)
  rw [bigSep_univ_prod]
  rfl

end Splits

/-! ## @main's host operations -/

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v4Loc (d : Dev nD) : Loc nD τ sig := (SparseCore.T d).loc main_v4

abbrev r0 : DevRef τ sig := Proc.devRef .tc (main_arg0 : Ref sig .tc)
abbrev r1 : DevRef τ sig := Proc.devRef .tc (main_arg1 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)

/-- The two cuts, the stacking, and the reading of the flat result. -/
abbrev op1 : HloOp τ sig (Elt F) := StableHlo.reshape main_arg0 main_v0 rfl shapeCasts_S4096x200_S6400x1x128
abbrev op2 : HloOp τ sig (Elt F) := StableHlo.reshape main_arg1 main_v1 rfl shapeCasts_S4096x200_S6400x1x128
abbrev op3 : HloOp τ sig (Elt F) :=
  StableHlo.binary main_v0 main_v1 main_v2 ((fun a b => concatenate S6400x2x128 1 [⟨S6400x1x128, a⟩, ⟨S6400x1x128, b⟩]
    concatenates_S6400x1x128_S6400x1x128_S6400x2x128_d1) : (⟨S6400x1x128, .i32⟩ : BufTy).Contents (Elt F) →
      (⟨S6400x1x128, .i32⟩ : BufTy).Contents (Elt F) → (⟨S6400x2x128, .i32⟩ : BufTy).Contents (Elt F))
abbrev op5 : HloOp τ sig (Elt F) := StableHlo.reshape main_v3 main_v4 rfl shapeCasts_S819200x128_S4096x200x128

/-- The buffers of the three operations before the call, and of the one after it. -/
abbrev S5 : Finset (DevRef τ sig) := {r0, r1, rv0, rv1, rv2}
abbrev S2 : Finset (DevRef τ sig) := {rv3, rv4}

theorem hop1 : (op1 (F := F)).bufs ⊆ S5 := show ({r0, rv0} : Finset (DevRef τ sig)) ⊆ S5 by decide
theorem hop2 : (op2 (F := F)).bufs ⊆ S5 := show ({r1, rv1} : Finset (DevRef τ sig)) ⊆ S5 by decide
theorem hop3 : (op3 (F := F)).bufs ⊆ S5 := show ({rv0, rv1, rv2} : Finset (DevRef τ sig)) ⊆ S5 by decide
theorem hop5 : (op5 (F := F)).bufs ⊆ S2 := show ({rv3, rv4} : Finset (DevRef τ sig)) ⊆ S2 by decide

theorem held_S5 (d : Dev nD) (W : Valuation τ sig (Elt F)) :
    (held (T d) S5 W : sProp 𝕄) = iprop((a0Loc d ↦{fullShare} W r0) ∗ (a1Loc d ↦{fullShare} W r1) ∗ (v0Loc d ↦{fullShare} W rv0)
      ∗ (v1Loc d ↦{fullShare} W rv1) ∗ v2Loc d ↦{fullShare} W rv2) := by
  unfold held S5
  rw [SparseCore.bigSep_insert' (by decide), SparseCore.bigSep_insert' (by decide), SparseCore.bigSep_insert' (by decide),
    SparseCore.bigSep_insert' (by decide), bigSep_singleton]

theorem held_S2 (d : Dev nD) (W : Valuation τ sig (Elt F)) :
    (held (T d) S2 W : sProp 𝕄) = iprop((v3Loc d ↦{fullShare} W rv3) ∗ v4Loc d ↦{fullShare} W rv4) := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1)
      ∗ (tabLoc d ↦{fullShare} W main_arg2) ∗ (ttLoc d ↦{fullShare} W main_arg3) ∗ (v0Loc d ↦{fullShare} W main_v0)
      ∗ (v1Loc d ↦{fullShare} W main_v1) ∗ (v2Loc d ↦{fullShare} W main_v2) ∗ (v3Loc d ↦{fullShare} W main_v3)
      ∗ v4Loc d ↦{fullShare} W main_v4) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

section Vals
variable (m : (ℓ : Loc nD τ sig) → Buf (Elt F) ℓ)

/-- The launch valuation. -/
def V0 (d : Dev nD) : Valuation τ sig (Elt F) := fun b => m (d, b)

/-- The stacked index array @main builds: the two index arrays cut into chunks and stacked along the middle axis. -/
def V2 (d : Dev nD) : C2 F :=
  concatenate S6400x2x128 1
    [⟨S6400x1x128, shapeCast S6400x1x128 (m (a0Loc d) : IVec S4096x200 32) shapeCasts_S4096x200_S6400x1x128⟩,
     ⟨S6400x1x128, shapeCast S6400x1x128 (m (a1Loc d) : IVec S4096x200 32) shapeCasts_S4096x200_S6400x1x128⟩]
    concatenates_S6400x1x128_S6400x1x128_S6400x2x128_d1

open Idealize.ShloMosaic.StableHlo in
theorem val_a0 (W : Valuation τ sig (Elt F)) : (op3 (F := F)).result ((op2 (F := F)).result ((op1 (F := F)).result W)) r0 = W r0 := by
  show after [op1, op2, op3] W (Proc.devRef .tc main_arg0) = _
  after_results_simp
open Idealize.ShloMosaic.StableHlo in
theorem val_a1 (W : Valuation τ sig (Elt F)) : (op3 (F := F)).result ((op2 (F := F)).result ((op1 (F := F)).result W)) r1 = W r1 := by
  show after [op1, op2, op3] W (Proc.devRef .tc main_arg1) = _
  after_results_simp
open Idealize.ShloMosaic.StableHlo in
theorem val_v2 (d : Dev nD) : (op3 (F := F)).result ((op2 (F := F)).result ((op1 (F := F)).result (V0 m d))) rv2 = V2 m d := by
  show after [op1, op2, op3] (V0 m d) (Proc.devRef .tc main_v2) = _
  after_results_simp
  rfl

/-- After the call: the flat result at `X`, everything else as launched. -/
def V5 (d : Dev nD) (X : Buf (Elt F) (v3Loc d)) : Valuation τ sig (Elt F) := Function.update (V0 m d) rv3 X

theorem V5_v3 (d : Dev nD) (X : Buf (Elt F) (v3Loc d)) : V5 m d X rv3 = X := Function.update_self _ _ _
theorem V5_v4 (d : Dev nD) (X : Buf (Elt F) (v3Loc d)) : V5 m d X rv4 = m (v4Loc d) :=
  Function.update_of_ne (show rv4 ≠ rv3 by decide) _ _

open Idealize.ShloMosaic.StableHlo in
theorem val5_v3 (d : Dev nD) (X : Buf (Elt F) (v3Loc d)) : (op5 (F := F)).result (V5 m d X) rv3 = X := by
  rw [show (op5 (F := F)).result (V5 m d X) rv3 = V5 m d X rv3 from reshape_result_ne _ _ _ _ _ _ _ (by decide), V5_v3]
open Idealize.ShloMosaic.StableHlo in
theorem val5_v4 (d : Dev nD) (X : Buf (Elt F) (v3Loc d)) :
    (op5 (F := F)).result (V5 m d X) rv4 = shapeCast S4096x200x128 (X : FVec F S819200x128 .f32) shapeCasts_S819200x128_S4096x200x128 := by
  rw [show (op5 (F := F)).result (V5 m d X) rv4 = _ from reshape_result _ _ _ _ _ _ _, V5_v3]
  rfl

end Vals

/-! ## What the call takes and gives back -/

section Call
variable [FloatOps F] (m : (ℓ : Loc nD τ sig) → Buf (Elt F) ℓ) (ρ : Dev nD → PrngReg)

omit [FloatOps F] in
/-- Four families over the tiles, conjoined tile by tile, are the four families conjoined. -/
theorem bigSep2_sep4 (A B C E : Fin 2 → Fin 16 → sProp 𝕄) :
    (bigSep Finset.univ fun c : Fin 2 => bigSep Finset.univ fun i : Fin 16 => iprop(A c i ∗ B c i ∗ C c i ∗ E c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)
        ∗ (bigSep Finset.univ fun c : Fin 2 => bigSep Finset.univ fun i : Fin 16 => E c i)) := by
  simp only [bigSep_sep']

/-- What a tile is handed, with every location written as the TensorCore names it. -/
theorem tileGo_eq (d : Dev nD) (c : Fin 2) (i : Fin 16) :
    tileGo m (V2 m) d c i = iprop(
      (bigSep Finset.univ fun g : Fin 200 => (v2Loc d ↦[(chunkA2 (coordsV c i) g).view.set]{shA (coordsV c i)} V2 m d))
      ∗ (bigSep Finset.univ fun g : Fin 200 => (tabLoc d ↦{shT (coordsV c i) g} m (tabLoc d)))
      ∗ (ttLoc d ↦{shA (coordsV c i)} m (ttLoc d))
      ∗ (bigSep Finset.univ fun g : Fin 200 => (v3Loc d ↦[(chunkA5 (coordsV c i) g).view.set]{fullShare} m (v3Loc d)))) := by
  unfold tileGo goRes
  rfl

/-- What a tile hands back, likewise. -/
theorem tileTd_eq (d : Dev nD) (c : Fin 2) (i : Fin 16) :
    tileTd m (V2 m) d c i = bigSep Finset.univ fun g : Fin 200 =>
      (v3Loc d ↦[(chunkA5 (coordsV c i) g).view.set]{fullShare} outC (V2 m d) (m (tabLoc d)) (m (ttLoc d))) := by
  unfold tileTd tdRes
  rfl

theorem P_st (d : Dev nD) (c : Fin ((K (F := F)).nCore 0)) :
    (P m (V2 m)).st 0 d c = bigSep Finset.univ fun i : Fin 16 => tileGo m (V2 m) d (Fin.cast nCore_zero c) i := by
  unfold P; dsimp only
theorem P_dn (d : Dev nD) (c : Fin ((K (F := F)).nCore 0)) :
    (P m (V2 m)).dn 0 d c = bigSep Finset.univ fun i : Fin 16 => tileTd m (V2 m) d (Fin.cast nCore_zero c) i := by
  unfold P; dsimp only

theorem st_tiles (d : Dev nD) :
    (bigSep Finset.univ fun c : Fin ((K (F := F)).nCore 0) => (P m (V2 m)).st 0 d c)
      = bigSep Finset.univ fun c : Fin 2 => bigSep Finset.univ fun i : Fin 16 => tileGo m (V2 m) d c i :=
  bigSep_congr fun c _ => (P_st m d c).trans
    (congrArg (fun c' : Fin 2 => bigSep Finset.univ fun i : Fin 16 => tileGo m (V2 m) d c' i) (Fin.ext rfl))

theorem dn_tiles (d : Dev nD) :
    (bigSep Finset.univ fun c : Fin ((K (F := F)).nCore 0) => (P m (V2 m)).dn 0 d c)
      = bigSep Finset.univ fun c : Fin 2 => bigSep Finset.univ fun i : Fin 16 => tileTd m (V2 m) d c i :=
  bigSep_congr fun c _ => (P_dn m d c).trans
    (congrArg (fun c' : Fin 2 => bigSep Finset.univ fun i : Fin 16 => tileTd m (V2 m) d c' i) (Fin.ext rfl))

theorem st0_eq (d : Dev nD) :
    (bigSep Finset.univ fun c : Fin ((K (F := F)).nCore 0) => (P m (V2 m)).st 0 d c)
      = iprop((bigSep Finset.univ fun c : Fin 2 => bigSep Finset.univ fun i : Fin 16 => bigSep Finset.univ fun g : Fin 200 =>
            (v2Loc d ↦[(chunkA2 (coordsV c i) g).view.set]{shA (coordsV c i)} V2 m d))
        ∗ (bigSep Finset.univ fun c : Fin 2 => bigSep Finset.univ fun i : Fin 16 => bigSep Finset.univ fun g : Fin 200 =>
            (tabLoc d ↦{shT (coordsV c i) g} m (tabLoc d)))
        ∗ (bigSep Finset.univ fun c : Fin 2 => bigSep Finset.univ fun i : Fin 16 => (ttLoc d ↦{shA (coordsV c i)} m (ttLoc d)))
        ∗ (bigSep Finset.univ fun c : Fin 2 => bigSep Finset.univ fun i : Fin 16 => bigSep Finset.univ fun g : Fin 200 =>
            (v3Loc d ↦[(chunkA5 (coordsV c i) g).view.set]{fullShare} m (v3Loc d)))) := by
  rw [st_tiles, bigSep_congr (fun c _ => bigSep_congr (fun i _ => tileGo_eq m d c i))]
  exact bigSep2_sep4 _ _ _ _

theorem dn0_eq (d : Dev nD) :
    (bigSep Finset.univ fun c : Fin ((K (F := F)).nCore 0) => (P m (V2 m)).dn 0 d c)
      = (v3Loc d ↦{fullShare} outC (V2 m d) (m (tabLoc d)) (m (ttLoc d)) : sProp 𝕄) := by
  rw [dn_tiles, out_split, bigSep_congr (fun c _ => bigSep_congr (fun i _ => tileTd_eq m d c i))]

/-- The flat result read as [4096, 200, 128]. -/
def v4Val (d : Dev nD) : FVec F S4096x200x128 .f32 :=
  shapeCast S4096x200x128 (outC (V2 m d) (m (tabLoc d)) (m (ttLoc d)) : FVec F S819200x128 .f32) shapeCasts_S819200x128_S4096x200x128

/-- What @main leaves the claim: the two index arrays whole, a share of each table, all at their launch contents, and
    the result whole at the flat lookup read as [4096, 200, 128]. -/
def FIN (d : Dev nD) : sProp 𝕄 :=
  iprop((a0Loc d ↦{fullShare} m (a0Loc d)) ∗ (a1Loc d ↦{fullShare} m (a1Loc d))
    ∗ (tabLoc d ↦{shareDrop fullShare 6400} m (tabLoc d)) ∗ (ttLoc d ↦{shareDrop fullShare 32} m (ttLoc d))
    ∗ v4Loc d ↦{fullShare} v4Val m d)

end Call

/-! ## @main on the TensorCore -/

section Main
variable [FloatOps F] (m : (ℓ : Loc nD τ sig) → Buf (Elt F) ℓ) (ρ : Dev nD → PrngReg)

/-- @main on device `d`'s TensorCore: the two cuts and the stacking over the whole arrays; the arrays dealt to the
    tiles; the call; the chunks of the flat result collected; the flat result read as [4096, 200, 128]. -/
theorem hmain (κ : GSem nD τ sig → ℕ) (d : Dev nD) :
    iprop((K (F := F)).ctx EH (P m (V2 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨H0, H1, H2, H3, Hv0, Hv1, Hv2, Hv3, Hv4⟩, -, -⟩, -⟩
  -- the first cut
  iapply (wp_hlo_within 𝒱 (SparseCore.T d) none Set.univ (op := op1) (S := S5) hop1 (V := V0 m d)) $$ [Hb H0 H1 Hv0 Hv1 Hv2]
  · isplitl [Hb]; · iexact Hb
    rw [held_S5]
    isplitl [H0]; · iexact H0
    isplitl [H1]; · iexact H1
    isplitl [Hv0]; · iexact Hv0
    isplitl [Hv1]; · iexact Hv1
    iexact Hv2
  iintro ⟨Hb, Hh⟩
  rw [wp_ret]; imodintro
  -- the second cut
  iapply (wp_hlo_within 𝒱 (SparseCore.T d) none Set.univ (op := op2) (S := S5) hop2 (V := (op1 (F := F)).result (V0 m d))) $$ [Hb Hh]
  · isplitl [Hb]; · iexact Hb
    iexact Hh
  iintro ⟨Hb, Hh⟩
  rw [wp_ret]; imodintro
  -- the stacking
  iapply (wp_hlo_within 𝒱 (SparseCore.T d) none Set.univ (op := op3) (S := S5) hop3
    (V := (op2 (F := F)).result ((op1 (F := F)).result (V0 m d)))) $$ [Hb Hh]
  · isplitl [Hb]; · iexact Hb
    iexact Hh
  iintro ⟨Hb, Hh⟩
  rw [wp_ret]; imodintro
  ihave Hh' := (Entails.of_eq (held_S5 (F := F) d _)) $$ Hh
  rw [val_a0, val_a1, val_v2]
  icases Hh' with ⟨H0, H1, -, -, Hv2⟩
  -- the arrays dealt to the tiles
  ihave Hv2' := (v2_deal d (V2 m d)) $$ Hv2
  ihave H2' := (tab_deal d (m (tabLoc d))) $$ H2
  icases H2' with ⟨H2k, H2t⟩
  ihave H3' := (tt_deal d (m (ttLoc d))) $$ H3
  icases H3' with ⟨H3k, H3t⟩
  ihave Hv3' := (Entails.of_eq (out_split d (m (v3Loc d)))) $$ Hv3
  -- the call
  iapply ((K (F := F)).wp_run (D (F := F)) 𝒱 (EH := EH) (P := P m (V2 m)) κ d 0) $$ [Hst Hv2' H2t H3t Hv3' Hb H0 H1 H2k H3k Hv4]
  isplitr; · iexact Hctx
  isplitl [Hst]; · iexact Hst
  isplitl [Hv2' H2t H3t Hv3']
  · rw [st0_eq]
    isplitl [Hv2']; · iexact Hv2'
    isplitl [H2t]; · iexact H2t
    isplitl [H3t]; · iexact H3t
    iexact Hv3'
  iintro ⟨Hst, Hdn⟩
  ihave Hdn' := (Entails.of_eq (dn0_eq m d)) $$ Hdn
  -- the flat result read as [4096, 200, 128]
  iapply (wp_hlo_within 𝒱 (SparseCore.T d) none Set.univ (op := op5) (S := S2) hop5
    (V := V5 m d (outC (V2 m d) (m (tabLoc d)) (m (ttLoc d))))) $$ [Hb Hdn' Hv4]
  · isplitl [Hb]; · iexact Hb
    rw [held_S2, V5_v3, V5_v4]
    isplitl [Hdn']; · iexact Hdn'
    iexact Hv4
  iintro ⟨Hb, Hh⟩
  ihave Hh' := (Entails.of_eq (held_S2 (F := F) d _)) $$ Hh
  rw [val5_v4]
  icases Hh' with ⟨-, Hv4⟩
  rw [wp_ret]; imodintro; imodintro
  isplitl [Hst]; · iexact Hst
  unfold FIN
  isplitl [H0]; · iexact H0
  isplitl [H1]; · iexact H1
  isplitl [H2k]; · iexact H2k
  isplitl [H3k]; · iexact H3k
  iexact Hv4

/-- What the final memory is read for: the result at the flat lookup read as [4096, 200, 128], the arguments at their
    launch contents. -/
def fq (d : Dev nD) (s' : Phys nD τ sig (Elt F)) : Prop :=
  s'.mem.mem (v4Loc d) = v4Val m d ∧ s'.mem.mem (a0Loc d) = m (a0Loc d) ∧ s'.mem.mem (a1Loc d) = m (a1Loc d)
    ∧ s'.mem.mem (tabLoc d) = m (tabLoc d) ∧ s'.mem.mem (ttLoc d) = m (ttLoc d)

theorem hfin (d : Dev nD) (s' : Phys nD τ sig (Elt F)) : iprop(FIN m d ∗ SI s') ⊢ (⌜fq m d s'⌝ : sProp 𝕄) := by
  unfold FIN
  iintro ⟨⟨H0, H1, H2, H3, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := tabLoc d) (I := Finset.univ) (q := shareDrop fullShare 6400) (f := m (tabLoc d)))) $$ [HSI H2]
  · isplitl [HSI] <;> iassumption
  icases H with ⟨%h2, HSI, -⟩
  ihave H := (persistent_entails_right (SI_pointsTo_agree (st := s') (ℓ := ttLoc d) (I := Finset.univ) (q := shareDrop fullShare 32) (f := m (ttLoc d)))) $$ [HSI H3]
  · isplitl [HSI] <;> iassumption
  icases H with ⟨%h3, HSI, -⟩
  ihave H := (SI_pointsTo_agree (st := s') (ℓ := v4Loc d) (I := Finset.univ) (q := fullShare) (f := v4Val m d)) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i), funext fun i => h3 i (Finset.mem_univ i)⟩

end Main

end Cert.Proof.KB

end
-- ==== Proof.KerLaunchB.lean ====
/-
  The small obligations of the launch: the configuration's side facts; that what a tile is handed and hands back can
  travel inside an invariant; that a SparseCore's operands are by definition its sixteen tiles' (so the split into
  tiles and the gathering back are the identity); and the launch element of the ghost state, of which only the
  handshakes' rounds are used.
-/
import proofs.«207534_g35055523070033_cont_8to1_b_222_9_alg».proof.Proof.KerPayB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Launch
variable [FloatOps F] (m : (ℓ : Loc nD τ sig) → Buf (Elt F) ℓ) (V2 : Dev nD → C2 F)

/-! ## What a tile is handed and hands back are separating products of points-tos -/

instance goRes_storable (d : Dev nD) (L : grid0.Coords) (f2 : C2 F) (f3 : C3 F) (f4 : C4 F) (fo : C5 F) :
    BI.Storable (upEmb : UEmb _ 𝕄) (goRes d L f2 f3 f4 fo) := by
  unfold goRes; infer_instance

instance tdRes_storable (d : Dev nD) (L : grid0.Coords) (f2 : C2 F) (f3 : C3 F) (f4 : C4 F) :
    BI.Storable (upEmb : UEmb _ 𝕄) (tdRes d L f2 f3 f4) := by
  unfold tdRes; infer_instance

instance tileGo_storable (d : Dev nD) (c : Fin 2) (i : Fin 16) : BI.Storable (upEmb : UEmb _ 𝕄) (tileGo m V2 d c i) := by
  unfold tileGo; infer_instance

instance tileTd_storable (d : Dev nD) (c : Fin 2) (i : Fin 16) : BI.Storable (upEmb : UEmb _ 𝕄) (tileTd m V2 d c i) := by
  unfold tileTd; infer_instance

instance P_storable : (P (F := F) m V2).IsStorable where
  st q d c := by
    match q with
    | 0 => unfold P; dsimp only; infer_instance
  dn q d c := by
    match q with
    | 0 => unfold P; dsimp only; infer_instance
  go q d c i := by
    match q with
    | 0 => unfold P; dsimp only; infer_instance
  td q d c i := by
    match q with
    | 0 => unfold P; dsimp only; infer_instance

/-! ## A SparseCore's operands are its sixteen tiles' -/

omit [FloatOps F] in
/-- A family over the sixteen tiles, indexed by the configuration's count of them or by sixteen: the same. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m V2) 0 := by
  intro d c
  unfold P; dsimp only
  rw [bigSep_tasks (F := F) (fun i => tileGo m V2 d (Fin.cast nCore_zero c) i),
    bigSep_tasks (F := F) (fun i => tileTd m V2 d (Fin.cast nCore_zero c) i)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m V2).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

end Cert.Proof.KB

end
-- ==== Proof.KerRunB.lean ====
/-
  The kernel program's run.

  The stacked index array @main builds holds, at (c, 0, p), the word index of the token at row-major position
  128 c + p and, at (c, 1, p), its type index; so when the word indices are below 100000 and the type indices below 2,
  every entry of the stacked array is below 100000 — which is what a tile needs to know of the words it gathers by.
  With each tile's task proved, the launch theorem turns @main's proof on the TensorCore into the run of the whole
  program: every weakly fair execution terminates with the result at the flat lookup read as [4096, 200, 128] and the
  four arguments unchanged.
-/
import proofs.«207534_g35055523070033_cont_8to1_b_222_9_alg».proof.Proof.KerMainB
import proofs.«207534_g35055523070033_cont_8to1_b_222_9_alg».proof.Proof.KerLaunchB
import proofs.«207534_g35055523070033_cont_8to1_b_222_9_alg».proof.Proof.FlatBridge

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Run
variable (m : (ℓ : Loc nD τ sig) → Buf (Elt F) ℓ) (ρ : Dev nD → PrngReg)

/-- In range, every entry of the stacked index array is below 100000. -/
theorem V2_range (d : Dev nD) (hr : Cert.Proof.Spec.InRange (m (a0Loc d)) (m (a1Loc d))) :
    ∀ i, ((V2 (F := F) m d) i).toNat < 100000 := by
  intro i
  have hc := (i 0).isLt
  have hp := (i 2).isLt
  have hc' : (i 0).val < 6400 := hc
  have hp' : (i 2).val < 128 := hp
  have hb : (128 * (i 0).val + (i 2).val) / 200 < 4096 := by omega
  have hs : (128 * (i 0).val + (i 2).val) % 200 < 200 := Nat.mod_lt _ (by decide)
  have hbs : 128 * (i 0).val + (i 2).val
      = 200 * (⟨(128 * (i 0).val + (i 2).val) / 200, hb⟩ : Fin 4096).val + (⟨(128 * (i 0).val + (i 2).val) % 200, hs⟩ : Fin 200).val := by
    show 128 * (i 0).val + (i 2).val = 200 * ((128 * (i 0).val + (i 2).val) / 200) + (128 * (i 0).val + (i 2).val) % 200
    omega
  rw [eq_ix3 i]
  generalize i 1 = r
  match r with
  | ⟨0, _⟩ =>
    have e : V2 (F := F) m d (ix3 (i 0) (0 : Fin 2) (i 2)) = (m (a0Loc d) : IVec Cert.Proof.Spec.SIds 32) (ix2 _ _) :=
      Cert.Proof.FlatBridge.stack_row0 _ _ _ _ (i 0) (i 2) _ _ hbs
    show (V2 (F := F) m d (ix3 (i 0) (0 : Fin 2) (i 2))).toNat < 100000
    rw [e]
    exact hr.1 _
  | ⟨1, _⟩ =>
    have e : V2 (F := F) m d (ix3 (i 0) (1 : Fin 2) (i 2)) = (m (a1Loc d) : IVec Cert.Proof.Spec.SIds 32) (ix2 _ _) :=
      Cert.Proof.FlatBridge.stack_row1 _ _ _ _ (i 0) (i 2) _ _ hbs
    show (V2 (F := F) m d (ix3 (i 0) (1 : Fin 2) (i 2))).toNat < 100000
    rw [e]
    have := hr.2 (ix2 (⟨(128 * (i 0).val + (i 2).val) / 200, hb⟩ : Fin 4096) (⟨(128 * (i 0).val + (i 2).val) % 200, hs⟩ : Fin 200))
    omega

variable [FloatOps F]

/-- What the run ends with, on every device: the result at the flat lookup read as [4096, 200, 128], the four
    arguments at their launch contents. -/
def QC : PUnit × MemSt nD τ sig (Elt F) → Prop := fun r => ∀ c : Dev nD,
  r.2.mem (v4Loc c) = v4Val m c ∧ r.2.mem (a0Loc c) = m (a0Loc c) ∧ r.2.mem (a1Loc c) = m (a1Loc c)
    ∧ r.2.mem (tabLoc c) = m (tabLoc c) ∧ r.2.mem (ttLoc c) = m (ttLoc c)

/-- The result the run ends with is the kernel's form of the lookup: the flat lookup of the stacked array, read as
    [4096, 200, 128], is the word row plus the blend of the two type rows. -/
theorem v4Val_eq_kerVal (d : Dev nD) :
    v4Val (F := F) m d = Cert.Proof.Spec.kerVal (m (a0Loc d)) (m (a1Loc d)) (m (tabLoc d)) (m (ttLoc d)) := by
  unfold v4Val outC V2
  exact Cert.Proof.FlatBridge.reshape_outFlat _ _ _ _ _ _ _

/-- THE RUN, given each tile's task: the launch theorem over @main's proof. -/
theorem run_main [∀ e, Nonempty (Elt F e)] (htile : (K (F := F)).TileObl (D (F := F)) 𝒱 (P m (V2 m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (V2 m)) facts v₀
    (fun q hq => match q with | 0 => nomatch hq)
    (fun q _ => match q with | 0 => htile)
    (fun q _ => match q with | 0 => SparseCore.Cfg.VecSplit.of_plain (vecSplit m (V2 m)))
    m ρ main (fun _ => iprop(emp)) (FIN m) (u₀ (F := F)) (sep_elim_left.trans (hu₀ m (V2 m))) (hmain m ρ) (fq m) (hfin m) (QC m)
    (fun _ h => h)

end Run

end Cert.Proof.KB

end
-- ==== Proof.RefRun.lean ====
/-
  The reference program's run, read back.

  The reference looks each token's word index up in the word table and its type index up in the type table, and adds
  the two rows. Each lookup is a `take` with out-of-range rows filled: a negative index is first counted from the end (`idx + n` where
  `idx < 0`), the row is gathered at the resulting index, and a result row whose index falls outside `[0, n - 1]`
  is replaced by NaN (the `fill` mode). Written as one straight line of host operations, the two lookups are
  twenty-three operations each (the select of `where` among them), and the sum is the forty-seventh.

  This module lists those operations, shows that the program is their sequence, and concludes that every weakly fair
  execution terminates with the result buffer at the operations' composed term of the four arguments (`refTerm`),
  the arguments unchanged. What that term is at an index is the next module's matter.
-/
import proofs.«207534_g35055523070033_cont_8to1_b_222_9_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The lookup as a term -/

/-- The index a lookup into a table of `n` rows reads at: a negative index counted from the end. -/
def wrapIdx (n : BitVec 32) (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 n))) ids

/-- The same indices as a column of start indices, one per token. -/
def startIdx (n : BitVec 32) (ids : IVec S4096x200 32) : IVec S4096x200x1 32 :=
  broadcastInDim S4096x200x1 ![0, 1] bcast_S4096x200_S4096x200x1_0_1 (wrapIdx n ids)

/-- Which tokens' indices fall inside `[0, hi]`: both comparisons, combined over the column's one entry. -/
def inBounds (n hi : BitVec 32) (ids : IVec S4096x200 32) : IVec S4096x200 1 :=
  Host.reduce IntOp.andi
    (andi (cmpi .sge (startIdx n ids) (broadcastInDim S4096x200x1 ![] bcast_S_S4096x200x1 (constantI S_ 32 0#32)))
      (cmpi .sle (startIdx n ids)
        (broadcastInDim S4096x200x1 ![0, 1, 2] bcast_S1x1x1_S4096x200x1_0_1_2
          (broadcastInDim S1x1x1 ![2] bcast_S1_S1x1x1_2 (constantI S1 32 hi)))))
    (constantI S_ 1 1#1) reducesTo_S4096x200x1_S4096x200_d2 h_S_

/-- One lookup: the table's rows gathered at the start indices, NaN where the index is out of bounds. -/
def takeVal {sT : Shape} (gd : GatherDims sT S4096x200x1 S4096x200x128) (n hi : BitVec 32) (W : FVec F sT .f32)
    (ids : IVec S4096x200 32) : FVec F S4096x200x128 .f32 :=
  select (broadcastInDim S4096x200x128 ![0, 1] bcast_S4096x200_S4096x200x128_0_1 (inBounds n hi ids))
    (Host.gather gd W (startIdx n ids))
    (broadcastInDim S4096x200x128 ![] bcast_S_S4096x200x128 (constant S_ .f32 0x7FC00000#32))

/-- The reference's result as a term of its four arguments: the word lookup plus the type lookup. -/
def refTerm (ids tids : IVec S4096x200 32) (W : FVec F S100000x128 .f32) (TT : FVec F S2x128 .f32) :
    FVec F S4096x200x128 .f32 :=
  addf (takeVal gather_S100000x128_S4096x200x1_S4096x200x128_2_0_n_n_0_2_1128 100000#32 99999#32 W ids)
    (takeVal gather_S2x128_S4096x200x1_S4096x200x128_2_0_n_n_0_2_1128 2#32 1#32 TT tids)

/-! ## The program as a list of operations -/

/-- @main's 47 operations in order, the calls unfolded: the word lookup's twenty-three into `main_call0`'s buffers
    (its `where` one select into `main_call0.call0`'s), the type lookup's twenty-three into `main_call1`'s, the sum. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2 : TRef sig ⟨S100000x128, .f32⟩) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    TRef.nullary main_call1.c (constantI S_ 32 0#32),
    TRef.unary main_call1.c main_call1.v0 (broadcastInDim S4096x200 ![] bcast_S_S4096x200),
    TRef.binary (.of main_arg1 : TRef sig ⟨S4096x200, .i32⟩) main_call1.v0 main_call1.v1 (cmpi .slt),
    TRef.nullary main_call1.c_0 (constantI S_ 32 2#32),
    TRef.unary main_call1.c_0 main_call1.v2 (broadcastInDim S4096x200 ![] bcast_S_S4096x200),
    TRef.binary (.of main_arg1 : TRef sig ⟨S4096x200, .i32⟩) main_call1.v2 main_call1.v3 addi,
    TRef.ternary main_call1.v1 main_call1.v3 (.of main_arg1 : TRef sig ⟨S4096x200, .i32⟩) main_call1.call0.v0 select,
    TRef.unary main_call1.call0.v0 main_call1.v5 (broadcastInDim S4096x200x1 ![0, 1] bcast_S4096x200_S4096x200x1_0_1),
    TRef.nullary main_call1.c_1 (constantI S1 32 1#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg3 : TRef sig ⟨S2x128, .f32⟩) main_call1.v5 main_call1.v13 (fun x i => Host.gather gather_S2x128_S4096x200x1_S4096x200x128_2_0_n_n_0_2_1128 x i),
    TRef.unary main_call1.v12 main_call1.v14 (broadcastInDim S4096x200x128 ![0, 1] bcast_S4096x200_S4096x200x128_0_1),
    TRef.nullary main_call1.cst (constant S_ .f32 0x7FC00000#32),
    TRef.unary main_call1.cst main_call1.v15 (broadcastInDim S4096x200x128 ![] bcast_S_S4096x200x128),
    TRef.ternary main_call1.v14 main_call1.v13 main_call1.v15 main_call1.v16 select,
    binary main_v0 main_v1 main_v2 (addf : (⟨S4096x200x128, .f32⟩ : BufTy).Contents (Elt F) → (⟨S4096x200x128, .f32⟩ : BufTy).Contents (Elt F) → (⟨S4096x200x128, .f32⟩ : BufTy).Contents (Elt F)) ]

-- forty-seven binds re-associated: the rewrite under the chain recurses once per statement
set_option maxRecDepth 2048 in
/-- @main is that straight line: the functions' definitions unfolded at their calls, both sides are one chain of host
    steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub ..⟩

/-! ## The run -/

attribute [local irreducible] Host.reduce Host.gather in
set_option maxRecDepth 8192 in
/-- The fold of the operations at the result buffer is `refTerm` of the arguments: each operation's result read at
    its own buffer is its function's value, at any other buffer what was there, and the typed references' transports
    are the identity at these literal references. The reduction and the gathers stay folded meanwhile: the equation
    never looks inside them. -/
theorem out_eq (V : Valuation τ sig (Elt F)) :
    after ops V (main_v2 : DevRef τ sig)
      = refTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of @main
    terminates with the result at `refTerm` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = refTerm (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.Proof.Ref

end
-- ==== Proof.LibTakeRows.lean ====
/-
  Looking rows of a table up by a rank-2 array of row numbers, read at an index.

  A table `x : [N, C]` and, for each position `(r, s)` of an `[R, S]` array, one row number, held as the single entry of a
  column `idx : [R, S, 1]`. Gathering the rows gives `[R, S, C]`: element `(r, s, c)` is `x` at row `idx[r, s, 0]` — read
  as a signed integer and clamped into `[0, N - 1]` — and column `c` (`takeRows_apply`).

  Beside it, what a lookup's bounds test needs: a 32-bit word below 2³¹ is non-negative as a signed integer, so the
  signed comparisons with zero and with an upper bound are decided by its value as a natural number; and a reduction by
  `and` of an array of ones, from one, is one.
-/
import Idealize.ShloMosaic.Lib.ValueIdx

noncomputable section

namespace Cert.Lib.TakeRows

open Idealize.ShloMosaic Idealize.ShloMosaic.ValueIdx

/-! ## Signed comparisons of a small word -/

/-- A word below 2³¹ is its own value as a signed integer. -/
theorem toInt_of_small (x : BitVec 32) (hx : x.toNat < 2147483648) : x.toInt = (x.toNat : Int) := by
  apply BitVec.toInt_eq_toNat_of_lt; omega

/-- It is not negative … -/
theorem cmpi_slt_zero (x : BitVec 32) (hx : x.toNat < 2147483648) : IntOp.cmpi .slt x 0#32 = 0#1 := by
  have h := toInt_of_small x hx
  have : x.slt 0#32 = false := by
    simp only [BitVec.slt, BitVec.toInt_zero, h]
    exact decide_eq_false (by omega)
  simp only [IntOp.cmpi, this]
  rfl

/-- … it is at least zero … -/
theorem cmpi_sge_zero (x : BitVec 32) (hx : x.toNat < 2147483648) : IntOp.cmpi .sge x 0#32 = 1#1 := by
  have h := toInt_of_small x hx
  have : (0#32).sle x = true := by
    simp only [BitVec.sle, BitVec.toInt_zero, h]
    exact decide_eq_true (by omega)
  simp only [IntOp.cmpi, this]
  rfl

/-- … and it is at most a bound `hi` whose signed value `n` its own does not exceed. -/
theorem cmpi_sle_of (x hi : BitVec 32) (n : Nat) (hx : x.toNat ≤ n) (hn : n < 2147483648) (hhi : hi.toInt = (n : Int)) :
    IntOp.cmpi .sle x hi = 1#1 := by
  have h := toInt_of_small x (by omega)
  have : x.sle hi = true := by
    simp only [BitVec.sle, h, hhi]
    exact decide_eq_true (by omega)
  simp only [IntOp.cmpi, this]
  rfl

/-! ## A reduction by `and` of ones -/

theorem andi_one_one : IntOp.andi 1#1 1#1 = 1#1 := by decide

/-- A left fold by `and` from one over words that are all one is one. -/
theorem foldl_andi_ones {ι : Type} (f : ι → BitVec 1) (hf : ∀ n, f n = 1#1) :
    ∀ l : List ι, l.foldl (fun r n => IntOp.andi r (f n)) 1#1 = 1#1
  | [] => rfl
  | a :: l => by rw [List.foldl_cons, hf a, andi_one_one]; exact foldl_andi_ones f hf l

/-- A reduction by `and`, over any axes, of an array of ones from an initial one is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones _ (fun n => hx _) _

/-! ## Gathering rows at a rank-2 array of row numbers -/

variable {α : Type}

/-- The dimension numbers of `x[idx]` for a table `x : [N, C]` and row numbers `idx : [R, S]` held as `[R, S, 1]`: the rows
    are collapsed, the columns are the offset axis (the result's last), one start index per result row. -/
abbrev takeRowsDims (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- Element `(r, s, c)` of the gathered rows is the table at the clamped row `idx[r, s, 0]` and column `c`. -/
theorem takeRows_apply {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (c : Fin C) :
    Host.gather (takeRowsDims N C R S wf) x idx (ix3 r s c)
      = x (ix2 ⟨min (idx (ix3 r s 0)).toInt.toNat (N - 1), by omega⟩ c) := by
  unfold Host.gather
  congr 1
  funext a
  refine Fin.ext ?_
  match a with
  | ⟨0, _⟩ =>
    -- the row: the start index's one component, clamped; no batching axis, and the row axis is collapsed
    show (takeRowsDims N C R S wf).start (ix3 r s c) idx 0 + (takeRowsDims N C R S wf).batchCoord (ix3 r s c) 0
      + (takeRowsDims N C R S wf).offCoord (ix3 r s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N C R S wf).startIndexMap from List.mem_singleton.mpr rfl)]
    have hsi : (takeRowsDims N C R S wf).siIdx (ix3 r s c) ⟨List.idxOf (0 : Fin 2) (takeRowsDims N C R S wf).startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  | ⟨1, _⟩ =>
    -- the column: no start index names it, so the slice starts at zero, and the offset is the result's last coordinate
    show (takeRowsDims N C R S wf).start (ix3 r s c) idx 1 + (takeRowsDims N C R S wf).batchCoord (ix3 r s c) 1
      + (takeRowsDims N C R S wf).offCoord (ix3 r s c) 1 = c.val
    rw [GatherDims.batchCoord_eq_zero _ _ _ List.not_mem_nil]
    have hs : (takeRowsDims N C R S wf).start (ix3 r s c) idx 1 = 0 := by
      unfold GatherDims.start
      rw [dif_neg (show ¬ (1 : Fin 2) ∈ (takeRowsDims N C R S wf).startIndexMap from
        (by decide : ¬ (1 : Fin 2) ∈ ([0] : List (Fin 2))))]
    have ho : (takeRowsDims N C R S wf).offCoord (ix3 r s c) 1 = c.val := by
      unfold GatherDims.offCoord
      rw [dif_pos (show (1 : Fin 2) ∈ (takeRowsDims N C R S wf).sKept from
        (GatherDims.mem_sKept _ _).mpr ⟨(by decide : ¬ (1 : Fin 2) ∈ ([0] : List (Fin 2))), List.not_mem_nil⟩)]
      rfl
    rw [hs, ho]; omega

end Cert.Lib.TakeRows

end
-- ==== Proof.RefValue.lean ====
/-
  The reference's result, read at an index.

  The reference's composed term (`refTerm`) is two lookups added. A lookup into a table of `n` rows first counts a negative
  index from the end, then tests the index against `[0, n - 1]`, gathers the row at the index clamped into that interval,
  and keeps the gathered row where the test succeeded (NaN elsewhere). When every index already names a row of its
  table — `0 ≤ idx < n`, which for a 32-bit word means its value as a natural number is below `n` — none of this does
  anything: the index is not negative, so it is not moved; the test succeeds; the clamp is the identity. What is left is
  the table's row `idx`, and the sum of the two rows is the specification's `refVal`.
-/
import proofs.«207534_g35055523070033_cont_8to1_b_222_9_alg».proof.Proof.RefRun
import proofs.«207534_g35055523070033_cont_8to1_b_222_9_alg».proof.Proof.Spec
import proofs.«207534_g35055523070033_cont_8to1_b_222_9_alg».proof.Proof.LibTakeRows
import Idealize.ShloMosaic.Lib.Pipeline.Value

noncomputable section

namespace Cert.Proof.Ref

open Cert.ReferenceIdeal Cert.ReferenceIdeal.Gen Idealize.ShloMosaic Idealize.ShloMosaic.ValueIdx Idealize.ShloMosaic.TcCoe
  Idealize.SL.Sem Cert.Lib.TakeRows

variable {F : FTy → Type} [FloatOps F]

/-! ## One lookup at an index -/

/-- An index that is not negative is not counted from the end. -/
theorem wrapIdx_apply (n : BitVec 32) (ids : IVec S4096x200 32) (i : S4096x200.Idx) (h : (ids i).toNat < 2147483648) :
    wrapIdx n ids i = ids i := by
  show Scalar.select (IntOp.cmpi .slt (ids i) 0#32) (IntOp.addi (ids i) n) (ids i) = ids i
  rw [cmpi_slt_zero _ h, select_zero]

/-- The column of start indices holds, at `(b, s, ·)`, the index of token `(b, s)`. -/
theorem startIdx_apply (n : BitVec 32) (ids : IVec S4096x200 32) (q : S4096x200x1.Idx) :
    startIdx n ids q = wrapIdx n ids (ix2 (q 0) (q 1)) :=
  broadcastInDim_apply _ _ _ q (ix2 (q 0) (q 1)) (fun a => match a with | ⟨0, _⟩ => rfl | ⟨1, _⟩ => rfl)

/-- When every index is below `N` and the upper bound is `N - 1`, the bounds test succeeds everywhere. -/
theorem inBounds_apply (n hi : BitVec 32) (N : Nat) (ids : IVec S4096x200 32) (hN0 : 0 < N) (hN : N ≤ 2147483648)
    (hhi : hi.toInt = ((N - 1 : Nat) : Int)) (h : ∀ i, (ids i).toNat < N) (i : S4096x200.Idx) : inBounds n hi ids i = 1#1 := by
  unfold inBounds
  refine reduce_andi_ones _ _ _ _ (fun q => ?_) (fun _ => rfl) i
  show IntOp.andi (IntOp.cmpi .sge (startIdx n ids q) 0#32) (IntOp.cmpi .sle (startIdx n ids q) hi) = 1#1
  have hq := h (ix2 (q 0) (q 1))
  rw [startIdx_apply, wrapIdx_apply _ _ _ (by omega), cmpi_sge_zero _ (by omega),
    cmpi_sle_of _ _ (N - 1) (by omega) (by omega) hhi, andi_one_one]

/-- ONE LOOKUP AT `(b, s, k)`: when every index is below the table's height `N`, it is the table at row `idx[b, s]` and
    column `k`. (The row is written reduced modulo `N`, as the specification writes it; in range that is the row itself.) -/
theorem takeVal_apply3 {N : Nat}
    (wf : GatherDims.WF ⟨2, ![N, 128]⟩ ⟨3, ![4096, 200, 1]⟩ ⟨3, ![4096, 200, 128]⟩ [2] [0] [] [0] [] 2 ![1, 128])
    (n hi : BitVec 32) (W : FVec F ⟨2, ![N, 128]⟩ .f32) (ids : IVec S4096x200 32)
    (hN0 : 0 < N) (hN : N ≤ 2147483648) (hhi : hi.toInt = ((N - 1 : Nat) : Int)) (h : ∀ i, (ids i).toNat < N)
    (b : Fin 4096) (s : Fin 200) (k : Fin 128) :
    takeVal (takeRowsDims N 128 4096 200 wf) n hi W ids (ix3 b s k)
      = W (ix2 ⟨(ids (ix2 b s)).toNat % N, Nat.mod_lt _ hN0⟩ k) := by
  have hbs := h (ix2 b s)
  have hst : startIdx n ids (ix3 b s 0) = ids (ix2 b s) :=
    (startIdx_apply n ids (ix3 b s 0)).trans (wrapIdx_apply n ids (ix2 b s) (by omega))
  have e : min (startIdx n ids (ix3 b s 0)).toInt.toNat (N - 1) = (ids (ix2 b s)).toNat % N := by
    rw [hst, toInt_of_small _ (by omega), Int.toNat_natCast, Nat.mod_eq_of_lt hbs]
    omega
  unfold takeVal
  rw [select_apply,
    broadcastInDim_apply _ _ _ (ix3 b s k) (ix2 b s) (fun a => match a with | ⟨0, _⟩ => rfl | ⟨1, _⟩ => rfl),
    inBounds_apply n hi N ids hN0 hN hhi h, select_one, takeRows_apply hN0]
  exact congrArg (fun r : Fin N => W (ix2 r k)) (Fin.ext e)

/-- The same at any index `j` of the result, and for any record of the same dimension numbers. -/
theorem takeVal_apply {N : Nat} (gd : GatherDims ⟨2, ![N, 128]⟩ S4096x200x1 S4096x200x128)
    (wf : GatherDims.WF ⟨2, ![N, 128]⟩ ⟨3, ![4096, 200, 1]⟩ ⟨3, ![4096, 200, 128]⟩ [2] [0] [] [0] [] 2 ![1, 128])
    (hgd : gd = takeRowsDims N 128 4096 200 wf) (n hi : BitVec 32) (W : FVec F ⟨2, ![N, 128]⟩ .f32) (ids : IVec S4096x200 32)
    (hN0 : 0 < N) (hN : N ≤ 2147483648) (hhi : hi.toInt = ((N - 1 : Nat) : Int)) (h : ∀ i, (ids i).toNat < N)
    (j : S4096x200x128.Idx) :
    takeVal gd n hi W ids j = W (ix2 ⟨(ids (ix2 (j 0) (j 1))).toNat % N, Nat.mod_lt _ hN0⟩ (j 2)) := by
  subst hgd
  exact (congrArg (takeVal (takeRowsDims N 128 4096 200 wf) n hi W ids) (eq_ix3 j)).trans
    (takeVal_apply3 wf n hi W ids hN0 hN hhi h (j 0) (j 1) (j 2))

/-! ## The sum of the two lookups is the specification's value -/

/-- A sum of two arrays, read at an index, is the sum of the two reads (stated with the arrays as they stand, so that
    neither is opened). -/
theorem addf_at {s : Shape} {φ : FTy} (a b : FVec F s φ) (i : s.Idx) : addf a b i = FloatOps.addf (a i) (b i) := rfl

/-- In range, the reference's term is the word table's row plus the type table's row. -/
theorem refTerm_eq (ids tids : IVec S4096x200 32) (W : FVec Ideal S100000x128 .f32) (TT : FVec Ideal S2x128 .f32)
    (hr : Cert.Proof.Spec.InRange ids tids) : refTerm ids tids W TT = Cert.Proof.Spec.refVal ids tids W TT := by
  funext j
  unfold refTerm Cert.Proof.Spec.refVal Cert.Proof.Spec.wordRow Cert.Proof.Spec.typeRow
  rw [addf_at,
    takeVal_apply (N := 100000) gather_S100000x128_S4096x200x1_S4096x200x128_2_0_n_n_0_2_1128
      gather_S100000x128_S4096x200x1_S4096x200x128_2_0_n_n_0_2_1128_wf rfl 100000#32 99999#32 W ids
      (by decide) (by decide) (by decide) hr.1 j,
    takeVal_apply (N := 2) gather_S2x128_S4096x200x1_S4096x200x128_2_0_n_n_0_2_1128
      gather_S2x128_S4096x200x1_S4096x200x128_2_0_n_n_0_2_1128_wf rfl 2#32 1#32 TT tids
      (by decide) (by decide) (by decide) hr.2 j]

/-! ## The run, at the specification's value -/

/-- On every device, from any memory with zero counters whose index arrays are in range: every weakly fair execution of
    the reference terminates with the result at the specification's `refVal` of the arguments' launch contents, and the
    arguments unchanged. -/
theorem run (m : (ℓ : Loc nD τ sig) → Buf (Elt Ideal) ℓ) (ρ : Dev nD → PrngReg)
    (hr : ∀ c : Dev nD, Cert.Proof.Spec.InRange (m ((c.tc : Thread nD τ).loc main_arg0)) (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v2) = Cert.Proof.Spec.refVal (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (refTerm_eq _ _ _ _ (hr c)), (h c).2⟩) (run_term m ρ)

end Cert.Proof.Ref

end
-- ==== Proof.PreFacts.lean ====
/-
  What the precondition says of the inputs. The precondition is the conjunction of four "for all entries" tests:
  every entry of the word table and of the type table has absolute value below +infinity, every word index lies
  between 0 and 99999 and every type index between 0 and 1 (both read as signed 32-bit integers). Each test is a
  reduction by "and" of an array of truth values, started at true, that came out true, so every entry of the array
  is true. A signed word between 0 and N, for N below 2^31, is its own unsigned value, so the word index is below
  100000 and the type index below 2. An extended real whose absolute value max x (-x) is below +infinity is
  neither +infinity nor -infinity, hence a real number.
-/
import proofs.«207534_g35055523070033_cont_8to1_b_222_9_alg».proof.Pre_input_domain
import proofs.«207534_g35055523070033_cont_8to1_b_222_9_alg».proof.Proof.Gen.Pre_input_domain
import proofs.«207534_g35055523070033_cont_8to1_b_222_9_alg».proof.Proof.Spec
import Idealize.ShloMosaic.Lib.ReduceAll
import Idealize.ShloMosaic.PureOps.Ideal

noncomputable section

namespace Cert.Proof.PreFacts

open Idealize.ShloMosaic Idealize.ShloMosaic.ValueIdx

/-- The shape with no axes has one index. -/
instance subsingleton_scalar_idx : Subsingleton Cert.Pre_input_domain.S_.Idx := ⟨fun a b => funext fun d => d.elim0⟩

/-- A signed 32-bit word between 0 and 99999 has unsigned value below 100000. -/
theorem toNat_lt_100000 (v : BitVec 32)
    (e : IntOp.andi (IntOp.cmpi .sge v 0#32) (IntOp.cmpi .sle v 99999#32) = 1#1) : v.toNat < 100000 := by
  obtain ⟨h1, h2⟩ := IntOp.andi_eq_one.1 e
  rw [IntOp.cmpi_sge] at h1
  rw [IntOp.cmpi_sle] at h2
  simp only [BitVec.toInt_eq_toNat_cond, BitVec.toNat_ofNat, Nat.reducePow, Nat.reduceMod] at h1 h2
  omega

/-- A signed 32-bit word between 0 and 1 has unsigned value below 2. -/
theorem toNat_lt_2 (v : BitVec 32)
    (e : IntOp.andi (IntOp.cmpi .sge v 0#32) (IntOp.cmpi .sle v 1#32) = 1#1) : v.toNat < 2 := by
  obtain ⟨h1, h2⟩ := IntOp.andi_eq_one.1 e
  rw [IntOp.cmpi_sge] at h1
  rw [IntOp.cmpi_sle] at h2
  simp only [BitVec.toInt_eq_toNat_cond, BitVec.toNat_ofNat, Nat.reducePow, Nat.reduceMod] at h1 h2
  omega

/-- The pattern 0x7F800000 denotes +infinity. -/
theorem ofBits_inf : Ideal.ofBits .f32 0x7F800000#32 = (⊤ : EReal) := by
  simp [Ideal.ofBits, Ideal.ieee]

/-- An extended real whose absolute value is below +infinity is a real number. -/
theorem real_of_abs_lt_inf (x : Ideal .f32)
    (e : FloatOps.cmpf (F := Ideal) .olt (FloatOps.hostAbsf x) (FloatOps.ofBits (F := Ideal) .f32 0x7F800000#32) = 1#1) :
    ∃ r : ℝ, x = ((r : ℝ) : EReal) := by
  change BitVec.ofBool (decide (max x (-x) < Ideal.ofBits .f32 0x7F800000#32)) = 1#1 at e
  rw [ofBits_inf] at e
  have hlt : max x (-x) < (⊤ : EReal) := by
    by_contra hn
    rw [decide_eq_false hn] at e
    exact absurd e (by decide)
  induction x using EReal.rec with
  | bot => exact absurd hlt (by simp)
  | coe r => exact ⟨r, rfl⟩
  | top => exact absurd hlt (by simp)

section
variable [Cert.Pre_input_domain.Facts]

/-- The precondition puts every word index below 100000 and every type index below 2. -/
theorem inRange_of_pre {F : FTy → Type} [FloatOps F] (a0 a1 : IVec Cert.Pre_input_domain.S4096x200 32)
    (a2 : FVec F Cert.Pre_input_domain.S100000x128 .f32) (a3 : FVec F Cert.Pre_input_domain.S2x128 .f32)
    (h : Cert.Pre_input_domain.fn (F := F) a0 a1 a2 a3 = fun _ => 1#1) : Cert.Proof.Spec.InRange a0 a1 := by
  have e := congrFun h ix0
  dsimp only [Cert.Pre_input_domain.fn, Cert.Pre_input_domain.fn_part1, andi] at e
  simp only [IntOp.andi_eq_one] at e
  obtain ⟨⟨⟨e3, e7⟩, e14⟩, e21⟩ := e
  refine ⟨fun i => ?_, fun i => ?_⟩
  · have p := Host.reduce_andi_all _ _ _ _ _ e14 i
    simp only [andi, cmpi, broadcastInDim, constantI] at p
    exact toNat_lt_100000 _ p
  · have p := Host.reduce_andi_all _ _ _ _ _ e21 i
    simp only [andi, cmpi, broadcastInDim, constantI] at p
    exact toNat_lt_2 _ p

/-- The precondition makes every entry of the word table and of the type table a real number. -/
theorem finite_of_pre (a0 a1 : IVec Cert.Pre_input_domain.S4096x200 32)
    (a2 : FVec Ideal Cert.Pre_input_domain.S100000x128 .f32) (a3 : FVec Ideal Cert.Pre_input_domain.S2x128 .f32)
    (h : Cert.Pre_input_domain.fn (F := Ideal) a0 a1 a2 a3 = fun _ => 1#1) :
    (∀ i, ∃ r : ℝ, a2 i = ((r : ℝ) : EReal)) ∧ (∀ i, ∃ r : ℝ, a3 i = ((r : ℝ) : EReal)) := by
  have e := congrFun h ix0
  dsimp only [Cert.Pre_input_domain.fn, Cert.Pre_input_domain.fn_part1, andi] at e
  simp only [IntOp.andi_eq_one] at e
  obtain ⟨⟨⟨e3, e7⟩, e14⟩, e21⟩ := e
  refine ⟨fun i => ?_, fun i => ?_⟩
  · have p := Host.reduce_andi_all _ _ _ _ _ e3 i
    simp only [cmpf, Host.absf, broadcastInDim, constant] at p
    exact real_of_abs_lt_inf _ p
  · have p := Host.reduce_andi_all _ _ _ _ _ e7 i
    simp only [cmpf, Host.absf, broadcastInDim, constant] at p
    exact real_of_abs_lt_inf _ p

end

end Cert.Proof.PreFacts

end
-- ==== Proof.Blend.lean ====
/-
  The blend of the two type rows is a lookup. A type index is a 32-bit word below 2, hence the word 0 or the word 1.
  Read as a float it is the real number 0 or 1. With both type rows real numbers r0 and r1,
    r0 + 0 · (r1 - r0) = r0   and   r0 + 1 · (r1 - r0) = r1
  hold in the reals, and the extended-real operations agree with the real ones on real operands, so the blend is
  row 0 for the index 0 and row 1 for the index 1: the row the index names. The word-table entry is added on the
  left of both forms and plays no part (it may be infinite).
-/
import proofs.«207534_g35055523070033_cont_8to1_b_222_9_alg».proof.Proof.Spec
import Idealize.ShloMosaic.PureOps.Ideal

noncomputable section

namespace Cert.Proof.Blend

open Idealize.ShloMosaic Idealize.ShloMosaic.ValueIdx Cert.Proof.Spec

/-- A 32-bit word whose value is below 2 is the word 0 or the word 1. -/
theorem eq_zero_or_one (t : BitVec 32) (h : t.toNat < 2) : t = 0#32 ∨ t = 1#32 := by
  have h01 : t.toNat = 0 ∨ t.toNat = 1 := by omega
  rcases h01 with h0 | h1
  · exact Or.inl (BitVec.eq_of_toNat_eq (by rw [h0]; rfl))
  · exact Or.inr (BitVec.eq_of_toNat_eq (by rw [h1]; rfl))

/-- An integer word read as an ideal float is its signed value, a real number. -/
theorem sitofp_ideal (b : BitVec 32) : FloatOps.sitofp (F := Ideal) .f32 b = (((b.toInt : ℤ) : ℝ) : EReal) := rfl

/-- On real operands the extended-real blend is the real blend. -/
theorem blend_coe (c r0 r1 : ℝ) :
    ((r0 : ℝ) : EReal) + ((c : ℝ) : EReal) * (((r1 : ℝ) : EReal) - ((r0 : ℝ) : EReal)) = ((r0 + c * (r1 - r0) : ℝ) : EReal) := by
  rw [← EReal.coe_sub, ← EReal.coe_mul, ← EReal.coe_add]

/-- The type row named by the index 0 is row 0. -/
theorem typeRow_zero (tids : IVec SIds 32) (b : Fin 4096) (s : Fin 200) (h : tids (ix2 b s) = 0#32) : typeRow tids b s = (0 : Fin 2) := by
  apply Fin.ext
  show (tids (ix2 b s)).toNat % 2 = 0
  rw [h]; rfl

/-- The type row named by the index 1 is row 1. -/
theorem typeRow_one (tids : IVec SIds 32) (b : Fin 4096) (s : Fin 200) (h : tids (ix2 b s) = 1#32) : typeRow tids b s = (1 : Fin 2) := by
  apply Fin.ext
  show (tids (ix2 b s)).toNat % 2 = 1
  rw [h]; rfl

/-- In range, and with a real type table, the kernel's blended form is the reference's looked-up form. -/
theorem kerVal_eq_refVal (ids tids : IVec Cert.Proof.Spec.SIds 32) (W : FVec Ideal Cert.Proof.Spec.STab .f32)
    (TT : FVec Ideal Cert.Proof.Spec.STT .f32) (hr : Cert.Proof.Spec.InRange ids tids)
    (hT : ∀ i, ∃ r : ℝ, TT i = ((r : ℝ) : EReal)) :
    Cert.Proof.Spec.kerVal (F := Ideal) ids tids W TT = Cert.Proof.Spec.refVal ids tids W TT := by
  funext j
  obtain ⟨r0, h0⟩ := hT (ix2 (0 : Fin 2) (j 2))
  obtain ⟨r1, h1⟩ := hT (ix2 (1 : Fin 2) (j 2))
  have hlt : (tids (ix2 (j 0) (j 1))).toNat < 2 := hr.2 (ix2 (j 0) (j 1))
  show W (ix2 (wordRow ids (j 0) (j 1)) (j 2)) +
      (TT (ix2 (0 : Fin 2) (j 2)) + FloatOps.sitofp (F := Ideal) .f32 (tids (ix2 (j 0) (j 1))) *
        (TT (ix2 (1 : Fin 2) (j 2)) - TT (ix2 (0 : Fin 2) (j 2)))) =
    W (ix2 (wordRow ids (j 0) (j 1)) (j 2)) + TT (ix2 (typeRow tids (j 0) (j 1)) (j 2))
  congr 1
  rw [sitofp_ideal]
  rcases eq_zero_or_one _ hlt with ht | ht
  · rw [typeRow_zero tids (j 0) (j 1) ht, ht, h0, h1, blend_coe]
    have hz : ((0#32 : BitVec 32).toInt : ℝ) = 0 := by norm_num
    rw [hz]; congr 1; ring
  · rw [typeRow_one tids (j 0) (j 1) ht, ht, h0, h1, blend_coe]
    have ho : ((1#32 : BitVec 32).toInt : ℝ) = 1 := by
      have : (1#32 : BitVec 32).toInt = 1 := by decide
      rw [this]; norm_num
    rw [ho]; congr 1; ring

end Cert.Proof.Blend

end
-- ==== Proof.Assemble.lean ====
/-
  The certificate's five claims from the three runs.

  * The kernel program, at either float instance, runs and ends with its result at the flat lookup read as
    [4096, 200, 128] and its four arguments unchanged — given each tile's task (the two hypotheses below, one per
    printed program). Dropping the value gives the two kernel frames. The tile needs every word it gathers by to name a
    row of the word table; the precondition says so of the two index arrays, and the stacked array holds exactly their
    entries.
  * The reference runs and ends with its result at the sum of the two looked-up rows, its arguments unchanged; dropping
    the value gives its frame.
  * At the ideal instance the two results are equal: the flat lookup read as [4096, 200, 128] is the word row plus the
    blend row0 + t · (row1 - row0) of the two type rows at the type index t read as a number; t is 0 or 1 and the type
    rows are real numbers (the precondition says both), so the blend is the row t names, which is what the reference
    looks up. Both runs start from memories that agree on the arguments, so the reference's value is the same function
    of the kernel's arguments.
-/
import proofs.«207534_g35055523070033_cont_8to1_b_222_9_alg».proof.Defs
import proofs.«207534_g35055523070033_cont_8to1_b_222_9_alg».proof.Proof.Gen.Kernel
import proofs.«207534_g35055523070033_cont_8to1_b_222_9_alg».proof.Proof.Gen.KernelIdeal
import proofs.«207534_g35055523070033_cont_8to1_b_222_9_alg».proof.Proof.Gen.ReferenceIdeal
import proofs.«207534_g35055523070033_cont_8to1_b_222_9_alg».proof.Proof.Gen.Pre_input_domain
import Idealize.ShloMosaic.Adequacy
import Idealize.ShloMosaic.Init
import proofs.«207534_g35055523070033_cont_8to1_b_222_9_alg».proof.Proof.KerRun
import proofs.«207534_g35055523070033_cont_8to1_b_222_9_alg».proof.Proof.KerRunB
import proofs.«207534_g35055523070033_cont_8to1_b_222_9_alg».proof.Proof.RefValue
import proofs.«207534_g35055523070033_cont_8to1_b_222_9_alg».proof.Proof.PreFacts
import proofs.«207534_g35055523070033_cont_8to1_b_222_9_alg».proof.Proof.Blend

noncomputable section

namespace Cert.Proof

open Idealize.ShloMosaic Idealize.SL.Sem

/-- A tile's task in the program as printed: for any launch memory and any stacked index array whose entries all name
    rows of the word table. -/
abbrev TileKB : Prop :=
  ∀ (m : (ℓ : Loc Cert.Kernel.nD Cert.Kernel.τ Cert.Kernel.sig) → Buf (Elt Bits) ℓ) (V2 : Dev Cert.Kernel.nD → KB.C2 Bits),
    (∀ d i, (V2 d i).toNat < 100000) → (KB.K (F := Bits)).TileObl (KB.D (F := Bits)) KB.𝒱 (KB.P m V2) KB.v₀ 0

/-- The same in the program printed for the ideal instance. -/
abbrev TileKI : Prop :=
  ∀ (m : (ℓ : Loc Cert.KernelIdeal.nD Cert.KernelIdeal.τ Cert.KernelIdeal.sig) → Buf (Elt Ideal) ℓ)
    (V2 : Dev Cert.KernelIdeal.nD → KI.C2 Ideal),
    (∀ d i, (V2 d i).toNat < 100000) → (KI.K (F := Ideal)).TileObl (KI.D (F := Ideal)) KI.𝒱 (KI.P m V2) KI.v₀ 0

/-- The kernel program as printed runs and leaves its arguments unchanged. -/
theorem frame_Kernel_of (hKB : TileKB) : Cert.frame_Kernel := fun m g hpre =>
  (θ_run (Cert.Kernel.defs (F := Bits)) _ _).mono (fun _ h c => (h c).2)
    (KB.run_main (F := Bits) m g
      (hKB m (KB.V2 m) fun d => KB.V2_range m d (PreFacts.inRange_of_pre _ _ _ _ (hpre d))))

/-- The kernel program at the ideal instance runs and leaves its arguments unchanged. -/
theorem frame_KernelIdeal_of (hKI : TileKI) : Cert.frame_KernelIdeal := fun m g hpre =>
  (θ_run (Cert.KernelIdeal.defs (F := Ideal)) _ _).mono (fun _ h c => (h c).2)
    (KI.run_main (F := Ideal) m g
      (hKI m (KI.V2 m) fun d => KI.V2_range m d (PreFacts.inRange_of_pre _ _ _ _ (hpre d))))

/-- The reference runs and leaves its arguments unchanged. -/
theorem frame_ReferenceIdeal : Cert.frame_ReferenceIdeal := fun m g hpre =>
  (θ_run (Cert.ReferenceIdeal.defs (F := Ideal)) _ _).mono (fun _ h c => (h c).2)
    (Ref.run m g fun c => PreFacts.inRange_of_pre _ _ _ _ (hpre c))

/-- At the ideal instance the kernel's result and the reference's are equal. -/
theorem algebraic_of (hKI : TileKI) : Cert.algebraic_KernelIdeal_ReferenceIdeal := fun m g m' g' hpre hag =>
  have hr : ∀ c, Spec.InRange (m (KI.a0Loc c)) (m (KI.a1Loc c)) := fun c => PreFacts.inRange_of_pre _ _ _ _ (hpre c)
  have hT : ∀ c, ∀ i, ∃ r : ℝ, (m (KI.ttLoc c) : FVec Ideal Spec.STT .f32) i = ((r : ℝ) : EReal) :=
    fun c => (PreFacts.finite_of_pre _ _ _ _ (hpre c)).2
  have hr' : ∀ c : Dev Cert.ReferenceIdeal.nD,
      Spec.InRange (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) := fun c => by
    rw [(hag c).1, (hag c).2.1]; exact hr c
  ⟨fun c => Spec.refVal (m (KI.a0Loc c)) (m (KI.a1Loc c)) (m (KI.tabLoc c)) (m (KI.ttLoc c)),
    (θ_run (Cert.KernelIdeal.defs (F := Ideal)) _ _).mono
      (fun _ h c => ⟨(h c).1.trans ((KI.v4Val_eq_kerVal m c).trans (Blend.kerVal_eq_refVal _ _ _ _ (hr c) (hT c))), (h c).2⟩)
      (KI.run_main (F := Ideal) m g (hKI m (KI.V2 m) fun d => KI.V2_range m d (hr d))),
    (θ_run (Cert.ReferenceIdeal.defs (F := Ideal)) _ _).mono
      (fun _ h c => ⟨(h c).1.trans (by rw [(hag c).1, (hag c).2.1, (hag c).2.2.1, (hag c).2.2.2]), (h c).2⟩)
      (Ref.run m' g' hr')⟩

/-- EVERYTHING THE CERTIFICATE CLAIMS, given the tile's task in each of the two printed kernel programs. -/
theorem claim_of (hKB : TileKB) (hKI : TileKI) : Cert.Claim :=
  ⟨Cert.Kernel.Gen.facts, Cert.KernelIdeal.Gen.facts, Cert.ReferenceIdeal.Gen.facts, Cert.Pre_input_domain.Gen.facts,
    frame_Kernel_of hKB, frame_KernelIdeal_of hKI, frame_ReferenceIdeal, trivial, algebraic_of hKI⟩

end Cert.Proof

end
-- ==== Proof.Geom.lean ====
/-
  Which words of the two ring buffers lie under which view.  A slot of a ring buffer is the box of the buffer whose
  first coordinate is the slot number and whose other coordinates are unconstrained; the index list of a slot of the
  word buffer is its row 0.  A sixteen-lane access whose first offset is b lies in slot b.
-/
import proofs.«207534_g35055523070033_cont_8to1_b_222_9_alg».proof.Proof.Slots

noncomputable section

namespace Cert.Proof.KI

open Cert.KernelIdeal Cert.KernelIdeal.Gen
open Idealize.ShloMosaic

/-- The words of a whole buffer under a unit-stride box of it: those whose every coordinate lies in the box. -/
theorem mem_access_whole {κ : Kind} (b : Ref sig κ) (off size : Fin b.ty.shape.rank → ℕ)
    (inb : ∀ a, off a + size a ≤ b.ty.shape.size a) (i : b.ty.shape.Idx) :
    i ∈ ((Memref.whole b).access (Rect.unit off size inb)).set ↔ ∀ a, off a ≤ i a ∧ (i a : ℕ) < off a + size a := by
  show i ∈ ((View.whole b).slice (Rect.unit off size inb)).set ↔ _
  rw [View.set_slice_whole, Rect.mem_set_unit]

/-- The same for the box squeezed to another shape: the squeeze keeps the words. -/
theorem mem_slot_whole {κ : Kind} (b : Ref sig κ) (off size : Fin b.ty.shape.rank → ℕ)
    (inb : ∀ a, off a + size a ≤ b.ty.shape.size a) (s' : Shape)
    (hs : (Rect.unit (s := b.ty.shape) off size inb).shape.Squeezes s') (i : b.ty.shape.Idx) :
    i ∈ (((Memref.whole b).slice (Rect.unit off size inb) (fun _ => rfl)).squeeze s' hs).view.set
      ↔ ∀ a, off a ≤ i a ∧ (i a : ℕ) < off a + size a := by
  show i ∈ (((View.whole b).slice (Rect.unit off size inb)).reshape s' hs.numel_eq).set ↔ _
  rw [View.set_reshape, View.set_slice_whole, Rect.mem_set_unit]

/-- A condition on each of three axes, axis by axis. -/
theorem forall_fin3 (P : Fin 3 → Prop) : (∀ a, P a) ↔ P 0 ∧ P 1 ∧ P 2 := by
  simp [Fin.forall_fin_succ]

/-- Slot b of the row buffer: the words whose first coordinate is b. -/
theorem slot7_mem (b : ℕ) (hb : ∀ a, (![b, 0, 0] : Fin 3 → ℕ) a + S1x128x128.size a ≤ S4x128x128.size a)
    (i : S4x128x128.Idx) :
    i ∈ (((a7).slice (Rect.unit (s := S4x128x128) ![b, 0, 0] S1x128x128.size hb) (fun _ => rfl)).squeeze S128x128
      squeezes_S1x128x128_S128x128).view.set ↔ (i 0).val = b := by
  refine (mem_slot_whole cc0_scratch1 _ _ _ _ _ i).trans ?_
  have h1 : (i 1).val < 128 := (i 1).isLt
  have h2 : (i 2).val < 128 := (i 2).isLt
  refine (forall_fin3 _).trans ?_
  show (b ≤ (i 0).val ∧ (i 0).val < b + 1) ∧ (0 ≤ (i 1).val ∧ (i 1).val < 0 + 128) ∧ (0 ≤ (i 2).val ∧ (i 2).val < 0 + 128) ↔ _
  omega

theorem slot7_mem_0 (i : S4x128x128.Idx) : i ∈ (s70).view.set ↔ (i 0).val = 0 := slot7_mem 0 _ i
theorem slot7_mem_1 (i : S4x128x128.Idx) : i ∈ (s71).view.set ↔ (i 0).val = 1 := slot7_mem 1 _ i
theorem slot7_mem_2 (i : S4x128x128.Idx) : i ∈ (s72).view.set ↔ (i 0).val = 2 := slot7_mem 2 _ i
theorem slot7_mem_3 (i : S4x128x128.Idx) : i ∈ (s73).view.set ↔ (i 0).val = 3 := slot7_mem 3 _ i

/-- Slot b of the word buffer: the words whose first coordinate is b. -/
theorem slot6_mem (b : ℕ) (hb : ∀ a, (![b, 0, 0] : Fin 3 → ℕ) a + S1x2x128.size a ≤ S4x2x128.size a)
    (i : S4x2x128.Idx) :
    i ∈ (((a6).slice (Rect.unit (s := S4x2x128) ![b, 0, 0] S1x2x128.size hb) (fun _ => rfl)).squeeze S2x128
      squeezes_S1x2x128_S2x128).view.set ↔ (i 0).val = b := by
  refine (mem_slot_whole cc0_scratch0 _ _ _ _ _ i).trans ?_
  have h1 : (i 1).val < 2 := (i 1).isLt
  have h2 : (i 2).val < 128 := (i 2).isLt
  refine (forall_fin3 _).trans ?_
  show (b ≤ (i 0).val ∧ (i 0).val < b + 1) ∧ (0 ≤ (i 1).val ∧ (i 1).val < 0 + 2) ∧ (0 ≤ (i 2).val ∧ (i 2).val < 0 + 128) ↔ _
  omega

theorem slot6_mem_0 (i : S4x2x128.Idx) : i ∈ (s60).view.set ↔ (i 0).val = 0 := slot6_mem 0 _ i
theorem slot6_mem_1 (i : S4x2x128.Idx) : i ∈ (s61).view.set ↔ (i 0).val = 1 := slot6_mem 1 _ i
theorem slot6_mem_2 (i : S4x2x128.Idx) : i ∈ (s62).view.set ↔ (i 0).val = 2 := slot6_mem 2 _ i
theorem slot6_mem_3 (i : S4x2x128.Idx) : i ∈ (s63).view.set ↔ (i 0).val = 3 := slot6_mem 3 _ i

/-- The index list of slot b of the word buffer: row 0 of the slot. -/
theorem list6_mem (b : ℕ) (hb : ∀ a, (![b, 0, 0] : Fin 3 → ℕ) a + S1x1x128.size a ≤ S4x2x128.size a)
    (i : S4x2x128.Idx) :
    i ∈ (((a6).slice (Rect.unit (s := S4x2x128) ![b, 0, 0] S1x1x128.size hb) (fun _ => rfl)).squeeze S128
      squeezes_S1x1x128_S128).view.set ↔ (i 0).val = b ∧ (i 1).val = 0 := by
  refine (mem_slot_whole cc0_scratch0 _ _ _ _ _ i).trans ?_
  have h2 : (i 2).val < 128 := (i 2).isLt
  refine (forall_fin3 _).trans ?_
  show (b ≤ (i 0).val ∧ (i 0).val < b + 1) ∧ (0 ≤ (i 1).val ∧ (i 1).val < 0 + 1) ∧ (0 ≤ (i 2).val ∧ (i 2).val < 0 + 128) ↔ _
  omega

theorem list6_mem_0 (i : S4x2x128.Idx) : i ∈ (l60).view.set ↔ (i 0).val = 0 ∧ (i 1).val = 0 := list6_mem 0 _ i
theorem list6_mem_1 (i : S4x2x128.Idx) : i ∈ (l61).view.set ↔ (i 0).val = 1 ∧ (i 1).val = 0 := list6_mem 1 _ i
theorem list6_mem_2 (i : S4x2x128.Idx) : i ∈ (l62).view.set ↔ (i 0).val = 2 ∧ (i 1).val = 0 := list6_mem 2 _ i
theorem list6_mem_3 (i : S4x2x128.Idx) : i ∈ (l63).view.set ↔ (i 0).val = 3 ∧ (i 1).val = 0 := list6_mem 3 _ i

/-- The index list of a slot lies in the slot. -/
theorem l60_sub : (l60).view.set ⊆ (s60).view.set := fun i hi => (slot6_mem_0 i).mpr ((list6_mem_0 i).mp hi).1
theorem l61_sub : (l61).view.set ⊆ (s61).view.set := fun i hi => (slot6_mem_1 i).mpr ((list6_mem_1 i).mp hi).1
theorem l62_sub : (l62).view.set ⊆ (s62).view.set := fun i hi => (slot6_mem_2 i).mpr ((list6_mem_2 i).mp hi).1
theorem l63_sub : (l63).view.set ⊆ (s63).view.set := fun i hi => (slot6_mem_3 i).mpr ((list6_mem_3 i).mp hi).1

/-- A word under a sixteen-lane access of the row buffer has the access's first offset as its first coordinate. -/
theorem acc7_fst (o : Fin 3 → ℕ) (h : ∀ a, o a + S1x1x16.size a ≤ S4x128x128.size a) (i : S4x128x128.Idx)
    (hi : i ∈ ((a7).access (Rect.unit (s := S4x128x128) o S1x1x16.size h)).set) : (i 0).val = o 0 := by
  have h0 := (mem_access_whole cc0_scratch1 o S1x1x16.size h i).mp hi (0 : Fin 3)
  have : o 0 ≤ (i 0).val ∧ (i 0).val < o 0 + 1 := h0
  omega

/-- The same for the word buffer. -/
theorem acc6_fst (o : Fin 3 → ℕ) (h : ∀ a, o a + S1x1x16.size a ≤ S4x2x128.size a) (i : S4x2x128.Idx)
    (hi : i ∈ ((a6).access (Rect.unit (s := S4x2x128) o S1x1x16.size h)).set) : (i 0).val = o 0 := by
  have h0 := (mem_access_whole cc0_scratch0 o S1x1x16.size h i).mp hi (0 : Fin 3)
  have : o 0 ≤ (i 0).val ∧ (i 0).val < o 0 + 1 := h0
  omega

theorem sub7_0 : ∀ (o : Fin 3 → ℕ) (h : ∀ a, o a + S1x1x16.size a ≤ S4x128x128.size a), o 0 = 0 →
    ((a7).access (Rect.unit (s := S4x128x128) o S1x1x16.size h)).set ⊆ (s70).view.set :=
  fun o h ho i hi => (slot7_mem_0 i).mpr ((acc7_fst o h i hi).trans ho)
theorem sub7_1 : ∀ (o : Fin 3 → ℕ) (h : ∀ a, o a + S1x1x16.size a ≤ S4x128x128.size a), o 0 = 1 →
    ((a7).access (Rect.unit (s := S4x128x128) o S1x1x16.size h)).set ⊆ (s71).view.set :=
  fun o h ho i hi => (slot7_mem_1 i).mpr ((acc7_fst o h i hi).trans ho)
theorem sub7_2 : ∀ (o : Fin 3 → ℕ) (h : ∀ a, o a + S1x1x16.size a ≤ S4x128x128.size a), o 0 = 2 →
    ((a7).access (Rect.unit (s := S4x128x128) o S1x1x16.size h)).set ⊆ (s72).view.set :=
  fun o h ho i hi => (slot7_mem_2 i).mpr ((acc7_fst o h i hi).trans ho)
theorem sub7_3 : ∀ (o : Fin 3 → ℕ) (h : ∀ a, o a + S1x1x16.size a ≤ S4x128x128.size a), o 0 = 3 →
    ((a7).access (Rect.unit (s := S4x128x128) o S1x1x16.size h)).set ⊆ (s73).view.set :=
  fun o h ho i hi => (slot7_mem_3 i).mpr ((acc7_fst o h i hi).trans ho)

theorem st7_0 : ∀ (o : Fin 3 → ℕ) (h : ∀ a, o a + S1x1x16.size a ≤ S4x128x128.size a), o 0 = 0 →
    ((a7).access (Rect.unit (s := S4x128x128) o S1x1x16.size h)).setOn Finset.univ ⊆ (s70).view.set := sub7_0
theorem st7_1 : ∀ (o : Fin 3 → ℕ) (h : ∀ a, o a + S1x1x16.size a ≤ S4x128x128.size a), o 0 = 1 →
    ((a7).access (Rect.unit (s := S4x128x128) o S1x1x16.size h)).setOn Finset.univ ⊆ (s71).view.set := sub7_1
theorem st7_2 : ∀ (o : Fin 3 → ℕ) (h : ∀ a, o a + S1x1x16.size a ≤ S4x128x128.size a), o 0 = 2 →
    ((a7).access (Rect.unit (s := S4x128x128) o S1x1x16.size h)).setOn Finset.univ ⊆ (s72).view.set := sub7_2
theorem st7_3 : ∀ (o : Fin 3 → ℕ) (h : ∀ a, o a + S1x1x16.size a ≤ S4x128x128.size a), o 0 = 3 →
    ((a7).access (Rect.unit (s := S4x128x128) o S1x1x16.size h)).setOn Finset.univ ⊆ (s73).view.set := sub7_3

theorem sub6_0 : ∀ (o : Fin 3 → ℕ) (h : ∀ a, o a + S1x1x16.size a ≤ S4x2x128.size a), o 0 = 0 →
    ((a6).access (Rect.unit (s := S4x2x128) o S1x1x16.size h)).set ⊆ (s60).view.set :=
  fun o h ho i hi => (slot6_mem_0 i).mpr ((acc6_fst o h i hi).trans ho)
theorem sub6_1 : ∀ (o : Fin 3 → ℕ) (h : ∀ a, o a + S1x1x16.size a ≤ S4x2x128.size a), o 0 = 1 →
    ((a6).access (Rect.unit (s := S4x2x128) o S1x1x16.size h)).set ⊆ (s61).view.set :=
  fun o h ho i hi => (slot6_mem_1 i).mpr ((acc6_fst o h i hi).trans ho)
theorem sub6_2 : ∀ (o : Fin 3 → ℕ) (h : ∀ a, o a + S1x1x16.size a ≤ S4x2x128.size a), o 0 = 2 →
    ((a6).access (Rect.unit (s := S4x2x128) o S1x1x16.size h)).set ⊆ (s62).view.set :=
  fun o h ho i hi => (slot6_mem_2 i).mpr ((acc6_fst o h i hi).trans ho)
theorem sub6_3 : ∀ (o : Fin 3 → ℕ) (h : ∀ a, o a + S1x1x16.size a ≤ S4x2x128.size a), o 0 = 3 →
    ((a6).access (Rect.unit (s := S4x2x128) o S1x1x16.size h)).set ⊆ (s63).view.set :=
  fun o h ho i hi => (slot6_mem_3 i).mpr ((acc6_fst o h i hi).trans ho)

end Cert.Proof.KI

end
-- ==== Proof.InnerStep.lean ====
/-
  One store of the inner loop, read entry by entry, and what it does to the row buffer.
  The stored vector's lane l is the row buffer's entry (b, 16 t + kk, 16 dd + l) plus the blend of the two type rows at
  column 16 dd + l, with the float of the type index of token row 16 t + kk: each vector operation acts lane by lane,
  each re-shaping between [16], [1, 16] and [1, 1, 16] keeps the lane, and taking lane kk of the sixteen type indices
  read from (b, 1, 16 t ..) gives the index of row 16 t + kk. The store writes piece number
  8 · (16 t + kk) + dd = 128 t + 8 kk + dd of slot b and nothing else, so a buffer whose first 128 t + 8 kk + dd pieces
  were handled has, after it, its first 128 t + 8 kk + dd + 1 pieces handled.
-/
import proofs.«207534_g35055523070033_cont_8to1_b_222_9_alg».proof.Proof.Mirror
import Idealize.ShloMosaic.Lib.Pipeline.Value

noncomputable section

namespace Cert.Proof.KI

open Cert.KernelIdeal Cert.KernelIdeal.Gen
open Idealize.ShloMosaic Idealize.ShloMosaic.ValueIdx

variable {F : FTy → Type} [FloatOps F]

/-! ## Re-shapings between [16], [1, 16] and [1, 1, 16] keep the lane -/

theorem cast_16_of_1x1x16 {α : Type} (v : S1x1x16.Idx → α) (h : S1x1x16.ShapeCasts S16) (l : Fin 16) :
    shapeCast S16 v h (ix1 l) = v (ix3 (0 : Fin 1) (0 : Fin 1) l) := by
  refine shapeCast_apply v h _ _ ?_
  rw [Shape.rowMajor_val_one, Shape.rowMajor_val_three]
  show (0 * 1 + 0) * 16 + l.val = l.val
  omega

theorem cast_16_of_1x16 {α : Type} (v : S1x16.Idx → α) (h : S1x16.ShapeCasts S16) (l : Fin 16) :
    shapeCast S16 v h (ix1 l) = v (ix2 (0 : Fin 1) l) := by
  refine shapeCast_apply v h _ _ ?_
  rw [Shape.rowMajor_val_one, Shape.rowMajor_val_two]
  show 0 * 16 + l.val = l.val
  omega

theorem cast_1x1x16_of_16 {α : Type} (v : S16.Idx → α) (h : S16.ShapeCasts S1x1x16) (x : S1x1x16.Idx) :
    shapeCast S1x1x16 v h x = v (ix1 (x 2)) := by
  refine shapeCast_apply v h _ _ ?_
  rw [Shape.rowMajor_val_one, Shape.rowMajor_val_three]
  have l0 : (x 0).val < 1 := (x 0).isLt
  have l1 : (x 1).val < 1 := (x 1).isLt
  show (x 2).val = ((x 0).val * 1 + (x 1).val) * 16 + (x 2).val
  omega

/-! ## The three loads, read at a lane -/

/-- Sixteen lanes of the row buffer from (o 0, o 1, o 2). -/
theorem load7_apply (X : C7 F) (o7 : Fin 3 → ℕ) (h7 : ∀ a, o7 a + S1x1x16.size a ≤ S4x128x128.size a) (l : Fin 16)
    (i : S4x128x128.Idx) (e0 : (i 0).val = o7 0) (e1 : (i 1).val = o7 1) (e2 : (i 2).val = o7 2 + l.val) :
    shapeCast S16 (View.readAt (Elt F) (a7).view (Rect.unit (s := S4x128x128) o7 S1x1x16.size h7).toLoadRect X) shapeCasts_S1x1x16_S16
      (ix1 l) = X i := by
  rw [cast_16_of_1x1x16]
  show X ((Rect.unit (s := S4x128x128) o7 S1x1x16.size h7).toLoadRect.idx (ix3 (0 : Fin 1) (0 : Fin 1) l)) = X i
  congr 1
  funext a
  apply Fin.ext
  match a with
  | ⟨0, _⟩ => show o7 0 + 1 * 0 = (i 0).val; omega
  | ⟨1, _⟩ => show o7 1 + 1 * 0 = (i 1).val; omega
  | ⟨2, _⟩ => show o7 2 + 1 * l.val = (i 2).val; omega

/-- Sixteen type indices from (o 0, o 1, o 2). -/
theorem load6_apply (f6 : C6 F) (o6 : Fin 3 → ℕ) (h6 : ∀ a, o6 a + S1x1x16.size a ≤ S4x2x128.size a) (l : Fin 16)
    (i : S4x2x128.Idx) (e0 : (i 0).val = o6 0) (e1 : (i 1).val = o6 1) (e2 : (i 2).val = o6 2 + l.val) :
    shapeCast S16 (View.readAt (Elt F) (a6).view (Rect.unit (s := S4x2x128) o6 S1x1x16.size h6).toLoadRect f6) shapeCasts_S1x1x16_S16
      (ix1 l) = f6 i := by
  rw [cast_16_of_1x1x16]
  show f6 ((Rect.unit (s := S4x2x128) o6 S1x1x16.size h6).toLoadRect.idx (ix3 (0 : Fin 1) (0 : Fin 1) l)) = f6 i
  congr 1
  funext a
  apply Fin.ext
  match a with
  | ⟨0, _⟩ => show o6 0 + 1 * 0 = (i 0).val; omega
  | ⟨1, _⟩ => show o6 1 + 1 * 0 = (i 1).val; omega
  | ⟨2, _⟩ => show o6 2 + 1 * l.val = (i 2).val; omega

/-- Sixteen lanes of type row r from column c. -/
theorem load8_apply (f8 : C8 F) (r c : ℕ) (h : ∀ a, (![r, c] : Fin 2 → ℕ) a + S1x16.size a ≤ S2x128.size a) (l : Fin 16)
    (i : S2x128.Idx) (e0 : (i 0).val = r) (e1 : (i 1).val = c + l.val) :
    shapeCast S16 (View.readAt (Elt F) (a8).view (Rect.unit (s := S2x128) ![r, c] S1x16.size h).toLoadRect f8) shapeCasts_S1x16_S16
      (ix1 l) = f8 i := by
  rw [cast_16_of_1x16]
  show f8 ((Rect.unit (s := S2x128) ![r, c] S1x16.size h).toLoadRect.idx (ix2 (0 : Fin 1) l)) = f8 i
  congr 1
  funext a
  apply Fin.ext
  match a with
  | ⟨0, _⟩ => show r + 1 * 0 = (i 0).val; omega
  | ⟨1, _⟩ => show c + 1 * l.val = (i 1).val; omega

/-- Every lane of the splat is lane kk of the vector. -/
theorem splat_apply (v : FVec F S16 .f32) (kk : Fin 16) (hs : S16.Slices ![kk.val] S1) (y : S16.Idx) :
    splat v kk.val hs y = v (ix1 kk) := by
  show v _ = v (ix1 kk)
  congr 1
  funext a
  apply Fin.ext
  match a with
  | ⟨0, _⟩ => show kk.val + 0 = kk.val; rfl

/-! ## The vector operations act lane by lane -/

theorem addf_at {s : Shape} {φ : FTy} (a b : FVec F s φ) (i : s.Idx) : addf a b i = FloatOps.addf (a i) (b i) := rfl
theorem subf_at {s : Shape} {φ : FTy} (a b : FVec F s φ) (i : s.Idx) : subf a b i = FloatOps.subf (a i) (b i) := rfl
theorem mulf_at {s : Shape} {φ : FTy} (a b : FVec F s φ) (i : s.Idx) : mulf a b i = FloatOps.mulf (a i) (b i) := rfl

/-! ## The stored vector -/

/-- Lane (x 2) of the stored vector is the row buffer's entry there plus the blend: the entry of the finished slot
    computed from the buffer as it is. -/
theorem storeVal_apply (f6 : C6 F) (f8 : C8 F) (X : C7 F) (b : Fin 4) (t : Fin 8) (kk : Fin 16) (dd : Fin 8)
    (o6 : Fin 3 → ℕ) (h6 : ∀ a, o6 a + S1x1x16.size a ≤ S4x2x128.size a) (hs : S16.Slices ![kk.val] S1) (c : ℕ)
    (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a)
    (ho6 : o6 = ![b.val, 1, 16 * t.val]) (hc : c = 16 * dd.val) (ho7 : o7 = ![b.val, 16 * t.val + kk.val, 16 * dd.val])
    (x : S1x1x16.Idx) :
    storeVal f6 f8 X o6 h6 kk.val hs c h0 h1 o7 h7 x
      = finOf f6 f8 b X (ix3 b (⟨16 * t.val + kk.val, by have := t.isLt; have := kk.isLt; omega⟩ : Fin 128)
          (⟨16 * dd.val + (x 2).val, by have h2 : (x 2).val < 16 := (x 2).isLt; have := dd.isLt; omega⟩ : Fin 128)) := by
  subst ho6 hc ho7
  have ht := t.isLt
  have hk := kk.isLt
  have hd := dd.isLt
  have hl : (x 2).val < 16 := (x 2).isLt
  unfold storeVal
  rw [cast_1x1x16_of_16, addf_at, addf_at, mulf_at]
  unfold diffRow
  rw [subf_at]
  unfold row0 typeF
  rw [splat_apply, sitofp_apply]
  rw [load7_apply X _ h7 (x 2) (ix3 b (⟨16 * t.val + kk.val, by omega⟩ : Fin 128) (⟨16 * dd.val + (x 2).val, by omega⟩ : Fin 128)) rfl rfl rfl,
    load8_apply f8 0 _ h0 (x 2) (ix2 (0 : Fin 2) (⟨16 * dd.val + (x 2).val, by omega⟩ : Fin 128)) rfl rfl,
    load8_apply f8 1 _ h1 (x 2) (ix2 (1 : Fin 2) (⟨16 * dd.val + (x 2).val, by omega⟩ : Fin 128)) rfl rfl,
    load6_apply f6 _ h6 kk (ix3 b (1 : Fin 2) (⟨16 * t.val + kk.val, by omega⟩ : Fin 128)) rfl rfl rfl]
  rfl

/-! ## How far the handling has got -/

/-- At the loop's entry nothing is handled. -/
theorem mix_zero (b : Fin 4) (f6 : C6 F) (f8 : C8 F) (X0 : C7 F) : Mix b 0 f6 f8 X0 X0 := by
  intro i _
  rw [if_neg (Nat.not_lt_zero _)]

/-- A slot has 128 rows of 8 pieces: after 1024 pieces every entry of the slot is handled. -/
theorem mix_done (b : Fin 4) (f6 : C6 F) (f8 : C8 F) (X0 X : C7 F) (h : Mix b 1024 f6 f8 X0 X) :
    ∀ i : S4x128x128.Idx, (i 0).val = b.val → X i = finOf f6 f8 b X0 i := by
  intro i hi
  have hi1 : (i 1).val < 128 := (i 1).isLt
  have hi2 : (i 2).val < 128 := (i 2).isLt
  rw [h i hi, if_pos (by omega)]

/-- The count may be spelt another way. -/
theorem mix_cast {N N' : ℕ} (b : Fin 4) (f6 : C6 F) (f8 : C8 F) (X0 X : C7 F) (h : N = N') :
    Mix b N f6 f8 X0 X → Mix b N' f6 f8 X0 X := by
  subst h; exact id

/-- One store handles the next piece: piece number 128 t + 8 kk + dd is row 16 t + kk, lanes 16 dd .. 16 dd + 15. -/
theorem mix_step (b : Fin 4) (f6 : C6 F) (f8 : C8 F) (X0 X : C7 F) (t : Fin 8) (kk : Fin 16) (dd : Fin 8)
    (hX : Mix b (128 * t.val + 8 * kk.val + dd.val) f6 f8 X0 X)
    (o6 : Fin 3 → ℕ) (h6 : ∀ a, o6 a + S1x1x16.size a ≤ S4x2x128.size a) (hs : S16.Slices ![kk.val] S1) (c : ℕ)
    (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a)
    (ho6 : o6 = ![b.val, 1, 16 * t.val]) (hc : c = 16 * dd.val) (ho7 : o7 = ![b.val, 16 * t.val + kk.val, 16 * dd.val])
    (pay : FVec F S1x1x16 .f32) (hpay : pay = storeVal f6 f8 X o6 h6 kk.val hs c h0 h1 o7 h7) :
    Mix b (128 * t.val + 8 * kk.val + dd.val + 1) f6 f8 X0
      (View.write (Elt F) ((a7).access (Rect.unit (s := S4x128x128) o7 S1x1x16.size h7)) X pay Finset.univ) := by
  intro i hi
  have ht := t.isLt
  have hk := kk.isLt
  have hd := dd.isLt
  have hi1 : (i 1).val < 128 := (i 1).isLt
  have hi2 : (i 2).val < 128 := (i 2).isLt
  by_cases hp : (i 1).val = 16 * t.val + kk.val ∧ (i 2).val / 16 = dd.val
  · -- an entry of the written piece: it takes the stored lane
    obtain ⟨hp1, hp2⟩ := hp
    obtain ⟨x, hx⟩ : ∃ x : S1x1x16.Idx, (x 2).val = (i 2).val - 16 * dd.val :=
      ⟨ix3 (0 : Fin 1) (0 : Fin 1) (⟨(i 2).val - 16 * dd.val, by omega⟩ : Fin 16), rfl⟩
    have hx0 : (x 0).val < 1 := (x 0).isLt
    have hx1 : (x 1).val < 1 := (x 1).isLt
    have hemb : ((a7).access (Rect.unit (s := S4x128x128) o7 S1x1x16.size h7)).emb x = i := by
      subst ho7
      funext a
      apply Fin.ext
      match a with
      | ⟨0, _⟩ => show b.val + 1 * (x 0).val = (i 0).val; omega
      | ⟨1, _⟩ => show (16 * t.val + kk.val) + 1 * (x 1).val = (i 1).val; omega
      | ⟨2, _⟩ => show 16 * dd.val + 1 * (x 2).val = (i 2).val; omega
    have hw : View.write (Elt F) ((a7).access (Rect.unit (s := S4x128x128) o7 S1x1x16.size h7)) X pay Finset.univ i = pay x := by
      have hwe := View.write_emb_of_mem (v := (a7).access (Rect.unit (s := S4x128x128) o7 S1x1x16.size h7)) (Val := Elt F) X pay
        (Finset.mem_univ x)
      rw [hemb] at hwe
      exact hwe
    have hidx : (ix3 b (⟨16 * t.val + kk.val, by omega⟩ : Fin 128) (⟨16 * dd.val + (x 2).val, by omega⟩ : Fin 128) : S4x128x128.Idx) = i := by
      funext a
      apply Fin.ext
      match a with
      | ⟨0, _⟩ => show b.val = (i 0).val; omega
      | ⟨1, _⟩ => show 16 * t.val + kk.val = (i 1).val; omega
      | ⟨2, _⟩ => show 16 * dd.val + (x 2).val = (i 2).val; omega
    have hXi : X i = X0 i := by rw [hX i hi, if_neg (by omega)]
    rw [hw, hpay, storeVal_apply f6 f8 X b t kk dd o6 h6 hs c h0 h1 o7 h7 ho6 hc ho7 x, hidx, if_pos (by omega)]
    unfold finOf
    rw [hXi]
  · -- any other entry keeps its value, and its piece number is not the written one
    have hnot : i ∉ ((a7).access (Rect.unit (s := S4x128x128) o7 S1x1x16.size h7)).setOn Finset.univ := by
      intro hmem
      unfold View.setOn at hmem
      obtain ⟨x, _, hx⟩ := Finset.mem_map.1 hmem
      have hx1 : (x 1).val < 1 := (x 1).isLt
      have hx2 : (x 2).val < 16 := (x 2).isLt
      subst ho7
      have e1 : (i 1).val = (16 * t.val + kk.val) + 1 * (x 1).val := by rw [← hx]; rfl
      have e2 : (i 2).val = 16 * dd.val + 1 * (x 2).val := by rw [← hx]; rfl
      exact hp ⟨by omega, by omega⟩
    rw [View.write_of_not_mem _ _ _ hnot, hX i hi]
    by_cases hlt : 8 * (i 1).val + (i 2).val / 16 < 128 * t.val + 8 * kk.val + dd.val
    · rw [if_pos hlt, if_pos (by omega)]
    · have hne : ¬ (8 * (i 1).val + (i 2).val / 16 < 128 * t.val + 8 * kk.val + dd.val + 1) := by omega
      rw [if_neg hlt, if_neg hne]

end Cert.Proof.KI

end
-- ==== Proof.Respell.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.KerPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! A tile's chunk, named by its number, is the window the program computes for it: the copy of chunk g's indices in
    the loop's trip t reads the window at the printed offset for g = 4 t + 4 + b, the write-back of chunk g = 4 t + b
    writes the window at the printed offset of row 128 · (chunk number). -/

theorem chunkA5_eq (L : grid0.Coords) (t1 : Fin k0_t1_loop.trips) (r : Fin 4) (g : Fin 200) (e : g.val = 4 * t1.val + r.val) :
    chunkA5 L g = (a5).slice (Rect.unit (s := S819200x128) (k0_off12 L t1 (BitVec.ofNat 32 r.val)) S128x128.size (k0_off12_inb L t1 r)) (fun _ => rfl) := by
  have eo : (![128 * (c0 L + g.val), 0] : Fin 2 → ℕ) = k0_off12 L t1 (BitVec.ofNat 32 r.val) := by
    rw [k0_off12_eq, e]; unfold c0
    funext a; fin_cases a
    · show 128 * (400 * (L 1).val + 200 * (L 0).val + (4 * t1.val + r.val)) = 51200 * (L 1).val + 25600 * (L 0).val + 512 * t1.val + 128 * r.val
      omega
    · rfl
  exact Memref.slice_unit_eq_of_eq (a5) (inbA5 L g) (fun _ => rfl) eo

theorem chunkA2_eq_of (L : grid0.Coords) (g : Fin 200) (o : Fin 3 → ℕ) (h : ∀ a, o a + S1x2x128.size a ≤ S6400x2x128.size a)
    (eo : (![c0 L + g.val, 0, 0] : Fin 3 → ℕ) = o) :
    chunkA2 L g = ((a2).slice (Rect.unit (s := S6400x2x128) o S1x2x128.size h) (fun _ => rfl)).squeeze S2x128 squeezes_S1x2x128_S2x128 := by
  unfold chunkA2
  rw [Memref.slice_unit_eq_of_eq (a2) (inbA2 L g) (fun _ => rfl) eo]

theorem off1_eq (L : grid0.Coords) (r : Fin 4) (g : Fin 200) (e : g.val = r.val) :
    (![c0 L + g.val, 0, 0] : Fin 3 → ℕ) = k0_off1 L (BitVec.ofNat 32 r.val) := by rw [k0_off1_eq, e]; rfl
theorem off11_eq (L : grid0.Coords) (t1 : Fin k0_t1_loop.trips) (g : Fin 200) (e : g.val = 4 * t1.val + 4) :
    (![c0 L + g.val, 0, 0] : Fin 3 → ℕ) = k0_off11 L t1 := by
  rw [k0_off11_eq, e]; unfold c0; funext a; fin_cases a
  · show 400 * (L 1).val + 200 * (L 0).val + (4 * t1.val + 4) = 400 * (L 1).val + 200 * (L 0).val + 4 * t1.val + 4; omega
  · rfl
  · rfl
theorem off22_eq (L : grid0.Coords) (t1 : Fin k0_t1_loop.trips) (g : Fin 200) (e : g.val = 4 * t1.val + 5) :
    (![c0 L + g.val, 0, 0] : Fin 3 → ℕ) = k0_off22 L t1 := by
  rw [k0_off22_eq, e]; unfold c0; funext a; fin_cases a
  · show 400 * (L 1).val + 200 * (L 0).val + (4 * t1.val + 5) = 400 * (L 1).val + 200 * (L 0).val + 4 * t1.val + 5; omega
  · rfl
  · rfl
theorem off32_eq (L : grid0.Coords) (t1 : Fin k0_t1_loop.trips) (g : Fin 200) (e : g.val = 4 * t1.val + 6) :
    (![c0 L + g.val, 0, 0] : Fin 3 → ℕ) = k0_off32 L t1 := by
  rw [k0_off32_eq, e]; unfold c0; funext a; fin_cases a
  · show 400 * (L 1).val + 200 * (L 0).val + (4 * t1.val + 6) = 400 * (L 1).val + 200 * (L 0).val + 4 * t1.val + 6; omega
  · rfl
  · rfl
theorem off42_eq (L : grid0.Coords) (t1 : Fin k0_t1_loop.trips) (g : Fin 200) (e : g.val = 4 * t1.val + 7) :
    (![c0 L + g.val, 0, 0] : Fin 3 → ℕ) = k0_off42 L t1 := by
  rw [k0_off42_eq, e]; unfold c0; funext a; fin_cases a
  · show 400 * (L 1).val + 200 * (L 0).val + (4 * t1.val + 7) = 400 * (L 1).val + 200 * (L 0).val + 4 * t1.val + 7; omega
  · rfl
  · rfl

/-! The trip's conditions, decided by the trip's number. -/

theorem cond2_pos : ∀ t1 : Fin k0_t1_loop.trips, t1.val < 49 → k0_cond2 t1 = 1#1 := by decide +kernel
theorem cond4_pos : ∀ t1 : Fin k0_t1_loop.trips, t1.val < 49 → k0_cond4 t1 = 1#1 := by decide +kernel
theorem cond6_pos : ∀ t1 : Fin k0_t1_loop.trips, t1.val < 49 → k0_cond6 t1 = 1#1 := by decide +kernel
theorem cond8_pos : ∀ t1 : Fin k0_t1_loop.trips, t1.val < 49 → k0_cond8 t1 = 1#1 := by decide +kernel
theorem cond2_neg : ∀ t1 : Fin k0_t1_loop.trips, ¬ t1.val < 49 → ¬ k0_cond2 t1 = 1#1 := by decide +kernel
theorem cond4_neg : ∀ t1 : Fin k0_t1_loop.trips, ¬ t1.val < 49 → ¬ k0_cond4 t1 = 1#1 := by decide +kernel
theorem cond6_neg : ∀ t1 : Fin k0_t1_loop.trips, ¬ t1.val < 49 → ¬ k0_cond6 t1 = 1#1 := by decide +kernel
theorem cond8_neg : ∀ t1 : Fin k0_t1_loop.trips, ¬ t1.val < 49 → ¬ k0_cond8 t1 = 1#1 := by decide +kernel

end Cert.Proof.KI
end
-- ==== Proof.Respell2.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.KerPay
import proofs.«207534_g35055523070033_cont_8to1_b_222_9_alg».proof.Proof.Respell

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords)

omit [FloatOps F] in
/-- Two spellings of one window of the flat result hold the same elements. -/
theorem slice5_pts_congr (o o' : Fin 2 → ℕ) (h : ∀ a, o a + S128x128.size a ≤ S819200x128.size a) (h' : ∀ a, o' a + S128x128.size a ≤ S819200x128.size a)
    (e : o = o') (q : PosShare TreeShare) (X : C5 F) :
    ((((a5).slice (Rect.unit (s := S819200x128) o S128x128.size h) (fun _ => rfl)).view.loc (thr d L)
        ↦[((a5).slice (Rect.unit (s := S819200x128) o S128x128.size h) (fun _ => rfl)).view.set]{q} X : sProp 𝕄))
      = (((a5).slice (Rect.unit (s := S819200x128) o' S128x128.size h') (fun _ => rfl)).view.loc (thr d L)
        ↦[((a5).slice (Rect.unit (s := S819200x128) o' S128x128.size h') (fun _ => rfl)).view.set]{q} X) := by
  subst e; rfl

omit [FloatOps F] in
/-- Two spellings of one chunk of the stacked index array hold the same elements. -/
theorem slice2_pts_congr (o o' : Fin 3 → ℕ) (h : ∀ a, o a + S1x2x128.size a ≤ S6400x2x128.size a) (h' : ∀ a, o' a + S1x2x128.size a ≤ S6400x2x128.size a)
    (e : o = o') (q : PosShare TreeShare) (X : C2 F) :
    (((((a2).slice (Rect.unit (s := S6400x2x128) o S1x2x128.size h) (fun _ => rfl)).squeeze S2x128 squeezes_S1x2x128_S2x128).view.loc (thr d L)
        ↦[(((a2).slice (Rect.unit (s := S6400x2x128) o S1x2x128.size h) (fun _ => rfl)).squeeze S2x128 squeezes_S1x2x128_S2x128).view.set]{q} X : sProp 𝕄))
      = ((((a2).slice (Rect.unit (s := S6400x2x128) o' S1x2x128.size h') (fun _ => rfl)).squeeze S2x128 squeezes_S1x2x128_S2x128).view.loc (thr d L)
        ↦[(((a2).slice (Rect.unit (s := S6400x2x128) o' S1x2x128.size h') (fun _ => rfl)).squeeze S2x128 squeezes_S1x2x128_S2x128).view.set]{q} X) := by
  subst e; rfl

omit [FloatOps F] in
/-- A chunk's rows of the flat result, held under the window the program computes. -/
theorem outpiece_prog (X : C5 F) (g : Fin 200) (o : Fin 2 → ℕ) (h : ∀ a, o a + S128x128.size a ≤ S819200x128.size a)
    (eo : (![128 * (c0 L + g.val), 0] : Fin 2 → ℕ) = o) :
    (outpiece d L X g : sProp 𝕄)
      = (((a5).slice (Rect.unit (s := S819200x128) o S128x128.size h) (fun _ => rfl)).view.loc (thr d L)
          ↦[((a5).slice (Rect.unit (s := S819200x128) o S128x128.size h) (fun _ => rfl)).view.set]{fullShare} X) :=
  slice5_pts_congr d L _ _ (inbA5 L g) h eo fullShare X

omit [FloatOps F] in
/-- A chunk's rows of the stacked index array, held under a window computed as offset o. -/
theorem a2piece_prog (f2 : C2 F) (g : Fin 200) (o : Fin 3 → ℕ) (h : ∀ a, o a + S1x2x128.size a ≤ S6400x2x128.size a)
    (eo : (![c0 L + g.val, 0, 0] : Fin 3 → ℕ) = o) :
    (a2piece d L f2 g : sProp 𝕄)
      = ((((a2).slice (Rect.unit (s := S6400x2x128) o S1x2x128.size h) (fun _ => rfl)).squeeze S2x128 squeezes_S1x2x128_S2x128).view.loc (thr d L)
          ↦[(((a2).slice (Rect.unit (s := S6400x2x128) o S1x2x128.size h) (fun _ => rfl)).squeeze S2x128 squeezes_S1x2x128_S2x128).view.set]{shA L} f2) :=
  slice2_pts_congr d L _ _ (inbA2 L g) h eo (shA L) f2

omit [FloatOps F] in
theorem off12_eq (t1 : Fin k0_t1_loop.trips) (r : Fin 4) (g : Fin 200) (e : g.val = 4 * t1.val + r.val) :
    (![128 * (c0 L + g.val), 0] : Fin 2 → ℕ) = k0_off12 L t1 (BitVec.ofNat 32 r.val) := by
  rw [k0_off12_eq, e]; unfold c0
  funext a; fin_cases a
  · show 128 * (400 * (L 1).val + 200 * (L 0).val + (4 * t1.val + r.val)) = 51200 * (L 1).val + 25600 * (L 0).val + 512 * t1.val + 128 * r.val
    omega
  · rfl

end Cert.Proof.KI
end
-- ==== Proof.Landing.lean ====
/-
  What the kernel's copies leave, entry by entry. A slot of a ring buffer is a box of the buffer with its leading
  unit axis dropped; dropping the axis keeps row-major positions, so entry (r, k) of slot b is entry (b, r, k) of the
  buffer, and likewise chunk c of the stacked index array and chunk c of the flat result. A copy into a slot writes
  the whole slot: afterwards the slot's entry at (r, k) is the copied array's entry at (r, k). A gather writes into
  row k of the slot the table's row named by word k of the list; in range that row is the one `wordOf` names.
  After the inner loop the slot holds gathered row plus blend, and the copy out puts the slot at rows
  128 · chunk .. 128 · chunk + 127 of the flat result, which is what `outFlat` says of those rows.
-/
import proofs.«207534_g35055523070033_cont_8to1_b_222_9_alg».proof.Proof.Canon
import proofs.«207534_g35055523070033_cont_8to1_b_222_9_alg».proof.Proof.Geom
import proofs.«207534_g35055523070033_cont_8to1_b_222_9_alg».proof.Proof.InnerStep
import proofs.«207534_g35055523070033_cont_8to1_b_222_9_alg».proof.Proof.FlatBridge
import Idealize.ShloMosaic.Lib.SparseCore.Launch
import Idealize.ShloMosaic.Lib.Writes

noncomputable section

namespace Cert.Proof.KI

open Cert.KernelIdeal Cert.KernelIdeal.Gen
open Idealize.ShloMosaic Idealize.ShloMosaic.ValueIdx

variable {F : FTy → Type} [FloatOps F]

/-! ## Where a slot's entries sit in its buffer -/

/-- Entry (r, k) of slot b of the word buffer is the buffer's entry (b, r, k). -/
theorem slot6_emb (b : ℕ) (hb : ∀ a, (![b, 0, 0] : Fin 3 → ℕ) a + S1x2x128.size a ≤ S4x2x128.size a) (x : S2x128.Idx)
    (i : S4x2x128.Idx) (e0 : (i 0).val = b) (e1 : (i 1).val = (x 0).val) (e2 : (i 2).val = (x 1).val) :
    (((a6).slice (Rect.unit (s := S4x2x128) ![b, 0, 0] S1x2x128.size hb) (fun _ => rfl)).squeeze S2x128
      squeezes_S1x2x128_S2x128).view.emb x = i := by
  have hx0 : (x 0).val < 2 := (x 0).isLt
  have hx1 : (x 1).val < 128 := (x 1).isLt
  refine (congrArg (Rect.unit (s := S4x2x128) ![b, 0, 0] S1x2x128.size hb).emb
    (Shape.reshapeEquiv_eq_of_rowMajor _ (y := (ix3 (0 : Fin 1) (x 0) (x 1) : S1x2x128.Idx)) ?_)).trans ?_
  · rw [Shape.rowMajor_val_three, Shape.rowMajor_val_two]
    show (0 * 2 + (x 0).val) * 128 + (x 1).val = (x 0).val * 128 + (x 1).val
    omega
  · funext a
    apply Fin.ext
    match a with
    | ⟨0, _⟩ => show b + 1 * 0 = (i 0).val; omega
    | ⟨1, _⟩ => show 0 + 1 * (x 0).val = (i 1).val; omega
    | ⟨2, _⟩ => show 0 + 1 * (x 1).val = (i 2).val; omega

/-- Entry k of the word list of slot b is the buffer's entry (b, 0, k). -/
theorem list6_emb (b : ℕ) (hb : ∀ a, (![b, 0, 0] : Fin 3 → ℕ) a + S1x1x128.size a ≤ S4x2x128.size a) (x : S128.Idx)
    (i : S4x2x128.Idx) (e0 : (i 0).val = b) (e1 : (i 1).val = 0) (e2 : (i 2).val = (x 0).val) :
    (((a6).slice (Rect.unit (s := S4x2x128) ![b, 0, 0] S1x1x128.size hb) (fun _ => rfl)).squeeze S128
      squeezes_S1x1x128_S128).view.emb x = i := by
  have hx0 : (x 0).val < 128 := (x 0).isLt
  refine (congrArg (Rect.unit (s := S4x2x128) ![b, 0, 0] S1x1x128.size hb).emb
    (Shape.reshapeEquiv_eq_of_rowMajor _ (y := (ix3 (0 : Fin 1) (0 : Fin 1) (x 0) : S1x1x128.Idx)) ?_)).trans ?_
  · rw [Shape.rowMajor_val_three, Shape.rowMajor_val_one]
    show (0 * 1 + 0) * 128 + (x 0).val = (x 0).val
    omega
  · funext a
    apply Fin.ext
    match a with
    | ⟨0, _⟩ => show b + 1 * 0 = (i 0).val; omega
    | ⟨1, _⟩ => show 0 + 1 * 0 = (i 1).val; omega
    | ⟨2, _⟩ => show 0 + 1 * (x 0).val = (i 2).val; omega

/-- Entry (k, e) of slot b of the row buffer is the buffer's entry (b, k, e). -/
theorem slot7_emb (b : ℕ) (hb : ∀ a, (![b, 0, 0] : Fin 3 → ℕ) a + S1x128x128.size a ≤ S4x128x128.size a) (x : S128x128.Idx)
    (i : S4x128x128.Idx) (e0 : (i 0).val = b) (e1 : (i 1).val = (x 0).val) (e2 : (i 2).val = (x 1).val) :
    (((a7).slice (Rect.unit (s := S4x128x128) ![b, 0, 0] S1x128x128.size hb) (fun _ => rfl)).squeeze S128x128
      squeezes_S1x128x128_S128x128).view.emb x = i := by
  have hx0 : (x 0).val < 128 := (x 0).isLt
  have hx1 : (x 1).val < 128 := (x 1).isLt
  refine (congrArg (Rect.unit (s := S4x128x128) ![b, 0, 0] S1x128x128.size hb).emb
    (Shape.reshapeEquiv_eq_of_rowMajor _ (y := (ix3 (0 : Fin 1) (x 0) (x 1) : S1x128x128.Idx)) ?_)).trans ?_
  · rw [Shape.rowMajor_val_three, Shape.rowMajor_val_two]
    show (0 * 128 + (x 0).val) * 128 + (x 1).val = (x 0).val * 128 + (x 1).val
    omega
  · funext a
    apply Fin.ext
    match a with
    | ⟨0, _⟩ => show b + 1 * 0 = (i 0).val; omega
    | ⟨1, _⟩ => show 0 + 1 * (x 0).val = (i 1).val; omega
    | ⟨2, _⟩ => show 0 + 1 * (x 1).val = (i 2).val; omega

/-- Entry (r, k) of chunk c of the stacked index array is the array's entry (c, r, k). -/
theorem chunk2_emb (o : Fin 3 → ℕ) (h : ∀ a, o a + S1x2x128.size a ≤ S6400x2x128.size a) (x : S2x128.Idx)
    (i : S6400x2x128.Idx) (e0 : (i 0).val = o 0) (e1 : (i 1).val = o 1 + (x 0).val) (e2 : (i 2).val = o 2 + (x 1).val) :
    (((a2).slice (Rect.unit (s := S6400x2x128) o S1x2x128.size h) (fun _ => rfl)).squeeze S2x128
      squeezes_S1x2x128_S2x128).view.emb x = i := by
  have hx0 : (x 0).val < 2 := (x 0).isLt
  have hx1 : (x 1).val < 128 := (x 1).isLt
  refine (congrArg (Rect.unit (s := S6400x2x128) o S1x2x128.size h).emb
    (Shape.reshapeEquiv_eq_of_rowMajor _ (y := (ix3 (0 : Fin 1) (x 0) (x 1) : S1x2x128.Idx)) ?_)).trans ?_
  · rw [Shape.rowMajor_val_three, Shape.rowMajor_val_two]
    show (0 * 2 + (x 0).val) * 128 + (x 1).val = (x 0).val * 128 + (x 1).val
    omega
  · funext a
    apply Fin.ext
    match a with
    | ⟨0, _⟩ => show o 0 + 1 * 0 = (i 0).val; omega
    | ⟨1, _⟩ => show o 1 + 1 * (x 0).val = (i 1).val; omega
    | ⟨2, _⟩ => show o 2 + 1 * (x 1).val = (i 2).val; omega

/-! ## A chunk of the stacked index array, read -/

theorem chunk_read (f2 : C2 F) (c : Fin 6400) (o : Fin 3 → ℕ) (h : ∀ a, o a + S1x2x128.size a ≤ S6400x2x128.size a)
    (ho : o = ![c.val, 0, 0]) (x : S2x128.Idx) :
    ReadAs.same.apply (View.read (Elt F) (((a2).slice (Rect.unit (s := S6400x2x128) o S1x2x128.size h) (fun _ => rfl)).squeeze S2x128
      squeezes_S1x2x128_S2x128).view f2) x = f2 (ix3 c (x 0) (x 1)) := by
  subst ho
  show f2 ((((a2).slice (Rect.unit (s := S6400x2x128) ![c.val, 0, 0] S1x2x128.size h) (fun _ => rfl)).squeeze S2x128
      squeezes_S1x2x128_S2x128).view.emb x) = _
  rw [chunk2_emb ![c.val, 0, 0] h x (ix3 c (x 0) (x 1)) rfl (by show (x 0).val = 0 + (x 0).val; omega)
    (by show (x 1).val = 0 + (x 1).val; omega)]

/-! ## The type rows' copy -/

theorem tt_land (g8 : C8 F) (f4 : C4 F) :
    View.write (Elt F) (a8).view g8 (ReadAs.same.apply (View.read (Elt F) (a4).view f4)) Finset.univ = ttC f4 := by
  show View.write (Elt F) (View.whole cc0_scratch2) g8 f4 Finset.univ = ttC f4
  rw [View.write_whole_univ]
  rfl

/-! ## The slots, with the slot number a variable -/

abbrev slot6 (b : ℕ) (hb : ∀ a, (![b, 0, 0] : Fin 3 → ℕ) a + S1x2x128.size a ≤ S4x2x128.size a) : Memref sig .scVector .vmem S2x128 .i32 :=
  ((a6).slice (Rect.unit (s := S4x2x128) ![b, 0, 0] S1x2x128.size hb) (fun _ => rfl)).squeeze S2x128 squeezes_S1x2x128_S2x128
abbrev list6 (b : ℕ) (hb : ∀ a, (![b, 0, 0] : Fin 3 → ℕ) a + S1x1x128.size a ≤ S4x2x128.size a) : Memref sig .scVector .vmem S128 .i32 :=
  ((a6).slice (Rect.unit (s := S4x2x128) ![b, 0, 0] S1x1x128.size hb) (fun _ => rfl)).squeeze S128 squeezes_S1x1x128_S128
abbrev slot7 (b : ℕ) (hb : ∀ a, (![b, 0, 0] : Fin 3 → ℕ) a + S1x128x128.size a ≤ S4x128x128.size a) : Memref sig .scVector .vmem S128x128 .f32 :=
  ((a7).slice (Rect.unit (s := S4x128x128) ![b, 0, 0] S1x128x128.size hb) (fun _ => rfl)).squeeze S128x128 squeezes_S1x128x128_S128x128

theorem slot6_lt (b : ℕ) (hb : ∀ a, (![b, 0, 0] : Fin 3 → ℕ) a + S1x2x128.size a ≤ S4x2x128.size a) : b < 4 := by
  have h := hb 0
  change b + 1 ≤ 4 at h
  omega
theorem list6_lt (b : ℕ) (hb : ∀ a, (![b, 0, 0] : Fin 3 → ℕ) a + S1x1x128.size a ≤ S4x2x128.size a) : b < 4 := by
  have h := hb 0
  change b + 1 ≤ 4 at h
  omega
theorem slot7_lt (b : ℕ) (hb : ∀ a, (![b, 0, 0] : Fin 3 → ℕ) a + S1x128x128.size a ≤ S4x128x128.size a) : b < 4 := by
  have h := hb 0
  change b + 1 ≤ 4 at h
  omega

/-- After one write of a whole view, the view reads the written payload. -/
theorem read_writes_whole {κ : Kind} {sp : Space} {s : Shape} {e : EltTy} (v : View sig κ sp s e) (f : v.ty.Contents (Elt F))
    (w : s.Idx → Elt F e) (x : s.Idx) :
    v.read (Elt F) (v.writes (Elt F) f [⟨Rect.whole s, w⟩]) x = w x := by
  have h := View.read_writes_cons_emb v f (Rect.whole s) w [] x
  rwa [Rect.emb_whole_apply] at h

/-! ## The index chunk's copy into a slot of the word buffer -/

theorem it_land_gen (b : ℕ) (hb : ∀ a, (![b, 0, 0] : Fin 3 → ℕ) a + S1x2x128.size a ≤ S4x2x128.size a) (g6 : C6 F) (f2 : C2 F)
    (c : Fin 6400) (p : S2x128.Idx → Elt F .i32) (hp : ∀ x, p x = f2 (ix3 c (x 0) (x 1))) :
    ∀ i ∈ (slot6 b hb).view.set, (slot6 b hb).view.writes (Elt F) g6 [⟨Rect.whole S2x128, p⟩] i = itvC f2 c i := by
  intro i hi
  unfold View.set at hi
  obtain ⟨x, -, rfl⟩ := Finset.mem_map.1 hi
  have hr := read_writes_whole (slot6 b hb).view g6 p x
  have he := slot6_emb b hb x (ix3 (⟨b, slot6_lt b hb⟩ : Fin 4) (x 0) (x 1)) rfl rfl rfl
  have hc : itvC f2 c ((slot6 b hb).view.emb x) = f2 (ix3 c (x 0) (x 1)) := by rw [he]; rfl
  exact (hr.trans (hp x)).trans hc.symm

theorem it_land_0 (g6 : C6 F) (f2 : C2 F) (c : Fin 6400) (p : S2x128.Idx → Elt F .i32) (hp : ∀ x, p x = f2 (ix3 c (x 0) (x 1))) :
    ∀ i ∈ (s60).view.set, (s60).view.writes (Elt F) g6 [⟨Rect.whole S2x128, p⟩] i = itvC f2 c i := it_land_gen 0 _ g6 f2 c p hp
theorem it_land_1 (g6 : C6 F) (f2 : C2 F) (c : Fin 6400) (p : S2x128.Idx → Elt F .i32) (hp : ∀ x, p x = f2 (ix3 c (x 0) (x 1))) :
    ∀ i ∈ (s61).view.set, (s61).view.writes (Elt F) g6 [⟨Rect.whole S2x128, p⟩] i = itvC f2 c i := it_land_gen 1 _ g6 f2 c p hp
theorem it_land_2 (g6 : C6 F) (f2 : C2 F) (c : Fin 6400) (p : S2x128.Idx → Elt F .i32) (hp : ∀ x, p x = f2 (ix3 c (x 0) (x 1))) :
    ∀ i ∈ (s62).view.set, (s62).view.writes (Elt F) g6 [⟨Rect.whole S2x128, p⟩] i = itvC f2 c i := it_land_gen 2 _ g6 f2 c p hp
theorem it_land_3 (g6 : C6 F) (f2 : C2 F) (c : Fin 6400) (p : S2x128.Idx → Elt F .i32) (hp : ∀ x, p x = f2 (ix3 c (x 0) (x 1))) :
    ∀ i ∈ (s63).view.set, (s63).view.writes (Elt F) g6 [⟨Rect.whole S2x128, p⟩] i = itvC f2 c i := it_land_gen 3 _ g6 f2 c p hp

/-! ## The word list of a slot, read -/

theorem list_read_gen (b : ℕ) (hb : ∀ a, (![b, 0, 0] : Fin 3 → ℕ) a + S1x1x128.size a ≤ S4x2x128.size a) (f2 : C2 F) (c : Fin 6400)
    (g6 : C6 F) (hg : ∀ i ∈ (list6 b hb).view.set, g6 i = itvC f2 c i) (x : S128.Idx) :
    View.read (Elt F) (list6 b hb).view g6 x = f2 (ix3 c (0 : Fin 2) (x 0)) := by
  have he := list6_emb b hb x (ix3 (⟨b, list6_lt b hb⟩ : Fin 4) (0 : Fin 2) (x 0)) rfl rfl rfl
  have hm : (list6 b hb).view.emb x ∈ (list6 b hb).view.set := Finset.mem_map_of_mem _ (Finset.mem_univ x)
  show g6 ((list6 b hb).view.emb x) = _
  rw [hg _ hm, he]
  rfl

theorem list_read_0 (f2 : C2 F) (c : Fin 6400) (g6 : C6 F) (hg : ∀ i ∈ (l60).view.set, g6 i = itvC f2 c i) (x : S128.Idx) :
    View.read (Elt F) (l60).view g6 x = f2 (ix3 c (0 : Fin 2) (x 0)) := list_read_gen 0 _ f2 c g6 hg x
theorem list_read_1 (f2 : C2 F) (c : Fin 6400) (g6 : C6 F) (hg : ∀ i ∈ (l61).view.set, g6 i = itvC f2 c i) (x : S128.Idx) :
    View.read (Elt F) (l61).view g6 x = f2 (ix3 c (0 : Fin 2) (x 0)) := list_read_gen 1 _ f2 c g6 hg x
theorem list_read_2 (f2 : C2 F) (c : Fin 6400) (g6 : C6 F) (hg : ∀ i ∈ (l62).view.set, g6 i = itvC f2 c i) (x : S128.Idx) :
    View.read (Elt F) (l62).view g6 x = f2 (ix3 c (0 : Fin 2) (x 0)) := list_read_gen 2 _ f2 c g6 hg x
theorem list_read_3 (f2 : C2 F) (c : Fin 6400) (g6 : C6 F) (hg : ∀ i ∈ (l63).view.set, g6 i = itvC f2 c i) (x : S128.Idx) :
    View.read (Elt F) (l63).view g6 x = f2 (ix3 c (0 : Fin 2) (x 0)) := list_read_gen 3 _ f2 c g6 hg x

/-! ## A slot after the inner loop -/

theorem fin_of_mix_gen (b : Fin 4) (bn : ℕ) (hbn : b.val = bn)
    (hb6 : ∀ a, (![bn, 0, 0] : Fin 3 → ℕ) a + S1x2x128.size a ≤ S4x2x128.size a)
    (hb7 : ∀ a, (![bn, 0, 0] : Fin 3 → ℕ) a + S1x128x128.size a ≤ S4x128x128.size a)
    (f2 : C2 F) (f3 : C3 F) (f4 : C4 F) (c : Fin 6400) (g6 : C6 F) (g8 : C8 F) (X0 X : C7 F)
    (h6 : ∀ i ∈ (slot6 bn hb6).view.set, g6 i = itvC f2 c i) (h8 : g8 = ttC f4)
    (h0 : ∀ i ∈ (slot7 bn hb7).view.set, X0 i = gathC f2 f3 c i) (hX : Mix b 1024 g6 g8 X0 X) :
    ∀ i ∈ (slot7 bn hb7).view.set, X i = finC f2 f3 f4 b c i := by
  subst hbn
  intro i hi
  have hib : (i 0).val = b.val := (slot7_mem b.val hb7 i).1 hi
  rw [mix_done b g6 g8 X0 X hX i hib]
  unfold finC finOf
  rw [h0 i hi, h8, h6 (ix3 b (1 : Fin 2) (i 1)) ((slot6_mem b.val hb6 _).2 rfl)]

theorem fin_of_mix_0 (f2 : C2 F) (f3 : C3 F) (f4 : C4 F) (c : Fin 6400) (g6 : C6 F) (g8 : C8 F) (X0 X : C7 F)
    (h6 : ∀ i ∈ (s60).view.set, g6 i = itvC f2 c i) (h8 : g8 = ttC f4) (h0 : ∀ i ∈ (s70).view.set, X0 i = gathC f2 f3 c i)
    (hX : Mix 0 1024 g6 g8 X0 X) : ∀ i ∈ (s70).view.set, X i = finC f2 f3 f4 0 c i :=
  fin_of_mix_gen 0 0 rfl _ _ f2 f3 f4 c g6 g8 X0 X h6 h8 h0 hX
theorem fin_of_mix_1 (f2 : C2 F) (f3 : C3 F) (f4 : C4 F) (c : Fin 6400) (g6 : C6 F) (g8 : C8 F) (X0 X : C7 F)
    (h6 : ∀ i ∈ (s61).view.set, g6 i = itvC f2 c i) (h8 : g8 = ttC f4) (h0 : ∀ i ∈ (s71).view.set, X0 i = gathC f2 f3 c i)
    (hX : Mix 1 1024 g6 g8 X0 X) : ∀ i ∈ (s71).view.set, X i = finC f2 f3 f4 1 c i :=
  fin_of_mix_gen 1 1 rfl _ _ f2 f3 f4 c g6 g8 X0 X h6 h8 h0 hX
theorem fin_of_mix_2 (f2 : C2 F) (f3 : C3 F) (f4 : C4 F) (c : Fin 6400) (g6 : C6 F) (g8 : C8 F) (X0 X : C7 F)
    (h6 : ∀ i ∈ (s62).view.set, g6 i = itvC f2 c i) (h8 : g8 = ttC f4) (h0 : ∀ i ∈ (s72).view.set, X0 i = gathC f2 f3 c i)
    (hX : Mix 2 1024 g6 g8 X0 X) : ∀ i ∈ (s72).view.set, X i = finC f2 f3 f4 2 c i :=
  fin_of_mix_gen 2 2 rfl _ _ f2 f3 f4 c g6 g8 X0 X h6 h8 h0 hX
theorem fin_of_mix_3 (f2 : C2 F) (f3 : C3 F) (f4 : C4 F) (c : Fin 6400) (g6 : C6 F) (g8 : C8 F) (X0 X : C7 F)
    (h6 : ∀ i ∈ (s63).view.set, g6 i = itvC f2 c i) (h8 : g8 = ttC f4) (h0 : ∀ i ∈ (s73).view.set, X0 i = gathC f2 f3 c i)
    (hX : Mix 3 1024 g6 g8 X0 X) : ∀ i ∈ (s73).view.set, X i = finC f2 f3 f4 3 c i :=
  fin_of_mix_gen 3 3 rfl _ _ f2 f3 f4 c g6 g8 X0 X h6 h8 h0 hX

/-! ## The gather's landing in a slot of the row buffer -/

theorem gath_land_gen (b : ℕ) (hb : ∀ a, (![b, 0, 0] : Fin 3 → ℕ) a + S1x128x128.size a ≤ S4x128x128.size a) (g7 : C7 F) (f2 : C2 F)
    (f3 : C3 F) (c : Fin 6400) (lst : S128.Idx → Elt F .i32) (hl : ∀ x, lst x = f2 (ix3 c (0 : Fin 2) (x 0)))
    (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (slot7 b hb).view.set, (slot7 b hb).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := by
  intro i hi
  unfold View.set at hi
  obtain ⟨x, -, rfl⟩ := Finset.mem_map.1 hi
  have hx1 : (x 1).val < 128 := (x 1).isLt
  have hrd := read_writes_whole (slot7 b hb).view g7
    (SparseCore.gatherPayload gathers_S100000x128_S128x128
      (View.read (Elt F) ((a3).slice (Rect.unit (s := S100000x128) ![0, 0] S100000x128.size inb_S100000x128_S100000x128_0_0) hw).view f3)
      (SparseCore.rows lst hn hin)) x
  have he := slot7_emb b hb x (ix3 (⟨b, slot7_lt b hb⟩ : Fin 4) (x 0) (x 1)) rfl rfl rfl
  have hc : gathC f2 f3 c ((slot7 b hb).view.emb x) = f3 (ix2 (wordOf (f2 (ix3 c (0 : Fin 2) (x 0)))) (x 1)) := by rw [he]; rfl
  refine (hrd.trans ?_).trans hc.symm
  show f3 ((Rect.unit (s := S100000x128) ![0, 0] S100000x128.size inb_S100000x128_S100000x128_0_0).emb
    (gathers_S100000x128_S128x128.idx (SparseCore.rows lst hn hin) x)) = _
  congr 1
  funext a
  apply Fin.ext
  match a with
  | ⟨0, _⟩ =>
    have hy0 : ((S128.rowMajor.symm ((x gathers_S100000x128_S128x128.axis').cast hn.symm)) 0 : Fin 128) = x 0 := by
      apply Fin.ext
      have h1 := Shape.rowMajor_val_one (S128.rowMajor.symm ((x gathers_S100000x128_S128x128.axis').cast hn.symm))
      rw [Equiv.apply_symm_apply] at h1
      exact h1.symm
    have hlt := hin (S128.rowMajor.symm ((x gathers_S100000x128_S128x128.axis').cast hn.symm))
    change (lst _).toNat < 100000 at hlt
    have hval : lst (S128.rowMajor.symm ((x gathers_S100000x128_S128x128.axis').cast hn.symm)) = f2 (ix3 c (0 : Fin 2) (x 0)) := by
      rw [hl]
      exact congrArg (fun q : Fin 128 => f2 (ix3 c (0 : Fin 2) q)) hy0
    show 0 + 1 * (lst (S128.rowMajor.symm ((x gathers_S100000x128_S128x128.axis').cast hn.symm))).toNat
      = (f2 (ix3 c (0 : Fin 2) (x 0))).toNat % 100000
    rw [hval] at hlt ⊢
    rw [Nat.mod_eq_of_lt hlt]
    omega
  | ⟨1, _⟩ =>
    show 0 + 1 * (gathers_S100000x128_S128x128.idx (SparseCore.rows lst hn hin) x (1 : Fin 2)).val = (x 1).val
    rw [Shape.Gathers.idx_of_ne gathers_S100000x128_S128x128 _ x (1 : Fin 2) (by decide)]
    show 0 + 1 * (x 1).val = (x 1).val
    omega

theorem gath_land_0 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s70).view.set, (s70).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 0 _ g7 f2 f3 c lst hl hn hin hw
theorem gath_land_1 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s71).view.set, (s71).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 1 _ g7 f2 f3 c lst hl hn hin hw
theorem gath_land_2 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s72).view.set, (s72).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 2 _ g7 f2 f3 c lst hl hn hin hw
theorem gath_land_3 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s73).view.set, (s73).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 3 _ g7 f2 f3 c lst hl hn hin hw

/-! ## The copy out of a slot into the flat result -/

theorem out_land_gen (b : Fin 4) (bn : ℕ) (hbn : b.val = bn)
    (hb7 : ∀ a, (![bn, 0, 0] : Fin 3 → ℕ) a + S1x128x128.size a ≤ S4x128x128.size a)
    (L : grid0.Coords) (g : Fin 200) (f2 : C2 F) (f3 : C3 F) (f4 : C4 F) (fo : C5 F) (X : C7 F)
    (hX : ∀ i ∈ (slot7 bn hb7).view.set, X i = finC f2 f3 f4 b (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (slot7 bn hb7).view X)⟩] i = outC f2 f3 f4 i := by
  subst hbn ho
  intro i hi
  unfold View.set at hi
  obtain ⟨y', -, rfl⟩ := Finset.mem_map.1 hi
  obtain ⟨y, rfl⟩ : ∃ y : S128x128.Idx, y = y' := ⟨y', rfl⟩
  have hy0 : (y 0).val < 128 := (y 0).isLt
  have hy1 : (y 1).val < 128 := (y 1).isLt
  have hc := c0_le L
  have hg := g.isLt
  have hrd := read_writes_whole ((a5).slice (Rect.unit (s := S819200x128) ![128 * (c0 L + g.val), 0] S128x128.size h) (fun _ => rfl)).view fo
    (ReadAs.same.apply (View.read (Elt F) (slot7 b.val hb7).view X)) y
  have he7 := slot7_emb b.val hb7 y (ix3 b (y 0) (y 1)) rfl rfl rfl
  have hm7 : (slot7 b.val hb7).view.emb y ∈ (slot7 b.val hb7).view.set := Finset.mem_map_of_mem _ (Finset.mem_univ y)
  have hXy : X ((slot7 b.val hb7).view.emb y) = finC f2 f3 f4 b (chunkNo L g) (ix3 b (y 0) (y 1)) := by rw [hX _ hm7, he7]
  obtain ⟨n, hn⟩ : ∃ n : Fin 819200, n.val = 128 * (c0 L + g.val) + (y 0).val := ⟨⟨_, by omega⟩, rfl⟩
  have he5 : ((a5).slice (Rect.unit (s := S819200x128) ![128 * (c0 L + g.val), 0] S128x128.size h) (fun _ => rfl)).view.emb y
      = @ix2 819200 128 n (y 1) := by
    funext a
    apply Fin.ext
    match a with
    | ⟨0, _⟩ => show 128 * (c0 L + g.val) + 1 * (y 0).val = n.val; omega
    | ⟨1, _⟩ => show 0 + 1 * (y 1).val = (y 1).val; omega
  have hco : Cert.Proof.Spec.chunkOf n = chunkNo L g := Fin.ext (by show n.val / 128 = c0 L + g.val; omega)
  have hpo : Cert.Proof.Spec.posOf n = y 0 := Fin.ext (by show n.val % 128 = (y 0).val; omega)
  have hout : outC f2 f3 f4 (((a5).slice (Rect.unit (s := S819200x128) ![128 * (c0 L + g.val), 0] S128x128.size h) (fun _ => rfl)).view.emb y)
      = finC f2 f3 f4 b (chunkNo L g) (ix3 b (y 0) (y 1)) := by
    rw [he5]
    unfold outC
    rw [Cert.Proof.FlatBridge.outFlat_of_entries f2 f3 f4 n (y 1) _ _ rfl rfl, hco, hpo]
    rfl
  exact (hrd.trans hXy).trans hout.symm

theorem out_land_0 (L : grid0.Coords) (g : Fin 200) (f2 : C2 F) (f3 : C3 F) (f4 : C4 F) (fo : C5 F) (X : C7 F)
    (hX : ∀ i ∈ (s70).view.set, X i = finC f2 f3 f4 0 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s70).view X)⟩] i = outC f2 f3 f4 i :=
  out_land_gen 0 0 rfl _ L g f2 f3 f4 fo X hX o h ho
theorem out_land_1 (L : grid0.Coords) (g : Fin 200) (f2 : C2 F) (f3 : C3 F) (f4 : C4 F) (fo : C5 F) (X : C7 F)
    (hX : ∀ i ∈ (s71).view.set, X i = finC f2 f3 f4 1 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s71).view X)⟩] i = outC f2 f3 f4 i :=
  out_land_gen 1 1 rfl _ L g f2 f3 f4 fo X hX o h ho
theorem out_land_2 (L : grid0.Coords) (g : Fin 200) (f2 : C2 F) (f3 : C3 F) (f4 : C4 F) (fo : C5 F) (X : C7 F)
    (hX : ∀ i ∈ (s72).view.set, X i = finC f2 f3 f4 2 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s72).view X)⟩] i = outC f2 f3 f4 i :=
  out_land_gen 2 2 rfl _ L g f2 f3 f4 fo X hX o h ho
theorem out_land_3 (L : grid0.Coords) (g : Fin 200) (f2 : C2 F) (f3 : C3 F) (f4 : C4 F) (fo : C5 F) (X : C7 F)
    (hX : ∀ i ∈ (s73).view.set, X i = finC f2 f3 f4 3 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s73).view X)⟩] i = outC f2 f3 f4 i :=
  out_land_gen 3 3 rfl _ L g f2 f3 f4 fo X hX o h ho

end Cert.Proof.KI

end
-- ==== Proof.KerInv.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.InnerStep
import proofs.«207534_g35055523070033_cont_8to1_b_222_9_alg».proof.Proof.Respell2
import proofs.«207534_g35055523070033_cont_8to1_b_222_9_alg».proof.Proof.Landing

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-!
  The ring's state between two trips of the outer loop. Trip t handles chunks 4 t … 4 t + 3, one per slot. When it
  starts, the gathers of chunks 4 t and 4 t + 1 are in flight into slots 0 and 1; the copies of the word and type
  indices of chunks 4 t + 2 and 4 t + 3 are in flight into slots 2 and 3; and, after the first trip, the write-backs of
  chunks 4 t - 2 and 4 t - 1 are in flight out of slots 2 and 3. A transfer in flight holds what it will deliver:
  its destination at the contents it will have, and the elements of its source it reads.
-/

variable [FloatOps F] (d : Dev nD) (L : grid0.Coords) (f2 : C2 F) (f3 : C3 F) (f4 : C4 F)

/-- The chunk numbered n of the tile (numbers past the last wrap round: never used there). -/
def gF (n : ℕ) : Fin 200 := ⟨n % 200, Nat.mod_lt _ (by decide)⟩
theorem gF_val {n : ℕ} (h : n < 200) : (gF n).val = n := Nat.mod_eq_of_lt h

/-- The copy of chunk g's indices into slot 0, in flight. -/
def IFl0 (g : Fin 200) : sProp 𝕄 :=
  Transfers.Flight countersEmb (thr d L) (SemLoc.dma cc0_scratch3.sem) default 8192
    iprop(((s60).view.loc (thr d L) ↦[(s60).view.set]{fullShare} itvC f2 (chunkNo L g)) ∗ a2piece d L f2 g)
/-- The gather of chunk g's rows into slot 0, in flight: the slot's rows, its index list, and a share of the table. -/
def GFl0 (g : Fin 200) : sProp 𝕄 :=
  Transfers.Flight countersEmb (thr d L) (SemLoc.dma cc0_scratch7.sem) default 524288
    iprop((((s70).view.loc (thr d L) ↦[(s70).view.set]{fullShare} gathC f2 f3 (chunkNo L g))
        ∗ ((l60).view.loc (thr d L) ↦[(l60).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 0, in flight. -/
def SFl0 (g : Fin 200) : sProp 𝕄 :=
  Transfers.Flight countersEmb (thr d L) (SemLoc.dma cc0_scratch11.sem) default 524288
    iprop((outpiece d L (outC f2 f3 f4) g)
      ∗ ((s70).view.loc (thr d L) ↦[(s70).view.set]{fullShare} finC f2 f3 f4 (0 : Fin 4) (chunkNo L g)))

/-- The copy of chunk g's indices into slot 1, in flight. -/
def IFl1 (g : Fin 200) : sProp 𝕄 :=
  Transfers.Flight countersEmb (thr d L) (SemLoc.dma cc0_scratch4.sem) default 8192
    iprop(((s61).view.loc (thr d L) ↦[(s61).view.set]{fullShare} itvC f2 (chunkNo L g)) ∗ a2piece d L f2 g)
/-- The gather of chunk g's rows into slot 1, in flight: the slot's rows, its index list, and a share of the table. -/
def GFl1 (g : Fin 200) : sProp 𝕄 :=
  Transfers.Flight countersEmb (thr d L) (SemLoc.dma cc0_scratch8.sem) default 524288
    iprop((((s71).view.loc (thr d L) ↦[(s71).view.set]{fullShare} gathC f2 f3 (chunkNo L g))
        ∗ ((l61).view.loc (thr d L) ↦[(l61).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 1, in flight. -/
def SFl1 (g : Fin 200) : sProp 𝕄 :=
  Transfers.Flight countersEmb (thr d L) (SemLoc.dma cc0_scratch12.sem) default 524288
    iprop((outpiece d L (outC f2 f3 f4) g)
      ∗ ((s71).view.loc (thr d L) ↦[(s71).view.set]{fullShare} finC f2 f3 f4 (1 : Fin 4) (chunkNo L g)))

/-- The copy of chunk g's indices into slot 2, in flight. -/
def IFl2 (g : Fin 200) : sProp 𝕄 :=
  Transfers.Flight countersEmb (thr d L) (SemLoc.dma cc0_scratch5.sem) default 8192
    iprop(((s62).view.loc (thr d L) ↦[(s62).view.set]{fullShare} itvC f2 (chunkNo L g)) ∗ a2piece d L f2 g)
/-- The gather of chunk g's rows into slot 2, in flight: the slot's rows, its index list, and a share of the table. -/
def GFl2 (g : Fin 200) : sProp 𝕄 :=
  Transfers.Flight countersEmb (thr d L) (SemLoc.dma cc0_scratch9.sem) default 524288
    iprop((((s72).view.loc (thr d L) ↦[(s72).view.set]{fullShare} gathC f2 f3 (chunkNo L g))
        ∗ ((l62).view.loc (thr d L) ↦[(l62).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 2, in flight. -/
def SFl2 (g : Fin 200) : sProp 𝕄 :=
  Transfers.Flight countersEmb (thr d L) (SemLoc.dma cc0_scratch13.sem) default 524288
    iprop((outpiece d L (outC f2 f3 f4) g)
      ∗ ((s72).view.loc (thr d L) ↦[(s72).view.set]{fullShare} finC f2 f3 f4 (2 : Fin 4) (chunkNo L g)))

/-- The copy of chunk g's indices into slot 3, in flight. -/
def IFl3 (g : Fin 200) : sProp 𝕄 :=
  Transfers.Flight countersEmb (thr d L) (SemLoc.dma cc0_scratch6.sem) default 8192
    iprop(((s63).view.loc (thr d L) ↦[(s63).view.set]{fullShare} itvC f2 (chunkNo L g)) ∗ a2piece d L f2 g)
/-- The gather of chunk g's rows into slot 3, in flight: the slot's rows, its index list, and a share of the table. -/
def GFl3 (g : Fin 200) : sProp 𝕄 :=
  Transfers.Flight countersEmb (thr d L) (SemLoc.dma cc0_scratch10.sem) default 524288
    iprop((((s73).view.loc (thr d L) ↦[(s73).view.set]{fullShare} gathC f2 f3 (chunkNo L g))
        ∗ ((l63).view.loc (thr d L) ↦[(l63).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 3, in flight. -/
def SFl3 (g : Fin 200) : sProp 𝕄 :=
  Transfers.Flight countersEmb (thr d L) (SemLoc.dma cc0_scratch14.sem) default 524288
    iprop((outpiece d L (outC f2 f3 f4) g)
      ∗ ((s73).view.loc (thr d L) ↦[(s73).view.set]{fullShare} finC f2 f3 f4 (3 : Fin 4) (chunkNo L g)))

/-- Slot 0 between trips: its gather in flight, the type row of its words kept beside; after the last trip, idle. -/
def slotA0 (go : ℕ) : sProp 𝕄 :=
  if go < 50 then
    iprop(GFl0 d L f2 f3 (gF (4 * go + 0))
      ∗ ((s60).view.loc (thr d L) ↦[(s60).view.set \ (l60).view.set]{fullShare} itvC f2 (chunkNo L (gF (4 * go + 0))))
      ∗ semVal (thr d L, SemLoc.dma cc0_scratch3.sem) 0 ∗ semVal (thr d L, SemLoc.dma cc0_scratch11.sem) 0)
  else
    iprop((∃ g6 : C6 F, (s60).view.loc (thr d L) ↦[(s60).view.set]{fullShare} g6)
      ∗ (∃ X : C7 F, (s70).view.loc (thr d L) ↦[(s70).view.set]{fullShare} X)
      ∗ semVal (thr d L, SemLoc.dma cc0_scratch3.sem) 0 ∗ semVal (thr d L, SemLoc.dma cc0_scratch7.sem) 0 ∗ semVal (thr d L, SemLoc.dma cc0_scratch11.sem) 0)

/-- Slot 1 between trips: its gather in flight, the type row of its words kept beside; after the last trip, idle. -/
def slotA1 (go : ℕ) : sProp 𝕄 :=
  if go < 50 then
    iprop(GFl1 d L f2 f3 (gF (4 * go + 1))
      ∗ ((s61).view.loc (thr d L) ↦[(s61).view.set \ (l61).view.set]{fullShare} itvC f2 (chunkNo L (gF (4 * go + 1))))
      ∗ semVal (thr d L, SemLoc.dma cc0_scratch4.sem) 0 ∗ semVal (thr d L, SemLoc.dma cc0_scratch12.sem) 0)
  else
    iprop((∃ g6 : C6 F, (s61).view.loc (thr d L) ↦[(s61).view.set]{fullShare} g6)
      ∗ (∃ X : C7 F, (s71).view.loc (thr d L) ↦[(s71).view.set]{fullShare} X)
      ∗ semVal (thr d L, SemLoc.dma cc0_scratch4.sem) 0 ∗ semVal (thr d L, SemLoc.dma cc0_scratch8.sem) 0 ∗ semVal (thr d L, SemLoc.dma cc0_scratch12.sem) 0)
/-- Slot 2 between trips: its index copy in flight (none after the last trip), its write-back in flight (none before the
    first trip). -/
def slotB2 (go : ℕ) : sProp 𝕄 :=
  iprop((if go < 50 then IFl2 d L f2 (gF (4 * go + 2))
      else iprop((∃ g6 : C6 F, (s62).view.loc (thr d L) ↦[(s62).view.set]{fullShare} g6) ∗ semVal (thr d L, SemLoc.dma cc0_scratch5.sem) 0))
    ∗ (if 0 < go then SFl2 d L f2 f3 f4 (gF (4 * go - 4 + 2))
      else iprop((∃ X : C7 F, (s72).view.loc (thr d L) ↦[(s72).view.set]{fullShare} X) ∗ semVal (thr d L, SemLoc.dma cc0_scratch13.sem) 0))
    ∗ semVal (thr d L, SemLoc.dma cc0_scratch9.sem) 0)

/-- Slot 3 between trips: its index copy in flight (none after the last trip), its write-back in flight (none before the
    first trip). -/
def slotB3 (go : ℕ) : sProp 𝕄 :=
  iprop((if go < 50 then IFl3 d L f2 (gF (4 * go + 3))
      else iprop((∃ g6 : C6 F, (s63).view.loc (thr d L) ↦[(s63).view.set]{fullShare} g6) ∗ semVal (thr d L, SemLoc.dma cc0_scratch6.sem) 0))
    ∗ (if 0 < go then SFl3 d L f2 f3 f4 (gF (4 * go - 4 + 3))
      else iprop((∃ X : C7 F, (s73).view.loc (thr d L) ↦[(s73).view.set]{fullShare} X) ∗ semVal (thr d L, SemLoc.dma cc0_scratch14.sem) 0))
    ∗ semVal (thr d L, SemLoc.dma cc0_scratch10.sem) 0)

/-- The outer loop's invariant before trip go. -/
def Inv (fo : C5 F) (O : CellTallies nD τ sig (HIx 1)) (W : Waits sig (HIx 1)) (go : ℕ) (_ : PUnit) : sProp 𝕄 :=
  iprop(Transfers.MayWaits (thr d L) (none : HIx 1) O
    ∗ todo (F := F) (4 * go + 4) (a2piece d L f2) ∗ todo (F := F) (4 * go + 2) (a3tok d L f3)
    ∗ todo (F := F) (4 * go) (outpiece d L fo) ∗ done (F := F) (4 * go - 2) (outpiece d L (outC f2 f3 f4))
    ∗ ((a8).view.loc (thr d L) ↦{fullShare} ttC f4)
    ∗ slotA0 d L f2 f3 go ∗ slotA1 d L f2 f3 go ∗ slotB2 d L f2 f3 f4 go ∗ slotB3 d L f2 f3 f4 go
    ∗ ∃ W', ⌜∀ p ∈ W', p ∈ W ∨ p.2 = none⌝ ∗ owes (thr d L) O W')

end Cert.Proof.KI
end
-- ==== Proof.Canonize.lean ====
/-
  From the form a started transfer is left in to the form the loop invariant names. A transfer in flight holds what it
  will deliver. Where the delivery is spelt with the destination "as written" (the slot after one whole write of the
  payload) and the source under the window the program computed, it is the same resource as the one spelt with the
  slot's canonical contents and the chunk's own window: a points-to depends on its values only on its element set, and
  two spellings of one window are one window. Four pieces put back onto the chunks done, or taken off the chunks to
  come, are four uses of the one-piece laws.
-/
import proofs.«207534_g35055523070033_cont_8to1_b_222_9_alg».proof.Proof.KerInv
import proofs.«207534_g35055523070033_cont_8to1_b_222_9_alg».proof.Proof.Landing
import proofs.«207534_g35055523070033_cont_8to1_b_222_9_alg».proof.Proof.Respell2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

/-! ## The index copies -/

theorem ifl_canon_0 (g : Fin 200) (X : C6 F) (p : S2x128.Idx → Elt F .i32)
    (hp : ∀ i ∈ (s60).view.set, (s60).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch3.sem) default 8192
      iprop(((s60).view.loc (thr d L) ↦[(s60).view.set]{fullShare} (s60).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl0 d L f2 g := by
  unfold IFl0
  refine Transfers.Flight_mono _ _ (Entails.of_eq ?_)
  rw [pointsTo_congr hp, a2piece_prog d L f2 g o h eo]

theorem ifl_canon_1 (g : Fin 200) (X : C6 F) (p : S2x128.Idx → Elt F .i32)
    (hp : ∀ i ∈ (s61).view.set, (s61).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch4.sem) default 8192
      iprop(((s61).view.loc (thr d L) ↦[(s61).view.set]{fullShare} (s61).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl1 d L f2 g := by
  unfold IFl1
  refine Transfers.Flight_mono _ _ (Entails.of_eq ?_)
  rw [pointsTo_congr hp, a2piece_prog d L f2 g o h eo]

theorem ifl_canon_2 (g : Fin 200) (X : C6 F) (p : S2x128.Idx → Elt F .i32)
    (hp : ∀ i ∈ (s62).view.set, (s62).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch5.sem) default 8192
      iprop(((s62).view.loc (thr d L) ↦[(s62).view.set]{fullShare} (s62).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl2 d L f2 g := by
  unfold IFl2
  refine Transfers.Flight_mono _ _ (Entails.of_eq ?_)
  rw [pointsTo_congr hp, a2piece_prog d L f2 g o h eo]

theorem ifl_canon_3 (g : Fin 200) (X : C6 F) (p : S2x128.Idx → Elt F .i32)
    (hp : ∀ i ∈ (s63).view.set, (s63).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch6.sem) default 8192
      iprop(((s63).view.loc (thr d L) ↦[(s63).view.set]{fullShare} (s63).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl3 d L f2 g := by
  unfold IFl3
  refine Transfers.Flight_mono _ _ (Entails.of_eq ?_)
  rw [pointsTo_congr hp, a2piece_prog d L f2 g o h eo]

/-! ## The gathers -/

theorem gfl_canon_0 (g : Fin 200) (X : C7 F) (p : S128x128.Idx → Elt F .f32)
    (hp : ∀ i ∈ (s70).view.set, (s70).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch7.sem) default 524288
      iprop((((s70).view.loc (thr d L) ↦[(s70).view.set]{fullShare} (s70).view.writes (Elt F) X [⟨Rect.whole S128x128, p⟩])
          ∗ ((l60).view.loc (thr d L) ↦[(l60).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl0 d L f2 f3 g := by
  unfold GFl0
  refine Transfers.Flight_mono _ _ (Entails.of_eq ?_)
  rw [pointsTo_congr hp]

theorem gfl_canon_1 (g : Fin 200) (X : C7 F) (p : S128x128.Idx → Elt F .f32)
    (hp : ∀ i ∈ (s71).view.set, (s71).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch8.sem) default 524288
      iprop((((s71).view.loc (thr d L) ↦[(s71).view.set]{fullShare} (s71).view.writes (Elt F) X [⟨Rect.whole S128x128, p⟩])
          ∗ ((l61).view.loc (thr d L) ↦[(l61).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl1 d L f2 f3 g := by
  unfold GFl1
  refine Transfers.Flight_mono _ _ (Entails.of_eq ?_)
  rw [pointsTo_congr hp]

theorem gfl_canon_2 (g : Fin 200) (X : C7 F) (p : S128x128.Idx → Elt F .f32)
    (hp : ∀ i ∈ (s72).view.set, (s72).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch9.sem) default 524288
      iprop((((s72).view.loc (thr d L) ↦[(s72).view.set]{fullShare} (s72).view.writes (Elt F) X [⟨Rect.whole S128x128, p⟩])
          ∗ ((l62).view.loc (thr d L) ↦[(l62).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl2 d L f2 f3 g := by
  unfold GFl2
  refine Transfers.Flight_mono _ _ (Entails.of_eq ?_)
  rw [pointsTo_congr hp]

theorem gfl_canon_3 (g : Fin 200) (X : C7 F) (p : S128x128.Idx → Elt F .f32)
    (hp : ∀ i ∈ (s73).view.set, (s73).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch10.sem) default 524288
      iprop((((s73).view.loc (thr d L) ↦[(s73).view.set]{fullShare} (s73).view.writes (Elt F) X [⟨Rect.whole S128x128, p⟩])
          ∗ ((l63).view.loc (thr d L) ↦[(l63).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl3 d L f2 f3 g := by
  unfold GFl3
  refine Transfers.Flight_mono _ _ (Entails.of_eq ?_)
  rw [pointsTo_congr hp]

/-! ## The write-backs -/

theorem sfl_canon_0 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch11.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s70).view.loc (thr d L) ↦[(s70).view.set]{fullShare} finC f2 f3 f4 (0 : Fin 4) (chunkNo L g))) : sProp 𝕄)
      ⊢ SFl0 d L f2 f3 f4 g := by
  unfold SFl0
  refine Transfers.Flight_mono _ _ (Entails.of_eq ?_)
  rw [outpiece_prog d L (outC f2 f3 f4) g o h eo, pointsTo_congr hY]

theorem sfl_canon_1 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch12.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s71).view.loc (thr d L) ↦[(s71).view.set]{fullShare} finC f2 f3 f4 (1 : Fin 4) (chunkNo L g))) : sProp 𝕄)
      ⊢ SFl1 d L f2 f3 f4 g := by
  unfold SFl1
  refine Transfers.Flight_mono _ _ (Entails.of_eq ?_)
  rw [outpiece_prog d L (outC f2 f3 f4) g o h eo, pointsTo_congr hY]

theorem sfl_canon_2 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch13.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s72).view.loc (thr d L) ↦[(s72).view.set]{fullShare} finC f2 f3 f4 (2 : Fin 4) (chunkNo L g))) : sProp 𝕄)
      ⊢ SFl2 d L f2 f3 f4 g := by
  unfold SFl2
  refine Transfers.Flight_mono _ _ (Entails.of_eq ?_)
  rw [outpiece_prog d L (outC f2 f3 f4) g o h eo, pointsTo_congr hY]

theorem sfl_canon_3 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch14.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s73).view.loc (thr d L) ↦[(s73).view.set]{fullShare} finC f2 f3 f4 (3 : Fin 4) (chunkNo L g))) : sProp 𝕄)
      ⊢ SFl3 d L f2 f3 f4 g := by
  unfold SFl3
  refine Transfers.Flight_mono _ _ (Entails.of_eq ?_)
  rw [outpiece_prog d L (outC f2 f3 f4) g o h eo, pointsTo_congr hY]

/-- A chunk's rows of the flat result, at contents that are the canonical ones on those rows. -/
theorem out_canon (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    ((((a5).slice (Rect.unit (s := S819200x128) o S128x128.size h) (fun _ => rfl)).view.loc (thr d L) ↦[((a5).slice (Rect.unit (s := S819200x128) o S128x128.size h) (fun _ => rfl)).view.set]{fullShare} Y) : sProp 𝕄) ⊢ outpiece d L (outC f2 f3 f4) g := by
  refine Entails.of_eq ?_
  rw [outpiece_prog d L (outC f2 f3 f4) g o h eo, pointsTo_congr hY]

/-! ## Four pieces at a time -/

theorem done4 (n : ℕ) (hn : n + 4 ≤ 200) (Φ : Fin 200 → sProp 𝕄) :
    iprop(done (F := F) n Φ ∗ Φ ⟨n, by omega⟩ ∗ Φ ⟨n + 1, by omega⟩ ∗ Φ ⟨n + 2, by omega⟩ ∗ Φ ⟨n + 3, by omega⟩)
      ⊢ done (F := F) (n + 4) Φ := by
  have e3 : done (F := F) (n + 4) Φ = iprop(Φ ⟨n + 3, by omega⟩ ∗ done (F := F) (n + 3) Φ) := done_put (F := F) (n + 3) (by omega) Φ
  have e2 : done (F := F) (n + 3) Φ = iprop(Φ ⟨n + 2, by omega⟩ ∗ done (F := F) (n + 2) Φ) := done_put (F := F) (n + 2) (by omega) Φ
  have e1 : done (F := F) (n + 2) Φ = iprop(Φ ⟨n + 1, by omega⟩ ∗ done (F := F) (n + 1) Φ) := done_put (F := F) (n + 1) (by omega) Φ
  have e0 : done (F := F) (n + 1) Φ = iprop(Φ ⟨n, by omega⟩ ∗ done (F := F) n Φ) := done_put (F := F) n (by omega) Φ
  rw [e3, e2, e1, e0]
  iintro ⟨H, H0, H1, H2, H3⟩
  isplitl [H3]; · iexact H3
  isplitl [H2]; · iexact H2
  isplitl [H1]; · iexact H1
  isplitl [H0]; · iexact H0
  iexact H

theorem todo4 (n : ℕ) (hn : n + 4 ≤ 200) (Φ : Fin 200 → sProp 𝕄) :
    todo (F := F) n Φ
      ⊢ iprop(Φ ⟨n, by omega⟩ ∗ Φ ⟨n + 1, by omega⟩ ∗ Φ ⟨n + 2, by omega⟩ ∗ Φ ⟨n + 3, by omega⟩ ∗ todo (F := F) (n + 4) Φ) := by
  have e0 : todo (F := F) n Φ = iprop(Φ ⟨n, by omega⟩ ∗ todo (F := F) (n + 1) Φ) := todo_take (F := F) n (by omega) Φ
  have e1 : todo (F := F) (n + 1) Φ = iprop(Φ ⟨n + 1, by omega⟩ ∗ todo (F := F) (n + 2) Φ) := todo_take (F := F) (n + 1) (by omega) Φ
  have e2 : todo (F := F) (n + 2) Φ = iprop(Φ ⟨n + 2, by omega⟩ ∗ todo (F := F) (n + 3) Φ) := todo_take (F := F) (n + 2) (by omega) Φ
  have e3 : todo (F := F) (n + 3) Φ = iprop(Φ ⟨n + 3, by omega⟩ ∗ todo (F := F) (n + 4) Φ) := todo_take (F := F) (n + 3) (by omega) Φ
  rw [e0, e1, e2, e3]

/-! ## The same, with the semaphore a variable equal to the flight's own -/

theorem ifl_canon_0' (g : Fin 200) (X : C6 F) (p : S2x128.Idx → Elt F .i32)
    (hp : ∀ i ∈ (s60).view.set, (s60).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch3.sem) :
    (Transfers.Flight countersEmb (thr d L) sm default 8192
      iprop(((s60).view.loc (thr d L) ↦[(s60).view.set]{fullShare} (s60).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl0 d L f2 g := by
  subst hsm
  exact ifl_canon_0 d L f2 g X p hp o h eo

theorem ifl_canon_1' (g : Fin 200) (X : C6 F) (p : S2x128.Idx → Elt F .i32)
    (hp : ∀ i ∈ (s61).view.set, (s61).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch4.sem) :
    (Transfers.Flight countersEmb (thr d L) sm default 8192
      iprop(((s61).view.loc (thr d L) ↦[(s61).view.set]{fullShare} (s61).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl1 d L f2 g := by
  subst hsm
  exact ifl_canon_1 d L f2 g X p hp o h eo

theorem ifl_canon_2' (g : Fin 200) (X : C6 F) (p : S2x128.Idx → Elt F .i32)
    (hp : ∀ i ∈ (s62).view.set, (s62).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch5.sem) :
    (Transfers.Flight countersEmb (thr d L) sm default 8192
      iprop(((s62).view.loc (thr d L) ↦[(s62).view.set]{fullShare} (s62).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl2 d L f2 g := by
  subst hsm
  exact ifl_canon_2 d L f2 g X p hp o h eo

theorem ifl_canon_3' (g : Fin 200) (X : C6 F) (p : S2x128.Idx → Elt F .i32)
    (hp : ∀ i ∈ (s63).view.set, (s63).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch6.sem) :
    (Transfers.Flight countersEmb (thr d L) sm default 8192
      iprop(((s63).view.loc (thr d L) ↦[(s63).view.set]{fullShare} (s63).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl3 d L f2 g := by
  subst hsm
  exact ifl_canon_3 d L f2 g X p hp o h eo

theorem gfl_canon_0' (g : Fin 200) (X : C7 F) (p : S128x128.Idx → Elt F .f32)
    (hp : ∀ i ∈ (s70).view.set, (s70).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch7.sem) :
    (Transfers.Flight countersEmb (thr d L) sm default 524288
      iprop((((s70).view.loc (thr d L) ↦[(s70).view.set]{fullShare} (s70).view.writes (Elt F) X [⟨Rect.whole S128x128, p⟩])
          ∗ ((l60).view.loc (thr d L) ↦[(l60).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl0 d L f2 f3 g := by
  subst hsm
  exact gfl_canon_0 d L f2 f3 g X p hp hw

theorem gfl_canon_1' (g : Fin 200) (X : C7 F) (p : S128x128.Idx → Elt F .f32)
    (hp : ∀ i ∈ (s71).view.set, (s71).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch8.sem) :
    (Transfers.Flight countersEmb (thr d L) sm default 524288
      iprop((((s71).view.loc (thr d L) ↦[(s71).view.set]{fullShare} (s71).view.writes (Elt F) X [⟨Rect.whole S128x128, p⟩])
          ∗ ((l61).view.loc (thr d L) ↦[(l61).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl1 d L f2 f3 g := by
  subst hsm
  exact gfl_canon_1 d L f2 f3 g X p hp hw

theorem gfl_canon_2' (g : Fin 200) (X : C7 F) (p : S128x128.Idx → Elt F .f32)
    (hp : ∀ i ∈ (s72).view.set, (s72).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch9.sem) :
    (Transfers.Flight countersEmb (thr d L) sm default 524288
      iprop((((s72).view.loc (thr d L) ↦[(s72).view.set]{fullShare} (s72).view.writes (Elt F) X [⟨Rect.whole S128x128, p⟩])
          ∗ ((l62).view.loc (thr d L) ↦[(l62).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl2 d L f2 f3 g := by
  subst hsm
  exact gfl_canon_2 d L f2 f3 g X p hp hw

theorem gfl_canon_3' (g : Fin 200) (X : C7 F) (p : S128x128.Idx → Elt F .f32)
    (hp : ∀ i ∈ (s73).view.set, (s73).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch10.sem) :
    (Transfers.Flight countersEmb (thr d L) sm default 524288
      iprop((((s73).view.loc (thr d L) ↦[(s73).view.set]{fullShare} (s73).view.writes (Elt F) X [⟨Rect.whole S128x128, p⟩])
          ∗ ((l63).view.loc (thr d L) ↦[(l63).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl3 d L f2 f3 g := by
  subst hsm
  exact gfl_canon_3 d L f2 f3 g X p hp hw

theorem sfl_canon_0' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch11.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s70).view.loc (thr d L) ↦[(s70).view.set]{fullShare} finC f2 f3 f4 (0 : Fin 4) (chunkNo L g))) : sProp 𝕄)
      ⊢ SFl0 d L f2 f3 f4 g := by
  subst hsm
  exact sfl_canon_0 d L f2 f3 f4 g Y o h eo hY

theorem sfl_canon_1' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch12.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s71).view.loc (thr d L) ↦[(s71).view.set]{fullShare} finC f2 f3 f4 (1 : Fin 4) (chunkNo L g))) : sProp 𝕄)
      ⊢ SFl1 d L f2 f3 f4 g := by
  subst hsm
  exact sfl_canon_1 d L f2 f3 f4 g Y o h eo hY

theorem sfl_canon_2' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch13.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s72).view.loc (thr d L) ↦[(s72).view.set]{fullShare} finC f2 f3 f4 (2 : Fin 4) (chunkNo L g))) : sProp 𝕄)
      ⊢ SFl2 d L f2 f3 f4 g := by
  subst hsm
  exact sfl_canon_2 d L f2 f3 f4 g Y o h eo hY

theorem sfl_canon_3' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch14.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s73).view.loc (thr d L) ↦[(s73).view.set]{fullShare} finC f2 f3 f4 (3 : Fin 4) (chunkNo L g))) : sProp 𝕄)
      ⊢ SFl3 d L f2 f3 f4 g := by
  subst hsm
  exact sfl_canon_3 d L f2 f3 f4 g Y o h eo hY

end Cert.Proof.KI
end
-- ==== Proof.TileRes.lean ====
/-
  What a tile owns of its own when its body starts: its thirteen DMA semaphores at zero and its three scratch buffers at
  some contents, each named; and how a ring buffer held whole is its four slots held one by one, and back.
-/
import proofs.«207534_g35055523070033_cont_8to1_b_222_9_alg».proof.Proof.KerInv
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-! ## The tile's semaphores and buffers, named -/

/-- Cells of one thread at different DMA semaphores are different cells. -/
theorem cell_ne {s s' : DmaSem sig} (h : s ≠ s') :
    ((thr d L, SemLoc.dma s) : GSem nD τ sig) ≠ (thr d L, SemLoc.dma s') :=
  fun e => h (SemLoc.dma.inj (Prod.mk.inj e).2)

/-- The tile's own semaphores at zero: the twelve of the ring, the one of the first copy, and whatever else. -/
theorem ownSems0_V13 :
    (ownSems0 (thr d L) : sProp 𝕄)
      = iprop(semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scoped0.sem) 0
        ∗ bigSep ((((((((((((((ownCells (thr d L)).erase (thr d L, SemLoc.dma cc0_scratch3.sem)).erase (thr d L, SemLoc.dma cc0_scratch4.sem)).erase (thr d L, SemLoc.dma cc0_scratch5.sem)).erase (thr d L, SemLoc.dma cc0_scratch6.sem)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scoped0.sem))
            fun g => semVal g 0) := by
  unfold SparseCore.Cfg.ownSems0
  rw [SparseCore.bigSep_erase' ((mem_ownCells (g := (thr d L, SemLoc.dma cc0_scratch3.sem))).mpr ⟨rfl, by show (SemLoc.dma cc0_scratch3.sem : SemLoc sig).isScoped .scVector = true; decide⟩),
    SparseCore.bigSep_erase' (Finset.mem_erase.mpr ⟨cell_ne d L (show cc0_scratch4.sem ≠ cc0_scratch3.sem by decide), (mem_ownCells (g := (thr d L, SemLoc.dma cc0_scratch4.sem))).mpr ⟨rfl, by show (SemLoc.dma cc0_scratch4.sem : SemLoc sig).isScoped .scVector = true; decide⟩⟩),
    SparseCore.bigSep_erase' (Finset.mem_erase.mpr ⟨cell_ne d L (show cc0_scratch5.sem ≠ cc0_scratch4.sem by decide), Finset.mem_erase.mpr ⟨cell_ne d L (show cc0_scratch5.sem ≠ cc0_scratch3.sem by decide), (mem_ownCells (g := (thr d L, SemLoc.dma cc0_scratch5.sem))).mpr ⟨rfl, by show (SemLoc.dma cc0_scratch5.sem : SemLoc sig).isScoped .scVector = true; decide⟩⟩⟩),
    SparseCore.bigSep_erase' (Finset.mem_erase.mpr ⟨cell_ne d L (show cc0_scratch6.sem ≠ cc0_scratch5.sem by decide), Finset.mem_erase.mpr ⟨cell_ne d L (show cc0_scratch6.sem ≠ cc0_scratch4.sem by decide), Finset.mem_erase.mpr ⟨cell_ne d L (show cc0_scratch6.sem ≠ cc0_scratch3.sem by decide), (mem_ownCells (g := (thr d L, SemLoc.dma cc0_scratch6.sem))).mpr ⟨rfl, by show (SemLoc.dma cc0_scratch6.sem : SemLoc sig).isScoped .scVector = true; decide⟩⟩⟩⟩),
    SparseCore.bigSep_erase' (Finset.mem_erase.mpr ⟨cell_ne d L (show cc0_scratch7.sem ≠ cc0_scratch6.sem by decide), Finset.mem_erase.mpr ⟨cell_ne d L (show cc0_scratch7.sem ≠ cc0_scratch5.sem by decide), Finset.mem_erase.mpr ⟨cell_ne d L (show cc0_scratch7.sem ≠ cc0_scratch4.sem by decide), Finset.mem_erase.mpr ⟨cell_ne d L (show cc0_scratch7.sem ≠ cc0_scratch3.sem by decide), (mem_ownCells (g := (thr d L, SemLoc.dma cc0_scratch7.sem))).mpr ⟨rfl, by show (SemLoc.dma cc0_scratch7.sem : SemLoc sig).isScoped .scVector = true; decide⟩⟩⟩⟩⟩),
    SparseCore.bigSep_erase' (Finset.mem_erase.mpr ⟨cell_ne d L (show cc0_scratch8.sem ≠ cc0_scratch7.sem by decide), Finset.mem_erase.mpr ⟨cell_ne d L (show cc0_scratch8.sem ≠ cc0_scratch6.sem by decide), Finset.mem_erase.mpr ⟨cell_ne d L (show cc0_scratch8.sem ≠ cc0_scratch5.sem by decide), Finset.mem_erase.mpr ⟨cell_ne d L (show cc0_scratch8.sem ≠ cc0_scratch4.sem by decide), Finset.mem_erase.mpr ⟨cell_ne d L (show cc0_scratch8.sem ≠ cc0_scratch3.sem by decide), (mem_ownCells (g := (thr d L, SemLoc.dma cc0_scratch8.sem))).mpr ⟨rfl, by show (SemLoc.dma cc0_scratch8.sem : SemLoc sig).isScoped .scVector = true; decide⟩⟩⟩⟩⟩⟩),
    SparseCore.bigSep_erase' (Finset.mem_erase.mpr ⟨cell_ne d L (show cc0_scratch9.sem ≠ cc0_scratch8.sem by decide), Finset.mem_erase.mpr ⟨cell_ne d L (show cc0_scratch9.sem ≠ cc0_scratch7.sem by decide), Finset.mem_erase.mpr ⟨cell_ne d L (show cc0_scratch9.sem ≠ cc0_scratch6.sem by decide), Finset.mem_erase.mpr ⟨cell_ne d L (show cc0_scratch9.sem ≠ cc0_scratch5.sem by decide), Finset.mem_erase.mpr ⟨cell_ne d L (show cc0_scratch9.sem ≠ cc0_scratch4.sem by decide), Finset.mem_erase.mpr ⟨cell_ne d L (show cc0_scratch9.sem ≠ cc0_scratch3.sem by decide), (mem_ownCells (g := (thr d L, SemLoc.dma cc0_scratch9.sem))).mpr ⟨rfl, by show (SemLoc.dma cc0_scratch9.sem : SemLoc sig).isScoped .scVector = true; decide⟩⟩⟩⟩⟩⟩⟩),
    SparseCore.bigSep_erase' (Finset.mem_erase.mpr ⟨cell_ne d L (show cc0_scratch10.sem ≠ cc0_scratch9.sem by decide), Finset.mem_erase.mpr ⟨cell_ne d L (show cc0_scratch10.sem ≠ cc0_scratch8.sem by decide), Finset.mem_erase.mpr ⟨cell_ne d L (show cc0_scratch10.sem ≠ cc0_scratch7.sem by decide), Finset.mem_erase.mpr ⟨cell_ne d L (show cc0_scratch10.sem ≠ cc0_scratch6.sem by decide), Finset.mem_erase.mpr ⟨cell_ne d L (show cc0_scratch10.sem ≠ cc0_scratch5.sem by decide), Finset.mem_erase.mpr ⟨cell_ne d L (show cc0_scratch10.sem ≠ cc0_scratch4.sem by decide), Finset.mem_erase.mpr ⟨cell_ne d L (show cc0_scratch10.sem ≠ cc0_scratch3.sem by decide), (mem_ownCells (g := (thr d L, SemLoc.dma cc0_scratch10.sem))).mpr ⟨rfl, by show (SemLoc.dma cc0_scratch10.sem : SemLoc sig).isScoped .scVector = true; decide⟩⟩⟩⟩⟩⟩⟩⟩),
    SparseCore.bigSep_erase' (Finset.mem_erase.mpr ⟨cell_ne d L (show cc0_scratch11.sem ≠ cc0_scratch10.sem by decide), Finset.mem_erase.mpr ⟨cell_ne d L (show cc0_scratch11.sem ≠ cc0_scratch9.sem by decide), Finset.mem_erase.mpr ⟨cell_ne d L (show cc0_scratch11.sem ≠ cc0_scratch8.sem by decide), Finset.mem_erase.mpr ⟨cell_ne d L (show cc0_scratch11.sem ≠ cc0_scratch7.sem by decide), Finset.mem_erase.mpr ⟨cell_ne d L (show cc0_scratch11.sem ≠ cc0_scratch6.sem by decide), Finset.mem_erase.mpr ⟨cell_ne d L (show cc0_scratch11.sem ≠ cc0_scratch5.sem by decide), Finset.mem_erase.mpr ⟨cell_ne d L (show cc0_scratch11.sem ≠ cc0_scratch4.sem by decide), Finset.mem_erase.mpr ⟨cell_ne d L (show cc0_scratch11.sem ≠ cc0_scratch3.sem by decide), (mem_ownCells (g := (thr d L, SemLoc.dma cc0_scratch11.sem))).mpr ⟨rfl, by show (SemLoc.dma cc0_scratch11.sem : SemLoc sig).isScoped .scVector = true; decide⟩⟩⟩⟩⟩⟩⟩⟩⟩),
    SparseCore.bigSep_erase' (Finset.mem_erase.mpr ⟨cell_ne d L (show cc0_scratch12.sem ≠ cc0_scratch11.sem by decide), Finset.mem_erase.mpr ⟨cell_ne d L (show cc0_scratch12.sem ≠ cc0_scratch10.sem by decide), Finset.mem_erase.mpr ⟨cell_ne d L (show cc0_scratch12.sem ≠ cc0_scratch9.sem by decide), Finset.mem_erase.mpr ⟨cell_ne d L (show cc0_scratch12.sem ≠ cc0_scratch8.sem by decide), Finset.mem_erase.mpr ⟨cell_ne d L (show cc0_scratch12.sem ≠ cc0_scratch7.sem by decide), Finset.mem_erase.mpr ⟨cell_ne d L (show cc0_scratch12.sem ≠ cc0_scratch6.sem by decide), Finset.mem_erase.mpr ⟨cell_ne d L (show cc0_scratch12.sem ≠ cc0_scratch5.sem by decide), Finset.mem_erase.mpr ⟨cell_ne d L (show cc0_scratch12.sem ≠ cc0_scratch4.sem by decide), Finset.mem_erase.mpr ⟨cell_ne d L (show cc0_scratch12.sem ≠ cc0_scratch3.sem by decide), (mem_ownCells (g := (thr d L, SemLoc.dma cc0_scratch12.sem))).mpr ⟨rfl, by show (SemLoc.dma cc0_scratch12.sem : SemLoc sig).isScoped .scVector = true; decide⟩⟩⟩⟩⟩⟩⟩⟩⟩⟩),
    SparseCore.bigSep_erase' (Finset.mem_erase.mpr ⟨cell_ne d L (show cc0_scratch13.sem ≠ cc0_scratch12.sem by decide), Finset.mem_erase.mpr ⟨cell_ne d L (show cc0_scratch13.sem ≠ cc0_scratch11.sem by decide), Finset.mem_erase.mpr ⟨cell_ne d L (show cc0_scratch13.sem ≠ cc0_scratch10.sem by decide), Finset.mem_erase.mpr ⟨cell_ne d L (show cc0_scratch13.sem ≠ cc0_scratch9.sem by decide), Finset.mem_erase.mpr ⟨cell_ne d L (show cc0_scratch13.sem ≠ cc0_scratch8.sem by decide), Finset.mem_erase.mpr ⟨cell_ne d L (show cc0_scratch13.sem ≠ cc0_scratch7.sem by decide), Finset.mem_erase.mpr ⟨cell_ne d L (show cc0_scratch13.sem ≠ cc0_scratch6.sem by decide), Finset.mem_erase.mpr ⟨cell_ne d L (show cc0_scratch13.sem ≠ cc0_scratch5.sem by decide), Finset.mem_erase.mpr ⟨cell_ne d L (show cc0_scratch13.sem ≠ cc0_scratch4.sem by decide), Finset.mem_erase.mpr ⟨cell_ne d L (show cc0_scratch13.sem ≠ cc0_scratch3.sem by decide), (mem_ownCells (g := (thr d L, SemLoc.dma cc0_scratch13.sem))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨cell_ne d L (show cc0_scratch14.sem ≠ cc0_scratch13.sem by decide), Finset.mem_erase.mpr ⟨cell_ne d L (show cc0_scratch14.sem ≠ cc0_scratch12.sem by decide), Finset.mem_erase.mpr ⟨cell_ne d L (show cc0_scratch14.sem ≠ cc0_scratch11.sem by decide), Finset.mem_erase.mpr ⟨cell_ne d L (show cc0_scratch14.sem ≠ cc0_scratch10.sem by decide), Finset.mem_erase.mpr ⟨cell_ne d L (show cc0_scratch14.sem ≠ cc0_scratch9.sem by decide), Finset.mem_erase.mpr ⟨cell_ne d L (show cc0_scratch14.sem ≠ cc0_scratch8.sem by decide), Finset.mem_erase.mpr ⟨cell_ne d L (show cc0_scratch14.sem ≠ cc0_scratch7.sem by decide), Finset.mem_erase.mpr ⟨cell_ne d L (show cc0_scratch14.sem ≠ cc0_scratch6.sem by decide), Finset.mem_erase.mpr ⟨cell_ne d L (show cc0_scratch14.sem ≠ cc0_scratch5.sem by decide), Finset.mem_erase.mpr ⟨cell_ne d L (show cc0_scratch14.sem ≠ cc0_scratch4.sem by decide), Finset.mem_erase.mpr ⟨cell_ne d L (show cc0_scratch14.sem ≠ cc0_scratch3.sem by decide), (mem_ownCells (g := (thr d L, SemLoc.dma cc0_scratch14.sem))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨cell_ne d L (show cc0_scoped0.sem ≠ cc0_scratch14.sem by decide), Finset.mem_erase.mpr ⟨cell_ne d L (show cc0_scoped0.sem ≠ cc0_scratch13.sem by decide), Finset.mem_erase.mpr ⟨cell_ne d L (show cc0_scoped0.sem ≠ cc0_scratch12.sem by decide), Finset.mem_erase.mpr ⟨cell_ne d L (show cc0_scoped0.sem ≠ cc0_scratch11.sem by decide), Finset.mem_erase.mpr ⟨cell_ne d L (show cc0_scoped0.sem ≠ cc0_scratch10.sem by decide), Finset.mem_erase.mpr ⟨cell_ne d L (show cc0_scoped0.sem ≠ cc0_scratch9.sem by decide), Finset.mem_erase.mpr ⟨cell_ne d L (show cc0_scoped0.sem ≠ cc0_scratch8.sem by decide), Finset.mem_erase.mpr ⟨cell_ne d L (show cc0_scoped0.sem ≠ cc0_scratch7.sem by decide), Finset.mem_erase.mpr ⟨cell_ne d L (show cc0_scoped0.sem ≠ cc0_scratch6.sem by decide), Finset.mem_erase.mpr ⟨cell_ne d L (show cc0_scoped0.sem ≠ cc0_scratch5.sem by decide), Finset.mem_erase.mpr ⟨cell_ne d L (show cc0_scoped0.sem ≠ cc0_scratch4.sem by decide), Finset.mem_erase.mpr ⟨cell_ne d L (show cc0_scoped0.sem ≠ cc0_scratch3.sem by decide), (mem_ownCells (g := (thr d L, SemLoc.dma cc0_scoped0.sem))).mpr ⟨rfl, by show (SemLoc.dma cc0_scoped0.sem : SemLoc sig).isScoped .scVector = true; decide⟩⟩⟩⟩⟩⟩⟩⟩⟩⟩⟩⟩⟩)]

/-- The three scratch buffers are among the tile's own: they are them, at some contents, and the rest. -/
theorem ownBufs_V3 :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## A ring buffer whole is its four slots -/

omit d L in
/-- A family over four indices, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

omit d L in
/-- A buffer held whole is its four parts, for any four pairwise disjoint sets of its words that cover it. -/
theorem pts_slots {ℓ : Loc nD τ sig} (K : Fin 4 → Finset (Idx ℓ))
    (hd : ∀ b ∈ (Finset.univ : Finset (Fin 4)), ∀ b' ∈ (Finset.univ : Finset (Fin 4)), b ≠ b' → Disjoint (K b) (K b'))
    (hc : (Finset.univ : Finset (Fin 4)).biUnion K = Finset.univ) (g : Buf (Elt F) ℓ) :
    (ℓ ↦{fullShare} g : sProp 𝕄)
      = iprop((ℓ ↦[K 0]{fullShare} g) ∗ (ℓ ↦[K 1]{fullShare} g) ∗ (ℓ ↦[K 2]{fullShare} g) ∗ (ℓ ↦[K 3]{fullShare} g)) :=
  calc (ℓ ↦{fullShare} g : sProp 𝕄) = ℓ ↦[(Finset.univ : Finset (Fin 4)).biUnion K]{fullShare} g := by rw [hc]
    _ = bigSep Finset.univ fun b => ℓ ↦[K b]{fullShare} g := pointsTo_biUnion Finset.univ K hd
    _ = _ := bigSep_fin4 _

omit d L in
/-- The four parts, each at contents of its own, are the buffer whole at some contents. -/
theorem pts_slots_join [FloatOps F] {ℓ : Loc nD τ sig} (K : Fin 4 → Finset (Idx ℓ))
    (hd : ∀ b ∈ (Finset.univ : Finset (Fin 4)), ∀ b' ∈ (Finset.univ : Finset (Fin 4)), b ≠ b' → Disjoint (K b) (K b'))
    (hc : (Finset.univ : Finset (Fin 4)).biUnion K = Finset.univ) :
    iprop((∃ g, ℓ ↦[K 0]{fullShare} g) ∗ (∃ g, ℓ ↦[K 1]{fullShare} g) ∗ (∃ g, ℓ ↦[K 2]{fullShare} g) ∗ (∃ g, ℓ ↦[K 3]{fullShare} g))
      ⊢ (iprop(∃ g, ℓ ↦{fullShare} g) : sProp 𝕄) := by
  refine (Entails.of_eq (bigSep_fin4 (F := F) (fun b : Fin 4 => iprop(∃ g, ℓ ↦[K b]{fullShare} g))).symm).trans ?_
  refine (bigSep_exists_pi Finset.univ (fun b (g : Buf (Elt F) ℓ) => ℓ ↦[K b]{fullShare} g)).trans ?_
  iintro ⟨%fs, H⟩
  ihave H' := (pointsTo_biUnion_join Finset.univ K fs (fs 0) hd) $$ H
  icases H' with ⟨%g, -, Hg⟩
  rw [hc]
  iexists g; iexact Hg

/-- Slot b of the word buffer, as a set of its words: those whose first coordinate is b. -/
def slotSet6 (b : Fin 4) : Finset S4x2x128.Idx := Finset.univ.filter fun i => (i 0).val = b.val

theorem set_s60 : (s60).view.set = slotSet6 0 := by
  ext i; rw [slot6_mem_0]; simp [slotSet6]
theorem set_s61 : (s61).view.set = slotSet6 1 := by
  ext i; rw [slot6_mem_1]; simp [slotSet6]
theorem set_s62 : (s62).view.set = slotSet6 2 := by
  ext i; rw [slot6_mem_2]; simp [slotSet6]
theorem set_s63 : (s63).view.set = slotSet6 3 := by
  ext i; rw [slot6_mem_3]; simp [slotSet6]

theorem slot6_disj : ∀ b ∈ (Finset.univ : Finset (Fin 4)), ∀ b' ∈ (Finset.univ : Finset (Fin 4)), b ≠ b' →
    Disjoint (slotSet6 b) (slotSet6 b') := by
  intro b _ b' _ hne
  rw [Finset.disjoint_left]; intro i hi hi'
  simp only [slotSet6, Finset.mem_filter, Finset.mem_univ, true_and] at hi hi'
  exact hne (Fin.ext (hi.symm.trans hi'))

theorem slot6_cover : (Finset.univ : Finset (Fin 4)).biUnion slotSet6 = Finset.univ := by
  ext i
  simp only [Finset.mem_biUnion, Finset.mem_univ, true_and, iff_true, slotSet6, Finset.mem_filter]
  exact ⟨⟨(i 0).val, (i 0).isLt⟩, rfl⟩

/-- The word buffer held whole is its four slots held one by one. -/
theorem slots6 (g : C6 F) :
    (((a6).view.loc (thr d L) ↦{fullShare} g : sProp 𝕄))
      = iprop(((s60).view.loc (thr d L) ↦[(s60).view.set]{fullShare} g)
        ∗ ((s61).view.loc (thr d L) ↦[(s61).view.set]{fullShare} g)
        ∗ ((s62).view.loc (thr d L) ↦[(s62).view.set]{fullShare} g)
        ∗ ((s63).view.loc (thr d L) ↦[(s63).view.set]{fullShare} g)) := by
  rw [set_s60, set_s61, set_s62, set_s63]
  exact pts_slots (ℓ := (a6).view.loc (thr d L)) slotSet6 slot6_disj slot6_cover g

/-- And its four slots, each at contents of its own, are the word buffer whole at some contents. -/
theorem slots6_join [FloatOps F] :
    iprop((∃ g, (s60).view.loc (thr d L) ↦[(s60).view.set]{fullShare} g)
        ∗ (∃ g, (s61).view.loc (thr d L) ↦[(s61).view.set]{fullShare} g)
        ∗ (∃ g, (s62).view.loc (thr d L) ↦[(s62).view.set]{fullShare} g)
        ∗ (∃ g, (s63).view.loc (thr d L) ↦[(s63).view.set]{fullShare} g))
      ⊢ (iprop(∃ g, (thr d L).loc cc0_scratch0 ↦{fullShare} g) : sProp 𝕄) := by
  rw [set_s60, set_s61, set_s62, set_s63]
  exact pts_slots_join (ℓ := (thr d L).loc cc0_scratch0) slotSet6 slot6_disj slot6_cover

/-- Slot b of the row buffer, as a set of its words: those whose first coordinate is b. -/
def slotSet7 (b : Fin 4) : Finset S4x128x128.Idx := Finset.univ.filter fun i => (i 0).val = b.val

theorem set_s70 : (s70).view.set = slotSet7 0 := by
  ext i; rw [slot7_mem_0]; simp [slotSet7]
theorem set_s71 : (s71).view.set = slotSet7 1 := by
  ext i; rw [slot7_mem_1]; simp [slotSet7]
theorem set_s72 : (s72).view.set = slotSet7 2 := by
  ext i; rw [slot7_mem_2]; simp [slotSet7]
theorem set_s73 : (s73).view.set = slotSet7 3 := by
  ext i; rw [slot7_mem_3]; simp [slotSet7]

theorem slot7_disj : ∀ b ∈ (Finset.univ : Finset (Fin 4)), ∀ b' ∈ (Finset.univ : Finset (Fin 4)), b ≠ b' →
    Disjoint (slotSet7 b) (slotSet7 b') := by
  intro b _ b' _ hne
  rw [Finset.disjoint_left]; intro i hi hi'
  simp only [slotSet7, Finset.mem_filter, Finset.mem_univ, true_and] at hi hi'
  exact hne (Fin.ext (hi.symm.trans hi'))

theorem slot7_cover : (Finset.univ : Finset (Fin 4)).biUnion slotSet7 = Finset.univ := by
  ext i
  simp only [Finset.mem_biUnion, Finset.mem_univ, true_and, iff_true, slotSet7, Finset.mem_filter]
  exact ⟨⟨(i 0).val, (i 0).isLt⟩, rfl⟩

/-- The row buffer held whole is its four slots held one by one. -/
theorem slots7 (X : C7 F) :
    (((a7).view.loc (thr d L) ↦{fullShare} X : sProp 𝕄))
      = iprop(((s70).view.loc (thr d L) ↦[(s70).view.set]{fullShare} X)
        ∗ ((s71).view.loc (thr d L) ↦[(s71).view.set]{fullShare} X)
        ∗ ((s72).view.loc (thr d L) ↦[(s72).view.set]{fullShare} X)
        ∗ ((s73).view.loc (thr d L) ↦[(s73).view.set]{fullShare} X)) := by
  rw [set_s70, set_s71, set_s72, set_s73]
  exact pts_slots (ℓ := (a7).view.loc (thr d L)) slotSet7 slot7_disj slot7_cover X

/-- And its four slots, each at contents of its own, are the row buffer whole at some contents. -/
theorem slots7_join [FloatOps F] :
    iprop((∃ g, (s70).view.loc (thr d L) ↦[(s70).view.set]{fullShare} g)
        ∗ (∃ g, (s71).view.loc (thr d L) ↦[(s71).view.set]{fullShare} g)
        ∗ (∃ g, (s72).view.loc (thr d L) ↦[(s72).view.set]{fullShare} g)
        ∗ (∃ g, (s73).view.loc (thr d L) ↦[(s73).view.set]{fullShare} g))
      ⊢ (iprop(∃ g, (thr d L).loc cc0_scratch1 ↦{fullShare} g) : sProp 𝕄) := by
  rw [set_s70, set_s71, set_s72, set_s73]
  exact pts_slots_join (ℓ := (thr d L).loc cc0_scratch1) slotSet7 slot7_disj slot7_cover

end Cert.Proof.KI

end
-- ==== Proof.KerTile.lean ====
/-
  A tile's task, and the tile obligation of the launch.

  A tile first copies the two type rows into its scratch, starts the index copies of its first four chunks into the four
  slots, waits for the first two and starts their gathers; then fifty trips of the ring, each finishing four chunks and
  starting the next four; then the last two write-backs are waited for. It is handed its chunks of the stacked index
  array, its shares of the two tables and its chunks of the flat result, and hands the chunks of the result back, each
  holding the lookup.
-/
import proofs.«207534_g35055523070033_cont_8to1_b_222_9_alg».proof.Proof.Gen.KernelIdeal.Skeleton
import proofs.«207534_g35055523070033_cont_8to1_b_222_9_alg».proof.Proof.KerInv
import proofs.«207534_g35055523070033_cont_8to1_b_222_9_alg».proof.Proof.Canonize
import proofs.«207534_g35055523070033_cont_8to1_b_222_9_alg».proof.Proof.TileRes
import proofs.«207534_g35055523070033_cont_8to1_b_222_9_alg».proof.Proof.KerLaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch theorem's tile obligation from the tile's task -/

section Obl
variable [FloatOps F]

/-- THE TILE'S TASK: from what the tile is handed, its own buffers and semaphores and what it owes, the kernel function
    runs and ends with what the tile hands back, its own buffers and semaphores, and what it owed. -/
def TileBody (F : FTy → Type) [FloatOps F] : Prop :=
  ∀ (d : Dev nD) (L : grid0.Coords) (f2 : C2 F) (f3 : C3 F) (f4 : C4 F) (fo : C5 F), (∀ i, (f2 i).toNat < 100000) →
    ∀ (O : CellTallies nD τ sig (HIx 1)) (W : Waits sig (HIx 1)), (∀ g, O g none = 0) →
    iprop(levAts (K (F := F)).L (K (F := F)).lev ∗ emp ∗ goRes d L f2 f3 f4 fo
        ∗ scopedBufs (thr d L) ∗ scopedSems0 (thr d L) ∗ owes (thr d L) O W)
      ⊢ wp frame (wpE (defs₀ (F := F)) 𝒱₀ (thr d L) none) Set.univ
          (cc0_k L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes d L f2 f3 f4 ∗ scopedBufs (thr d L) ∗ scopedSems0 (thr d L)
            ∗ ∃ W', ⌜∀ p ∈ W', p ∈ W ∨ p.2 = none⌝ ∗ owes (thr d L) O W')

theorem defs₀_vector (c : Fin τ.nSC) (s : Fin τ.nSub) :
    defs₀ (F := F) (.scVector c s) 0 ()
      = SparseCore.onTile hcore0 hsub0 (fun c s => cc0_k (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go (m : (ℓ : Loc nD τ sig) → Buf (Elt F) ℓ) (V2 : Dev nD → C2 F) (d : Dev nD) (c : Fin ((K (F := F)).nCore 0))
    (i : Fin ((K (F := F)).nSub 0)) :
    (P m V2).go 0 d c i = goRes d (coordsV (Fin.cast nCore_zero c) (Fin.cast nSub_zero i)) (V2 d) (m (tabLoc d)) (m (ttLoc d)) (m (v3Loc d)) := by
  unfold P; dsimp only
  rfl
theorem P_td (m : (ℓ : Loc nD τ sig) → Buf (Elt F) ℓ) (V2 : Dev nD → C2 F) (d : Dev nD) (c : Fin ((K (F := F)).nCore 0))
    (i : Fin ((K (F := F)).nSub 0)) :
    (P m V2).td 0 d c i = tdRes d (coordsV (Fin.cast nCore_zero c) (Fin.cast nSub_zero i)) (V2 d) (m (tabLoc d)) (m (ttLoc d)) := by
  unfold P; dsimp only
  rfl
theorem P_x (m : (ℓ : Loc nD τ sig) → Buf (Elt F) ℓ) (V2 : Dev nD → C2 F) (thr : Thread nD τ) :
    (P m V2).x 0 thr = iprop(emp) := by
  unfold P; dsimp only

/-- The tile obligation of the launch, from the tile's task. -/
theorem tileObl_of (hb : TileBody F) (m : (ℓ : Loc nD τ sig) → Buf (Elt F) ℓ) (V2 : Dev nD → C2 F)
    (hf2 : ∀ d i, (V2 d i).toNat < 100000) : (K (F := F)).TileObl (D (F := F)) 𝒱 (P m V2) v₀ 0 := by
  intro d c i O W hO _ _
  -- this kernel owes nothing for a protocol of its own
  simp only [show (P m V2).ox = fun _ _ => 0 from rfl, add_zero]
  rw [P_go, P_td, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) (V2 d) (m (tabLoc d)) (m (ttLoc d)) (m (v3Loc d)) (hf2 d) O W hO).trans
    (wp_mono frame _ _ fun _ => obl_post)

end Obl

/-! ## The tile's task, given one trip of the ring -/

section Body
variable [FloatOps F] (d : Dev nD) (L : grid0.Coords) (f2 : C2 F) (f3 : C3 F) (f4 : C4 F)

omit [FloatOps F] in
theorem tb_pts_a8 (f : C8 F) :
    ((thr d L).loc cc0_scratch2 ↦{fullShare} f : sProp 𝕄) = ((a8).view.loc (thr d L) ↦{fullShare} f) := rfl

omit [FloatOps F] in
/-- A slot of the word buffer is its index list (row 0) and the rest (row 1). -/
theorem tb_split6_0 (g : C6 F) :
    (((s60).view.loc (thr d L) ↦[(s60).view.set]{fullShare} g : sProp 𝕄))
      ⊣⊢ iprop(((l60).view.loc (thr d L) ↦[(l60).view.set]{fullShare} g) ∗ ((s60).view.loc (thr d L) ↦[(s60).view.set \ (l60).view.set]{fullShare} g)) :=
  pointsTo_split_subset l60_sub
omit [FloatOps F] in
theorem tb_split6_1 (g : C6 F) :
    (((s61).view.loc (thr d L) ↦[(s61).view.set]{fullShare} g : sProp 𝕄))
      ⊣⊢ iprop(((l61).view.loc (thr d L) ↦[(l61).view.set]{fullShare} g) ∗ ((s61).view.loc (thr d L) ↦[(s61).view.set \ (l61).view.set]{fullShare} g)) :=
  pointsTo_split_subset l61_sub

/-- The words a landed chunk's index list holds are in range of the table when every word of the stacked array is. -/
theorem tb_hin_0 (hf2 : ∀ i, (f2 i).toNat < 100000) (c : Fin 6400) :
    ∀ x, (View.read (Elt F) (l60).view (itvC f2 c) x).toNat < S100000x128.size gathers_S100000x128_S128x128.axis := by
  intro x; rw [list_read_0 f2 c (itvC f2 c) (fun _ _ => rfl) x]; exact hf2 _
theorem tb_hin_1 (hf2 : ∀ i, (f2 i).toNat < 100000) (c : Fin 6400) :
    ∀ x, (View.read (Elt F) (l61).view (itvC f2 c) x).toNat < S100000x128.size gathers_S100000x128_S128x128.axis := by
  intro x; rw [list_read_1 f2 c (itvC f2 c) (fun _ _ => rfl) x]; exact hf2 _

/-- What the tile hands back is the chunks below 198 and the last two. -/
theorem tdRes_split :
    (tdRes d L f2 f3 f4 : sProp 𝕄) = iprop(outpiece d L (outC f2 f3 f4) ⟨199, by omega⟩ ∗ outpiece d L (outC f2 f3 f4) ⟨198, by omega⟩
      ∗ done (F := F) 198 (outpiece d L (outC f2 f3 f4))) :=
  (done_all (F := F) (outpiece d L (outC f2 f3 f4))).symm.trans
    ((done_put (F := F) 199 (by omega) (outpiece d L (outC f2 f3 f4))).trans
      (congrArg (fun X : sProp 𝕄 => iprop(outpiece d L (outC f2 f3 f4) ⟨199, by omega⟩ ∗ X))
        (done_put (F := F) 198 (by omega) (outpiece d L (outC f2 f3 f4)))))

/-- ONE TRIP OF THE RING keeps the ring's invariant. -/
def TripStep (F : FTy → Type) [FloatOps F] : Prop :=
  ∀ (d : Dev nD) (L : grid0.Coords) (f2 : C2 F) (f3 : C3 F) (f4 : C4 F) (fo : C5 F)
    (O : CellTallies nD τ sig (HIx 1)) (W : Waits sig (HIx 1)), (∀ i, (f2 i).toNat < 100000) →
    ∀ (v1 : BitVec 32) (t1 : Fin k0_t1_loop.trips) (acc : PUnit),
      Inv d L f2 f3 f4 fo O W t1.val acc ⊢ wp frame (wpE (defs₀ (F := F)) 𝒱₀ (thr d L) none) Set.univ
        (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 acc) (Inv d L f2 f3 f4 fo O W (t1.val + 1))

end Body

/-- THE TILE'S TASK from one trip of the ring: the type rows are copied in; the first four index copies are started and
    the first two waited for, their gathers started — which is the ring's invariant before the first trip; fifty trips
    keep it; after the last, the two write-backs still in flight are waited for, and every chunk of the result holds the
    lookup. -/
theorem tile_body [FloatOps F] (htrip0 : TripStep F) : TileBody F := by
  intro d L f2 f3 f4 fo hf2 O W hO
  have hF : (K (F := F)).Facts := facts
  have htrip := htrip0 d L f2 f3 f4 fo O W hf2
  rw [cc0_k_eq_skeleton]; unfold cc0_k_skel
  rw [(K (F := F)).scopedBufs_V hF d (cV L) (jV L), SparseCore.Cfg.scopedSems0_V (Val := Elt F) d (cV L) (jV L), ownSems0_V13, ownBufs_V3]
  unfold goRes
  iintro ⟨#Hlv, -, ⟨A2, A3, H4, O5⟩, ⟨⟨%f6, H6⟩, ⟨%f7, H7⟩, ⟨%f8, H8⟩, Hbufs⟩, ⟨S3, S4, S5, S6, S7, S8, S9, S10, S11, S12, S13, S14, Ssc, Hsems⟩, HO⟩
  ihave Hmw := ((K (F := F)).mayWaits_none (thr := thr d L) hO) $$ Hlv
  ihave H8 := (Entails.of_eq (tb_pts_a8 (F := F) d L f8)) $$ H8
  ihave H6 := (Entails.of_eq (slots6 (F := F) d L f6)) $$ H6
  icases H6 with ⟨H60, H61, H62, H63⟩
  ihave H7 := (Entails.of_eq (slots7 (F := F) d L f7)) $$ H7
  icases H7 with ⟨H70, H71, H72, H73⟩
  -- the first four chunks of the stacked array, spelt as the program slices them
  ihave A2 := (Entails.of_eq (todo_all (F := F) (a2piece d L f2)).symm) $$ A2
  ihave A2 := (todo4 (F := F) 0 (by omega) (a2piece d L f2)) $$ A2
  icases A2 with ⟨A0, A1, A2c, A3c, A2⟩
  ihave A0 := (Entails.of_eq (a2piece_prog (F := F) d L f2 _ _ (k0_off1_inb L 0) (off1_eq L 0 _ rfl))) $$ A0
  ihave A1 := (Entails.of_eq (a2piece_prog (F := F) d L f2 _ _ (k0_off1_inb L 1) (off1_eq L 1 _ rfl))) $$ A1
  ihave A2c := (Entails.of_eq (a2piece_prog (F := F) d L f2 _ _ (k0_off1_inb L 2) (off1_eq L 2 _ rfl))) $$ A2c
  ihave A3c := (Entails.of_eq (a2piece_prog (F := F) d L f2 _ _ (k0_off1_inb L 3) (off1_eq L 3 _ rfl))) $$ A3c
  -- the table's read shares for the first two gathers
  ihave A3 := (Entails.of_eq (todo_all (F := F) (a3tok d L f3)).symm) $$ A3
  ihave A3 := (Entails.of_eq (todo_take (F := F) 0 (by omega) (a3tok d L f3))) $$ A3
  icases A3 with ⟨T0, A3⟩
  ihave A3 := (Entails.of_eq (todo_take (F := F) (0 + 1) (by omega) (a3tok d L f3))) $$ A3
  icases A3 with ⟨T1, A3⟩
  have hin0 := tb_hin_0 (F := F) f2 hf2
  have hin1 := tb_hin_1 (F := F) f2 hf2
  -- the type rows' copy, the four index copies, the wait for slot 0's
  sl_exec_parts
  ihave H8 := (Entails.of_eq (pointsTo_congr (g := ttC f4) (fun i _ => congrFun (tt_land f8 f4) i))) $$ H8
  ihave H60 := (Entails.of_eq (pointsTo_congr (it_land_0 _ f2 (chunkNo L (gF 0)) _ (fun x => chunk_read f2 (chunkNo L (gF 0)) _ _ (off1_eq L 0 (gF 0) rfl).symm x)))) $$ H60
  ihave Hsp := ((tb_split6_0 (F := F) d L _).1) $$ H60
  icases Hsp with ⟨L0, R0⟩
  sl_exec_parts
  ihave H61 := (Entails.of_eq (pointsTo_congr (it_land_1 _ f2 (chunkNo L (gF 1)) _ (fun x => chunk_read f2 (chunkNo L (gF 1)) _ _ (off1_eq L 1 (gF 1) rfl).symm x)))) $$ H61
  ihave Hsp := ((tb_split6_1 (F := F) d L _).1) $$ H61
  icases Hsp with ⟨L1, R1⟩
  sl_exec_parts
  sl_for (Inv d L f2 f3 f4 fo O W) $$ [A2 A3 O5 H8 S7 R0 S3 S11 S8 R1 S4 S12 S5 H72 S13 S9 S6 H73 S14 S10 HO]
  case region =>
    intro t1 acc
    exact htrip _ t1 acc
  · -- the invariant before the first trip
    sl_unfold_run_names
    unfold Inv slotA0 slotA1 slotB2 slotB3
    simp only [if_pos (show (0 : ℕ) < 50 by decide), if_neg (show ¬ (0 : ℕ) < 0 by decide)]
    isplitr; · iexact Hmw
    isplitl [A2]; · iexact A2
    isplitl [A3]; · iexact A3
    isplitl [O5]
    · iapply (Entails.of_eq (todo_all (F := F) (outpiece d L fo)).symm); iexact O5
    isplitr
    · rw [show 4 * 0 - 2 = 0 from rfl, done_none]; iempintro
    isplitl [H8]; · iexact H8
    isplitl [S7 R0 S3 S11]
    · isplitl [S7]
      · iapply (gfl_canon_0 (F := F) d L f2 f3 (gF (4 * 0 + 0)) _ _
          (gath_land_0 _ f2 f3 (chunkNo L (gF 0)) _ (fun x => list_read_0 f2 (chunkNo L (gF 0)) _ (fun _ _ => rfl) x) _ _ (fun _ => rfl)) (fun _ => rfl))
        iexact S7
      isplitl [R0]; · iexact R0
      isplitl [S3]; · iexact S3
      iexact S11
    isplitl [S8 R1 S4 S12]
    · isplitl [S8]
      · iapply (gfl_canon_1 (F := F) d L f2 f3 (gF (4 * 0 + 1)) _ _
          (gath_land_1 _ f2 f3 (chunkNo L (gF 1)) _ (fun x => list_read_1 f2 (chunkNo L (gF 1)) _ (fun _ _ => rfl) x) _ _ (fun _ => rfl)) (fun _ => rfl))
        iexact S8
      isplitl [R1]; · iexact R1
      isplitl [S4]; · iexact S4
      iexact S12
    isplitl [S5 H72 S13 S9]
    · isplitl [S5]
      · iapply (ifl_canon_2 (F := F) d L f2 (gF (4 * 0 + 2)) _ _
          (it_land_2 _ f2 (chunkNo L (gF 2)) _ (fun x => chunk_read f2 (chunkNo L (gF 2)) _ _ (off1_eq L 2 (gF 2) rfl).symm x))
          _ (k0_off1_inb L 2) (off1_eq L 2 (gF 2) rfl))
        iexact S5
      isplitl [H72 S13]
      · isplitl [H72]
        · iexists _; iexact H72
        iexact S13
      iexact S9
    isplitl [S6 H73 S14 S10]
    · isplitl [S6]
      · iapply (ifl_canon_3 (F := F) d L f2 (gF (4 * 0 + 3)) _ _
          (it_land_3 _ f2 (chunkNo L (gF 3)) _ (fun x => chunk_read f2 (chunkNo L (gF 3)) _ _ (off1_eq L 3 (gF 3) rfl).symm x))
          _ (k0_off1_inb L 3) (off1_eq L 3 (gF 3) rfl))
        iexact S6
      isplitl [H73 S14]
      · isplitl [H73]
        · iexists _; iexact H73
        iexact S14
      iexact S10
    iexists _
    isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ HI
  -- after the last trip: slots 0 and 1 idle, the write-backs of chunks 198 and 199 in flight from slots 2 and 3
  unfold Inv slotA0 slotA1 slotB2 slotB3 SFl2 SFl3
  simp only [if_neg (show ¬ (k0_t1_loop.trips : ℕ) < 50 by decide), if_pos (show (0 : ℕ) < k0_t1_loop.trips by decide)]
  icases HI with ⟨-, -, -, -, Dn, H8, ⟨⟨%g60, H60⟩, ⟨%x70, H70⟩, S3, S7, S11⟩, ⟨⟨%g61, H61⟩, ⟨%x71, H71⟩, S4, S8, S12⟩,
    ⟨⟨⟨%g62, H62⟩, S5⟩, F2, S9⟩, ⟨⟨⟨%g63, H63⟩, S6⟩, F3, S10⟩, %W', %hW', HO⟩
  -- the two last write-backs are waited for
  sl_exec_parts
  have h50 : Scf.trips (0#32) (Scalar.addi 0#32 50#32) 1#32 = 50 := by decide
  rw [h50]
  rw [wp_ret]; imodintro
  -- every chunk of the result holds the lookup
  isplitl [Dn F2_dst F3_dst]
  · iapply (Entails.of_eq (tdRes_split (F := F) d L f2 f3 f4).symm)
    isplitl [F3_dst]; · iexact F3_dst
    isplitl [F2_dst]; · iexact F2_dst
    iexact Dn
  -- the tile's own buffers, whole again
  isplitl [H60 H61 H62 H63 H70 H71 F2_src F3_src H8 Hbufs]
  · isplitl [H60 H61 H62 H63]
    · iapply (slots6_join (F := F) d L)
      isplitl [H60]; · iexists _; iexact H60
      isplitl [H61]; · iexists _; iexact H61
      isplitl [H62]; · iexists _; iexact H62
      iexists _; iexact H63
    isplitl [H70 H71 F2_src F3_src]
    · iapply (slots7_join (F := F) d L)
      isplitl [H70]; · iexists _; iexact H70
      isplitl [H71]; · iexists _; iexact H71
      isplitl [F2_src]; · iexists _; iexact F2_src
      iexists _; iexact F3_src
    isplitl [H8]; · iexists _; iexact H8
    iexact Hbufs
  -- its semaphores, at zero again
  isplitl [S3 S4 S5 S6 S7 S8 S9 S10 S11 S12 F2 F3 Ssc Hsems]
  · isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [F2]; · iexact F2
    isplitl [F3]; · iexact F3
    isplitl [Ssc]; · iexact Ssc
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    · exact hW' p hp

/-- The tile obligation of the launch, from one trip of the ring. -/
theorem tileObl [FloatOps F] (htrip : TripStep F) (m : (ℓ : Loc nD τ sig) → Buf (Elt F) ℓ) (V2 : Dev nD → C2 F)
    (hf2 : ∀ d i, (V2 d i).toNat < 100000) : (K (F := F)).TileObl (D (F := F)) 𝒱 (P m V2) v₀ 0 :=
  tileObl_of (tile_body htrip) m V2 hf2

end Cert.Proof.KI

end
-- ==== Proof.GeomB.lean ====
/-
  Which words of the two ring buffers lie under which view.  A slot of a ring buffer is the box of the buffer whose
  first coordinate is the slot number and whose other coordinates are unconstrained; the index list of a slot of the
  word buffer is its row 0.  A sixteen-lane access whose first offset is b lies in slot b.
-/
import proofs.«207534_g35055523070033_cont_8to1_b_222_9_alg».proof.Proof.SlotsB

noncomputable section

namespace Cert.Proof.KB

open Cert.Kernel Cert.Kernel.Gen
open Idealize.ShloMosaic

/-- The words of a whole buffer under a unit-stride box of it: those whose every coordinate lies in the box. -/
theorem mem_access_whole {κ : Kind} (b : Ref sig κ) (off size : Fin b.ty.shape.rank → ℕ)
    (inb : ∀ a, off a + size a ≤ b.ty.shape.size a) (i : b.ty.shape.Idx) :
    i ∈ ((Memref.whole b).access (Rect.unit off size inb)).set ↔ ∀ a, off a ≤ i a ∧ (i a : ℕ) < off a + size a := by
  show i ∈ ((View.whole b).slice (Rect.unit off size inb)).set ↔ _
  rw [View.set_slice_whole, Rect.mem_set_unit]

/-- The same for the box squeezed to another shape: the squeeze keeps the words. -/
theorem mem_slot_whole {κ : Kind} (b : Ref sig κ) (off size : Fin b.ty.shape.rank → ℕ)
    (inb : ∀ a, off a + size a ≤ b.ty.shape.size a) (s' : Shape)
    (hs : (Rect.unit (s := b.ty.shape) off size inb).shape.Squeezes s') (i : b.ty.shape.Idx) :
    i ∈ (((Memref.whole b).slice (Rect.unit off size inb) (fun _ => rfl)).squeeze s' hs).view.set
      ↔ ∀ a, off a ≤ i a ∧ (i a : ℕ) < off a + size a := by
  show i ∈ (((View.whole b).slice (Rect.unit off size inb)).reshape s' hs.numel_eq).set ↔ _
  rw [View.set_reshape, View.set_slice_whole, Rect.mem_set_unit]

/-- A condition on each of three axes, axis by axis. -/
theorem forall_fin3 (P : Fin 3 → Prop) : (∀ a, P a) ↔ P 0 ∧ P 1 ∧ P 2 := by
  simp [Fin.forall_fin_succ]

/-- Slot b of the row buffer: the words whose first coordinate is b. -/
theorem slot7_mem (b : ℕ) (hb : ∀ a, (![b, 0, 0] : Fin 3 → ℕ) a + S1x128x128.size a ≤ S4x128x128.size a)
    (i : S4x128x128.Idx) :
    i ∈ (((a7).slice (Rect.unit (s := S4x128x128) ![b, 0, 0] S1x128x128.size hb) (fun _ => rfl)).squeeze S128x128
      squeezes_S1x128x128_S128x128).view.set ↔ (i 0).val = b := by
  refine (mem_slot_whole cc0_scratch1 _ _ _ _ _ i).trans ?_
  have h1 : (i 1).val < 128 := (i 1).isLt
  have h2 : (i 2).val < 128 := (i 2).isLt
  refine (forall_fin3 _).trans ?_
  show (b ≤ (i 0).val ∧ (i 0).val < b + 1) ∧ (0 ≤ (i 1).val ∧ (i 1).val < 0 + 128) ∧ (0 ≤ (i 2).val ∧ (i 2).val < 0 + 128) ↔ _
  omega

theorem slot7_mem_0 (i : S4x128x128.Idx) : i ∈ (s70).view.set ↔ (i 0).val = 0 := slot7_mem 0 _ i
theorem slot7_mem_1 (i : S4x128x128.Idx) : i ∈ (s71).view.set ↔ (i 0).val = 1 := slot7_mem 1 _ i
theorem slot7_mem_2 (i : S4x128x128.Idx) : i ∈ (s72).view.set ↔ (i 0).val = 2 := slot7_mem 2 _ i
theorem slot7_mem_3 (i : S4x128x128.Idx) : i ∈ (s73).view.set ↔ (i 0).val = 3 := slot7_mem 3 _ i

/-- Slot b of the word buffer: the words whose first coordinate is b. -/
theorem slot6_mem (b : ℕ) (hb : ∀ a, (![b, 0, 0] : Fin 3 → ℕ) a + S1x2x128.size a ≤ S4x2x128.size a)
    (i : S4x2x128.Idx) :
    i ∈ (((a6).slice (Rect.unit (s := S4x2x128) ![b, 0, 0] S1x2x128.size hb) (fun _ => rfl)).squeeze S2x128
      squeezes_S1x2x128_S2x128).view.set ↔ (i 0).val = b := by
  refine (mem_slot_whole cc0_scratch0 _ _ _ _ _ i).trans ?_
  have h1 : (i 1).val < 2 := (i 1).isLt
  have h2 : (i 2).val < 128 := (i 2).isLt
  refine (forall_fin3 _).trans ?_
  show (b ≤ (i 0).val ∧ (i 0).val < b + 1) ∧ (0 ≤ (i 1).val ∧ (i 1).val < 0 + 2) ∧ (0 ≤ (i 2).val ∧ (i 2).val < 0 + 128) ↔ _
  omega

theorem slot6_mem_0 (i : S4x2x128.Idx) : i ∈ (s60).view.set ↔ (i 0).val = 0 := slot6_mem 0 _ i
theorem slot6_mem_1 (i : S4x2x128.Idx) : i ∈ (s61).view.set ↔ (i 0).val = 1 := slot6_mem 1 _ i
theorem slot6_mem_2 (i : S4x2x128.Idx) : i ∈ (s62).view.set ↔ (i 0).val = 2 := slot6_mem 2 _ i
theorem slot6_mem_3 (i : S4x2x128.Idx) : i ∈ (s63).view.set ↔ (i 0).val = 3 := slot6_mem 3 _ i

/-- The index list of slot b of the word buffer: row 0 of the slot. -/
theorem list6_mem (b : ℕ) (hb : ∀ a, (![b, 0, 0] : Fin 3 → ℕ) a + S1x1x128.size a ≤ S4x2x128.size a)
    (i : S4x2x128.Idx) :
    i ∈ (((a6).slice (Rect.unit (s := S4x2x128) ![b, 0, 0] S1x1x128.size hb) (fun _ => rfl)).squeeze S128
      squeezes_S1x1x128_S128).view.set ↔ (i 0).val = b ∧ (i 1).val = 0 := by
  refine (mem_slot_whole cc0_scratch0 _ _ _ _ _ i).trans ?_
  have h2 : (i 2).val < 128 := (i 2).isLt
  refine (forall_fin3 _).trans ?_
  show (b ≤ (i 0).val ∧ (i 0).val < b + 1) ∧ (0 ≤ (i 1).val ∧ (i 1).val < 0 + 1) ∧ (0 ≤ (i 2).val ∧ (i 2).val < 0 + 128) ↔ _
  omega

theorem list6_mem_0 (i : S4x2x128.Idx) : i ∈ (l60).view.set ↔ (i 0).val = 0 ∧ (i 1).val = 0 := list6_mem 0 _ i
theorem list6_mem_1 (i : S4x2x128.Idx) : i ∈ (l61).view.set ↔ (i 0).val = 1 ∧ (i 1).val = 0 := list6_mem 1 _ i
theorem list6_mem_2 (i : S4x2x128.Idx) : i ∈ (l62).view.set ↔ (i 0).val = 2 ∧ (i 1).val = 0 := list6_mem 2 _ i
theorem list6_mem_3 (i : S4x2x128.Idx) : i ∈ (l63).view.set ↔ (i 0).val = 3 ∧ (i 1).val = 0 := list6_mem 3 _ i

/-- The index list of a slot lies in the slot. -/
theorem l60_sub : (l60).view.set ⊆ (s60).view.set := fun i hi => (slot6_mem_0 i).mpr ((list6_mem_0 i).mp hi).1
theorem l61_sub : (l61).view.set ⊆ (s61).view.set := fun i hi => (slot6_mem_1 i).mpr ((list6_mem_1 i).mp hi).1
theorem l62_sub : (l62).view.set ⊆ (s62).view.set := fun i hi => (slot6_mem_2 i).mpr ((list6_mem_2 i).mp hi).1
theorem l63_sub : (l63).view.set ⊆ (s63).view.set := fun i hi => (slot6_mem_3 i).mpr ((list6_mem_3 i).mp hi).1

/-- A word under a sixteen-lane access of the row buffer has the access's first offset as its first coordinate. -/
theorem acc7_fst (o : Fin 3 → ℕ) (h : ∀ a, o a + S1x1x16.size a ≤ S4x128x128.size a) (i : S4x128x128.Idx)
    (hi : i ∈ ((a7).access (Rect.unit (s := S4x128x128) o S1x1x16.size h)).set) : (i 0).val = o 0 := by
  have h0 := (mem_access_whole cc0_scratch1 o S1x1x16.size h i).mp hi (0 : Fin 3)
  have : o 0 ≤ (i 0).val ∧ (i 0).val < o 0 + 1 := h0
  omega

/-- The same for the word buffer. -/
theorem acc6_fst (o : Fin 3 → ℕ) (h : ∀ a, o a + S1x1x16.size a ≤ S4x2x128.size a) (i : S4x2x128.Idx)
    (hi : i ∈ ((a6).access (Rect.unit (s := S4x2x128) o S1x1x16.size h)).set) : (i 0).val = o 0 := by
  have h0 := (mem_access_whole cc0_scratch0 o S1x1x16.size h i).mp hi (0 : Fin 3)
  have : o 0 ≤ (i 0).val ∧ (i 0).val < o 0 + 1 := h0
  omega

theorem sub7_0 : ∀ (o : Fin 3 → ℕ) (h : ∀ a, o a + S1x1x16.size a ≤ S4x128x128.size a), o 0 = 0 →
    ((a7).access (Rect.unit (s := S4x128x128) o S1x1x16.size h)).set ⊆ (s70).view.set :=
  fun o h ho i hi => (slot7_mem_0 i).mpr ((acc7_fst o h i hi).trans ho)
theorem sub7_1 : ∀ (o : Fin 3 → ℕ) (h : ∀ a, o a + S1x1x16.size a ≤ S4x128x128.size a), o 0 = 1 →
    ((a7).access (Rect.unit (s := S4x128x128) o S1x1x16.size h)).set ⊆ (s71).view.set :=
  fun o h ho i hi => (slot7_mem_1 i).mpr ((acc7_fst o h i hi).trans ho)
theorem sub7_2 : ∀ (o : Fin 3 → ℕ) (h : ∀ a, o a + S1x1x16.size a ≤ S4x128x128.size a), o 0 = 2 →
    ((a7).access (Rect.unit (s := S4x128x128) o S1x1x16.size h)).set ⊆ (s72).view.set :=
  fun o h ho i hi => (slot7_mem_2 i).mpr ((acc7_fst o h i hi).trans ho)
theorem sub7_3 : ∀ (o : Fin 3 → ℕ) (h : ∀ a, o a + S1x1x16.size a ≤ S4x128x128.size a), o 0 = 3 →
    ((a7).access (Rect.unit (s := S4x128x128) o S1x1x16.size h)).set ⊆ (s73).view.set :=
  fun o h ho i hi => (slot7_mem_3 i).mpr ((acc7_fst o h i hi).trans ho)

theorem st7_0 : ∀ (o : Fin 3 → ℕ) (h : ∀ a, o a + S1x1x16.size a ≤ S4x128x128.size a), o 0 = 0 →
    ((a7).access (Rect.unit (s := S4x128x128) o S1x1x16.size h)).setOn Finset.univ ⊆ (s70).view.set := sub7_0
theorem st7_1 : ∀ (o : Fin 3 → ℕ) (h : ∀ a, o a + S1x1x16.size a ≤ S4x128x128.size a), o 0 = 1 →
    ((a7).access (Rect.unit (s := S4x128x128) o S1x1x16.size h)).setOn Finset.univ ⊆ (s71).view.set := sub7_1
theorem st7_2 : ∀ (o : Fin 3 → ℕ) (h : ∀ a, o a + S1x1x16.size a ≤ S4x128x128.size a), o 0 = 2 →
    ((a7).access (Rect.unit (s := S4x128x128) o S1x1x16.size h)).setOn Finset.univ ⊆ (s72).view.set := sub7_2
theorem st7_3 : ∀ (o : Fin 3 → ℕ) (h : ∀ a, o a + S1x1x16.size a ≤ S4x128x128.size a), o 0 = 3 →
    ((a7).access (Rect.unit (s := S4x128x128) o S1x1x16.size h)).setOn Finset.univ ⊆ (s73).view.set := sub7_3

theorem sub6_0 : ∀ (o : Fin 3 → ℕ) (h : ∀ a, o a + S1x1x16.size a ≤ S4x2x128.size a), o 0 = 0 →
    ((a6).access (Rect.unit (s := S4x2x128) o S1x1x16.size h)).set ⊆ (s60).view.set :=
  fun o h ho i hi => (slot6_mem_0 i).mpr ((acc6_fst o h i hi).trans ho)
theorem sub6_1 : ∀ (o : Fin 3 → ℕ) (h : ∀ a, o a + S1x1x16.size a ≤ S4x2x128.size a), o 0 = 1 →
    ((a6).access (Rect.unit (s := S4x2x128) o S1x1x16.size h)).set ⊆ (s61).view.set :=
  fun o h ho i hi => (slot6_mem_1 i).mpr ((acc6_fst o h i hi).trans ho)
theorem sub6_2 : ∀ (o : Fin 3 → ℕ) (h : ∀ a, o a + S1x1x16.size a ≤ S4x2x128.size a), o 0 = 2 →
    ((a6).access (Rect.unit (s := S4x2x128) o S1x1x16.size h)).set ⊆ (s62).view.set :=
  fun o h ho i hi => (slot6_mem_2 i).mpr ((acc6_fst o h i hi).trans ho)
theorem sub6_3 : ∀ (o : Fin 3 → ℕ) (h : ∀ a, o a + S1x1x16.size a ≤ S4x2x128.size a), o 0 = 3 →
    ((a6).access (Rect.unit (s := S4x2x128) o S1x1x16.size h)).set ⊆ (s63).view.set :=
  fun o h ho i hi => (slot6_mem_3 i).mpr ((acc6_fst o h i hi).trans ho)

end Cert.Proof.KB

end
-- ==== Proof.InnerStepB.lean ====
/-
  One store of the inner loop, read entry by entry, and what it does to the row buffer.
  The stored vector's lane l is the row buffer's entry (b, 16 t + kk, 16 dd + l) plus the blend of the two type rows at
  column 16 dd + l, with the float of the type index of token row 16 t + kk: each vector operation acts lane by lane,
  each re-shaping between [16], [1, 16] and [1, 1, 16] keeps the lane, and taking lane kk of the sixteen type indices
  read from (b, 1, 16 t ..) gives the index of row 16 t + kk. The store writes piece number
  8 · (16 t + kk) + dd = 128 t + 8 kk + dd of slot b and nothing else, so a buffer whose first 128 t + 8 kk + dd pieces
  were handled has, after it, its first 128 t + 8 kk + dd + 1 pieces handled.
-/
import proofs.«207534_g35055523070033_cont_8to1_b_222_9_alg».proof.Proof.MirrorB
import Idealize.ShloMosaic.Lib.Pipeline.Value

noncomputable section

namespace Cert.Proof.KB

open Cert.Kernel Cert.Kernel.Gen
open Idealize.ShloMosaic Idealize.ShloMosaic.ValueIdx

variable {F : FTy → Type} [FloatOps F]

/-! ## Re-shapings between [16], [1, 16] and [1, 1, 16] keep the lane -/

theorem cast_16_of_1x1x16 {α : Type} (v : S1x1x16.Idx → α) (h : S1x1x16.ShapeCasts S16) (l : Fin 16) :
    shapeCast S16 v h (ix1 l) = v (ix3 (0 : Fin 1) (0 : Fin 1) l) := by
  refine shapeCast_apply v h _ _ ?_
  rw [Shape.rowMajor_val_one, Shape.rowMajor_val_three]
  show (0 * 1 + 0) * 16 + l.val = l.val
  omega

theorem cast_16_of_1x16 {α : Type} (v : S1x16.Idx → α) (h : S1x16.ShapeCasts S16) (l : Fin 16) :
    shapeCast S16 v h (ix1 l) = v (ix2 (0 : Fin 1) l) := by
  refine shapeCast_apply v h _ _ ?_
  rw [Shape.rowMajor_val_one, Shape.rowMajor_val_two]
  show 0 * 16 + l.val = l.val
  omega

theorem cast_1x1x16_of_16 {α : Type} (v : S16.Idx → α) (h : S16.ShapeCasts S1x1x16) (x : S1x1x16.Idx) :
    shapeCast S1x1x16 v h x = v (ix1 (x 2)) := by
  refine shapeCast_apply v h _ _ ?_
  rw [Shape.rowMajor_val_one, Shape.rowMajor_val_three]
  have l0 : (x 0).val < 1 := (x 0).isLt
  have l1 : (x 1).val < 1 := (x 1).isLt
  show (x 2).val = ((x 0).val * 1 + (x 1).val) * 16 + (x 2).val
  omega

/-! ## The three loads, read at a lane -/

/-- Sixteen lanes of the row buffer from (o 0, o 1, o 2). -/
theorem load7_apply (X : C7 F) (o7 : Fin 3 → ℕ) (h7 : ∀ a, o7 a + S1x1x16.size a ≤ S4x128x128.size a) (l : Fin 16)
    (i : S4x128x128.Idx) (e0 : (i 0).val = o7 0) (e1 : (i 1).val = o7 1) (e2 : (i 2).val = o7 2 + l.val) :
    shapeCast S16 (View.readAt (Elt F) (a7).view (Rect.unit (s := S4x128x128) o7 S1x1x16.size h7).toLoadRect X) shapeCasts_S1x1x16_S16
      (ix1 l) = X i := by
  rw [cast_16_of_1x1x16]
  show X ((Rect.unit (s := S4x128x128) o7 S1x1x16.size h7).toLoadRect.idx (ix3 (0 : Fin 1) (0 : Fin 1) l)) = X i
  congr 1
  funext a
  apply Fin.ext
  match a with
  | ⟨0, _⟩ => show o7 0 + 1 * 0 = (i 0).val; omega
  | ⟨1, _⟩ => show o7 1 + 1 * 0 = (i 1).val; omega
  | ⟨2, _⟩ => show o7 2 + 1 * l.val = (i 2).val; omega

/-- Sixteen type indices from (o 0, o 1, o 2). -/
theorem load6_apply (f6 : C6 F) (o6 : Fin 3 → ℕ) (h6 : ∀ a, o6 a + S1x1x16.size a ≤ S4x2x128.size a) (l : Fin 16)
    (i : S4x2x128.Idx) (e0 : (i 0).val = o6 0) (e1 : (i 1).val = o6 1) (e2 : (i 2).val = o6 2 + l.val) :
    shapeCast S16 (View.readAt (Elt F) (a6).view (Rect.unit (s := S4x2x128) o6 S1x1x16.size h6).toLoadRect f6) shapeCasts_S1x1x16_S16
      (ix1 l) = f6 i := by
  rw [cast_16_of_1x1x16]
  show f6 ((Rect.unit (s := S4x2x128) o6 S1x1x16.size h6).toLoadRect.idx (ix3 (0 : Fin 1) (0 : Fin 1) l)) = f6 i
  congr 1
  funext a
  apply Fin.ext
  match a with
  | ⟨0, _⟩ => show o6 0 + 1 * 0 = (i 0).val; omega
  | ⟨1, _⟩ => show o6 1 + 1 * 0 = (i 1).val; omega
  | ⟨2, _⟩ => show o6 2 + 1 * l.val = (i 2).val; omega

/-- Sixteen lanes of type row r from column c. -/
theorem load8_apply (f8 : C8 F) (r c : ℕ) (h : ∀ a, (![r, c] : Fin 2 → ℕ) a + S1x16.size a ≤ S2x128.size a) (l : Fin 16)
    (i : S2x128.Idx) (e0 : (i 0).val = r) (e1 : (i 1).val = c + l.val) :
    shapeCast S16 (View.readAt (Elt F) (a8).view (Rect.unit (s := S2x128) ![r, c] S1x16.size h).toLoadRect f8) shapeCasts_S1x16_S16
      (ix1 l) = f8 i := by
  rw [cast_16_of_1x16]
  show f8 ((Rect.unit (s := S2x128) ![r, c] S1x16.size h).toLoadRect.idx (ix2 (0 : Fin 1) l)) = f8 i
  congr 1
  funext a
  apply Fin.ext
  match a with
  | ⟨0, _⟩ => show r + 1 * 0 = (i 0).val; omega
  | ⟨1, _⟩ => show c + 1 * l.val = (i 1).val; omega

/-- Every lane of the splat is lane kk of the vector. -/
theorem splat_apply (v : FVec F S16 .f32) (kk : Fin 16) (hs : S16.Slices ![kk.val] S1) (y : S16.Idx) :
    splat v kk.val hs y = v (ix1 kk) := by
  show v _ = v (ix1 kk)
  congr 1
  funext a
  apply Fin.ext
  match a with
  | ⟨0, _⟩ => show kk.val + 0 = kk.val; rfl

/-! ## The vector operations act lane by lane -/

theorem addf_at {s : Shape} {φ : FTy} (a b : FVec F s φ) (i : s.Idx) : addf a b i = FloatOps.addf (a i) (b i) := rfl
theorem subf_at {s : Shape} {φ : FTy} (a b : FVec F s φ) (i : s.Idx) : subf a b i = FloatOps.subf (a i) (b i) := rfl
theorem mulf_at {s : Shape} {φ : FTy} (a b : FVec F s φ) (i : s.Idx) : mulf a b i = FloatOps.mulf (a i) (b i) := rfl

/-! ## The stored vector -/

/-- Lane (x 2) of the stored vector is the row buffer's entry there plus the blend: the entry of the finished slot
    computed from the buffer as it is. -/
theorem storeVal_apply (f6 : C6 F) (f8 : C8 F) (X : C7 F) (b : Fin 4) (t : Fin 8) (kk : Fin 16) (dd : Fin 8)
    (o6 : Fin 3 → ℕ) (h6 : ∀ a, o6 a + S1x1x16.size a ≤ S4x2x128.size a) (hs : S16.Slices ![kk.val] S1) (c : ℕ)
    (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a)
    (ho6 : o6 = ![b.val, 1, 16 * t.val]) (hc : c = 16 * dd.val) (ho7 : o7 = ![b.val, 16 * t.val + kk.val, 16 * dd.val])
    (x : S1x1x16.Idx) :
    storeVal f6 f8 X o6 h6 kk.val hs c h0 h1 o7 h7 x
      = finOf f6 f8 b X (ix3 b (⟨16 * t.val + kk.val, by have := t.isLt; have := kk.isLt; omega⟩ : Fin 128)
          (⟨16 * dd.val + (x 2).val, by have h2 : (x 2).val < 16 := (x 2).isLt; have := dd.isLt; omega⟩ : Fin 128)) := by
  subst ho6 hc ho7
  have ht := t.isLt
  have hk := kk.isLt
  have hd := dd.isLt
  have hl : (x 2).val < 16 := (x 2).isLt
  unfold storeVal
  rw [cast_1x1x16_of_16, addf_at, addf_at, mulf_at]
  unfold diffRow
  rw [subf_at]
  unfold row0 typeF
  rw [splat_apply, sitofp_apply]
  rw [load7_apply X _ h7 (x 2) (ix3 b (⟨16 * t.val + kk.val, by omega⟩ : Fin 128) (⟨16 * dd.val + (x 2).val, by omega⟩ : Fin 128)) rfl rfl rfl,
    load8_apply f8 0 _ h0 (x 2) (ix2 (0 : Fin 2) (⟨16 * dd.val + (x 2).val, by omega⟩ : Fin 128)) rfl rfl,
    load8_apply f8 1 _ h1 (x 2) (ix2 (1 : Fin 2) (⟨16 * dd.val + (x 2).val, by omega⟩ : Fin 128)) rfl rfl,
    load6_apply f6 _ h6 kk (ix3 b (1 : Fin 2) (⟨16 * t.val + kk.val, by omega⟩ : Fin 128)) rfl rfl rfl]
  rfl

/-! ## How far the handling has got -/

/-- At the loop's entry nothing is handled. -/
theorem mix_zero (b : Fin 4) (f6 : C6 F) (f8 : C8 F) (X0 : C7 F) : Mix b 0 f6 f8 X0 X0 := by
  intro i _
  rw [if_neg (Nat.not_lt_zero _)]

/-- A slot has 128 rows of 8 pieces: after 1024 pieces every entry of the slot is handled. -/
theorem mix_done (b : Fin 4) (f6 : C6 F) (f8 : C8 F) (X0 X : C7 F) (h : Mix b 1024 f6 f8 X0 X) :
    ∀ i : S4x128x128.Idx, (i 0).val = b.val → X i = finOf f6 f8 b X0 i := by
  intro i hi
  have hi1 : (i 1).val < 128 := (i 1).isLt
  have hi2 : (i 2).val < 128 := (i 2).isLt
  rw [h i hi, if_pos (by omega)]

/-- The count may be spelt another way. -/
theorem mix_cast {N N' : ℕ} (b : Fin 4) (f6 : C6 F) (f8 : C8 F) (X0 X : C7 F) (h : N = N') :
    Mix b N f6 f8 X0 X → Mix b N' f6 f8 X0 X := by
  subst h; exact id

/-- One store handles the next piece: piece number 128 t + 8 kk + dd is row 16 t + kk, lanes 16 dd .. 16 dd + 15. -/
theorem mix_step (b : Fin 4) (f6 : C6 F) (f8 : C8 F) (X0 X : C7 F) (t : Fin 8) (kk : Fin 16) (dd : Fin 8)
    (hX : Mix b (128 * t.val + 8 * kk.val + dd.val) f6 f8 X0 X)
    (o6 : Fin 3 → ℕ) (h6 : ∀ a, o6 a + S1x1x16.size a ≤ S4x2x128.size a) (hs : S16.Slices ![kk.val] S1) (c : ℕ)
    (h0 : ∀ a, (![0, c] : Fin 2 → ℕ) a + S1x16.size a ≤ S2x128.size a)
    (h1 : ∀ a, (![1, c] : Fin 2 → ℕ) a + S1x16.size a ≤ S2x128.size a)
    (o7 : Fin 3 → ℕ) (h7 : ∀ a, o7 a + S1x1x16.size a ≤ S4x128x128.size a)
    (ho6 : o6 = ![b.val, 1, 16 * t.val]) (hc : c = 16 * dd.val) (ho7 : o7 = ![b.val, 16 * t.val + kk.val, 16 * dd.val])
    (pay : FVec F S1x1x16 .f32) (hpay : pay = storeVal f6 f8 X o6 h6 kk.val hs c h0 h1 o7 h7) :
    Mix b (128 * t.val + 8 * kk.val + dd.val + 1) f6 f8 X0
      (View.write (Elt F) ((a7).access (Rect.unit (s := S4x128x128) o7 S1x1x16.size h7)) X pay Finset.univ) := by
  intro i hi
  have ht := t.isLt
  have hk := kk.isLt
  have hd := dd.isLt
  have hi1 : (i 1).val < 128 := (i 1).isLt
  have hi2 : (i 2).val < 128 := (i 2).isLt
  by_cases hp : (i 1).val = 16 * t.val + kk.val ∧ (i 2).val / 16 = dd.val
  · -- an entry of the written piece: it takes the stored lane
    obtain ⟨hp1, hp2⟩ := hp
    obtain ⟨x, hx⟩ : ∃ x : S1x1x16.Idx, (x 2).val = (i 2).val - 16 * dd.val :=
      ⟨ix3 (0 : Fin 1) (0 : Fin 1) (⟨(i 2).val - 16 * dd.val, by omega⟩ : Fin 16), rfl⟩
    have hx0 : (x 0).val < 1 := (x 0).isLt
    have hx1 : (x 1).val < 1 := (x 1).isLt
    have hemb : ((a7).access (Rect.unit (s := S4x128x128) o7 S1x1x16.size h7)).emb x = i := by
      subst ho7
      funext a
      apply Fin.ext
      match a with
      | ⟨0, _⟩ => show b.val + 1 * (x 0).val = (i 0).val; omega
      | ⟨1, _⟩ => show (16 * t.val + kk.val) + 1 * (x 1).val = (i 1).val; omega
      | ⟨2, _⟩ => show 16 * dd.val + 1 * (x 2).val = (i 2).val; omega
    have hw : View.write (Elt F) ((a7).access (Rect.unit (s := S4x128x128) o7 S1x1x16.size h7)) X pay Finset.univ i = pay x := by
      have hwe := View.write_emb_of_mem (v := (a7).access (Rect.unit (s := S4x128x128) o7 S1x1x16.size h7)) (Val := Elt F) X pay
        (Finset.mem_univ x)
      rw [hemb] at hwe
      exact hwe
    have hidx : (ix3 b (⟨16 * t.val + kk.val, by omega⟩ : Fin 128) (⟨16 * dd.val + (x 2).val, by omega⟩ : Fin 128) : S4x128x128.Idx) = i := by
      funext a
      apply Fin.ext
      match a with
      | ⟨0, _⟩ => show b.val = (i 0).val; omega
      | ⟨1, _⟩ => show 16 * t.val + kk.val = (i 1).val; omega
      | ⟨2, _⟩ => show 16 * dd.val + (x 2).val = (i 2).val; omega
    have hXi : X i = X0 i := by rw [hX i hi, if_neg (by omega)]
    rw [hw, hpay, storeVal_apply f6 f8 X b t kk dd o6 h6 hs c h0 h1 o7 h7 ho6 hc ho7 x, hidx, if_pos (by omega)]
    unfold finOf
    rw [hXi]
  · -- any other entry keeps its value, and its piece number is not the written one
    have hnot : i ∉ ((a7).access (Rect.unit (s := S4x128x128) o7 S1x1x16.size h7)).setOn Finset.univ := by
      intro hmem
      unfold View.setOn at hmem
      obtain ⟨x, _, hx⟩ := Finset.mem_map.1 hmem
      have hx1 : (x 1).val < 1 := (x 1).isLt
      have hx2 : (x 2).val < 16 := (x 2).isLt
      subst ho7
      have e1 : (i 1).val = (16 * t.val + kk.val) + 1 * (x 1).val := by rw [← hx]; rfl
      have e2 : (i 2).val = 16 * dd.val + 1 * (x 2).val := by rw [← hx]; rfl
      exact hp ⟨by omega, by omega⟩
    rw [View.write_of_not_mem _ _ _ hnot, hX i hi]
    by_cases hlt : 8 * (i 1).val + (i 2).val / 16 < 128 * t.val + 8 * kk.val + dd.val
    · rw [if_pos hlt, if_pos (by omega)]
    · have hne : ¬ (8 * (i 1).val + (i 2).val / 16 < 128 * t.val + 8 * kk.val + dd.val + 1) := by omega
      rw [if_neg hlt, if_neg hne]

end Cert.Proof.KB

end
-- ==== Proof.RespellB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.KerPayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! A tile's chunk, named by its number, is the window the program computes for it: the copy of chunk g's indices in
    the loop's trip t reads the window at the printed offset for g = 4 t + 4 + b, the write-back of chunk g = 4 t + b
    writes the window at the printed offset of row 128 · (chunk number). -/

theorem chunkA5_eq (L : grid0.Coords) (t1 : Fin k0_t1_loop.trips) (r : Fin 4) (g : Fin 200) (e : g.val = 4 * t1.val + r.val) :
    chunkA5 L g = (a5).slice (Rect.unit (s := S819200x128) (k0_off12 L t1 (BitVec.ofNat 32 r.val)) S128x128.size (k0_off12_inb L t1 r)) (fun _ => rfl) := by
  have eo : (![128 * (c0 L + g.val), 0] : Fin 2 → ℕ) = k0_off12 L t1 (BitVec.ofNat 32 r.val) := by
    rw [k0_off12_eq, e]; unfold c0
    funext a; fin_cases a
    · show 128 * (400 * (L 1).val + 200 * (L 0).val + (4 * t1.val + r.val)) = 51200 * (L 1).val + 25600 * (L 0).val + 512 * t1.val + 128 * r.val
      omega
    · rfl
  exact Memref.slice_unit_eq_of_eq (a5) (inbA5 L g) (fun _ => rfl) eo

theorem chunkA2_eq_of (L : grid0.Coords) (g : Fin 200) (o : Fin 3 → ℕ) (h : ∀ a, o a + S1x2x128.size a ≤ S6400x2x128.size a)
    (eo : (![c0 L + g.val, 0, 0] : Fin 3 → ℕ) = o) :
    chunkA2 L g = ((a2).slice (Rect.unit (s := S6400x2x128) o S1x2x128.size h) (fun _ => rfl)).squeeze S2x128 squeezes_S1x2x128_S2x128 := by
  unfold chunkA2
  rw [Memref.slice_unit_eq_of_eq (a2) (inbA2 L g) (fun _ => rfl) eo]

theorem off1_eq (L : grid0.Coords) (r : Fin 4) (g : Fin 200) (e : g.val = r.val) :
    (![c0 L + g.val, 0, 0] : Fin 3 → ℕ) = k0_off1 L (BitVec.ofNat 32 r.val) := by rw [k0_off1_eq, e]; rfl
theorem off11_eq (L : grid0.Coords) (t1 : Fin k0_t1_loop.trips) (g : Fin 200) (e : g.val = 4 * t1.val + 4) :
    (![c0 L + g.val, 0, 0] : Fin 3 → ℕ) = k0_off11 L t1 := by
  rw [k0_off11_eq, e]; unfold c0; funext a; fin_cases a
  · show 400 * (L 1).val + 200 * (L 0).val + (4 * t1.val + 4) = 400 * (L 1).val + 200 * (L 0).val + 4 * t1.val + 4; omega
  · rfl
  · rfl
theorem off22_eq (L : grid0.Coords) (t1 : Fin k0_t1_loop.trips) (g : Fin 200) (e : g.val = 4 * t1.val + 5) :
    (![c0 L + g.val, 0, 0] : Fin 3 → ℕ) = k0_off22 L t1 := by
  rw [k0_off22_eq, e]; unfold c0; funext a; fin_cases a
  · show 400 * (L 1).val + 200 * (L 0).val + (4 * t1.val + 5) = 400 * (L 1).val + 200 * (L 0).val + 4 * t1.val + 5; omega
  · rfl
  · rfl
theorem off32_eq (L : grid0.Coords) (t1 : Fin k0_t1_loop.trips) (g : Fin 200) (e : g.val = 4 * t1.val + 6) :
    (![c0 L + g.val, 0, 0] : Fin 3 → ℕ) = k0_off32 L t1 := by
  rw [k0_off32_eq, e]; unfold c0; funext a; fin_cases a
  · show 400 * (L 1).val + 200 * (L 0).val + (4 * t1.val + 6) = 400 * (L 1).val + 200 * (L 0).val + 4 * t1.val + 6; omega
  · rfl
  · rfl
theorem off42_eq (L : grid0.Coords) (t1 : Fin k0_t1_loop.trips) (g : Fin 200) (e : g.val = 4 * t1.val + 7) :
    (![c0 L + g.val, 0, 0] : Fin 3 → ℕ) = k0_off42 L t1 := by
  rw [k0_off42_eq, e]; unfold c0; funext a; fin_cases a
  · show 400 * (L 1).val + 200 * (L 0).val + (4 * t1.val + 7) = 400 * (L 1).val + 200 * (L 0).val + 4 * t1.val + 7; omega
  · rfl
  · rfl

/-! The trip's conditions, decided by the trip's number. -/

theorem cond2_pos : ∀ t1 : Fin k0_t1_loop.trips, t1.val < 49 → k0_cond2 t1 = 1#1 := by decide +kernel
theorem cond4_pos : ∀ t1 : Fin k0_t1_loop.trips, t1.val < 49 → k0_cond4 t1 = 1#1 := by decide +kernel
theorem cond6_pos : ∀ t1 : Fin k0_t1_loop.trips, t1.val < 49 → k0_cond6 t1 = 1#1 := by decide +kernel
theorem cond8_pos : ∀ t1 : Fin k0_t1_loop.trips, t1.val < 49 → k0_cond8 t1 = 1#1 := by decide +kernel
theorem cond2_neg : ∀ t1 : Fin k0_t1_loop.trips, ¬ t1.val < 49 → ¬ k0_cond2 t1 = 1#1 := by decide +kernel
theorem cond4_neg : ∀ t1 : Fin k0_t1_loop.trips, ¬ t1.val < 49 → ¬ k0_cond4 t1 = 1#1 := by decide +kernel
theorem cond6_neg : ∀ t1 : Fin k0_t1_loop.trips, ¬ t1.val < 49 → ¬ k0_cond6 t1 = 1#1 := by decide +kernel
theorem cond8_neg : ∀ t1 : Fin k0_t1_loop.trips, ¬ t1.val < 49 → ¬ k0_cond8 t1 = 1#1 := by decide +kernel

end Cert.Proof.KB
end
-- ==== Proof.Respell2B.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.KerPayB
import proofs.«207534_g35055523070033_cont_8to1_b_222_9_alg».proof.Proof.RespellB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords)

omit [FloatOps F] in
/-- Two spellings of one window of the flat result hold the same elements. -/
theorem slice5_pts_congr (o o' : Fin 2 → ℕ) (h : ∀ a, o a + S128x128.size a ≤ S819200x128.size a) (h' : ∀ a, o' a + S128x128.size a ≤ S819200x128.size a)
    (e : o = o') (q : PosShare TreeShare) (X : C5 F) :
    ((((a5).slice (Rect.unit (s := S819200x128) o S128x128.size h) (fun _ => rfl)).view.loc (thr d L)
        ↦[((a5).slice (Rect.unit (s := S819200x128) o S128x128.size h) (fun _ => rfl)).view.set]{q} X : sProp 𝕄))
      = (((a5).slice (Rect.unit (s := S819200x128) o' S128x128.size h') (fun _ => rfl)).view.loc (thr d L)
        ↦[((a5).slice (Rect.unit (s := S819200x128) o' S128x128.size h') (fun _ => rfl)).view.set]{q} X) := by
  subst e; rfl

omit [FloatOps F] in
/-- Two spellings of one chunk of the stacked index array hold the same elements. -/
theorem slice2_pts_congr (o o' : Fin 3 → ℕ) (h : ∀ a, o a + S1x2x128.size a ≤ S6400x2x128.size a) (h' : ∀ a, o' a + S1x2x128.size a ≤ S6400x2x128.size a)
    (e : o = o') (q : PosShare TreeShare) (X : C2 F) :
    (((((a2).slice (Rect.unit (s := S6400x2x128) o S1x2x128.size h) (fun _ => rfl)).squeeze S2x128 squeezes_S1x2x128_S2x128).view.loc (thr d L)
        ↦[(((a2).slice (Rect.unit (s := S6400x2x128) o S1x2x128.size h) (fun _ => rfl)).squeeze S2x128 squeezes_S1x2x128_S2x128).view.set]{q} X : sProp 𝕄))
      = ((((a2).slice (Rect.unit (s := S6400x2x128) o' S1x2x128.size h') (fun _ => rfl)).squeeze S2x128 squeezes_S1x2x128_S2x128).view.loc (thr d L)
        ↦[(((a2).slice (Rect.unit (s := S6400x2x128) o' S1x2x128.size h') (fun _ => rfl)).squeeze S2x128 squeezes_S1x2x128_S2x128).view.set]{q} X) := by
  subst e; rfl

omit [FloatOps F] in
/-- A chunk's rows of the flat result, held under the window the program computes. -/
theorem outpiece_prog (X : C5 F) (g : Fin 200) (o : Fin 2 → ℕ) (h : ∀ a, o a + S128x128.size a ≤ S819200x128.size a)
    (eo : (![128 * (c0 L + g.val), 0] : Fin 2 → ℕ) = o) :
    (outpiece d L X g : sProp 𝕄)
      = (((a5).slice (Rect.unit (s := S819200x128) o S128x128.size h) (fun _ => rfl)).view.loc (thr d L)
          ↦[((a5).slice (Rect.unit (s := S819200x128) o S128x128.size h) (fun _ => rfl)).view.set]{fullShare} X) :=
  slice5_pts_congr d L _ _ (inbA5 L g) h eo fullShare X

omit [FloatOps F] in
/-- A chunk's rows of the stacked index array, held under a window computed as offset o. -/
theorem a2piece_prog (f2 : C2 F) (g : Fin 200) (o : Fin 3 → ℕ) (h : ∀ a, o a + S1x2x128.size a ≤ S6400x2x128.size a)
    (eo : (![c0 L + g.val, 0, 0] : Fin 3 → ℕ) = o) :
    (a2piece d L f2 g : sProp 𝕄)
      = ((((a2).slice (Rect.unit (s := S6400x2x128) o S1x2x128.size h) (fun _ => rfl)).squeeze S2x128 squeezes_S1x2x128_S2x128).view.loc (thr d L)
          ↦[(((a2).slice (Rect.unit (s := S6400x2x128) o S1x2x128.size h) (fun _ => rfl)).squeeze S2x128 squeezes_S1x2x128_S2x128).view.set]{shA L} f2) :=
  slice2_pts_congr d L _ _ (inbA2 L g) h eo (shA L) f2

omit [FloatOps F] in
theorem off12_eq (t1 : Fin k0_t1_loop.trips) (r : Fin 4) (g : Fin 200) (e : g.val = 4 * t1.val + r.val) :
    (![128 * (c0 L + g.val), 0] : Fin 2 → ℕ) = k0_off12 L t1 (BitVec.ofNat 32 r.val) := by
  rw [k0_off12_eq, e]; unfold c0
  funext a; fin_cases a
  · show 128 * (400 * (L 1).val + 200 * (L 0).val + (4 * t1.val + r.val)) = 51200 * (L 1).val + 25600 * (L 0).val + 512 * t1.val + 128 * r.val
    omega
  · rfl

end Cert.Proof.KB
end
-- ==== Proof.LandingB.lean ====
/-
  What the kernel's copies leave, entry by entry. A slot of a ring buffer is a box of the buffer with its leading
  unit axis dropped; dropping the axis keeps row-major positions, so entry (r, k) of slot b is entry (b, r, k) of the
  buffer, and likewise chunk c of the stacked index array and chunk c of the flat result. A copy into a slot writes
  the whole slot: afterwards the slot's entry at (r, k) is the copied array's entry at (r, k). A gather writes into
  row k of the slot the table's row named by word k of the list; in range that row is the one `wordOf` names.
  After the inner loop the slot holds gathered row plus blend, and the copy out puts the slot at rows
  128 · chunk .. 128 · chunk + 127 of the flat result, which is what `outFlat` says of those rows.
-/
import proofs.«207534_g35055523070033_cont_8to1_b_222_9_alg».proof.Proof.CanonB
import proofs.«207534_g35055523070033_cont_8to1_b_222_9_alg».proof.Proof.GeomB
import proofs.«207534_g35055523070033_cont_8to1_b_222_9_alg».proof.Proof.InnerStepB
import proofs.«207534_g35055523070033_cont_8to1_b_222_9_alg».proof.Proof.FlatBridge
import Idealize.ShloMosaic.Lib.SparseCore.Launch
import Idealize.ShloMosaic.Lib.Writes

noncomputable section

namespace Cert.Proof.KB

open Cert.Kernel Cert.Kernel.Gen
open Idealize.ShloMosaic Idealize.ShloMosaic.ValueIdx

variable {F : FTy → Type} [FloatOps F]

/-! ## Where a slot's entries sit in its buffer -/

/-- Entry (r, k) of slot b of the word buffer is the buffer's entry (b, r, k). -/
theorem slot6_emb (b : ℕ) (hb : ∀ a, (![b, 0, 0] : Fin 3 → ℕ) a + S1x2x128.size a ≤ S4x2x128.size a) (x : S2x128.Idx)
    (i : S4x2x128.Idx) (e0 : (i 0).val = b) (e1 : (i 1).val = (x 0).val) (e2 : (i 2).val = (x 1).val) :
    (((a6).slice (Rect.unit (s := S4x2x128) ![b, 0, 0] S1x2x128.size hb) (fun _ => rfl)).squeeze S2x128
      squeezes_S1x2x128_S2x128).view.emb x = i := by
  have hx0 : (x 0).val < 2 := (x 0).isLt
  have hx1 : (x 1).val < 128 := (x 1).isLt
  refine (congrArg (Rect.unit (s := S4x2x128) ![b, 0, 0] S1x2x128.size hb).emb
    (Shape.reshapeEquiv_eq_of_rowMajor _ (y := (ix3 (0 : Fin 1) (x 0) (x 1) : S1x2x128.Idx)) ?_)).trans ?_
  · rw [Shape.rowMajor_val_three, Shape.rowMajor_val_two]
    show (0 * 2 + (x 0).val) * 128 + (x 1).val = (x 0).val * 128 + (x 1).val
    omega
  · funext a
    apply Fin.ext
    match a with
    | ⟨0, _⟩ => show b + 1 * 0 = (i 0).val; omega
    | ⟨1, _⟩ => show 0 + 1 * (x 0).val = (i 1).val; omega
    | ⟨2, _⟩ => show 0 + 1 * (x 1).val = (i 2).val; omega

/-- Entry k of the word list of slot b is the buffer's entry (b, 0, k). -/
theorem list6_emb (b : ℕ) (hb : ∀ a, (![b, 0, 0] : Fin 3 → ℕ) a + S1x1x128.size a ≤ S4x2x128.size a) (x : S128.Idx)
    (i : S4x2x128.Idx) (e0 : (i 0).val = b) (e1 : (i 1).val = 0) (e2 : (i 2).val = (x 0).val) :
    (((a6).slice (Rect.unit (s := S4x2x128) ![b, 0, 0] S1x1x128.size hb) (fun _ => rfl)).squeeze S128
      squeezes_S1x1x128_S128).view.emb x = i := by
  have hx0 : (x 0).val < 128 := (x 0).isLt
  refine (congrArg (Rect.unit (s := S4x2x128) ![b, 0, 0] S1x1x128.size hb).emb
    (Shape.reshapeEquiv_eq_of_rowMajor _ (y := (ix3 (0 : Fin 1) (0 : Fin 1) (x 0) : S1x1x128.Idx)) ?_)).trans ?_
  · rw [Shape.rowMajor_val_three, Shape.rowMajor_val_one]
    show (0 * 1 + 0) * 128 + (x 0).val = (x 0).val
    omega
  · funext a
    apply Fin.ext
    match a with
    | ⟨0, _⟩ => show b + 1 * 0 = (i 0).val; omega
    | ⟨1, _⟩ => show 0 + 1 * 0 = (i 1).val; omega
    | ⟨2, _⟩ => show 0 + 1 * (x 0).val = (i 2).val; omega

/-- Entry (k, e) of slot b of the row buffer is the buffer's entry (b, k, e). -/
theorem slot7_emb (b : ℕ) (hb : ∀ a, (![b, 0, 0] : Fin 3 → ℕ) a + S1x128x128.size a ≤ S4x128x128.size a) (x : S128x128.Idx)
    (i : S4x128x128.Idx) (e0 : (i 0).val = b) (e1 : (i 1).val = (x 0).val) (e2 : (i 2).val = (x 1).val) :
    (((a7).slice (Rect.unit (s := S4x128x128) ![b, 0, 0] S1x128x128.size hb) (fun _ => rfl)).squeeze S128x128
      squeezes_S1x128x128_S128x128).view.emb x = i := by
  have hx0 : (x 0).val < 128 := (x 0).isLt
  have hx1 : (x 1).val < 128 := (x 1).isLt
  refine (congrArg (Rect.unit (s := S4x128x128) ![b, 0, 0] S1x128x128.size hb).emb
    (Shape.reshapeEquiv_eq_of_rowMajor _ (y := (ix3 (0 : Fin 1) (x 0) (x 1) : S1x128x128.Idx)) ?_)).trans ?_
  · rw [Shape.rowMajor_val_three, Shape.rowMajor_val_two]
    show (0 * 128 + (x 0).val) * 128 + (x 1).val = (x 0).val * 128 + (x 1).val
    omega
  · funext a
    apply Fin.ext
    match a with
    | ⟨0, _⟩ => show b + 1 * 0 = (i 0).val; omega
    | ⟨1, _⟩ => show 0 + 1 * (x 0).val = (i 1).val; omega
    | ⟨2, _⟩ => show 0 + 1 * (x 1).val = (i 2).val; omega

/-- Entry (r, k) of chunk c of the stacked index array is the array's entry (c, r, k). -/
theorem chunk2_emb (o : Fin 3 → ℕ) (h : ∀ a, o a + S1x2x128.size a ≤ S6400x2x128.size a) (x : S2x128.Idx)
    (i : S6400x2x128.Idx) (e0 : (i 0).val = o 0) (e1 : (i 1).val = o 1 + (x 0).val) (e2 : (i 2).val = o 2 + (x 1).val) :
    (((a2).slice (Rect.unit (s := S6400x2x128) o S1x2x128.size h) (fun _ => rfl)).squeeze S2x128
      squeezes_S1x2x128_S2x128).view.emb x = i := by
  have hx0 : (x 0).val < 2 := (x 0).isLt
  have hx1 : (x 1).val < 128 := (x 1).isLt
  refine (congrArg (Rect.unit (s := S6400x2x128) o S1x2x128.size h).emb
    (Shape.reshapeEquiv_eq_of_rowMajor _ (y := (ix3 (0 : Fin 1) (x 0) (x 1) : S1x2x128.Idx)) ?_)).trans ?_
  · rw [Shape.rowMajor_val_three, Shape.rowMajor_val_two]
    show (0 * 2 + (x 0).val) * 128 + (x 1).val = (x 0).val * 128 + (x 1).val
    omega
  · funext a
    apply Fin.ext
    match a with
    | ⟨0, _⟩ => show o 0 + 1 * 0 = (i 0).val; omega
    | ⟨1, _⟩ => show o 1 + 1 * (x 0).val = (i 1).val; omega
    | ⟨2, _⟩ => show o 2 + 1 * (x 1).val = (i 2).val; omega

/-! ## A chunk of the stacked index array, read -/

theorem chunk_read (f2 : C2 F) (c : Fin 6400) (o : Fin 3 → ℕ) (h : ∀ a, o a + S1x2x128.size a ≤ S6400x2x128.size a)
    (ho : o = ![c.val, 0, 0]) (x : S2x128.Idx) :
    ReadAs.same.apply (View.read (Elt F) (((a2).slice (Rect.unit (s := S6400x2x128) o S1x2x128.size h) (fun _ => rfl)).squeeze S2x128
      squeezes_S1x2x128_S2x128).view f2) x = f2 (ix3 c (x 0) (x 1)) := by
  subst ho
  show f2 ((((a2).slice (Rect.unit (s := S6400x2x128) ![c.val, 0, 0] S1x2x128.size h) (fun _ => rfl)).squeeze S2x128
      squeezes_S1x2x128_S2x128).view.emb x) = _
  rw [chunk2_emb ![c.val, 0, 0] h x (ix3 c (x 0) (x 1)) rfl (by show (x 0).val = 0 + (x 0).val; omega)
    (by show (x 1).val = 0 + (x 1).val; omega)]

/-! ## The type rows' copy -/

theorem tt_land (g8 : C8 F) (f4 : C4 F) :
    View.write (Elt F) (a8).view g8 (ReadAs.same.apply (View.read (Elt F) (a4).view f4)) Finset.univ = ttC f4 := by
  show View.write (Elt F) (View.whole cc0_scratch2) g8 f4 Finset.univ = ttC f4
  rw [View.write_whole_univ]
  rfl

/-! ## The slots, with the slot number a variable -/

abbrev slot6 (b : ℕ) (hb : ∀ a, (![b, 0, 0] : Fin 3 → ℕ) a + S1x2x128.size a ≤ S4x2x128.size a) : Memref sig .scVector .vmem S2x128 .i32 :=
  ((a6).slice (Rect.unit (s := S4x2x128) ![b, 0, 0] S1x2x128.size hb) (fun _ => rfl)).squeeze S2x128 squeezes_S1x2x128_S2x128
abbrev list6 (b : ℕ) (hb : ∀ a, (![b, 0, 0] : Fin 3 → ℕ) a + S1x1x128.size a ≤ S4x2x128.size a) : Memref sig .scVector .vmem S128 .i32 :=
  ((a6).slice (Rect.unit (s := S4x2x128) ![b, 0, 0] S1x1x128.size hb) (fun _ => rfl)).squeeze S128 squeezes_S1x1x128_S128
abbrev slot7 (b : ℕ) (hb : ∀ a, (![b, 0, 0] : Fin 3 → ℕ) a + S1x128x128.size a ≤ S4x128x128.size a) : Memref sig .scVector .vmem S128x128 .f32 :=
  ((a7).slice (Rect.unit (s := S4x128x128) ![b, 0, 0] S1x128x128.size hb) (fun _ => rfl)).squeeze S128x128 squeezes_S1x128x128_S128x128

theorem slot6_lt (b : ℕ) (hb : ∀ a, (![b, 0, 0] : Fin 3 → ℕ) a + S1x2x128.size a ≤ S4x2x128.size a) : b < 4 := by
  have h := hb 0
  change b + 1 ≤ 4 at h
  omega
theorem list6_lt (b : ℕ) (hb : ∀ a, (![b, 0, 0] : Fin 3 → ℕ) a + S1x1x128.size a ≤ S4x2x128.size a) : b < 4 := by
  have h := hb 0
  change b + 1 ≤ 4 at h
  omega
theorem slot7_lt (b : ℕ) (hb : ∀ a, (![b, 0, 0] : Fin 3 → ℕ) a + S1x128x128.size a ≤ S4x128x128.size a) : b < 4 := by
  have h := hb 0
  change b + 1 ≤ 4 at h
  omega

/-- After one write of a whole view, the view reads the written payload. -/
theorem read_writes_whole {κ : Kind} {sp : Space} {s : Shape} {e : EltTy} (v : View sig κ sp s e) (f : v.ty.Contents (Elt F))
    (w : s.Idx → Elt F e) (x : s.Idx) :
    v.read (Elt F) (v.writes (Elt F) f [⟨Rect.whole s, w⟩]) x = w x := by
  have h := View.read_writes_cons_emb v f (Rect.whole s) w [] x
  rwa [Rect.emb_whole_apply] at h

/-! ## The index chunk's copy into a slot of the word buffer -/

theorem it_land_gen (b : ℕ) (hb : ∀ a, (![b, 0, 0] : Fin 3 → ℕ) a + S1x2x128.size a ≤ S4x2x128.size a) (g6 : C6 F) (f2 : C2 F)
    (c : Fin 6400) (p : S2x128.Idx → Elt F .i32) (hp : ∀ x, p x = f2 (ix3 c (x 0) (x 1))) :
    ∀ i ∈ (slot6 b hb).view.set, (slot6 b hb).view.writes (Elt F) g6 [⟨Rect.whole S2x128, p⟩] i = itvC f2 c i := by
  intro i hi
  unfold View.set at hi
  obtain ⟨x, -, rfl⟩ := Finset.mem_map.1 hi
  have hr := read_writes_whole (slot6 b hb).view g6 p x
  have he := slot6_emb b hb x (ix3 (⟨b, slot6_lt b hb⟩ : Fin 4) (x 0) (x 1)) rfl rfl rfl
  have hc : itvC f2 c ((slot6 b hb).view.emb x) = f2 (ix3 c (x 0) (x 1)) := by rw [he]; rfl
  exact (hr.trans (hp x)).trans hc.symm

theorem it_land_0 (g6 : C6 F) (f2 : C2 F) (c : Fin 6400) (p : S2x128.Idx → Elt F .i32) (hp : ∀ x, p x = f2 (ix3 c (x 0) (x 1))) :
    ∀ i ∈ (s60).view.set, (s60).view.writes (Elt F) g6 [⟨Rect.whole S2x128, p⟩] i = itvC f2 c i := it_land_gen 0 _ g6 f2 c p hp
theorem it_land_1 (g6 : C6 F) (f2 : C2 F) (c : Fin 6400) (p : S2x128.Idx → Elt F .i32) (hp : ∀ x, p x = f2 (ix3 c (x 0) (x 1))) :
    ∀ i ∈ (s61).view.set, (s61).view.writes (Elt F) g6 [⟨Rect.whole S2x128, p⟩] i = itvC f2 c i := it_land_gen 1 _ g6 f2 c p hp
theorem it_land_2 (g6 : C6 F) (f2 : C2 F) (c : Fin 6400) (p : S2x128.Idx → Elt F .i32) (hp : ∀ x, p x = f2 (ix3 c (x 0) (x 1))) :
    ∀ i ∈ (s62).view.set, (s62).view.writes (Elt F) g6 [⟨Rect.whole S2x128, p⟩] i = itvC f2 c i := it_land_gen 2 _ g6 f2 c p hp
theorem it_land_3 (g6 : C6 F) (f2 : C2 F) (c : Fin 6400) (p : S2x128.Idx → Elt F .i32) (hp : ∀ x, p x = f2 (ix3 c (x 0) (x 1))) :
    ∀ i ∈ (s63).view.set, (s63).view.writes (Elt F) g6 [⟨Rect.whole S2x128, p⟩] i = itvC f2 c i := it_land_gen 3 _ g6 f2 c p hp

/-! ## The word list of a slot, read -/

theorem list_read_gen (b : ℕ) (hb : ∀ a, (![b, 0, 0] : Fin 3 → ℕ) a + S1x1x128.size a ≤ S4x2x128.size a) (f2 : C2 F) (c : Fin 6400)
    (g6 : C6 F) (hg : ∀ i ∈ (list6 b hb).view.set, g6 i = itvC f2 c i) (x : S128.Idx) :
    View.read (Elt F) (list6 b hb).view g6 x = f2 (ix3 c (0 : Fin 2) (x 0)) := by
  have he := list6_emb b hb x (ix3 (⟨b, list6_lt b hb⟩ : Fin 4) (0 : Fin 2) (x 0)) rfl rfl rfl
  have hm : (list6 b hb).view.emb x ∈ (list6 b hb).view.set := Finset.mem_map_of_mem _ (Finset.mem_univ x)
  show g6 ((list6 b hb).view.emb x) = _
  rw [hg _ hm, he]
  rfl

theorem list_read_0 (f2 : C2 F) (c : Fin 6400) (g6 : C6 F) (hg : ∀ i ∈ (l60).view.set, g6 i = itvC f2 c i) (x : S128.Idx) :
    View.read (Elt F) (l60).view g6 x = f2 (ix3 c (0 : Fin 2) (x 0)) := list_read_gen 0 _ f2 c g6 hg x
theorem list_read_1 (f2 : C2 F) (c : Fin 6400) (g6 : C6 F) (hg : ∀ i ∈ (l61).view.set, g6 i = itvC f2 c i) (x : S128.Idx) :
    View.read (Elt F) (l61).view g6 x = f2 (ix3 c (0 : Fin 2) (x 0)) := list_read_gen 1 _ f2 c g6 hg x
theorem list_read_2 (f2 : C2 F) (c : Fin 6400) (g6 : C6 F) (hg : ∀ i ∈ (l62).view.set, g6 i = itvC f2 c i) (x : S128.Idx) :
    View.read (Elt F) (l62).view g6 x = f2 (ix3 c (0 : Fin 2) (x 0)) := list_read_gen 2 _ f2 c g6 hg x
theorem list_read_3 (f2 : C2 F) (c : Fin 6400) (g6 : C6 F) (hg : ∀ i ∈ (l63).view.set, g6 i = itvC f2 c i) (x : S128.Idx) :
    View.read (Elt F) (l63).view g6 x = f2 (ix3 c (0 : Fin 2) (x 0)) := list_read_gen 3 _ f2 c g6 hg x

/-! ## A slot after the inner loop -/

theorem fin_of_mix_gen (b : Fin 4) (bn : ℕ) (hbn : b.val = bn)
    (hb6 : ∀ a, (![bn, 0, 0] : Fin 3 → ℕ) a + S1x2x128.size a ≤ S4x2x128.size a)
    (hb7 : ∀ a, (![bn, 0, 0] : Fin 3 → ℕ) a + S1x128x128.size a ≤ S4x128x128.size a)
    (f2 : C2 F) (f3 : C3 F) (f4 : C4 F) (c : Fin 6400) (g6 : C6 F) (g8 : C8 F) (X0 X : C7 F)
    (h6 : ∀ i ∈ (slot6 bn hb6).view.set, g6 i = itvC f2 c i) (h8 : g8 = ttC f4)
    (h0 : ∀ i ∈ (slot7 bn hb7).view.set, X0 i = gathC f2 f3 c i) (hX : Mix b 1024 g6 g8 X0 X) :
    ∀ i ∈ (slot7 bn hb7).view.set, X i = finC f2 f3 f4 b c i := by
  subst hbn
  intro i hi
  have hib : (i 0).val = b.val := (slot7_mem b.val hb7 i).1 hi
  rw [mix_done b g6 g8 X0 X hX i hib]
  unfold finC finOf
  rw [h0 i hi, h8, h6 (ix3 b (1 : Fin 2) (i 1)) ((slot6_mem b.val hb6 _).2 rfl)]

theorem fin_of_mix_0 (f2 : C2 F) (f3 : C3 F) (f4 : C4 F) (c : Fin 6400) (g6 : C6 F) (g8 : C8 F) (X0 X : C7 F)
    (h6 : ∀ i ∈ (s60).view.set, g6 i = itvC f2 c i) (h8 : g8 = ttC f4) (h0 : ∀ i ∈ (s70).view.set, X0 i = gathC f2 f3 c i)
    (hX : Mix 0 1024 g6 g8 X0 X) : ∀ i ∈ (s70).view.set, X i = finC f2 f3 f4 0 c i :=
  fin_of_mix_gen 0 0 rfl _ _ f2 f3 f4 c g6 g8 X0 X h6 h8 h0 hX
theorem fin_of_mix_1 (f2 : C2 F) (f3 : C3 F) (f4 : C4 F) (c : Fin 6400) (g6 : C6 F) (g8 : C8 F) (X0 X : C7 F)
    (h6 : ∀ i ∈ (s61).view.set, g6 i = itvC f2 c i) (h8 : g8 = ttC f4) (h0 : ∀ i ∈ (s71).view.set, X0 i = gathC f2 f3 c i)
    (hX : Mix 1 1024 g6 g8 X0 X) : ∀ i ∈ (s71).view.set, X i = finC f2 f3 f4 1 c i :=
  fin_of_mix_gen 1 1 rfl _ _ f2 f3 f4 c g6 g8 X0 X h6 h8 h0 hX
theorem fin_of_mix_2 (f2 : C2 F) (f3 : C3 F) (f4 : C4 F) (c : Fin 6400) (g6 : C6 F) (g8 : C8 F) (X0 X : C7 F)
    (h6 : ∀ i ∈ (s62).view.set, g6 i = itvC f2 c i) (h8 : g8 = ttC f4) (h0 : ∀ i ∈ (s72).view.set, X0 i = gathC f2 f3 c i)
    (hX : Mix 2 1024 g6 g8 X0 X) : ∀ i ∈ (s72).view.set, X i = finC f2 f3 f4 2 c i :=
  fin_of_mix_gen 2 2 rfl _ _ f2 f3 f4 c g6 g8 X0 X h6 h8 h0 hX
theorem fin_of_mix_3 (f2 : C2 F) (f3 : C3 F) (f4 : C4 F) (c : Fin 6400) (g6 : C6 F) (g8 : C8 F) (X0 X : C7 F)
    (h6 : ∀ i ∈ (s63).view.set, g6 i = itvC f2 c i) (h8 : g8 = ttC f4) (h0 : ∀ i ∈ (s73).view.set, X0 i = gathC f2 f3 c i)
    (hX : Mix 3 1024 g6 g8 X0 X) : ∀ i ∈ (s73).view.set, X i = finC f2 f3 f4 3 c i :=
  fin_of_mix_gen 3 3 rfl _ _ f2 f3 f4 c g6 g8 X0 X h6 h8 h0 hX

/-! ## The gather's landing in a slot of the row buffer -/

theorem gath_land_gen (b : ℕ) (hb : ∀ a, (![b, 0, 0] : Fin 3 → ℕ) a + S1x128x128.size a ≤ S4x128x128.size a) (g7 : C7 F) (f2 : C2 F)
    (f3 : C3 F) (c : Fin 6400) (lst : S128.Idx → Elt F .i32) (hl : ∀ x, lst x = f2 (ix3 c (0 : Fin 2) (x 0)))
    (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (slot7 b hb).view.set, (slot7 b hb).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := by
  intro i hi
  unfold View.set at hi
  obtain ⟨x, -, rfl⟩ := Finset.mem_map.1 hi
  have hx1 : (x 1).val < 128 := (x 1).isLt
  have hrd := read_writes_whole (slot7 b hb).view g7
    (SparseCore.gatherPayload gathers_S100000x128_S128x128
      (View.read (Elt F) ((a3).slice (Rect.unit (s := S100000x128) ![0, 0] S100000x128.size inb_S100000x128_S100000x128_0_0) hw).view f3)
      (SparseCore.rows lst hn hin)) x
  have he := slot7_emb b hb x (ix3 (⟨b, slot7_lt b hb⟩ : Fin 4) (x 0) (x 1)) rfl rfl rfl
  have hc : gathC f2 f3 c ((slot7 b hb).view.emb x) = f3 (ix2 (wordOf (f2 (ix3 c (0 : Fin 2) (x 0)))) (x 1)) := by rw [he]; rfl
  refine (hrd.trans ?_).trans hc.symm
  show f3 ((Rect.unit (s := S100000x128) ![0, 0] S100000x128.size inb_S100000x128_S100000x128_0_0).emb
    (gathers_S100000x128_S128x128.idx (SparseCore.rows lst hn hin) x)) = _
  congr 1
  funext a
  apply Fin.ext
  match a with
  | ⟨0, _⟩ =>
    have hy0 : ((S128.rowMajor.symm ((x gathers_S100000x128_S128x128.axis').cast hn.symm)) 0 : Fin 128) = x 0 := by
      apply Fin.ext
      have h1 := Shape.rowMajor_val_one (S128.rowMajor.symm ((x gathers_S100000x128_S128x128.axis').cast hn.symm))
      rw [Equiv.apply_symm_apply] at h1
      exact h1.symm
    have hlt := hin (S128.rowMajor.symm ((x gathers_S100000x128_S128x128.axis').cast hn.symm))
    change (lst _).toNat < 100000 at hlt
    have hval : lst (S128.rowMajor.symm ((x gathers_S100000x128_S128x128.axis').cast hn.symm)) = f2 (ix3 c (0 : Fin 2) (x 0)) := by
      rw [hl]
      exact congrArg (fun q : Fin 128 => f2 (ix3 c (0 : Fin 2) q)) hy0
    show 0 + 1 * (lst (S128.rowMajor.symm ((x gathers_S100000x128_S128x128.axis').cast hn.symm))).toNat
      = (f2 (ix3 c (0 : Fin 2) (x 0))).toNat % 100000
    rw [hval] at hlt ⊢
    rw [Nat.mod_eq_of_lt hlt]
    omega
  | ⟨1, _⟩ =>
    show 0 + 1 * (gathers_S100000x128_S128x128.idx (SparseCore.rows lst hn hin) x (1 : Fin 2)).val = (x 1).val
    rw [Shape.Gathers.idx_of_ne gathers_S100000x128_S128x128 _ x (1 : Fin 2) (by decide)]
    show 0 + 1 * (x 1).val = (x 1).val
    omega

theorem gath_land_0 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s70).view.set, (s70).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 0 _ g7 f2 f3 c lst hl hn hin hw
theorem gath_land_1 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s71).view.set, (s71).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 1 _ g7 f2 f3 c lst hl hn hin hw
theorem gath_land_2 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s72).view.set, (s72).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 2 _ g7 f2 f3 c lst hl hn hin hw
theorem gath_land_3 (g7 : C7 F) (f2 : C2 F) (f3 : C3 F) (c : Fin 6400) (lst : S128.Idx → Elt F .i32)
    (hl : ∀ x, lst x = f2 (ix3 c (0 : Fin 2) (x 0))) (hn : S128.numel = S128x128.size gathers_S100000x128_S128x128.axis')
    (hin : ∀ x, (lst x).toNat < S100000x128.size gathers_S100000x128_S128x128.axis)
    (hw : ∀ a, (Rect.unit (s := S100000x128) ![0, 0] S100000x128.size inb_S100000x128_S100000x128_0_0).stride a = 1) :
    ∀ i ∈ (s73).view.set, (s73).view.writes (Elt F) g7
      [⟨Rect.whole S128x128, SparseCore.gatherPayload gathers_S100000x128_S128x128
        (View.read (Elt F) ((a3).slice (Rect.unit (s := S100000x128) ![0, 0] S100000x128.size inb_S100000x128_S100000x128_0_0) hw).view f3)
        (SparseCore.rows lst hn hin)⟩] i = gathC f2 f3 c i := gath_land_gen 3 _ g7 f2 f3 c lst hl hn hin hw

/-! ## The copy out of a slot into the flat result -/

theorem out_land_gen (b : Fin 4) (bn : ℕ) (hbn : b.val = bn)
    (hb7 : ∀ a, (![bn, 0, 0] : Fin 3 → ℕ) a + S1x128x128.size a ≤ S4x128x128.size a)
    (L : grid0.Coords) (g : Fin 200) (f2 : C2 F) (f3 : C3 F) (f4 : C4 F) (fo : C5 F) (X : C7 F)
    (hX : ∀ i ∈ (slot7 bn hb7).view.set, X i = finC f2 f3 f4 b (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (slot7 bn hb7).view X)⟩] i = outC f2 f3 f4 i := by
  subst hbn ho
  intro i hi
  unfold View.set at hi
  obtain ⟨y', -, rfl⟩ := Finset.mem_map.1 hi
  obtain ⟨y, rfl⟩ : ∃ y : S128x128.Idx, y = y' := ⟨y', rfl⟩
  have hy0 : (y 0).val < 128 := (y 0).isLt
  have hy1 : (y 1).val < 128 := (y 1).isLt
  have hc := c0_le L
  have hg := g.isLt
  have hrd := read_writes_whole ((a5).slice (Rect.unit (s := S819200x128) ![128 * (c0 L + g.val), 0] S128x128.size h) (fun _ => rfl)).view fo
    (ReadAs.same.apply (View.read (Elt F) (slot7 b.val hb7).view X)) y
  have he7 := slot7_emb b.val hb7 y (ix3 b (y 0) (y 1)) rfl rfl rfl
  have hm7 : (slot7 b.val hb7).view.emb y ∈ (slot7 b.val hb7).view.set := Finset.mem_map_of_mem _ (Finset.mem_univ y)
  have hXy : X ((slot7 b.val hb7).view.emb y) = finC f2 f3 f4 b (chunkNo L g) (ix3 b (y 0) (y 1)) := by rw [hX _ hm7, he7]
  obtain ⟨n, hn⟩ : ∃ n : Fin 819200, n.val = 128 * (c0 L + g.val) + (y 0).val := ⟨⟨_, by omega⟩, rfl⟩
  have he5 : ((a5).slice (Rect.unit (s := S819200x128) ![128 * (c0 L + g.val), 0] S128x128.size h) (fun _ => rfl)).view.emb y
      = @ix2 819200 128 n (y 1) := by
    funext a
    apply Fin.ext
    match a with
    | ⟨0, _⟩ => show 128 * (c0 L + g.val) + 1 * (y 0).val = n.val; omega
    | ⟨1, _⟩ => show 0 + 1 * (y 1).val = (y 1).val; omega
  have hco : Cert.Proof.Spec.chunkOf n = chunkNo L g := Fin.ext (by show n.val / 128 = c0 L + g.val; omega)
  have hpo : Cert.Proof.Spec.posOf n = y 0 := Fin.ext (by show n.val % 128 = (y 0).val; omega)
  have hout : outC f2 f3 f4 (((a5).slice (Rect.unit (s := S819200x128) ![128 * (c0 L + g.val), 0] S128x128.size h) (fun _ => rfl)).view.emb y)
      = finC f2 f3 f4 b (chunkNo L g) (ix3 b (y 0) (y 1)) := by
    rw [he5]
    unfold outC
    rw [Cert.Proof.FlatBridge.outFlat_of_entries f2 f3 f4 n (y 1) _ _ rfl rfl, hco, hpo]
    rfl
  exact (hrd.trans hXy).trans hout.symm

theorem out_land_0 (L : grid0.Coords) (g : Fin 200) (f2 : C2 F) (f3 : C3 F) (f4 : C4 F) (fo : C5 F) (X : C7 F)
    (hX : ∀ i ∈ (s70).view.set, X i = finC f2 f3 f4 0 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s70).view X)⟩] i = outC f2 f3 f4 i :=
  out_land_gen 0 0 rfl _ L g f2 f3 f4 fo X hX o h ho
theorem out_land_1 (L : grid0.Coords) (g : Fin 200) (f2 : C2 F) (f3 : C3 F) (f4 : C4 F) (fo : C5 F) (X : C7 F)
    (hX : ∀ i ∈ (s71).view.set, X i = finC f2 f3 f4 1 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s71).view X)⟩] i = outC f2 f3 f4 i :=
  out_land_gen 1 1 rfl _ L g f2 f3 f4 fo X hX o h ho
theorem out_land_2 (L : grid0.Coords) (g : Fin 200) (f2 : C2 F) (f3 : C3 F) (f4 : C4 F) (fo : C5 F) (X : C7 F)
    (hX : ∀ i ∈ (s72).view.set, X i = finC f2 f3 f4 2 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s72).view X)⟩] i = outC f2 f3 f4 i :=
  out_land_gen 2 2 rfl _ L g f2 f3 f4 fo X hX o h ho
theorem out_land_3 (L : grid0.Coords) (g : Fin 200) (f2 : C2 F) (f3 : C3 F) (f4 : C4 F) (fo : C5 F) (X : C7 F)
    (hX : ∀ i ∈ (s73).view.set, X i = finC f2 f3 f4 3 (chunkNo L g) i)
    (o : Fin 2 → ℕ) (h : ∀ a, o a + S128x128.size a ≤ S819200x128.size a) (ho : o = ![128 * (c0 L + g.val), 0]) :
    ∀ i ∈ ((a5).slice (Rect.unit (s := S819200x128) o S128x128.size h) (fun _ => rfl)).view.set,
      ((a5).slice (Rect.unit (s := S819200x128) o S128x128.size h) (fun _ => rfl)).view.writes (Elt F) fo
        [⟨Rect.whole S128x128, ReadAs.same.apply (View.read (Elt F) (s73).view X)⟩] i = outC f2 f3 f4 i :=
  out_land_gen 3 3 rfl _ L g f2 f3 f4 fo X hX o h ho

end Cert.Proof.KB

end
-- ==== Proof.KerInvB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.InnerStepB
import proofs.«207534_g35055523070033_cont_8to1_b_222_9_alg».proof.Proof.Respell2B
import proofs.«207534_g35055523070033_cont_8to1_b_222_9_alg».proof.Proof.LandingB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-!
  The ring's state between two trips of the outer loop. Trip t handles chunks 4 t … 4 t + 3, one per slot. When it
  starts, the gathers of chunks 4 t and 4 t + 1 are in flight into slots 0 and 1; the copies of the word and type
  indices of chunks 4 t + 2 and 4 t + 3 are in flight into slots 2 and 3; and, after the first trip, the write-backs of
  chunks 4 t - 2 and 4 t - 1 are in flight out of slots 2 and 3. A transfer in flight holds what it will deliver:
  its destination at the contents it will have, and the elements of its source it reads.
-/

variable [FloatOps F] (d : Dev nD) (L : grid0.Coords) (f2 : C2 F) (f3 : C3 F) (f4 : C4 F)

/-- The chunk numbered n of the tile (numbers past the last wrap round: never used there). -/
def gF (n : ℕ) : Fin 200 := ⟨n % 200, Nat.mod_lt _ (by decide)⟩
theorem gF_val {n : ℕ} (h : n < 200) : (gF n).val = n := Nat.mod_eq_of_lt h

/-- The copy of chunk g's indices into slot 0, in flight. -/
def IFl0 (g : Fin 200) : sProp 𝕄 :=
  Transfers.Flight countersEmb (thr d L) (SemLoc.dma cc0_scratch3.sem) default 8192
    iprop(((s60).view.loc (thr d L) ↦[(s60).view.set]{fullShare} itvC f2 (chunkNo L g)) ∗ a2piece d L f2 g)
/-- The gather of chunk g's rows into slot 0, in flight: the slot's rows, its index list, and a share of the table. -/
def GFl0 (g : Fin 200) : sProp 𝕄 :=
  Transfers.Flight countersEmb (thr d L) (SemLoc.dma cc0_scratch7.sem) default 524288
    iprop((((s70).view.loc (thr d L) ↦[(s70).view.set]{fullShare} gathC f2 f3 (chunkNo L g))
        ∗ ((l60).view.loc (thr d L) ↦[(l60).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 0, in flight. -/
def SFl0 (g : Fin 200) : sProp 𝕄 :=
  Transfers.Flight countersEmb (thr d L) (SemLoc.dma cc0_scratch11.sem) default 524288
    iprop((outpiece d L (outC f2 f3 f4) g)
      ∗ ((s70).view.loc (thr d L) ↦[(s70).view.set]{fullShare} finC f2 f3 f4 (0 : Fin 4) (chunkNo L g)))

/-- The copy of chunk g's indices into slot 1, in flight. -/
def IFl1 (g : Fin 200) : sProp 𝕄 :=
  Transfers.Flight countersEmb (thr d L) (SemLoc.dma cc0_scratch4.sem) default 8192
    iprop(((s61).view.loc (thr d L) ↦[(s61).view.set]{fullShare} itvC f2 (chunkNo L g)) ∗ a2piece d L f2 g)
/-- The gather of chunk g's rows into slot 1, in flight: the slot's rows, its index list, and a share of the table. -/
def GFl1 (g : Fin 200) : sProp 𝕄 :=
  Transfers.Flight countersEmb (thr d L) (SemLoc.dma cc0_scratch8.sem) default 524288
    iprop((((s71).view.loc (thr d L) ↦[(s71).view.set]{fullShare} gathC f2 f3 (chunkNo L g))
        ∗ ((l61).view.loc (thr d L) ↦[(l61).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 1, in flight. -/
def SFl1 (g : Fin 200) : sProp 𝕄 :=
  Transfers.Flight countersEmb (thr d L) (SemLoc.dma cc0_scratch12.sem) default 524288
    iprop((outpiece d L (outC f2 f3 f4) g)
      ∗ ((s71).view.loc (thr d L) ↦[(s71).view.set]{fullShare} finC f2 f3 f4 (1 : Fin 4) (chunkNo L g)))

/-- The copy of chunk g's indices into slot 2, in flight. -/
def IFl2 (g : Fin 200) : sProp 𝕄 :=
  Transfers.Flight countersEmb (thr d L) (SemLoc.dma cc0_scratch5.sem) default 8192
    iprop(((s62).view.loc (thr d L) ↦[(s62).view.set]{fullShare} itvC f2 (chunkNo L g)) ∗ a2piece d L f2 g)
/-- The gather of chunk g's rows into slot 2, in flight: the slot's rows, its index list, and a share of the table. -/
def GFl2 (g : Fin 200) : sProp 𝕄 :=
  Transfers.Flight countersEmb (thr d L) (SemLoc.dma cc0_scratch9.sem) default 524288
    iprop((((s72).view.loc (thr d L) ↦[(s72).view.set]{fullShare} gathC f2 f3 (chunkNo L g))
        ∗ ((l62).view.loc (thr d L) ↦[(l62).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 2, in flight. -/
def SFl2 (g : Fin 200) : sProp 𝕄 :=
  Transfers.Flight countersEmb (thr d L) (SemLoc.dma cc0_scratch13.sem) default 524288
    iprop((outpiece d L (outC f2 f3 f4) g)
      ∗ ((s72).view.loc (thr d L) ↦[(s72).view.set]{fullShare} finC f2 f3 f4 (2 : Fin 4) (chunkNo L g)))

/-- The copy of chunk g's indices into slot 3, in flight. -/
def IFl3 (g : Fin 200) : sProp 𝕄 :=
  Transfers.Flight countersEmb (thr d L) (SemLoc.dma cc0_scratch6.sem) default 8192
    iprop(((s63).view.loc (thr d L) ↦[(s63).view.set]{fullShare} itvC f2 (chunkNo L g)) ∗ a2piece d L f2 g)
/-- The gather of chunk g's rows into slot 3, in flight: the slot's rows, its index list, and a share of the table. -/
def GFl3 (g : Fin 200) : sProp 𝕄 :=
  Transfers.Flight countersEmb (thr d L) (SemLoc.dma cc0_scratch10.sem) default 524288
    iprop((((s73).view.loc (thr d L) ↦[(s73).view.set]{fullShare} gathC f2 f3 (chunkNo L g))
        ∗ ((l63).view.loc (thr d L) ↦[(l63).view.set]{fullShare} itvC f2 (chunkNo L g)))
      ∗ ((a3).view.loc (thr d L) ↦[((a3).slice (Rect.unit (s := S100000x128) ![0, 0] S100000x128.size inb_S100000x128_S100000x128_0_0) (fun _ => rfl)).view.set]{shT L g} f3))
/-- The write-back of chunk g from slot 3, in flight. -/
def SFl3 (g : Fin 200) : sProp 𝕄 :=
  Transfers.Flight countersEmb (thr d L) (SemLoc.dma cc0_scratch14.sem) default 524288
    iprop((outpiece d L (outC f2 f3 f4) g)
      ∗ ((s73).view.loc (thr d L) ↦[(s73).view.set]{fullShare} finC f2 f3 f4 (3 : Fin 4) (chunkNo L g)))

/-- Slot 0 between trips: its gather in flight, the type row of its words kept beside; after the last trip, idle. -/
def slotA0 (go : ℕ) : sProp 𝕄 :=
  if go < 50 then
    iprop(GFl0 d L f2 f3 (gF (4 * go + 0))
      ∗ ((s60).view.loc (thr d L) ↦[(s60).view.set \ (l60).view.set]{fullShare} itvC f2 (chunkNo L (gF (4 * go + 0))))
      ∗ semVal (thr d L, SemLoc.dma cc0_scratch3.sem) 0 ∗ semVal (thr d L, SemLoc.dma cc0_scratch11.sem) 0)
  else
    iprop((∃ g6 : C6 F, (s60).view.loc (thr d L) ↦[(s60).view.set]{fullShare} g6)
      ∗ (∃ X : C7 F, (s70).view.loc (thr d L) ↦[(s70).view.set]{fullShare} X)
      ∗ semVal (thr d L, SemLoc.dma cc0_scratch3.sem) 0 ∗ semVal (thr d L, SemLoc.dma cc0_scratch7.sem) 0 ∗ semVal (thr d L, SemLoc.dma cc0_scratch11.sem) 0)

/-- Slot 1 between trips: its gather in flight, the type row of its words kept beside; after the last trip, idle. -/
def slotA1 (go : ℕ) : sProp 𝕄 :=
  if go < 50 then
    iprop(GFl1 d L f2 f3 (gF (4 * go + 1))
      ∗ ((s61).view.loc (thr d L) ↦[(s61).view.set \ (l61).view.set]{fullShare} itvC f2 (chunkNo L (gF (4 * go + 1))))
      ∗ semVal (thr d L, SemLoc.dma cc0_scratch4.sem) 0 ∗ semVal (thr d L, SemLoc.dma cc0_scratch12.sem) 0)
  else
    iprop((∃ g6 : C6 F, (s61).view.loc (thr d L) ↦[(s61).view.set]{fullShare} g6)
      ∗ (∃ X : C7 F, (s71).view.loc (thr d L) ↦[(s71).view.set]{fullShare} X)
      ∗ semVal (thr d L, SemLoc.dma cc0_scratch4.sem) 0 ∗ semVal (thr d L, SemLoc.dma cc0_scratch8.sem) 0 ∗ semVal (thr d L, SemLoc.dma cc0_scratch12.sem) 0)
/-- Slot 2 between trips: its index copy in flight (none after the last trip), its write-back in flight (none before the
    first trip). -/
def slotB2 (go : ℕ) : sProp 𝕄 :=
  iprop((if go < 50 then IFl2 d L f2 (gF (4 * go + 2))
      else iprop((∃ g6 : C6 F, (s62).view.loc (thr d L) ↦[(s62).view.set]{fullShare} g6) ∗ semVal (thr d L, SemLoc.dma cc0_scratch5.sem) 0))
    ∗ (if 0 < go then SFl2 d L f2 f3 f4 (gF (4 * go - 4 + 2))
      else iprop((∃ X : C7 F, (s72).view.loc (thr d L) ↦[(s72).view.set]{fullShare} X) ∗ semVal (thr d L, SemLoc.dma cc0_scratch13.sem) 0))
    ∗ semVal (thr d L, SemLoc.dma cc0_scratch9.sem) 0)

/-- Slot 3 between trips: its index copy in flight (none after the last trip), its write-back in flight (none before the
    first trip). -/
def slotB3 (go : ℕ) : sProp 𝕄 :=
  iprop((if go < 50 then IFl3 d L f2 (gF (4 * go + 3))
      else iprop((∃ g6 : C6 F, (s63).view.loc (thr d L) ↦[(s63).view.set]{fullShare} g6) ∗ semVal (thr d L, SemLoc.dma cc0_scratch6.sem) 0))
    ∗ (if 0 < go then SFl3 d L f2 f3 f4 (gF (4 * go - 4 + 3))
      else iprop((∃ X : C7 F, (s73).view.loc (thr d L) ↦[(s73).view.set]{fullShare} X) ∗ semVal (thr d L, SemLoc.dma cc0_scratch14.sem) 0))
    ∗ semVal (thr d L, SemLoc.dma cc0_scratch10.sem) 0)

/-- The outer loop's invariant before trip go. -/
def Inv (fo : C5 F) (O : CellTallies nD τ sig (HIx 1)) (W : Waits sig (HIx 1)) (go : ℕ) (_ : PUnit) : sProp 𝕄 :=
  iprop(Transfers.MayWaits (thr d L) (none : HIx 1) O
    ∗ todo (F := F) (4 * go + 4) (a2piece d L f2) ∗ todo (F := F) (4 * go + 2) (a3tok d L f3)
    ∗ todo (F := F) (4 * go) (outpiece d L fo) ∗ done (F := F) (4 * go - 2) (outpiece d L (outC f2 f3 f4))
    ∗ ((a8).view.loc (thr d L) ↦{fullShare} ttC f4)
    ∗ slotA0 d L f2 f3 go ∗ slotA1 d L f2 f3 go ∗ slotB2 d L f2 f3 f4 go ∗ slotB3 d L f2 f3 f4 go
    ∗ ∃ W', ⌜∀ p ∈ W', p ∈ W ∨ p.2 = none⌝ ∗ owes (thr d L) O W')

end Cert.Proof.KB
end
-- ==== Proof.CanonizeB.lean ====
/-
  From the form a started transfer is left in to the form the loop invariant names. A transfer in flight holds what it
  will deliver. Where the delivery is spelt with the destination "as written" (the slot after one whole write of the
  payload) and the source under the window the program computed, it is the same resource as the one spelt with the
  slot's canonical contents and the chunk's own window: a points-to depends on its values only on its element set, and
  two spellings of one window are one window. Four pieces put back onto the chunks done, or taken off the chunks to
  come, are four uses of the one-piece laws.
-/
import proofs.«207534_g35055523070033_cont_8to1_b_222_9_alg».proof.Proof.KerInvB
import proofs.«207534_g35055523070033_cont_8to1_b_222_9_alg».proof.Proof.LandingB
import proofs.«207534_g35055523070033_cont_8to1_b_222_9_alg».proof.Proof.Respell2B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

/-! ## The index copies -/

theorem ifl_canon_0 (g : Fin 200) (X : C6 F) (p : S2x128.Idx → Elt F .i32)
    (hp : ∀ i ∈ (s60).view.set, (s60).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch3.sem) default 8192
      iprop(((s60).view.loc (thr d L) ↦[(s60).view.set]{fullShare} (s60).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl0 d L f2 g := by
  unfold IFl0
  refine Transfers.Flight_mono _ _ (Entails.of_eq ?_)
  rw [pointsTo_congr hp, a2piece_prog d L f2 g o h eo]

theorem ifl_canon_1 (g : Fin 200) (X : C6 F) (p : S2x128.Idx → Elt F .i32)
    (hp : ∀ i ∈ (s61).view.set, (s61).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch4.sem) default 8192
      iprop(((s61).view.loc (thr d L) ↦[(s61).view.set]{fullShare} (s61).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl1 d L f2 g := by
  unfold IFl1
  refine Transfers.Flight_mono _ _ (Entails.of_eq ?_)
  rw [pointsTo_congr hp, a2piece_prog d L f2 g o h eo]

theorem ifl_canon_2 (g : Fin 200) (X : C6 F) (p : S2x128.Idx → Elt F .i32)
    (hp : ∀ i ∈ (s62).view.set, (s62).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch5.sem) default 8192
      iprop(((s62).view.loc (thr d L) ↦[(s62).view.set]{fullShare} (s62).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl2 d L f2 g := by
  unfold IFl2
  refine Transfers.Flight_mono _ _ (Entails.of_eq ?_)
  rw [pointsTo_congr hp, a2piece_prog d L f2 g o h eo]

theorem ifl_canon_3 (g : Fin 200) (X : C6 F) (p : S2x128.Idx → Elt F .i32)
    (hp : ∀ i ∈ (s63).view.set, (s63).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o) :
    (Transfers.Flight countersEmb (thr d L) (SemLoc.dma cc0_scratch6.sem) default 8192
      iprop(((s63).view.loc (thr d L) ↦[(s63).view.set]{fullShare} (s63).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl3 d L f2 g := by
  unfold IFl3
  refine Transfers.Flight_mono _ _ (Entails.of_eq ?_)
  rw [pointsTo_congr hp, a2piece_prog d L f2 g o h eo]

/-! ## The gathers -/

theorem gfl_canon_0 (g : Fin 200) (X : C7 F) (p : S128x128.Idx → Elt F .f32)
    (hp : ∀ i ∈ (s70).view.set, (s70).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch7.sem) default 524288
      iprop((((s70).view.loc (thr d L) ↦[(s70).view.set]{fullShare} (s70).view.writes (Elt F) X [⟨Rect.whole S128x128, p⟩])
          ∗ ((l60).view.loc (thr d L) ↦[(l60).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl0 d L f2 f3 g := by
  unfold GFl0
  refine Transfers.Flight_mono _ _ (Entails.of_eq ?_)
  rw [pointsTo_congr hp]

theorem gfl_canon_1 (g : Fin 200) (X : C7 F) (p : S128x128.Idx → Elt F .f32)
    (hp : ∀ i ∈ (s71).view.set, (s71).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch8.sem) default 524288
      iprop((((s71).view.loc (thr d L) ↦[(s71).view.set]{fullShare} (s71).view.writes (Elt F) X [⟨Rect.whole S128x128, p⟩])
          ∗ ((l61).view.loc (thr d L) ↦[(l61).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl1 d L f2 f3 g := by
  unfold GFl1
  refine Transfers.Flight_mono _ _ (Entails.of_eq ?_)
  rw [pointsTo_congr hp]

theorem gfl_canon_2 (g : Fin 200) (X : C7 F) (p : S128x128.Idx → Elt F .f32)
    (hp : ∀ i ∈ (s72).view.set, (s72).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch9.sem) default 524288
      iprop((((s72).view.loc (thr d L) ↦[(s72).view.set]{fullShare} (s72).view.writes (Elt F) X [⟨Rect.whole S128x128, p⟩])
          ∗ ((l62).view.loc (thr d L) ↦[(l62).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl2 d L f2 f3 g := by
  unfold GFl2
  refine Transfers.Flight_mono _ _ (Entails.of_eq ?_)
  rw [pointsTo_congr hp]

theorem gfl_canon_3 (g : Fin 200) (X : C7 F) (p : S128x128.Idx → Elt F .f32)
    (hp : ∀ i ∈ (s73).view.set, (s73).view.writes (Elt F) X [⟨Rect.whole S128x128, p⟩] i = gathC f2 f3 (chunkNo L g) i)
    (hw : ∀ a, (Rect.unit (s := S100000x128) ![0, 0] S100000x128.size inb_S100000x128_S100000x128_0_0).stride a = 1) :
    (Transfers.Flight countersEmb (thr d L) (SemLoc.dma cc0_scratch10.sem) default 524288
      iprop((((s73).view.loc (thr d L) ↦[(s73).view.set]{fullShare} (s73).view.writes (Elt F) X [⟨Rect.whole S128x128, p⟩])
          ∗ ((l63).view.loc (thr d L) ↦[(l63).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl3 d L f2 f3 g := by
  unfold GFl3
  refine Transfers.Flight_mono _ _ (Entails.of_eq ?_)
  rw [pointsTo_congr hp]

/-! ## The write-backs -/

theorem sfl_canon_0 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch11.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s70).view.loc (thr d L) ↦[(s70).view.set]{fullShare} finC f2 f3 f4 (0 : Fin 4) (chunkNo L g))) : sProp 𝕄)
      ⊢ SFl0 d L f2 f3 f4 g := by
  unfold SFl0
  refine Transfers.Flight_mono _ _ (Entails.of_eq ?_)
  rw [outpiece_prog d L (outC f2 f3 f4) g o h eo, pointsTo_congr hY]

theorem sfl_canon_1 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch12.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s71).view.loc (thr d L) ↦[(s71).view.set]{fullShare} finC f2 f3 f4 (1 : Fin 4) (chunkNo L g))) : sProp 𝕄)
      ⊢ SFl1 d L f2 f3 f4 g := by
  unfold SFl1
  refine Transfers.Flight_mono _ _ (Entails.of_eq ?_)
  rw [outpiece_prog d L (outC f2 f3 f4) g o h eo, pointsTo_congr hY]

theorem sfl_canon_2 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch13.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s72).view.loc (thr d L) ↦[(s72).view.set]{fullShare} finC f2 f3 f4 (2 : Fin 4) (chunkNo L g))) : sProp 𝕄)
      ⊢ SFl2 d L f2 f3 f4 g := by
  unfold SFl2
  refine Transfers.Flight_mono _ _ (Entails.of_eq ?_)
  rw [outpiece_prog d L (outC f2 f3 f4) g o h eo, pointsTo_congr hY]

theorem sfl_canon_3 (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    (Transfers.Flight countersEmb (thr d L) (SemLoc.dma cc0_scratch14.sem) default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s73).view.loc (thr d L) ↦[(s73).view.set]{fullShare} finC f2 f3 f4 (3 : Fin 4) (chunkNo L g))) : sProp 𝕄)
      ⊢ SFl3 d L f2 f3 f4 g := by
  unfold SFl3
  refine Transfers.Flight_mono _ _ (Entails.of_eq ?_)
  rw [outpiece_prog d L (outC f2 f3 f4) g o h eo, pointsTo_congr hY]

/-- A chunk's rows of the flat result, at contents that are the canonical ones on those rows. -/
theorem out_canon (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i) :
    ((((a5).slice (Rect.unit (s := S819200x128) o S128x128.size h) (fun _ => rfl)).view.loc (thr d L) ↦[((a5).slice (Rect.unit (s := S819200x128) o S128x128.size h) (fun _ => rfl)).view.set]{fullShare} Y) : sProp 𝕄) ⊢ outpiece d L (outC f2 f3 f4) g := by
  refine Entails.of_eq ?_
  rw [outpiece_prog d L (outC f2 f3 f4) g o h eo, pointsTo_congr hY]

/-! ## Four pieces at a time -/

theorem done4 (n : ℕ) (hn : n + 4 ≤ 200) (Φ : Fin 200 → sProp 𝕄) :
    iprop(done (F := F) n Φ ∗ Φ ⟨n, by omega⟩ ∗ Φ ⟨n + 1, by omega⟩ ∗ Φ ⟨n + 2, by omega⟩ ∗ Φ ⟨n + 3, by omega⟩)
      ⊢ done (F := F) (n + 4) Φ := by
  have e3 : done (F := F) (n + 4) Φ = iprop(Φ ⟨n + 3, by omega⟩ ∗ done (F := F) (n + 3) Φ) := done_put (F := F) (n + 3) (by omega) Φ
  have e2 : done (F := F) (n + 3) Φ = iprop(Φ ⟨n + 2, by omega⟩ ∗ done (F := F) (n + 2) Φ) := done_put (F := F) (n + 2) (by omega) Φ
  have e1 : done (F := F) (n + 2) Φ = iprop(Φ ⟨n + 1, by omega⟩ ∗ done (F := F) (n + 1) Φ) := done_put (F := F) (n + 1) (by omega) Φ
  have e0 : done (F := F) (n + 1) Φ = iprop(Φ ⟨n, by omega⟩ ∗ done (F := F) n Φ) := done_put (F := F) n (by omega) Φ
  rw [e3, e2, e1, e0]
  iintro ⟨H, H0, H1, H2, H3⟩
  isplitl [H3]; · iexact H3
  isplitl [H2]; · iexact H2
  isplitl [H1]; · iexact H1
  isplitl [H0]; · iexact H0
  iexact H

theorem todo4 (n : ℕ) (hn : n + 4 ≤ 200) (Φ : Fin 200 → sProp 𝕄) :
    todo (F := F) n Φ
      ⊢ iprop(Φ ⟨n, by omega⟩ ∗ Φ ⟨n + 1, by omega⟩ ∗ Φ ⟨n + 2, by omega⟩ ∗ Φ ⟨n + 3, by omega⟩ ∗ todo (F := F) (n + 4) Φ) := by
  have e0 : todo (F := F) n Φ = iprop(Φ ⟨n, by omega⟩ ∗ todo (F := F) (n + 1) Φ) := todo_take (F := F) n (by omega) Φ
  have e1 : todo (F := F) (n + 1) Φ = iprop(Φ ⟨n + 1, by omega⟩ ∗ todo (F := F) (n + 2) Φ) := todo_take (F := F) (n + 1) (by omega) Φ
  have e2 : todo (F := F) (n + 2) Φ = iprop(Φ ⟨n + 2, by omega⟩ ∗ todo (F := F) (n + 3) Φ) := todo_take (F := F) (n + 2) (by omega) Φ
  have e3 : todo (F := F) (n + 3) Φ = iprop(Φ ⟨n + 3, by omega⟩ ∗ todo (F := F) (n + 4) Φ) := todo_take (F := F) (n + 3) (by omega) Φ
  rw [e0, e1, e2, e3]

/-! ## The same, with the semaphore a variable equal to the flight's own -/

theorem ifl_canon_0' (g : Fin 200) (X : C6 F) (p : S2x128.Idx → Elt F .i32)
    (hp : ∀ i ∈ (s60).view.set, (s60).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch3.sem) :
    (Transfers.Flight countersEmb (thr d L) sm default 8192
      iprop(((s60).view.loc (thr d L) ↦[(s60).view.set]{fullShare} (s60).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl0 d L f2 g := by
  subst hsm
  exact ifl_canon_0 d L f2 g X p hp o h eo

theorem ifl_canon_1' (g : Fin 200) (X : C6 F) (p : S2x128.Idx → Elt F .i32)
    (hp : ∀ i ∈ (s61).view.set, (s61).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch4.sem) :
    (Transfers.Flight countersEmb (thr d L) sm default 8192
      iprop(((s61).view.loc (thr d L) ↦[(s61).view.set]{fullShare} (s61).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl1 d L f2 g := by
  subst hsm
  exact ifl_canon_1 d L f2 g X p hp o h eo

theorem ifl_canon_2' (g : Fin 200) (X : C6 F) (p : S2x128.Idx → Elt F .i32)
    (hp : ∀ i ∈ (s62).view.set, (s62).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch5.sem) :
    (Transfers.Flight countersEmb (thr d L) sm default 8192
      iprop(((s62).view.loc (thr d L) ↦[(s62).view.set]{fullShare} (s62).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl2 d L f2 g := by
  subst hsm
  exact ifl_canon_2 d L f2 g X p hp o h eo

theorem ifl_canon_3' (g : Fin 200) (X : C6 F) (p : S2x128.Idx → Elt F .i32)
    (hp : ∀ i ∈ (s63).view.set, (s63).view.writes (Elt F) X [⟨Rect.whole S2x128, p⟩] i = itvC f2 (chunkNo L g) i)
    (o : Fin 3 → ℕ) (h : ∀ a, o a + S1x2x128.size a ≤ S6400x2x128.size a) (eo : (![c0 L + g.val, 0, 0] : Fin 3 → ℕ) = o)
    (sm : SemLoc sig) (hsm : sm = SemLoc.dma cc0_scratch6.sem) :
    (Transfers.Flight countersEmb (thr d L) sm default 8192
      iprop(((s63).view.loc (thr d L) ↦[(s63).view.set]{fullShare} (s63).view.writes (Elt F) X [⟨Rect.whole S2x128, p⟩])
        ∗ ((((a2).slice (Rect.unit (s := S6400x2x128) o S1x2x128.size h) (fun _ => rfl)).squeeze S2x128 squeezes_S1x2x128_S2x128).view.loc (thr d L) ↦[(((a2).slice (Rect.unit (s := S6400x2x128) o S1x2x128.size h) (fun _ => rfl)).squeeze S2x128 squeezes_S1x2x128_S2x128).view.set]{shA L} f2)) : sProp 𝕄)
      ⊢ IFl3 d L f2 g := by
  subst hsm
  exact ifl_canon_3 d L f2 g X p hp o h eo

theorem gfl_canon_0' (g : Fin 200) (X : C7 F) (p : S128x128.Idx → Elt F .f32)
    (hp : ∀ i ∈ (s70).view.set, (s70).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch7.sem) :
    (Transfers.Flight countersEmb (thr d L) sm default 524288
      iprop((((s70).view.loc (thr d L) ↦[(s70).view.set]{fullShare} (s70).view.writes (Elt F) X [⟨Rect.whole S128x128, p⟩])
          ∗ ((l60).view.loc (thr d L) ↦[(l60).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl0 d L f2 f3 g := by
  subst hsm
  exact gfl_canon_0 d L f2 f3 g X p hp hw

theorem gfl_canon_1' (g : Fin 200) (X : C7 F) (p : S128x128.Idx → Elt F .f32)
    (hp : ∀ i ∈ (s71).view.set, (s71).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch8.sem) :
    (Transfers.Flight countersEmb (thr d L) sm default 524288
      iprop((((s71).view.loc (thr d L) ↦[(s71).view.set]{fullShare} (s71).view.writes (Elt F) X [⟨Rect.whole S128x128, p⟩])
          ∗ ((l61).view.loc (thr d L) ↦[(l61).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl1 d L f2 f3 g := by
  subst hsm
  exact gfl_canon_1 d L f2 f3 g X p hp hw

theorem gfl_canon_2' (g : Fin 200) (X : C7 F) (p : S128x128.Idx → Elt F .f32)
    (hp : ∀ i ∈ (s72).view.set, (s72).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch9.sem) :
    (Transfers.Flight countersEmb (thr d L) sm default 524288
      iprop((((s72).view.loc (thr d L) ↦[(s72).view.set]{fullShare} (s72).view.writes (Elt F) X [⟨Rect.whole S128x128, p⟩])
          ∗ ((l62).view.loc (thr d L) ↦[(l62).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl2 d L f2 f3 g := by
  subst hsm
  exact gfl_canon_2 d L f2 f3 g X p hp hw

theorem gfl_canon_3' (g : Fin 200) (X : C7 F) (p : S128x128.Idx → Elt F .f32)
    (hp : ∀ i ∈ (s73).view.set, (s73).view.writes (Elt F) X [⟨Rect.whole S128x128, p⟩] i = gathC f2 f3 (chunkNo L g) i)
    (hw : ∀ a, (Rect.unit (s := S100000x128) ![0, 0] S100000x128.size inb_S100000x128_S100000x128_0_0).stride a = 1)
    (sm : SemLoc sig) (hsm : sm = SemLoc.dma cc0_scratch10.sem) :
    (Transfers.Flight countersEmb (thr d L) sm default 524288
      iprop((((s73).view.loc (thr d L) ↦[(s73).view.set]{fullShare} (s73).view.writes (Elt F) X [⟨Rect.whole S128x128, p⟩])
          ∗ ((l63).view.loc (thr d L) ↦[(l63).view.set]{fullShare} itvC f2 (chunkNo L g)))
        ∗ ((a3).view.loc (thr d L) ↦[((a3).slice (Rect.unit (s := S100000x128) ![0, 0] S100000x128.size inb_S100000x128_S100000x128_0_0) hw).view.set]{shT L g} f3)) : sProp 𝕄)
      ⊢ GFl3 d L f2 f3 g := by
  subst hsm
  exact gfl_canon_3 d L f2 f3 g X p hp hw

theorem sfl_canon_0' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch11.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s70).view.loc (thr d L) ↦[(s70).view.set]{fullShare} finC f2 f3 f4 (0 : Fin 4) (chunkNo L g))) : sProp 𝕄)
      ⊢ SFl0 d L f2 f3 f4 g := by
  subst hsm
  exact sfl_canon_0 d L f2 f3 f4 g Y o h eo hY

theorem sfl_canon_1' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch12.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s71).view.loc (thr d L) ↦[(s71).view.set]{fullShare} finC f2 f3 f4 (1 : Fin 4) (chunkNo L g))) : sProp 𝕄)
      ⊢ SFl1 d L f2 f3 f4 g := by
  subst hsm
  exact sfl_canon_1 d L f2 f3 f4 g Y o h eo hY

theorem sfl_canon_2' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch13.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s72).view.loc (thr d L) ↦[(s72).view.set]{fullShare} finC f2 f3 f4 (2 : Fin 4) (chunkNo L g))) : sProp 𝕄)
      ⊢ SFl2 d L f2 f3 f4 g := by
  subst hsm
  exact sfl_canon_2 d L f2 f3 f4 g Y o h eo hY

theorem sfl_canon_3' (g : Fin 200) (Y : C5 F) (o : Fin 2 → ℕ) (h : ∀ a, o a + S128x128.size a ≤ S819200x128.size a)
    (eo : (![128 * (c0 L + g.val), 0] : Fin 2 → ℕ) = o) (hY : ∀ i ∈ ((a5).slice (Rect.unit (s := S819200x128) o S128x128.size h) (fun _ => rfl)).view.set, Y i = outC f2 f3 f4 i)
    (sm : SemLoc sig) (hsm : sm = SemLoc.dma cc0_scratch14.sem) :
    (Transfers.Flight countersEmb (thr d L) sm default 524288
      iprop((((a5).slice (Rect.unit (s := S819200x128) o S128x128.size h) (fun _ => rfl)).view.loc (thr d L) ↦[((a5).slice (Rect.unit (s := S819200x128) o S128x128.size h) (fun _ => rfl)).view.set]{fullShare} Y)
        ∗ ((s73).view.loc (thr d L) ↦[(s73).view.set]{fullShare} finC f2 f3 f4 (3 : Fin 4) (chunkNo L g))) : sProp 𝕄)
      ⊢ SFl3 d L f2 f3 f4 g := by
  subst hsm
  exact sfl_canon_3 d L f2 f3 f4 g Y o h eo hY

end Cert.Proof.KB
end
-- ==== Proof.TileResB.lean ====
/-
  What a tile owns of its own when its body starts: its thirteen DMA semaphores at zero and its three scratch buffers at
  some contents, each named; and how a ring buffer held whole is its four slots held one by one, and back.
-/
import proofs.«207534_g35055523070033_cont_8to1_b_222_9_alg».proof.Proof.KerInvB
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (d : Dev nD) (L : grid0.Coords)

/-! ## The tile's semaphores and buffers, named -/

/-- Cells of one thread at different DMA semaphores are different cells. -/
theorem cell_ne {s s' : DmaSem sig} (h : s ≠ s') :
    ((thr d L, SemLoc.dma s) : GSem nD τ sig) ≠ (thr d L, SemLoc.dma s') :=
  fun e => h (SemLoc.dma.inj (Prod.mk.inj e).2)

/-- The tile's own semaphores at zero: the twelve of the ring, the one of the first copy, and whatever else. -/
theorem ownSems0_V13 :
    (ownSems0 (thr d L) : sProp 𝕄)
      = iprop(semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scoped0.sem) 0
        ∗ bigSep ((((((((((((((ownCells (thr d L)).erase (thr d L, SemLoc.dma cc0_scratch3.sem)).erase (thr d L, SemLoc.dma cc0_scratch4.sem)).erase (thr d L, SemLoc.dma cc0_scratch5.sem)).erase (thr d L, SemLoc.dma cc0_scratch6.sem)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scratch11.sem)).erase (thr d L, SemLoc.dma cc0_scratch12.sem)).erase (thr d L, SemLoc.dma cc0_scratch13.sem)).erase (thr d L, SemLoc.dma cc0_scratch14.sem)).erase (thr d L, SemLoc.dma cc0_scoped0.sem))
            fun g => semVal g 0) := by
  unfold SparseCore.Cfg.ownSems0
  rw [SparseCore.bigSep_erase' ((mem_ownCells (g := (thr d L, SemLoc.dma cc0_scratch3.sem))).mpr ⟨rfl, by show (SemLoc.dma cc0_scratch3.sem : SemLoc sig).isScoped .scVector = true; decide⟩),
    SparseCore.bigSep_erase' (Finset.mem_erase.mpr ⟨cell_ne d L (show cc0_scratch4.sem ≠ cc0_scratch3.sem by decide), (mem_ownCells (g := (thr d L, SemLoc.dma cc0_scratch4.sem))).mpr ⟨rfl, by show (SemLoc.dma cc0_scratch4.sem : SemLoc sig).isScoped .scVector = true; decide⟩⟩),
    SparseCore.bigSep_erase' (Finset.mem_erase.mpr ⟨cell_ne d L (show cc0_scratch5.sem ≠ cc0_scratch4.sem by decide), Finset.mem_erase.mpr ⟨cell_ne d L (show cc0_scratch5.sem ≠ cc0_scratch3.sem by decide), (mem_ownCells (g := (thr d L, SemLoc.dma cc0_scratch5.sem))).mpr ⟨rfl, by show (SemLoc.dma cc0_scratch5.sem : SemLoc sig).isScoped .scVector = true; decide⟩⟩⟩),
    SparseCore.bigSep_erase' (Finset.mem_erase.mpr ⟨cell_ne d L (show cc0_scratch6.sem ≠ cc0_scratch5.sem by decide), Finset.mem_erase.mpr ⟨cell_ne d L (show cc0_scratch6.sem ≠ cc0_scratch4.sem by decide), Finset.mem_erase.mpr ⟨cell_ne d L (show cc0_scratch6.sem ≠ cc0_scratch3.sem by decide), (mem_ownCells (g := (thr d L, SemLoc.dma cc0_scratch6.sem))).mpr ⟨rfl, by show (SemLoc.dma cc0_scratch6.sem : SemLoc sig).isScoped .scVector = true; decide⟩⟩⟩⟩),
    SparseCore.bigSep_erase' (Finset.mem_erase.mpr ⟨cell_ne d L (show cc0_scratch7.sem ≠ cc0_scratch6.sem by decide), Finset.mem_erase.mpr ⟨cell_ne d L (show cc0_scratch7.sem ≠ cc0_scratch5.sem by decide), Finset.mem_erase.mpr ⟨cell_ne d L (show cc0_scratch7.sem ≠ cc0_scratch4.sem by decide), Finset.mem_erase.mpr ⟨cell_ne d L (show cc0_scratch7.sem ≠ cc0_scratch3.sem by decide), (mem_ownCells (g := (thr d L, SemLoc.dma cc0_scratch7.sem))).mpr ⟨rfl, by show (SemLoc.dma cc0_scratch7.sem : SemLoc sig).isScoped .scVector = true; decide⟩⟩⟩⟩⟩),
    SparseCore.bigSep_erase' (Finset.mem_erase.mpr ⟨cell_ne d L (show cc0_scratch8.sem ≠ cc0_scratch7.sem by decide), Finset.mem_erase.mpr ⟨cell_ne d L (show cc0_scratch8.sem ≠ cc0_scratch6.sem by decide), Finset.mem_erase.mpr ⟨cell_ne d L (show cc0_scratch8.sem ≠ cc0_scratch5.sem by decide), Finset.mem_erase.mpr ⟨cell_ne d L (show cc0_scratch8.sem ≠ cc0_scratch4.sem by decide), Finset.mem_erase.mpr ⟨cell_ne d L (show cc0_scratch8.sem ≠ cc0_scratch3.sem by decide), (mem_ownCells (g := (thr d L, SemLoc.dma cc0_scratch8.sem))).mpr ⟨rfl, by show (SemLoc.dma cc0_scratch8.sem : SemLoc sig).isScoped .scVector = true; decide⟩⟩⟩⟩⟩⟩),
    SparseCore.bigSep_erase' (Finset.mem_erase.mpr ⟨cell_ne d L (show cc0_scratch9.sem ≠ cc0_scratch8.sem by decide), Finset.mem_erase.mpr ⟨cell_ne d L (show cc0_scratch9.sem ≠ cc0_scratch7.sem by decide), Finset.mem_erase.mpr ⟨cell_ne d L (show cc0_scratch9.sem ≠ cc0_scratch6.sem by decide), Finset.mem_erase.mpr ⟨cell_ne d L (show cc0_scratch9.sem ≠ cc0_scratch5.sem by decide), Finset.mem_erase.mpr ⟨cell_ne d L (show cc0_scratch9.sem ≠ cc0_scratch4.sem by decide), Finset.mem_erase.mpr ⟨cell_ne d L (show cc0_scratch9.sem ≠ cc0_scratch3.sem by decide), (mem_ownCells (g := (thr d L, SemLoc.dma cc0_scratch9.sem))).mpr ⟨rfl, by show (SemLoc.dma cc0_scratch9.sem : SemLoc sig).isScoped .scVector = true; decide⟩⟩⟩⟩⟩⟩⟩),
    SparseCore.bigSep_erase' (Finset.mem_erase.mpr ⟨cell_ne d L (show cc0_scratch10.sem ≠ cc0_scratch9.sem by decide), Finset.mem_erase.mpr ⟨cell_ne d L (show cc0_scratch10.sem ≠ cc0_scratch8.sem by decide), Finset.mem_erase.mpr ⟨cell_ne d L (show cc0_scratch10.sem ≠ cc0_scratch7.sem by decide), Finset.mem_erase.mpr ⟨cell_ne d L (show cc0_scratch10.sem ≠ cc0_scratch6.sem by decide), Finset.mem_erase.mpr ⟨cell_ne d L (show cc0_scratch10.sem ≠ cc0_scratch5.sem by decide), Finset.mem_erase.mpr ⟨cell_ne d L (show cc0_scratch10.sem ≠ cc0_scratch4.sem by decide), Finset.mem_erase.mpr ⟨cell_ne d L (show cc0_scratch10.sem ≠ cc0_scratch3.sem by decide), (mem_ownCells (g := (thr d L, SemLoc.dma cc0_scratch10.sem))).mpr ⟨rfl, by show (SemLoc.dma cc0_scratch10.sem : SemLoc sig).isScoped .scVector = true; decide⟩⟩⟩⟩⟩⟩⟩⟩),
    SparseCore.bigSep_erase' (Finset.mem_erase.mpr ⟨cell_ne d L (show cc0_scratch11.sem ≠ cc0_scratch10.sem by decide), Finset.mem_erase.mpr ⟨cell_ne d L (show cc0_scratch11.sem ≠ cc0_scratch9.sem by decide), Finset.mem_erase.mpr ⟨cell_ne d L (show cc0_scratch11.sem ≠ cc0_scratch8.sem by decide), Finset.mem_erase.mpr ⟨cell_ne d L (show cc0_scratch11.sem ≠ cc0_scratch7.sem by decide), Finset.mem_erase.mpr ⟨cell_ne d L (show cc0_scratch11.sem ≠ cc0_scratch6.sem by decide), Finset.mem_erase.mpr ⟨cell_ne d L (show cc0_scratch11.sem ≠ cc0_scratch5.sem by decide), Finset.mem_erase.mpr ⟨cell_ne d L (show cc0_scratch11.sem ≠ cc0_scratch4.sem by decide), Finset.mem_erase.mpr ⟨cell_ne d L (show cc0_scratch11.sem ≠ cc0_scratch3.sem by decide), (mem_ownCells (g := (thr d L, SemLoc.dma cc0_scratch11.sem))).mpr ⟨rfl, by show (SemLoc.dma cc0_scratch11.sem : SemLoc sig).isScoped .scVector = true; decide⟩⟩⟩⟩⟩⟩⟩⟩⟩),
    SparseCore.bigSep_erase' (Finset.mem_erase.mpr ⟨cell_ne d L (show cc0_scratch12.sem ≠ cc0_scratch11.sem by decide), Finset.mem_erase.mpr ⟨cell_ne d L (show cc0_scratch12.sem ≠ cc0_scratch10.sem by decide), Finset.mem_erase.mpr ⟨cell_ne d L (show cc0_scratch12.sem ≠ cc0_scratch9.sem by decide), Finset.mem_erase.mpr ⟨cell_ne d L (show cc0_scratch12.sem ≠ cc0_scratch8.sem by decide), Finset.mem_erase.mpr ⟨cell_ne d L (show cc0_scratch12.sem ≠ cc0_scratch7.sem by decide), Finset.mem_erase.mpr ⟨cell_ne d L (show cc0_scratch12.sem ≠ cc0_scratch6.sem by decide), Finset.mem_erase.mpr ⟨cell_ne d L (show cc0_scratch12.sem ≠ cc0_scratch5.sem by decide), Finset.mem_erase.mpr ⟨cell_ne d L (show cc0_scratch12.sem ≠ cc0_scratch4.sem by decide), Finset.mem_erase.mpr ⟨cell_ne d L (show cc0_scratch12.sem ≠ cc0_scratch3.sem by decide), (mem_ownCells (g := (thr d L, SemLoc.dma cc0_scratch12.sem))).mpr ⟨rfl, by show (SemLoc.dma cc0_scratch12.sem : SemLoc sig).isScoped .scVector = true; decide⟩⟩⟩⟩⟩⟩⟩⟩⟩⟩),
    SparseCore.bigSep_erase' (Finset.mem_erase.mpr ⟨cell_ne d L (show cc0_scratch13.sem ≠ cc0_scratch12.sem by decide), Finset.mem_erase.mpr ⟨cell_ne d L (show cc0_scratch13.sem ≠ cc0_scratch11.sem by decide), Finset.mem_erase.mpr ⟨cell_ne d L (show cc0_scratch13.sem ≠ cc0_scratch10.sem by decide), Finset.mem_erase.mpr ⟨cell_ne d L (show cc0_scratch13.sem ≠ cc0_scratch9.sem by decide), Finset.mem_erase.mpr ⟨cell_ne d L (show cc0_scratch13.sem ≠ cc0_scratch8.sem by decide), Finset.mem_erase.mpr ⟨cell_ne d L (show cc0_scratch13.sem ≠ cc0_scratch7.sem by decide), Finset.mem_erase.mpr ⟨cell_ne d L (show cc0_scratch13.sem ≠ cc0_scratch6.sem by decide), Finset.mem_erase.mpr ⟨cell_ne d L (show cc0_scratch13.sem ≠ cc0_scratch5.sem by decide), Finset.mem_erase.mpr ⟨cell_ne d L (show cc0_scratch13.sem ≠ cc0_scratch4.sem by decide), Finset.mem_erase.mpr ⟨cell_ne d L (show cc0_scratch13.sem ≠ cc0_scratch3.sem by decide), (mem_ownCells (g := (thr d L, SemLoc.dma cc0_scratch13.sem))).mpr ⟨rfl, by show (SemLoc.dma cc0_scratch13.sem : SemLoc sig).isScoped .scVector = true; decide⟩⟩⟩⟩⟩⟩⟩⟩⟩⟩⟩),
    SparseCore.bigSep_erase' (Finset.mem_erase.mpr ⟨cell_ne d L (show cc0_scratch14.sem ≠ cc0_scratch13.sem by decide), Finset.mem_erase.mpr ⟨cell_ne d L (show cc0_scratch14.sem ≠ cc0_scratch12.sem by decide), Finset.mem_erase.mpr ⟨cell_ne d L (show cc0_scratch14.sem ≠ cc0_scratch11.sem by decide), Finset.mem_erase.mpr ⟨cell_ne d L (show cc0_scratch14.sem ≠ cc0_scratch10.sem by decide), Finset.mem_erase.mpr ⟨cell_ne d L (show cc0_scratch14.sem ≠ cc0_scratch9.sem by decide), Finset.mem_erase.mpr ⟨cell_ne d L (show cc0_scratch14.sem ≠ cc0_scratch8.sem by decide), Finset.mem_erase.mpr ⟨cell_ne d L (show cc0_scratch14.sem ≠ cc0_scratch7.sem by decide), Finset.mem_erase.mpr ⟨cell_ne d L (show cc0_scratch14.sem ≠ cc0_scratch6.sem by decide), Finset.mem_erase.mpr ⟨cell_ne d L (show cc0_scratch14.sem ≠ cc0_scratch5.sem by decide), Finset.mem_erase.mpr ⟨cell_ne d L (show cc0_scratch14.sem ≠ cc0_scratch4.sem by decide), Finset.mem_erase.mpr ⟨cell_ne d L (show cc0_scratch14.sem ≠ cc0_scratch3.sem by decide), (mem_ownCells (g := (thr d L, SemLoc.dma cc0_scratch14.sem))).mpr ⟨rfl, by show (SemLoc.dma cc0_scratch14.sem : SemLoc sig).isScoped .scVector = true; decide⟩⟩⟩⟩⟩⟩⟩⟩⟩⟩⟩⟩),
    SparseCore.bigSep_erase' (Finset.mem_erase.mpr ⟨cell_ne d L (show cc0_scoped0.sem ≠ cc0_scratch14.sem by decide), Finset.mem_erase.mpr ⟨cell_ne d L (show cc0_scoped0.sem ≠ cc0_scratch13.sem by decide), Finset.mem_erase.mpr ⟨cell_ne d L (show cc0_scoped0.sem ≠ cc0_scratch12.sem by decide), Finset.mem_erase.mpr ⟨cell_ne d L (show cc0_scoped0.sem ≠ cc0_scratch11.sem by decide), Finset.mem_erase.mpr ⟨cell_ne d L (show cc0_scoped0.sem ≠ cc0_scratch10.sem by decide), Finset.mem_erase.mpr ⟨cell_ne d L (show cc0_scoped0.sem ≠ cc0_scratch9.sem by decide), Finset.mem_erase.mpr ⟨cell_ne d L (show cc0_scoped0.sem ≠ cc0_scratch8.sem by decide), Finset.mem_erase.mpr ⟨cell_ne d L (show cc0_scoped0.sem ≠ cc0_scratch7.sem by decide), Finset.mem_erase.mpr ⟨cell_ne d L (show cc0_scoped0.sem ≠ cc0_scratch6.sem by decide), Finset.mem_erase.mpr ⟨cell_ne d L (show cc0_scoped0.sem ≠ cc0_scratch5.sem by decide), Finset.mem_erase.mpr ⟨cell_ne d L (show cc0_scoped0.sem ≠ cc0_scratch4.sem by decide), Finset.mem_erase.mpr ⟨cell_ne d L (show cc0_scoped0.sem ≠ cc0_scratch3.sem by decide), (mem_ownCells (g := (thr d L, SemLoc.dma cc0_scoped0.sem))).mpr ⟨rfl, by show (SemLoc.dma cc0_scoped0.sem : SemLoc sig).isScoped .scVector = true; decide⟩⟩⟩⟩⟩⟩⟩⟩⟩⟩⟩⟩⟩)]

/-- The three scratch buffers are among the tile's own: they are them, at some contents, and the rest. -/
theorem ownBufs_V3 :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## A ring buffer whole is its four slots -/

omit d L in
/-- A family over four indices, written out. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

omit d L in
/-- A buffer held whole is its four parts, for any four pairwise disjoint sets of its words that cover it. -/
theorem pts_slots {ℓ : Loc nD τ sig} (K : Fin 4 → Finset (Idx ℓ))
    (hd : ∀ b ∈ (Finset.univ : Finset (Fin 4)), ∀ b' ∈ (Finset.univ : Finset (Fin 4)), b ≠ b' → Disjoint (K b) (K b'))
    (hc : (Finset.univ : Finset (Fin 4)).biUnion K = Finset.univ) (g : Buf (Elt F) ℓ) :
    (ℓ ↦{fullShare} g : sProp 𝕄)
      = iprop((ℓ ↦[K 0]{fullShare} g) ∗ (ℓ ↦[K 1]{fullShare} g) ∗ (ℓ ↦[K 2]{fullShare} g) ∗ (ℓ ↦[K 3]{fullShare} g)) :=
  calc (ℓ ↦{fullShare} g : sProp 𝕄) = ℓ ↦[(Finset.univ : Finset (Fin 4)).biUnion K]{fullShare} g := by rw [hc]
    _ = bigSep Finset.univ fun b => ℓ ↦[K b]{fullShare} g := pointsTo_biUnion Finset.univ K hd
    _ = _ := bigSep_fin4 _

omit d L in
/-- The four parts, each at contents of its own, are the buffer whole at some contents. -/
theorem pts_slots_join [FloatOps F] {ℓ : Loc nD τ sig} (K : Fin 4 → Finset (Idx ℓ))
    (hd : ∀ b ∈ (Finset.univ : Finset (Fin 4)), ∀ b' ∈ (Finset.univ : Finset (Fin 4)), b ≠ b' → Disjoint (K b) (K b'))
    (hc : (Finset.univ : Finset (Fin 4)).biUnion K = Finset.univ) :
    iprop((∃ g, ℓ ↦[K 0]{fullShare} g) ∗ (∃ g, ℓ ↦[K 1]{fullShare} g) ∗ (∃ g, ℓ ↦[K 2]{fullShare} g) ∗ (∃ g, ℓ ↦[K 3]{fullShare} g))
      ⊢ (iprop(∃ g, ℓ ↦{fullShare} g) : sProp 𝕄) := by
  refine (Entails.of_eq (bigSep_fin4 (F := F) (fun b : Fin 4 => iprop(∃ g, ℓ ↦[K b]{fullShare} g))).symm).trans ?_
  refine (bigSep_exists_pi Finset.univ (fun b (g : Buf (Elt F) ℓ) => ℓ ↦[K b]{fullShare} g)).trans ?_
  iintro ⟨%fs, H⟩
  ihave H' := (pointsTo_biUnion_join Finset.univ K fs (fs 0) hd) $$ H
  icases H' with ⟨%g, -, Hg⟩
  rw [hc]
  iexists g; iexact Hg

/-- Slot b of the word buffer, as a set of its words: those whose first coordinate is b. -/
def slotSet6 (b : Fin 4) : Finset S4x2x128.Idx := Finset.univ.filter fun i => (i 0).val = b.val

theorem set_s60 : (s60).view.set = slotSet6 0 := by
  ext i; rw [slot6_mem_0]; simp [slotSet6]
theorem set_s61 : (s61).view.set = slotSet6 1 := by
  ext i; rw [slot6_mem_1]; simp [slotSet6]
theorem set_s62 : (s62).view.set = slotSet6 2 := by
  ext i; rw [slot6_mem_2]; simp [slotSet6]
theorem set_s63 : (s63).view.set = slotSet6 3 := by
  ext i; rw [slot6_mem_3]; simp [slotSet6]

theorem slot6_disj : ∀ b ∈ (Finset.univ : Finset (Fin 4)), ∀ b' ∈ (Finset.univ : Finset (Fin 4)), b ≠ b' →
    Disjoint (slotSet6 b) (slotSet6 b') := by
  intro b _ b' _ hne
  rw [Finset.disjoint_left]; intro i hi hi'
  simp only [slotSet6, Finset.mem_filter, Finset.mem_univ, true_and] at hi hi'
  exact hne (Fin.ext (hi.symm.trans hi'))

theorem slot6_cover : (Finset.univ : Finset (Fin 4)).biUnion slotSet6 = Finset.univ := by
  ext i
  simp only [Finset.mem_biUnion, Finset.mem_univ, true_and, iff_true, slotSet6, Finset.mem_filter]
  exact ⟨⟨(i 0).val, (i 0).isLt⟩, rfl⟩

/-- The word buffer held whole is its four slots held one by one. -/
theorem slots6 (g : C6 F) :
    (((a6).view.loc (thr d L) ↦{fullShare} g : sProp 𝕄))
      = iprop(((s60).view.loc (thr d L) ↦[(s60).view.set]{fullShare} g)
        ∗ ((s61).view.loc (thr d L) ↦[(s61).view.set]{fullShare} g)
        ∗ ((s62).view.loc (thr d L) ↦[(s62).view.set]{fullShare} g)
        ∗ ((s63).view.loc (thr d L) ↦[(s63).view.set]{fullShare} g)) := by
  rw [set_s60, set_s61, set_s62, set_s63]
  exact pts_slots (ℓ := (a6).view.loc (thr d L)) slotSet6 slot6_disj slot6_cover g

/-- And its four slots, each at contents of its own, are the word buffer whole at some contents. -/
theorem slots6_join [FloatOps F] :
    iprop((∃ g, (s60).view.loc (thr d L) ↦[(s60).view.set]{fullShare} g)
        ∗ (∃ g, (s61).view.loc (thr d L) ↦[(s61).view.set]{fullShare} g)
        ∗ (∃ g, (s62).view.loc (thr d L) ↦[(s62).view.set]{fullShare} g)
        ∗ (∃ g, (s63).view.loc (thr d L) ↦[(s63).view.set]{fullShare} g))
      ⊢ (iprop(∃ g, (thr d L).loc cc0_scratch0 ↦{fullShare} g) : sProp 𝕄) := by
  rw [set_s60, set_s61, set_s62, set_s63]
  exact pts_slots_join (ℓ := (thr d L).loc cc0_scratch0) slotSet6 slot6_disj slot6_cover

/-- Slot b of the row buffer, as a set of its words: those whose first coordinate is b. -/
def slotSet7 (b : Fin 4) : Finset S4x128x128.Idx := Finset.univ.filter fun i => (i 0).val = b.val

theorem set_s70 : (s70).view.set = slotSet7 0 := by
  ext i; rw [slot7_mem_0]; simp [slotSet7]
theorem set_s71 : (s71).view.set = slotSet7 1 := by
  ext i; rw [slot7_mem_1]; simp [slotSet7]
theorem set_s72 : (s72).view.set = slotSet7 2 := by
  ext i; rw [slot7_mem_2]; simp [slotSet7]
theorem set_s73 : (s73).view.set = slotSet7 3 := by
  ext i; rw [slot7_mem_3]; simp [slotSet7]

theorem slot7_disj : ∀ b ∈ (Finset.univ : Finset (Fin 4)), ∀ b' ∈ (Finset.univ : Finset (Fin 4)), b ≠ b' →
    Disjoint (slotSet7 b) (slotSet7 b') := by
  intro b _ b' _ hne
  rw [Finset.disjoint_left]; intro i hi hi'
  simp only [slotSet7, Finset.mem_filter, Finset.mem_univ, true_and] at hi hi'
  exact hne (Fin.ext (hi.symm.trans hi'))

theorem slot7_cover : (Finset.univ : Finset (Fin 4)).biUnion slotSet7 = Finset.univ := by
  ext i
  simp only [Finset.mem_biUnion, Finset.mem_univ, true_and, iff_true, slotSet7, Finset.mem_filter]
  exact ⟨⟨(i 0).val, (i 0).isLt⟩, rfl⟩

/-- The row buffer held whole is its four slots held one by one. -/
theorem slots7 (X : C7 F) :
    (((a7).view.loc (thr d L) ↦{fullShare} X : sProp 𝕄))
      = iprop(((s70).view.loc (thr d L) ↦[(s70).view.set]{fullShare} X)
        ∗ ((s71).view.loc (thr d L) ↦[(s71).view.set]{fullShare} X)
        ∗ ((s72).view.loc (thr d L) ↦[(s72).view.set]{fullShare} X)
        ∗ ((s73).view.loc (thr d L) ↦[(s73).view.set]{fullShare} X)) := by
  rw [set_s70, set_s71, set_s72, set_s73]
  exact pts_slots (ℓ := (a7).view.loc (thr d L)) slotSet7 slot7_disj slot7_cover X

/-- And its four slots, each at contents of its own, are the row buffer whole at some contents. -/
theorem slots7_join [FloatOps F] :
    iprop((∃ g, (s70).view.loc (thr d L) ↦[(s70).view.set]{fullShare} g)
        ∗ (∃ g, (s71).view.loc (thr d L) ↦[(s71).view.set]{fullShare} g)
        ∗ (∃ g, (s72).view.loc (thr d L) ↦[(s72).view.set]{fullShare} g)
        ∗ (∃ g, (s73).view.loc (thr d L) ↦[(s73).view.set]{fullShare} g))
      ⊢ (iprop(∃ g, (thr d L).loc cc0_scratch1 ↦{fullShare} g) : sProp 𝕄) := by
  rw [set_s70, set_s71, set_s72, set_s73]
  exact pts_slots_join (ℓ := (thr d L).loc cc0_scratch1) slotSet7 slot7_disj slot7_cover

end Cert.Proof.KB

end
-- ==== Proof.KerTileB.lean ====
/-
  A tile's task, and the tile obligation of the launch.

  A tile first copies the two type rows into its scratch, starts the index copies of its first four chunks into the four
  slots, waits for the first two and starts their gathers; then fifty trips of the ring, each finishing four chunks and
  starting the next four; then the last two write-backs are waited for. It is handed its chunks of the stacked index
  array, its shares of the two tables and its chunks of the flat result, and hands the chunks of the result back, each
  holding the lookup.
-/
import proofs.«207534_g35055523070033_cont_8to1_b_222_9_alg».proof.Proof.Gen.Kernel.Skeleton
import proofs.«207534_g35055523070033_cont_8to1_b_222_9_alg».proof.Proof.KerInvB
import proofs.«207534_g35055523070033_cont_8to1_b_222_9_alg».proof.Proof.CanonizeB
import proofs.«207534_g35055523070033_cont_8to1_b_222_9_alg».proof.Proof.TileResB
import proofs.«207534_g35055523070033_cont_8to1_b_222_9_alg».proof.Proof.KerLaunchB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch theorem's tile obligation from the tile's task -/

section Obl
variable [FloatOps F]

/-- THE TILE'S TASK: from what the tile is handed, its own buffers and semaphores and what it owes, the kernel function
    runs and ends with what the tile hands back, its own buffers and semaphores, and what it owed. -/
def TileBody (F : FTy → Type) [FloatOps F] : Prop :=
  ∀ (d : Dev nD) (L : grid0.Coords) (f2 : C2 F) (f3 : C3 F) (f4 : C4 F) (fo : C5 F), (∀ i, (f2 i).toNat < 100000) →
    ∀ (O : CellTallies nD τ sig (HIx 1)) (W : Waits sig (HIx 1)), (∀ g, O g none = 0) →
    iprop(levAts (K (F := F)).L (K (F := F)).lev ∗ emp ∗ goRes d L f2 f3 f4 fo
        ∗ scopedBufs (thr d L) ∗ scopedSems0 (thr d L) ∗ owes (thr d L) O W)
      ⊢ wp frame (wpE (defs₀ (F := F)) 𝒱₀ (thr d L) none) Set.univ
          (cc0_k L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0)
          fun _ => iprop(tdRes d L f2 f3 f4 ∗ scopedBufs (thr d L) ∗ scopedSems0 (thr d L)
            ∗ ∃ W', ⌜∀ p ∈ W', p ∈ W ∨ p.2 = none⌝ ∗ owes (thr d L) O W')

theorem defs₀_vector (c : Fin τ.nSC) (s : Fin τ.nSub) :
    defs₀ (F := F) (.scVector c s) 0 ()
      = SparseCore.onTile hcore0 hsub0 (fun c s => cc0_k (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go (m : (ℓ : Loc nD τ sig) → Buf (Elt F) ℓ) (V2 : Dev nD → C2 F) (d : Dev nD) (c : Fin ((K (F := F)).nCore 0))
    (i : Fin ((K (F := F)).nSub 0)) :
    (P m V2).go 0 d c i = goRes d (coordsV (Fin.cast nCore_zero c) (Fin.cast nSub_zero i)) (V2 d) (m (tabLoc d)) (m (ttLoc d)) (m (v3Loc d)) := by
  unfold P; dsimp only
  rfl
theorem P_td (m : (ℓ : Loc nD τ sig) → Buf (Elt F) ℓ) (V2 : Dev nD → C2 F) (d : Dev nD) (c : Fin ((K (F := F)).nCore 0))
    (i : Fin ((K (F := F)).nSub 0)) :
    (P m V2).td 0 d c i = tdRes d (coordsV (Fin.cast nCore_zero c) (Fin.cast nSub_zero i)) (V2 d) (m (tabLoc d)) (m (ttLoc d)) := by
  unfold P; dsimp only
  rfl
theorem P_x (m : (ℓ : Loc nD τ sig) → Buf (Elt F) ℓ) (V2 : Dev nD → C2 F) (thr : Thread nD τ) :
    (P m V2).x 0 thr = iprop(emp) := by
  unfold P; dsimp only

/-- The tile obligation of the launch, from the tile's task. -/
theorem tileObl_of (hb : TileBody F) (m : (ℓ : Loc nD τ sig) → Buf (Elt F) ℓ) (V2 : Dev nD → C2 F)
    (hf2 : ∀ d i, (V2 d i).toNat < 100000) : (K (F := F)).TileObl (D (F := F)) 𝒱 (P m V2) v₀ 0 := by
  intro d c i O W hO _ _
  -- this kernel owes nothing for a protocol of its own
  simp only [show (P m V2).ox = fun _ _ => 0 from rfl, add_zero]
  rw [P_go, P_td, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) (V2 d) (m (tabLoc d)) (m (ttLoc d)) (m (v3Loc d)) (hf2 d) O W hO).trans
    (wp_mono frame _ _ fun _ => obl_post)

end Obl

/-! ## The tile's task, given one trip of the ring -/

section Body
variable [FloatOps F] (d : Dev nD) (L : grid0.Coords) (f2 : C2 F) (f3 : C3 F) (f4 : C4 F)

omit [FloatOps F] in
theorem tb_pts_a8 (f : C8 F) :
    ((thr d L).loc cc0_scratch2 ↦{fullShare} f : sProp 𝕄) = ((a8).view.loc (thr d L) ↦{fullShare} f) := rfl

omit [FloatOps F] in
/-- A slot of the word buffer is its index list (row 0) and the rest (row 1). -/
theorem tb_split6_0 (g : C6 F) :
    (((s60).view.loc (thr d L) ↦[(s60).view.set]{fullShare} g : sProp 𝕄))
      ⊣⊢ iprop(((l60).view.loc (thr d L) ↦[(l60).view.set]{fullShare} g) ∗ ((s60).view.loc (thr d L) ↦[(s60).view.set \ (l60).view.set]{fullShare} g)) :=
  pointsTo_split_subset l60_sub
omit [FloatOps F] in
theorem tb_split6_1 (g : C6 F) :
    (((s61).view.loc (thr d L) ↦[(s61).view.set]{fullShare} g : sProp 𝕄))
      ⊣⊢ iprop(((l61).view.loc (thr d L) ↦[(l61).view.set]{fullShare} g) ∗ ((s61).view.loc (thr d L) ↦[(s61).view.set \ (l61).view.set]{fullShare} g)) :=
  pointsTo_split_subset l61_sub

/-- The words a landed chunk's index list holds are in range of the table when every word of the stacked array is. -/
theorem tb_hin_0 (hf2 : ∀ i, (f2 i).toNat < 100000) (c : Fin 6400) :
    ∀ x, (View.read (Elt F) (l60).view (itvC f2 c) x).toNat < S100000x128.size gathers_S100000x128_S128x128.axis := by
  intro x; rw [list_read_0 f2 c (itvC f2 c) (fun _ _ => rfl) x]; exact hf2 _
theorem tb_hin_1 (hf2 : ∀ i, (f2 i).toNat < 100000) (c : Fin 6400) :
    ∀ x, (View.read (Elt F) (l61).view (itvC f2 c) x).toNat < S100000x128.size gathers_S100000x128_S128x128.axis := by
  intro x; rw [list_read_1 f2 c (itvC f2 c) (fun _ _ => rfl) x]; exact hf2 _

/-- What the tile hands back is the chunks below 198 and the last two. -/
theorem tdRes_split :
    (tdRes d L f2 f3 f4 : sProp 𝕄) = iprop(outpiece d L (outC f2 f3 f4) ⟨199, by omega⟩ ∗ outpiece d L (outC f2 f3 f4) ⟨198, by omega⟩
      ∗ done (F := F) 198 (outpiece d L (outC f2 f3 f4))) :=
  (done_all (F := F) (outpiece d L (outC f2 f3 f4))).symm.trans
    ((done_put (F := F) 199 (by omega) (outpiece d L (outC f2 f3 f4))).trans
      (congrArg (fun X : sProp 𝕄 => iprop(outpiece d L (outC f2 f3 f4) ⟨199, by omega⟩ ∗ X))
        (done_put (F := F) 198 (by omega) (outpiece d L (outC f2 f3 f4)))))

/-- ONE TRIP OF THE RING keeps the ring's invariant. -/
def TripStep (F : FTy → Type) [FloatOps F] : Prop :=
  ∀ (d : Dev nD) (L : grid0.Coords) (f2 : C2 F) (f3 : C3 F) (f4 : C4 F) (fo : C5 F)
    (O : CellTallies nD τ sig (HIx 1)) (W : Waits sig (HIx 1)), (∀ i, (f2 i).toNat < 100000) →
    ∀ (v1 : BitVec 32) (t1 : Fin k0_t1_loop.trips) (acc : PUnit),
      Inv d L f2 f3 f4 fo O W t1.val acc ⊢ wp frame (wpE (defs₀ (F := F)) 𝒱₀ (thr d L) none) Set.univ
        (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 acc) (Inv d L f2 f3 f4 fo O W (t1.val + 1))

end Body

/-- THE TILE'S TASK from one trip of the ring: the type rows are copied in; the first four index copies are started and
    the first two waited for, their gathers started — which is the ring's invariant before the first trip; fifty trips
    keep it; after the last, the two write-backs still in flight are waited for, and every chunk of the result holds the
    lookup. -/
theorem tile_body [FloatOps F] (htrip0 : TripStep F) : TileBody F := by
  intro d L f2 f3 f4 fo hf2 O W hO
  have hF : (K (F := F)).Facts := facts
  have htrip := htrip0 d L f2 f3 f4 fo O W hf2
  rw [cc0_k_eq_skeleton]; unfold cc0_k_skel
  rw [(K (F := F)).scopedBufs_V hF d (cV L) (jV L), SparseCore.Cfg.scopedSems0_V (Val := Elt F) d (cV L) (jV L), ownSems0_V13, ownBufs_V3]
  unfold goRes
  iintro ⟨#Hlv, -, ⟨A2, A3, H4, O5⟩, ⟨⟨%f6, H6⟩, ⟨%f7, H7⟩, ⟨%f8, H8⟩, Hbufs⟩, ⟨S3, S4, S5, S6, S7, S8, S9, S10, S11, S12, S13, S14, Ssc, Hsems⟩, HO⟩
  ihave Hmw := ((K (F := F)).mayWaits_none (thr := thr d L) hO) $$ Hlv
  ihave H8 := (Entails.of_eq (tb_pts_a8 (F := F) d L f8)) $$ H8
  ihave H6 := (Entails.of_eq (slots6 (F := F) d L f6)) $$ H6
  icases H6 with ⟨H60, H61, H62, H63⟩
  ihave H7 := (Entails.of_eq (slots7 (F := F) d L f7)) $$ H7
  icases H7 with ⟨H70, H71, H72, H73⟩
  -- the first four chunks of the stacked array, spelt as the program slices them
  ihave A2 := (Entails.of_eq (todo_all (F := F) (a2piece d L f2)).symm) $$ A2
  ihave A2 := (todo4 (F := F) 0 (by omega) (a2piece d L f2)) $$ A2
  icases A2 with ⟨A0, A1, A2c, A3c, A2⟩
  ihave A0 := (Entails.of_eq (a2piece_prog (F := F) d L f2 _ _ (k0_off1_inb L 0) (off1_eq L 0 _ rfl))) $$ A0
  ihave A1 := (Entails.of_eq (a2piece_prog (F := F) d L f2 _ _ (k0_off1_inb L 1) (off1_eq L 1 _ rfl))) $$ A1
  ihave A2c := (Entails.of_eq (a2piece_prog (F := F) d L f2 _ _ (k0_off1_inb L 2) (off1_eq L 2 _ rfl))) $$ A2c
  ihave A3c := (Entails.of_eq (a2piece_prog (F := F) d L f2 _ _ (k0_off1_inb L 3) (off1_eq L 3 _ rfl))) $$ A3c
  -- the table's read shares for the first two gathers
  ihave A3 := (Entails.of_eq (todo_all (F := F) (a3tok d L f3)).symm) $$ A3
  ihave A3 := (Entails.of_eq (todo_take (F := F) 0 (by omega) (a3tok d L f3))) $$ A3
  icases A3 with ⟨T0, A3⟩
  ihave A3 := (Entails.of_eq (todo_take (F := F) (0 + 1) (by omega) (a3tok d L f3))) $$ A3
  icases A3 with ⟨T1, A3⟩
  have hin0 := tb_hin_0 (F := F) f2 hf2
  have hin1 := tb_hin_1 (F := F) f2 hf2
  -- the type rows' copy, the four index copies, the wait for slot 0's
  sl_exec_parts
  ihave H8 := (Entails.of_eq (pointsTo_congr (g := ttC f4) (fun i _ => congrFun (tt_land f8 f4) i))) $$ H8
  ihave H60 := (Entails.of_eq (pointsTo_congr (it_land_0 _ f2 (chunkNo L (gF 0)) _ (fun x => chunk_read f2 (chunkNo L (gF 0)) _ _ (off1_eq L 0 (gF 0) rfl).symm x)))) $$ H60
  ihave Hsp := ((tb_split6_0 (F := F) d L _).1) $$ H60
  icases Hsp with ⟨L0, R0⟩
  sl_exec_parts
  ihave H61 := (Entails.of_eq (pointsTo_congr (it_land_1 _ f2 (chunkNo L (gF 1)) _ (fun x => chunk_read f2 (chunkNo L (gF 1)) _ _ (off1_eq L 1 (gF 1) rfl).symm x)))) $$ H61
  ihave Hsp := ((tb_split6_1 (F := F) d L _).1) $$ H61
  icases Hsp with ⟨L1, R1⟩
  sl_exec_parts
  sl_for (Inv d L f2 f3 f4 fo O W) $$ [A2 A3 O5 H8 S7 R0 S3 S11 S8 R1 S4 S12 S5 H72 S13 S9 S6 H73 S14 S10 HO]
  case region =>
    intro t1 acc
    exact htrip _ t1 acc
  · -- the invariant before the first trip
    sl_unfold_run_names
    unfold Inv slotA0 slotA1 slotB2 slotB3
    simp only [if_pos (show (0 : ℕ) < 50 by decide), if_neg (show ¬ (0 : ℕ) < 0 by decide)]
    isplitr; · iexact Hmw
    isplitl [A2]; · iexact A2
    isplitl [A3]; · iexact A3
    isplitl [O5]
    · iapply (Entails.of_eq (todo_all (F := F) (outpiece d L fo)).symm); iexact O5
    isplitr
    · rw [show 4 * 0 - 2 = 0 from rfl, done_none]; iempintro
    isplitl [H8]; · iexact H8
    isplitl [S7 R0 S3 S11]
    · isplitl [S7]
      · iapply (gfl_canon_0 (F := F) d L f2 f3 (gF (4 * 0 + 0)) _ _
          (gath_land_0 _ f2 f3 (chunkNo L (gF 0)) _ (fun x => list_read_0 f2 (chunkNo L (gF 0)) _ (fun _ _ => rfl) x) _ _ (fun _ => rfl)) (fun _ => rfl))
        iexact S7
      isplitl [R0]; · iexact R0
      isplitl [S3]; · iexact S3
      iexact S11
    isplitl [S8 R1 S4 S12]
    · isplitl [S8]
      · iapply (gfl_canon_1 (F := F) d L f2 f3 (gF (4 * 0 + 1)) _ _
          (gath_land_1 _ f2 f3 (chunkNo L (gF 1)) _ (fun x => list_read_1 f2 (chunkNo L (gF 1)) _ (fun _ _ => rfl) x) _ _ (fun _ => rfl)) (fun _ => rfl))
        iexact S8
      isplitl [R1]; · iexact R1
      isplitl [S4]; · iexact S4
      iexact S12
    isplitl [S5 H72 S13 S9]
    · isplitl [S5]
      · iapply (ifl_canon_2 (F := F) d L f2 (gF (4 * 0 + 2)) _ _
          (it_land_2 _ f2 (chunkNo L (gF 2)) _ (fun x => chunk_read f2 (chunkNo L (gF 2)) _ _ (off1_eq L 2 (gF 2) rfl).symm x))
          _ (k0_off1_inb L 2) (off1_eq L 2 (gF 2) rfl))
        iexact S5
      isplitl [H72 S13]
      · isplitl [H72]
        · iexists _; iexact H72
        iexact S13
      iexact S9
    isplitl [S6 H73 S14 S10]
    · isplitl [S6]
      · iapply (ifl_canon_3 (F := F) d L f2 (gF (4 * 0 + 3)) _ _
          (it_land_3 _ f2 (chunkNo L (gF 3)) _ (fun x => chunk_read f2 (chunkNo L (gF 3)) _ _ (off1_eq L 3 (gF 3) rfl).symm x))
          _ (k0_off1_inb L 3) (off1_eq L 3 (gF 3) rfl))
        iexact S6
      isplitl [H73 S14]
      · isplitl [H73]
        · iexists _; iexact H73
        iexact S14
      iexact S10
    iexists _
    isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ HI
  -- after the last trip: slots 0 and 1 idle, the write-backs of chunks 198 and 199 in flight from slots 2 and 3
  unfold Inv slotA0 slotA1 slotB2 slotB3 SFl2 SFl3
  simp only [if_neg (show ¬ (k0_t1_loop.trips : ℕ) < 50 by decide), if_pos (show (0 : ℕ) < k0_t1_loop.trips by decide)]
  icases HI with ⟨-, -, -, -, Dn, H8, ⟨⟨%g60, H60⟩, ⟨%x70, H70⟩, S3, S7, S11⟩, ⟨⟨%g61, H61⟩, ⟨%x71, H71⟩, S4, S8, S12⟩,
    ⟨⟨⟨%g62, H62⟩, S5⟩, F2, S9⟩, ⟨⟨⟨%g63, H63⟩, S6⟩, F3, S10⟩, %W', %hW', HO⟩
  -- the two last write-backs are waited for
  sl_exec_parts
  have h50 : Scf.trips (0#32) (Scalar.addi 0#32 50#32) 1#32 = 50 := by decide
  rw [h50]
  rw [wp_ret]; imodintro
  -- every chunk of the result holds the lookup
  isplitl [Dn F2_dst F3_dst]
  · iapply (Entails.of_eq (tdRes_split (F := F) d L f2 f3 f4).symm)
    isplitl [F3_dst]; · iexact F3_dst
    isplitl [F2_dst]; · iexact F2_dst
    iexact Dn
  -- the tile's own buffers, whole again
  isplitl [H60 H61 H62 H63 H70 H71 F2_src F3_src H8 Hbufs]
  · isplitl [H60 H61 H62 H63]
    · iapply (slots6_join (F := F) d L)
      isplitl [H60]; · iexists _; iexact H60
      isplitl [H61]; · iexists _; iexact H61
      isplitl [H62]; · iexists _; iexact H62
      iexists _; iexact H63
    isplitl [H70 H71 F2_src F3_src]
    · iapply (slots7_join (F := F) d L)
      isplitl [H70]; · iexists _; iexact H70
      isplitl [H71]; · iexists _; iexact H71
      isplitl [F2_src]; · iexists _; iexact F2_src
      iexists _; iexact F3_src
    isplitl [H8]; · iexists _; iexact H8
    iexact Hbufs
  -- its semaphores, at zero again
  isplitl [S3 S4 S5 S6 S7 S8 S9 S10 S11 S12 F2 F3 Ssc Hsems]
  · isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [F2]; · iexact F2
    isplitl [F3]; · iexact F3
    isplitl [Ssc]; · iexact Ssc
    iexact Hsems
  iexists _
  isplitr
  rotate_left
  · iexact HO
  · ipureintro; intro p hp
    rcases Finset.mem_insert.mp hp with rfl | hp
    · exact .inr rfl
    rcases Finset.mem_insert.mp hp with rfl | hp
    · exact .inr rfl
    · exact hW' p hp

/-- The tile obligation of the launch, from one trip of the ring. -/
theorem tileObl [FloatOps F] (htrip : TripStep F) (m : (ℓ : Loc nD τ sig) → Buf (Elt F) ℓ) (V2 : Dev nD → C2 F)
    (hf2 : ∀ d i, (V2 d i).toNat < 100000) : (K (F := F)).TileObl (D (F := F)) 𝒱 (P m V2) v₀ 0 :=
  tileObl_of (tile_body htrip) m V2 hf2

end Cert.Proof.KB

end
-- ==== Proof.Inner0.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.InnerStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps0" k:ident hk:ident g6:ident g8:ident X0:ident hX:ident : tactic => do
  for n in [0:128] do
    let m := 127 - n
    let kk := m / 8
    let dd := m % 8
    let offEq := mkIdent (Name.mkSimple s!"k0_off{2 + 1 + dd}_eq")
    let off6Eq := mkIdent (Name.mkSimple "k0_off2_eq")
    let off6Inb := mkIdent (Name.mkSimple "k0_off2_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (0 : Fin 4) $g6 $g8 $X0 _ ⟨($k).val, $hk⟩ ⟨$kkL, by first | done | decide⟩ ⟨$ddL, by first | done | decide⟩ ?_ (k0_off2 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 0: the slot's words and the type rows as they were, the row buffer's slot with its
    first 16 k rows handled. -/
def innerInv0 (g6 : C6 F) (g8 : C8 F) (X0 : C7 F) (k : ℕ) (_ : PUnit) : sProp 𝕄 :=
  iprop(((s60).view.loc (thr d L) ↦[(s60).view.set]{fullShare} g6) ∗ ((a8).view.loc (thr d L) ↦{fullShare} g8)
    ∗ ∃ X : C7 F, ((s70).view.loc (thr d L) ↦[(s70).view.set]{fullShare} X) ∗ ⌜Mix (0 : Fin 4) (128 * k) g6 g8 X0 X⌝)

set_option maxRecDepth 100000 in
set_option maxHeartbeats 4000000 in
/-- One trip of the inner loop on slot 0: sixteen rows, eight stores each. -/
theorem compute_region_0 (g6 : C6 F) (g8 : C8 F) (X0 : C7 F) (v1 v82 v84 : BitVec 32) (t1 : Fin k0_t1_loop.trips)
    (k : Fin k0_t2_loop.trips) (acc : PUnit) :
    innerInv0 (F := F) d L g6 g8 X0 k.val acc
      ⊢ wp frame (wpE (defs₀ (F := F)) 𝒱₀ (thr d L) none) Set.univ
          (k0_t2_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 v84 k acc)
          (innerInv0 (F := F) d L g6 g8 X0 (k.val + 1)) := by
  have hk : k.val < 8 := lt_of_lt_of_le k.isLt k0_t2_abs.2.1
  have hsub6 := sub6_0
  have hsub7 := sub7_0
  have hst7 := st7_0
  unfold innerInv0 k0_t2_body
  iintro ⟨H6, H8, %X, H7, %hX⟩
  sl_exec_parts
  sl_step
  isplitl [H6]; · iexact H6
  isplitl [H8]; · iexact H8
  iexists _; isplitl [H7]; · iexact H7
  ipureintro
  mix_steps0 k hk g6 g8 X0 hX

end Cert.Proof.KI
end
-- ==== Proof.Inner1.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.InnerStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps1" k:ident hk:ident g6:ident g8:ident X0:ident hX:ident : tactic => do
  for n in [0:128] do
    let m := 127 - n
    let kk := m / 8
    let dd := m % 8
    let offEq := mkIdent (Name.mkSimple s!"k0_off{13 + 1 + dd}_eq")
    let off6Eq := mkIdent (Name.mkSimple "k0_off13_eq")
    let off6Inb := mkIdent (Name.mkSimple "k0_off13_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (1 : Fin 4) $g6 $g8 $X0 _ ⟨($k).val, $hk⟩ ⟨$kkL, by first | done | decide⟩ ⟨$ddL, by first | done | decide⟩ ?_ (k0_off13 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 1: the slot's words and the type rows as they were, the row buffer's slot with its
    first 16 k rows handled. -/
def innerInv1 (g6 : C6 F) (g8 : C8 F) (X0 : C7 F) (k : ℕ) (_ : PUnit) : sProp 𝕄 :=
  iprop(((s61).view.loc (thr d L) ↦[(s61).view.set]{fullShare} g6) ∗ ((a8).view.loc (thr d L) ↦{fullShare} g8)
    ∗ ∃ X : C7 F, ((s71).view.loc (thr d L) ↦[(s71).view.set]{fullShare} X) ∗ ⌜Mix (1 : Fin 4) (128 * k) g6 g8 X0 X⌝)

set_option maxRecDepth 100000 in
set_option maxHeartbeats 4000000 in
/-- One trip of the inner loop on slot 1: sixteen rows, eight stores each. -/
theorem compute_region_1 (g6 : C6 F) (g8 : C8 F) (X0 : C7 F) (v1 v82 v120 : BitVec 32) (t1 : Fin k0_t1_loop.trips)
    (k : Fin k0_t3_loop.trips) (acc : PUnit) :
    innerInv1 (F := F) d L g6 g8 X0 k.val acc
      ⊢ wp frame (wpE (defs₀ (F := F)) 𝒱₀ (thr d L) none) Set.univ
          (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 v120 k acc)
          (innerInv1 (F := F) d L g6 g8 X0 (k.val + 1)) := by
  have hk : k.val < 8 := lt_of_lt_of_le k.isLt k0_t3_abs.2.1
  have hsub6 := sub6_1
  have hsub7 := sub7_1
  have hst7 := st7_1
  unfold innerInv1 k0_t3_body
  iintro ⟨H6, H8, %X, H7, %hX⟩
  sl_exec_parts
  sl_step
  isplitl [H6]; · iexact H6
  isplitl [H8]; · iexact H8
  iexists _; isplitl [H7]; · iexact H7
  ipureintro
  mix_steps1 k hk g6 g8 X0 hX

end Cert.Proof.KI
end
-- ==== Proof.Inner2.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.InnerStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps2" k:ident hk:ident g6:ident g8:ident X0:ident hX:ident : tactic => do
  for n in [0:128] do
    let m := 127 - n
    let kk := m / 8
    let dd := m % 8
    let offEq := mkIdent (Name.mkSimple s!"k0_off{23 + 1 + dd}_eq")
    let off6Eq := mkIdent (Name.mkSimple "k0_off23_eq")
    let off6Inb := mkIdent (Name.mkSimple "k0_off23_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (2 : Fin 4) $g6 $g8 $X0 _ ⟨($k).val, $hk⟩ ⟨$kkL, by first | done | decide⟩ ⟨$ddL, by first | done | decide⟩ ?_ (k0_off23 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 2: the slot's words and the type rows as they were, the row buffer's slot with its
    first 16 k rows handled. -/
def innerInv2 (g6 : C6 F) (g8 : C8 F) (X0 : C7 F) (k : ℕ) (_ : PUnit) : sProp 𝕄 :=
  iprop(((s62).view.loc (thr d L) ↦[(s62).view.set]{fullShare} g6) ∗ ((a8).view.loc (thr d L) ↦{fullShare} g8)
    ∗ ∃ X : C7 F, ((s72).view.loc (thr d L) ↦[(s72).view.set]{fullShare} X) ∗ ⌜Mix (2 : Fin 4) (128 * k) g6 g8 X0 X⌝)

set_option maxRecDepth 100000 in
set_option maxHeartbeats 4000000 in
/-- One trip of the inner loop on slot 2: sixteen rows, eight stores each. -/
theorem compute_region_2 (g6 : C6 F) (g8 : C8 F) (X0 : C7 F) (v1 v82 : BitVec 32) (t1 : Fin k0_t1_loop.trips)
    (k : Fin k0_t4_loop.trips) (acc : PUnit) :
    innerInv2 (F := F) d L g6 g8 X0 k.val acc
      ⊢ wp frame (wpE (defs₀ (F := F)) 𝒱₀ (thr d L) none) Set.univ
          (k0_t4_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 k acc)
          (innerInv2 (F := F) d L g6 g8 X0 (k.val + 1)) := by
  have hk : k.val < 8 := lt_of_lt_of_le k.isLt k0_t4_abs.2.1
  have hsub6 := sub6_2
  have hsub7 := sub7_2
  have hst7 := st7_2
  unfold innerInv2 k0_t4_body
  iintro ⟨H6, H8, %X, H7, %hX⟩
  sl_exec_parts
  sl_step
  isplitl [H6]; · iexact H6
  isplitl [H8]; · iexact H8
  iexists _; isplitl [H7]; · iexact H7
  ipureintro
  mix_steps2 k hk g6 g8 X0 hX

end Cert.Proof.KI
end
-- ==== Proof.Inner3.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.InnerStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps3" k:ident hk:ident g6:ident g8:ident X0:ident hX:ident : tactic => do
  for n in [0:128] do
    let m := 127 - n
    let kk := m / 8
    let dd := m % 8
    let offEq := mkIdent (Name.mkSimple s!"k0_off{33 + 1 + dd}_eq")
    let off6Eq := mkIdent (Name.mkSimple "k0_off33_eq")
    let off6Inb := mkIdent (Name.mkSimple "k0_off33_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (3 : Fin 4) $g6 $g8 $X0 _ ⟨($k).val, $hk⟩ ⟨$kkL, by first | done | decide⟩ ⟨$ddL, by first | done | decide⟩ ?_ (k0_off33 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 3: the slot's words and the type rows as they were, the row buffer's slot with its
    first 16 k rows handled. -/
def innerInv3 (g6 : C6 F) (g8 : C8 F) (X0 : C7 F) (k : ℕ) (_ : PUnit) : sProp 𝕄 :=
  iprop(((s63).view.loc (thr d L) ↦[(s63).view.set]{fullShare} g6) ∗ ((a8).view.loc (thr d L) ↦{fullShare} g8)
    ∗ ∃ X : C7 F, ((s73).view.loc (thr d L) ↦[(s73).view.set]{fullShare} X) ∗ ⌜Mix (3 : Fin 4) (128 * k) g6 g8 X0 X⌝)

set_option maxRecDepth 100000 in
set_option maxHeartbeats 4000000 in
/-- One trip of the inner loop on slot 3: sixteen rows, eight stores each. -/
theorem compute_region_3 (g6 : C6 F) (g8 : C8 F) (X0 : C7 F) (v82 : BitVec 32) (t1 : Fin k0_t1_loop.trips)
    (k : Fin k0_t5_loop.trips) (acc : PUnit) :
    innerInv3 (F := F) d L g6 g8 X0 k.val acc
      ⊢ wp frame (wpE (defs₀ (F := F)) 𝒱₀ (thr d L) none) Set.univ
          (k0_t5_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 t1 v82 k acc)
          (innerInv3 (F := F) d L g6 g8 X0 (k.val + 1)) := by
  have hk : k.val < 8 := lt_of_lt_of_le k.isLt k0_t5_abs.2.1
  have hsub6 := sub6_3
  have hsub7 := sub7_3
  have hst7 := st7_3
  unfold innerInv3 k0_t5_body
  iintro ⟨H6, H8, %X, H7, %hX⟩
  sl_exec_parts
  sl_step
  isplitl [H6]; · iexact H6
  isplitl [H8]; · iexact H8
  iexists _; isplitl [H7]; · iexact H7
  ipureintro
  mix_steps3 k hk g6 g8 X0 hX

end Cert.Proof.KI
end
-- ==== Proof.TripLemmas.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.KerInv
import proofs.«207534_g35055523070033_cont_8to1_b_222_9_alg».proof.Proof.Canonize
import proofs.«207534_g35055523070033_cont_8to1_b_222_9_alg».proof.Proof.Inner0
import proofs.«207534_g35055523070033_cont_8to1_b_222_9_alg».proof.Proof.Inner1
import proofs.«207534_g35055523070033_cont_8to1_b_222_9_alg».proof.Proof.Inner2
import proofs.«207534_g35055523070033_cont_8to1_b_222_9_alg».proof.Proof.Inner3
/-!
  Small facts the outer loop's trips share: a slot of the word buffer is its index list and the rest; the words of a
  landed index list are in range of the table; the trip's conditions decided by the trip's number; chunks added to the
  family of chunks done.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

theorem cond_pos : ∀ t1 : Fin k0_t1_loop.trips, 0 < t1.val →
    Scalar.cmpi .ne (Scalar.extui (Scalar.cmpi .sgt (Scalar.addi 0#32 (Scalar.muli (Scf.iv 0#32 1#32 t1) 1#32)) 0#32)) 0#32 = 1#1 := by decide +kernel

omit [FloatOps F] in
/-- Slot 0 of the word buffer is its index list (row 0) and the rest (row 1). -/
theorem split6_0 (g : C6 F) :
    (((s60).view.loc (thr d L) ↦[(s60).view.set]{fullShare} g : sProp 𝕄))
      ⊣⊢ iprop(((l60).view.loc (thr d L) ↦[(l60).view.set]{fullShare} g) ∗ ((s60).view.loc (thr d L) ↦[(s60).view.set \ (l60).view.set]{fullShare} g)) :=
  pointsTo_split_subset l60_sub

/-- The words a landed chunk's index list holds are in range of the table when every word of the stacked array is. -/
theorem hin_0 (hf2 : ∀ i, (f2 i).toNat < 100000) (c : Fin 6400) :
    ∀ x, (View.read (Elt F) (l60).view (itvC f2 c) x).toNat < S100000x128.size gathers_S100000x128_S128x128.axis := by
  intro x; rw [list_read_0 f2 c (itvC f2 c) (fun _ _ => rfl) x]; exact hf2 _

omit [FloatOps F] in
/-- Slot 1 of the word buffer is its index list (row 0) and the rest (row 1). -/
theorem split6_1 (g : C6 F) :
    (((s61).view.loc (thr d L) ↦[(s61).view.set]{fullShare} g : sProp 𝕄))
      ⊣⊢ iprop(((l61).view.loc (thr d L) ↦[(l61).view.set]{fullShare} g) ∗ ((s61).view.loc (thr d L) ↦[(s61).view.set \ (l61).view.set]{fullShare} g)) :=
  pointsTo_split_subset l61_sub

/-- The words a landed chunk's index list holds are in range of the table when every word of the stacked array is. -/
theorem hin_1 (hf2 : ∀ i, (f2 i).toNat < 100000) (c : Fin 6400) :
    ∀ x, (View.read (Elt F) (l61).view (itvC f2 c) x).toNat < S100000x128.size gathers_S100000x128_S128x128.axis := by
  intro x; rw [list_read_1 f2 c (itvC f2 c) (fun _ _ => rfl) x]; exact hf2 _

omit [FloatOps F] in
/-- Slot 2 of the word buffer is its index list (row 0) and the rest (row 1). -/
theorem split6_2 (g : C6 F) :
    (((s62).view.loc (thr d L) ↦[(s62).view.set]{fullShare} g : sProp 𝕄))
      ⊣⊢ iprop(((l62).view.loc (thr d L) ↦[(l62).view.set]{fullShare} g) ∗ ((s62).view.loc (thr d L) ↦[(s62).view.set \ (l62).view.set]{fullShare} g)) :=
  pointsTo_split_subset l62_sub

/-- The words a landed chunk's index list holds are in range of the table when every word of the stacked array is. -/
theorem hin_2 (hf2 : ∀ i, (f2 i).toNat < 100000) (c : Fin 6400) :
    ∀ x, (View.read (Elt F) (l62).view (itvC f2 c) x).toNat < S100000x128.size gathers_S100000x128_S128x128.axis := by
  intro x; rw [list_read_2 f2 c (itvC f2 c) (fun _ _ => rfl) x]; exact hf2 _

omit [FloatOps F] in
/-- Slot 3 of the word buffer is its index list (row 0) and the rest (row 1). -/
theorem split6_3 (g : C6 F) :
    (((s63).view.loc (thr d L) ↦[(s63).view.set]{fullShare} g : sProp 𝕄))
      ⊣⊢ iprop(((l63).view.loc (thr d L) ↦[(l63).view.set]{fullShare} g) ∗ ((s63).view.loc (thr d L) ↦[(s63).view.set \ (l63).view.set]{fullShare} g)) :=
  pointsTo_split_subset l63_sub

/-- The words a landed chunk's index list holds are in range of the table when every word of the stacked array is. -/
theorem hin_3 (hf2 : ∀ i, (f2 i).toNat < 100000) (c : Fin 6400) :
    ∀ x, (View.read (Elt F) (l63).view (itvC f2 c) x).toNat < S100000x128.size gathers_S100000x128_S128x128.axis := by
  intro x; rw [list_read_3 f2 c (itvC f2 c) (fun _ _ => rfl) x]; exact hf2 _

omit [FloatOps F] in
/-- Four more chunks done. -/
theorem done4' (n : ℕ) (a b c e : Fin 200) (ha : a.val = n) (hb : b.val = n + 1) (hc : c.val = n + 2) (he : e.val = n + 3) (Φ : Fin 200 → sProp 𝕄) :
    iprop(done (F := F) n Φ ∗ Φ a ∗ Φ b ∗ Φ c ∗ Φ e) ⊢ done (F := F) (n + 4) Φ := by
  have hn : n + 3 < 200 := by have := e.isLt; omega
  have ea : a = ⟨n, Nat.lt_of_le_of_lt (Nat.le_add_right n 3) hn⟩ := Fin.ext ha
  have eb : b = ⟨n + 1, Nat.lt_of_le_of_lt (Nat.add_le_add_left (by decide : 1 ≤ 3) n) hn⟩ := Fin.ext hb
  have ec : c = ⟨n + 2, Nat.lt_of_le_of_lt (Nat.add_le_add_left (by decide : 2 ≤ 3) n) hn⟩ := Fin.ext hc
  have ee : e = ⟨n + 3, hn⟩ := Fin.ext he
  rw [ea, eb, ec, ee, done_put (F := F) (n + 3) (by omega), done_put (F := F) (n + 2) (by omega), done_put (F := F) (n + 1) (by omega), done_put (F := F) n (by omega)]
  iintro ⟨HD, Ha, Hb, Hc, He⟩
  isplitl [He]; · iexact He
  isplitl [Hc]; · iexact Hc
  isplitl [Hb]; · iexact Hb
  isplitl [Ha]; · iexact Ha
  iexact HD

theorem cond_neg : ∀ t1 : Fin k0_t1_loop.trips, t1.val = 0 →
    ¬ Scalar.cmpi .ne (Scalar.extui (Scalar.cmpi .sgt (Scalar.addi 0#32 (Scalar.muli (Scf.iv 0#32 1#32 t1) 1#32)) 0#32)) 0#32 = 1#1 := by decide +kernel

omit [FloatOps F] in
/-- Two more chunks done. -/
theorem done2' (n : ℕ) (a b : Fin 200) (ha : a.val = n) (hb : b.val = n + 1) (Φ : Fin 200 → sProp 𝕄) :
    iprop(done (F := F) n Φ ∗ Φ a ∗ Φ b) ⊢ done (F := F) (n + 2) Φ := by
  have hn : n + 1 < 200 := by have := b.isLt; omega
  have ea : a = ⟨n, Nat.lt_of_le_of_lt (Nat.le_add_right n 1) hn⟩ := Fin.ext ha
  have eb : b = ⟨n + 1, hn⟩ := Fin.ext hb
  rw [ea, eb, done_put (F := F) (n + 1) (by omega), done_put (F := F) n (by omega)]
  iintro ⟨HD, Ha, Hb⟩
  isplitl [Hb]; · iexact Hb
  isplitl [Ha]; · iexact Ha
  iexact HD

omit [FloatOps F] in
/-- Past the last chunk nothing is left to come. -/
theorem todo_big (n m : ℕ) (hn : 200 ≤ n) (hm : 200 ≤ m) (Φ : Fin 200 → sProp 𝕄) : todo (F := F) n Φ = todo (F := F) m Φ := by
  unfold todo; congr 1; ext g; have := g.isLt
  simp only [Finset.mem_filter, Finset.mem_univ, true_and]; omega

end Cert.Proof.KI
end
-- ==== Proof.TripFirst.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.TripLemmas
/-!
  One trip of the outer loop, the first: no write-back is in flight yet, so slots 2 and 3 of the row buffer are free.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_first (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : t1.val = 0) (hl : t1.val < 49)
    (X2 X3 : C7 F)
    (g0 g1 g2 g3 g4 g5 g6 g7  : Fin 200) (e0 : g0.val = 4 * t1.val) (e1 : g1.val = 4 * t1.val + 1) (e2 : g2.val = 4 * t1.val + 2) (e3 : g3.val = 4 * t1.val + 3)
    (e4 : g4.val = 4 * t1.val + 4) (e5 : g5.val = 4 * t1.val + 5) (e6 : g6.val = 4 * t1.val + 6) (e7 : g7.val = 4 * t1.val + 7)
     :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))
        ∗ a2piece d L f2 g4 ∗ a2piece d L f2 g5 ∗ a2piece d L f2 g6 ∗ a2piece d L f2 g7
        ∗ a3tok d L f3 g2 ∗ a3tok d L f3 g3 ∗ a3tok d L f3 g4 ∗ a3tok d L f3 g5
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ (((s72).view.loc (thr d L) ↦[(s72).view.set]{fullShare} X2) ∗ semVal (thr d L, SemLoc.dma cc0_scratch13.sem) 0) ∗ semVal (thr d L, SemLoc.dma cc0_scratch9.sem) 0
        ∗ IFl3 d L f2 g3 ∗ (((s73).view.loc (thr d L) ↦[(s73).view.set]{fullShare} X3) ∗ semVal (thr d L, SemLoc.dma cc0_scratch14.sem) 0) ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3
  iintro ⟨Hmw, TA, TT, TO, DN, A4, A5, A6, A7, T2, T3, T4, T5, O0, O1, O2, O3, H8, G0, R0, Si0, Ss0, G1, R1, Si1, Ss1, I2, ⟨S2_src, S2⟩, Sg2, I3, ⟨S3_src, S3⟩, Sg3, HO⟩
  have hc1 := cond_neg t1 h0
  have hc2 := cond2_pos t1 hl
  have hc4 := cond4_pos t1 hl
  have hc6 := cond6_pos t1 hl
  have hc8 := cond8_pos t1 hl
  ihave A4 := (Entails.of_eq (a2piece_prog (F := F) d L f2 g4 _ (k0_off11_inb L t1 hc2) (off11_eq L t1 g4 e4))) $$ A4
  ihave A5 := (Entails.of_eq (a2piece_prog (F := F) d L f2 g5 _ (k0_off22_inb L t1 hc4) (off22_eq L t1 g5 e5))) $$ A5
  ihave A6 := (Entails.of_eq (a2piece_prog (F := F) d L f2 g6 _ (k0_off32_inb L t1 hc6) (off32_eq L t1 g6 e6))) $$ A6
  ihave A7 := (Entails.of_eq (a2piece_prog (F := F) d L f2 g7 _ (k0_off42_inb L t1 hc8) (off42_eq L t1 g7 e7))) $$ A7
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H60 := (Entails.of_eq (pointsTo_congr (it_land_0 _ f2 (chunkNo L g4) _ (fun x => chunk_read f2 (chunkNo L g4) _ _ (off11_eq L t1 g4 e4).symm x)))) $$ H60
  ihave Hsp := ((split6_0 (F := F) d L _).1) $$ H60
  icases Hsp with ⟨L0, R0⟩
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H61 := (Entails.of_eq (pointsTo_congr (it_land_1 _ f2 (chunkNo L g5) _ (fun x => chunk_read f2 (chunkNo L g5) _ _ (off22_eq L t1 g5 e5).symm x)))) $$ H61
  ihave Hsp := ((split6_1 (F := F) d L _).1) $$ H61
  icases Hsp with ⟨L1, R1⟩
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg4 : gF (4 * (t1.val + 1) + 0) = g4 := Fin.ext (by rw [gF_val (by omega)]; omega)
  have eg5 : gF (4 * (t1.val + 1) + 1) = g5 := Fin.ext (by rw [gF_val (by omega)]; omega)
  have eg6 : gF (4 * (t1.val + 1) + 2) = g6 := Fin.ext (by rw [gF_val (by omega)]; omega)
  have eg7 : gF (4 * (t1.val + 1) + 3) = g7 := Fin.ext (by rw [gF_val (by omega)]; omega)
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_pos (by omega : t1.val + 1 < 50), if_pos (by omega : 0 < t1.val + 1)]
  rw [eg4, eg5, eg6, eg7, eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 2 from by omega]
  ihave DN := (done2' (F := F) (4 * t1.val - 2) g0 g1 (by omega) (by omega) (outpiece d L (outC f2 f3 f4))) $$ [DN O0 O1]
  · isplitl [DN]; · iexact DN
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src A4 A5 T4 T5 T2 T3
  isplitl [Hmw]; · iexact Hmw
  isplitl [TA]; · iexact TA
  isplitl [TT]; · iexact TT
  isplitl [TO]; · iexact TO
  isplitl [DN]; · iexact DN
  isplitl [H8]; · iexact H8
  isplitl [G0 R0 Si0 Ss0]
  · isplitl [G0]; · iapply (gfl_canon_0 d L f2 f3 g4 _ _ (gath_land_0 _ f2 f3 (chunkNo L g4) _ (fun x => list_read_0 f2 (chunkNo L g4) _ (fun _ _ => rfl) x) _ _ (fun _ => rfl)) (fun _ => rfl)); iexact G0
    isplitl [R0]; · iexact R0
    isplitl [Si0]; · iexact Si0
    iexact Ss0
  isplitl [G1 R1 Si1 Ss1]
  · isplitl [G1]; · iapply (gfl_canon_1 d L f2 f3 g5 _ _ (gath_land_1 _ f2 f3 (chunkNo L g5) _ (fun x => list_read_1 f2 (chunkNo L g5) _ (fun _ _ => rfl) x) _ _ (fun _ => rfl)) (fun _ => rfl)); iexact G1
    isplitl [R1]; · iexact R1
    isplitl [Si1]; · iexact Si1
    iexact Ss1
  isplitl [I2 S2 Sg2]
  · isplitl [I2]; · iapply (ifl_canon_2 d L f2 g6 _ _ (it_land_2 _ f2 (chunkNo L g6) _ (fun x => chunk_read f2 (chunkNo L g6) _ _ (off32_eq L t1 g6 e6).symm x)) _ _ (off32_eq L t1 g6 e6)); iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [I3 S3 Sg3]
  · isplitl [I3]; · iapply (ifl_canon_3 d L f2 g7 _ _ (it_land_3 _ f2 (chunkNo L g7) _ (fun x => chunk_read f2 (chunkNo L g7) _ _ (off42_eq L t1 g7 e7).symm x)) _ _ (off42_eq L t1 g7 e7)); iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KI
end
-- ==== Proof.TripMid.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.TripLemmas
/-!
  One trip of the outer loop, neither the first nor the last.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_mid (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : 0 < t1.val) (hl : t1.val < 49)

    (g0 g1 g2 g3 g4 g5 g6 g7 gm1 gm2 : Fin 200) (e0 : g0.val = 4 * t1.val) (e1 : g1.val = 4 * t1.val + 1) (e2 : g2.val = 4 * t1.val + 2) (e3 : g3.val = 4 * t1.val + 3)
    (e4 : g4.val = 4 * t1.val + 4) (e5 : g5.val = 4 * t1.val + 5) (e6 : g6.val = 4 * t1.val + 6) (e7 : g7.val = 4 * t1.val + 7)
    (em1 : gm1.val + 1 = 4 * t1.val) (em2 : gm2.val + 2 = 4 * t1.val) :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))
        ∗ a2piece d L f2 g4 ∗ a2piece d L f2 g5 ∗ a2piece d L f2 g6 ∗ a2piece d L f2 g7
        ∗ a3tok d L f3 g2 ∗ a3tok d L f3 g3 ∗ a3tok d L f3 g4 ∗ a3tok d L f3 g5
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ SFl2 d L f2 f3 f4 gm2 ∗ semVal (thr d L, SemLoc.dma cc0_scratch9.sem) 0
        ∗ IFl3 d L f2 g3 ∗ SFl3 d L f2 f3 f4 gm1 ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3 SFl2 SFl3
  iintro ⟨Hmw, TA, TT, TO, DN, A4, A5, A6, A7, T2, T3, T4, T5, O0, O1, O2, O3, H8, G0, R0, Si0, Ss0, G1, R1, Si1, Ss1, I2, S2, Sg2, I3, S3, Sg3, HO⟩
  have hc1 := cond_pos t1 h0
  have hc2 := cond2_pos t1 hl
  have hc4 := cond4_pos t1 hl
  have hc6 := cond6_pos t1 hl
  have hc8 := cond8_pos t1 hl
  ihave A4 := (Entails.of_eq (a2piece_prog (F := F) d L f2 g4 _ (k0_off11_inb L t1 hc2) (off11_eq L t1 g4 e4))) $$ A4
  ihave A5 := (Entails.of_eq (a2piece_prog (F := F) d L f2 g5 _ (k0_off22_inb L t1 hc4) (off22_eq L t1 g5 e5))) $$ A5
  ihave A6 := (Entails.of_eq (a2piece_prog (F := F) d L f2 g6 _ (k0_off32_inb L t1 hc6) (off32_eq L t1 g6 e6))) $$ A6
  ihave A7 := (Entails.of_eq (a2piece_prog (F := F) d L f2 g7 _ (k0_off42_inb L t1 hc8) (off42_eq L t1 g7 e7))) $$ A7
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H60 := (Entails.of_eq (pointsTo_congr (it_land_0 _ f2 (chunkNo L g4) _ (fun x => chunk_read f2 (chunkNo L g4) _ _ (off11_eq L t1 g4 e4).symm x)))) $$ H60
  ihave Hsp := ((split6_0 (F := F) d L _).1) $$ H60
  icases Hsp with ⟨L0, R0⟩
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H61 := (Entails.of_eq (pointsTo_congr (it_land_1 _ f2 (chunkNo L g5) _ (fun x => chunk_read f2 (chunkNo L g5) _ _ (off22_eq L t1 g5 e5).symm x)))) $$ H61
  ihave Hsp := ((split6_1 (F := F) d L _).1) $$ H61
  icases Hsp with ⟨L1, R1⟩
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg4 : gF (4 * (t1.val + 1) + 0) = g4 := Fin.ext (by rw [gF_val (by omega)]; omega)
  have eg5 : gF (4 * (t1.val + 1) + 1) = g5 := Fin.ext (by rw [gF_val (by omega)]; omega)
  have eg6 : gF (4 * (t1.val + 1) + 2) = g6 := Fin.ext (by rw [gF_val (by omega)]; omega)
  have eg7 : gF (4 * (t1.val + 1) + 3) = g7 := Fin.ext (by rw [gF_val (by omega)]; omega)
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_pos (by omega : t1.val + 1 < 50), if_pos (by omega : 0 < t1.val + 1)]
  rw [eg4, eg5, eg6, eg7, eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 4 from by omega]
  ihave DN := (done4' (F := F) (4 * t1.val - 2) gm2 gm1 g0 g1 (by omega) (by omega) (by omega) (by omega) (outpiece d L (outC f2 f3 f4))) $$ [DN S2_dst S3_dst O0 O1]
  · isplitl [DN]; · iexact DN
    isplitl [S2_dst]; · iexact S2_dst
    isplitl [S3_dst]; · iexact S3_dst
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src A4 A5 T4 T5 T2 T3
  isplitl [Hmw]; · iexact Hmw
  isplitl [TA]; · iexact TA
  isplitl [TT]; · iexact TT
  isplitl [TO]; · iexact TO
  isplitl [DN]; · iexact DN
  isplitl [H8]; · iexact H8
  isplitl [G0 R0 Si0 Ss0]
  · isplitl [G0]; · iapply (gfl_canon_0 d L f2 f3 g4 _ _ (gath_land_0 _ f2 f3 (chunkNo L g4) _ (fun x => list_read_0 f2 (chunkNo L g4) _ (fun _ _ => rfl) x) _ _ (fun _ => rfl)) (fun _ => rfl)); iexact G0
    isplitl [R0]; · iexact R0
    isplitl [Si0]; · iexact Si0
    iexact Ss0
  isplitl [G1 R1 Si1 Ss1]
  · isplitl [G1]; · iapply (gfl_canon_1 d L f2 f3 g5 _ _ (gath_land_1 _ f2 f3 (chunkNo L g5) _ (fun x => list_read_1 f2 (chunkNo L g5) _ (fun _ _ => rfl) x) _ _ (fun _ => rfl)) (fun _ => rfl)); iexact G1
    isplitl [R1]; · iexact R1
    isplitl [Si1]; · iexact Si1
    iexact Ss1
  isplitl [I2 S2 Sg2]
  · isplitl [I2]; · iapply (ifl_canon_2 d L f2 g6 _ _ (it_land_2 _ f2 (chunkNo L g6) _ (fun x => chunk_read f2 (chunkNo L g6) _ _ (off32_eq L t1 g6 e6).symm x)) _ _ (off32_eq L t1 g6 e6)); iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [I3 S3 Sg3]
  · isplitl [I3]; · iapply (ifl_canon_3 d L f2 g7 _ _ (it_land_3 _ f2 (chunkNo L g7) _ (fun x => chunk_read f2 (chunkNo L g7) _ _ (off42_eq L t1 g7 e7).symm x)) _ _ (off42_eq L t1 g7 e7)); iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KI
end
-- ==== Proof.TripLast.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.TripLemmas
/-!
  One trip of the outer loop, the last: no further chunk's indices are copied and no further gather is started.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_last (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : 0 < t1.val) (hl : t1.val = 49)

    (g0 g1 g2 g3  gm1 gm2 : Fin 200) (e0 : g0.val = 4 * t1.val) (e1 : g1.val = 4 * t1.val + 1) (e2 : g2.val = 4 * t1.val + 2) (e3 : g3.val = 4 * t1.val + 3)

    (em1 : gm1.val + 1 = 4 * t1.val) (em2 : gm2.val + 2 = 4 * t1.val) :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))

        ∗ a3tok d L f3 g2 ∗ a3tok d L f3 g3
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ SFl2 d L f2 f3 f4 gm2 ∗ semVal (thr d L, SemLoc.dma cc0_scratch9.sem) 0
        ∗ IFl3 d L f2 g3 ∗ SFl3 d L f2 f3 f4 gm1 ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3 SFl2 SFl3
  iintro ⟨Hmw, TA, TT, TO, DN, T2, T3, O0, O1, O2, O3, H8, G0, R0, Si0, Ss0, G1, R1, Si1, Ss1, I2, S2, Sg2, I3, S3, Sg3, HO⟩
  have hc1 := cond_pos t1 h0
  have hc2 := cond2_neg t1 (by omega)
  have hc4 := cond4_neg t1 (by omega)
  have hc6 := cond6_neg t1 (by omega)
  have hc8 := cond8_neg t1 (by omega)
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_neg (by omega : ¬ t1.val + 1 < 50), if_pos (by omega : 0 < t1.val + 1)]
  rw [eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 4 from by omega]
  ihave DN := (done4' (F := F) (4 * t1.val - 2) gm2 gm1 g0 g1 (by omega) (by omega) (by omega) (by omega) (outpiece d L (outC f2 f3 f4))) $$ [DN S2_dst S3_dst O0 O1]
  · isplitl [DN]; · iexact DN
    isplitl [S2_dst]; · iexact S2_dst
    isplitl [S3_dst]; · iexact S3_dst
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src T2 T3
  isplitl [Hmw]; · iexact Hmw
  isplitl [TA]; · iexact TA
  isplitl [TT]; · iexact TT
  isplitl [TO]; · iexact TO
  isplitl [DN]; · iexact DN
  isplitl [H8]; · iexact H8
  isplitl [H60 H70 Si0 G0 Ss0]
  · isplitl [H60]; · iexists _; iexact H60
    isplitl [H70]; · iexists _; iexact H70
    isplitl [Si0]; · iexact Si0
    isplitl [G0]; · iexact G0
    iexact Ss0
  isplitl [H61 H71 Si1 G1 Ss1]
  · isplitl [H61]; · iexists _; iexact H61
    isplitl [H71]; · iexists _; iexact H71
    isplitl [Si1]; · iexact Si1
    isplitl [G1]; · iexact G1
    iexact Ss1
  isplitl [H62 I2 S2 Sg2]
  · isplitl [H62 I2]
    · isplitl [H62]; · iexists _; iexact H62
      iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [H63 I3 S3 Sg3]
  · isplitl [H63 I3]
    · isplitl [H63]; · iexists _; iexact H63
      iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KI
end
-- ==== Proof.KerTrip.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.KerPay
import proofs.«207534_g35055523070033_cont_8to1_b_222_9_alg».proof.Proof.Geom
import proofs.«207534_g35055523070033_cont_8to1_b_222_9_alg».proof.Proof.TripFirst
import proofs.«207534_g35055523070033_cont_8to1_b_222_9_alg».proof.Proof.TripMid
import proofs.«207534_g35055523070033_cont_8to1_b_222_9_alg».proof.Proof.TripLast
/-!
  A trip of the outer loop keeps the ring's invariant, whichever trip it is: the invariant is opened at the trip's
  number (which transfers are in flight depends on whether it is the first or the last trip), the chunks the trip
  handles are taken out of the families of chunks still to come, and the case's own run is applied.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
/-- One trip of the outer loop keeps the ring's invariant. -/
theorem trip (fo : C5 F) (O : CellTallies nD τ sig (HIx 1)) (W : Waits sig (HIx 1)) (hf2 : ∀ i, (f2 i).toNat < 100000) (v1 : BitVec 32)
    (t1 : Fin k0_t1_loop.trips) (acc : PUnit) :
    Inv d L f2 f3 f4 fo O W t1.val acc
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 acc)
          (Inv d L f2 f3 f4 fo O W (t1.val + 1)) := by
  have ht : t1.val < 50 := lt_of_lt_of_le t1.isLt k0_t1_abs.2.1
  cases acc
  have eq0 : gF (4 * t1.val + 0) = (⟨4 * t1.val, by omega⟩ : Fin 200) := Fin.ext (by rw [gF_val (by omega)]; simp)
  have eq1 : gF (4 * t1.val + 1) = (⟨4 * t1.val + 1, by omega⟩ : Fin 200) := Fin.ext (by rw [gF_val (by omega)])
  have eq2 : gF (4 * t1.val + 2) = (⟨4 * t1.val + 2, by omega⟩ : Fin 200) := Fin.ext (by rw [gF_val (by omega)])
  have eq3 : gF (4 * t1.val + 3) = (⟨4 * t1.val + 3, by omega⟩ : Fin 200) := Fin.ext (by rw [gF_val (by omega)])
  unfold Inv slotA0 slotA1 slotB2 slotB3
  simp only [if_pos ht, eq0, eq1, eq2, eq3]
  by_cases h0 : t1.val = 0
  · -- the first trip
    have hl : t1.val < 49 := by omega
    simp only [if_neg (by omega : ¬ 0 < t1.val)]
    iintro ⟨Hmw, TA, TT, TO, DN, H8, ⟨G0, R0, Si0, Ss0⟩, ⟨G1, R1, Si1, Ss1⟩, ⟨I2, ⟨⟨%X2, S2s⟩, Ss2⟩, Sg2⟩, ⟨I3, ⟨⟨%X3, S3s⟩, Ss3⟩, Sg3⟩, %W', %hW', HO⟩
    ihave TA := (todo4 (F := F) (4 * t1.val + 4) (by omega) _) $$ TA
    icases TA with ⟨A4, A5, A6, A7, TA⟩
    ihave TT := (todo4 (F := F) (4 * t1.val + 2) (by omega) _) $$ TT
    icases TT with ⟨T2, T3, T4, T5, TT⟩
    ihave TO := (todo4 (F := F) (4 * t1.val) (by omega) _) $$ TO
    icases TO with ⟨O0, O1, O2, O3, TO⟩
    iapply (trip_first d L f2 f3 f4 fo O W W' hW' v1 hf2 t1 h0 hl X2 X3 (⟨4 * t1.val, by omega⟩ : Fin 200) (⟨4 * t1.val + 1, by omega⟩ : Fin 200) (⟨4 * t1.val + 2, by omega⟩ : Fin 200) (⟨4 * t1.val + 3, by omega⟩ : Fin 200) (⟨4 * t1.val + 4, by omega⟩ : Fin 200) (⟨4 * t1.val + 5, by omega⟩ : Fin 200) (⟨4 * t1.val + 6, by omega⟩ : Fin 200) (⟨4 * t1.val + 7, by omega⟩ : Fin 200) rfl rfl rfl rfl rfl rfl rfl rfl)
    isplitl [Hmw]; · iexact Hmw
    isplitl [TA]; · iexact TA
    isplitl [TT]; · iexact TT
    isplitl [TO]; · iexact TO
    isplitl [DN]; · iexact DN
    isplitl [A4]; · iexact A4
    isplitl [A5]; · iexact A5
    isplitl [A6]; · iexact A6
    isplitl [A7]; · iexact A7
    isplitl [T2]; · iexact T2
    isplitl [T3]; · iexact T3
    isplitl [T4]; · iexact T4
    isplitl [T5]; · iexact T5
    isplitl [O0]; · iexact O0
    isplitl [O1]; · iexact O1
    isplitl [O2]; · iexact O2
    isplitl [O3]; · iexact O3
    isplitl [H8]; · iexact H8
    isplitl [G0]; · iexact G0
    isplitl [R0]; · iexact R0
    isplitl [Si0]; · iexact Si0
    isplitl [Ss0]; · iexact Ss0
    isplitl [G1]; · iexact G1
    isplitl [R1]; · iexact R1
    isplitl [Si1]; · iexact Si1
    isplitl [Ss1]; · iexact Ss1
    isplitl [I2]; · iexact I2
    isplitl [S2s Ss2]
    · isplitl [S2s]; · iexact S2s
      iexact Ss2
    isplitl [Sg2]; · iexact Sg2
    isplitl [I3]; · iexact I3
    isplitl [S3s Ss3]
    · isplitl [S3s]; · iexact S3s
      iexact Ss3
    isplitl [Sg3]; · iexact Sg3
    iexact HO
  · have h0' : 0 < t1.val := Nat.pos_of_ne_zero h0
    have em2 : gF (4 * t1.val - 4 + 2) = (⟨4 * t1.val - 2, by omega⟩ : Fin 200) := Fin.ext (by rw [gF_val (by omega)]; show 4 * t1.val - 4 + 2 = 4 * t1.val - 2; omega)
    have em1 : gF (4 * t1.val - 4 + 3) = (⟨4 * t1.val - 1, by omega⟩ : Fin 200) := Fin.ext (by rw [gF_val (by omega)]; show 4 * t1.val - 4 + 3 = 4 * t1.val - 1; omega)
    simp only [if_pos h0', em2, em1]
    iintro ⟨Hmw, TA, TT, TO, DN, H8, ⟨G0, R0, Si0, Ss0⟩, ⟨G1, R1, Si1, Ss1⟩, ⟨I2, S2, Sg2⟩, ⟨I3, S3, Sg3⟩, %W', %hW', HO⟩
    ihave TO := (todo4 (F := F) (4 * t1.val) (by omega) _) $$ TO
    icases TO with ⟨O0, O1, O2, O3, TO⟩
    by_cases hl : t1.val < 49
    · -- a middle trip
      ihave TA := (todo4 (F := F) (4 * t1.val + 4) (by omega) _) $$ TA
      icases TA with ⟨A4, A5, A6, A7, TA⟩
      ihave TT := (todo4 (F := F) (4 * t1.val + 2) (by omega) _) $$ TT
      icases TT with ⟨T2, T3, T4, T5, TT⟩
      iapply (trip_mid d L f2 f3 f4 fo O W W' hW' v1 hf2 t1 h0' hl (⟨4 * t1.val, by omega⟩ : Fin 200) (⟨4 * t1.val + 1, by omega⟩ : Fin 200) (⟨4 * t1.val + 2, by omega⟩ : Fin 200) (⟨4 * t1.val + 3, by omega⟩ : Fin 200) (⟨4 * t1.val + 4, by omega⟩ : Fin 200) (⟨4 * t1.val + 5, by omega⟩ : Fin 200) (⟨4 * t1.val + 6, by omega⟩ : Fin 200) (⟨4 * t1.val + 7, by omega⟩ : Fin 200) (⟨4 * t1.val - 1, by omega⟩ : Fin 200) (⟨4 * t1.val - 2, by omega⟩ : Fin 200) rfl rfl rfl rfl rfl rfl rfl rfl (by show 4 * t1.val - 1 + 1 = 4 * t1.val; omega) (by show 4 * t1.val - 2 + 2 = 4 * t1.val; omega))
      isplitl [Hmw]; · iexact Hmw
      isplitl [TA]; · iexact TA
      isplitl [TT]; · iexact TT
      isplitl [TO]; · iexact TO
      isplitl [DN]; · iexact DN
      isplitl [A4]; · iexact A4
      isplitl [A5]; · iexact A5
      isplitl [A6]; · iexact A6
      isplitl [A7]; · iexact A7
      isplitl [T2]; · iexact T2
      isplitl [T3]; · iexact T3
      isplitl [T4]; · iexact T4
      isplitl [T5]; · iexact T5
      isplitl [O0]; · iexact O0
      isplitl [O1]; · iexact O1
      isplitl [O2]; · iexact O2
      isplitl [O3]; · iexact O3
      isplitl [H8]; · iexact H8
      isplitl [G0]; · iexact G0
      isplitl [R0]; · iexact R0
      isplitl [Si0]; · iexact Si0
      isplitl [Ss0]; · iexact Ss0
      isplitl [G1]; · iexact G1
      isplitl [R1]; · iexact R1
      isplitl [Si1]; · iexact Si1
      isplitl [Ss1]; · iexact Ss1
      isplitl [I2]; · iexact I2
      isplitl [S2]; · iexact S2
      isplitl [Sg2]; · iexact Sg2
      isplitl [I3]; · iexact I3
      isplitl [S3]; · iexact S3
      isplitl [Sg3]; · iexact Sg3
      iexact HO
    · -- the last trip
      have hl' : t1.val = 49 := by omega
      ihave TT := (Entails.of_eq (todo_take (F := F) (4 * t1.val + 2) (by omega) _)) $$ TT
      icases TT with ⟨T2, TT⟩
      ihave TT := (Entails.of_eq (todo_take (F := F) (4 * t1.val + 2 + 1) (by omega) _)) $$ TT
      icases TT with ⟨T3, TT⟩
      ihave TT := (Entails.of_eq (todo_big (F := F) (4 * t1.val + 2 + 1 + 1) (4 * t1.val + 6) (by omega) (by omega) _)) $$ TT
      ihave TA := (Entails.of_eq (todo_big (F := F) (4 * t1.val + 4) (4 * t1.val + 8) (by omega) (by omega) _)) $$ TA
      iapply (trip_last d L f2 f3 f4 fo O W W' hW' v1 hf2 t1 h0' hl' (⟨4 * t1.val, by omega⟩ : Fin 200) (⟨4 * t1.val + 1, by omega⟩ : Fin 200) (⟨4 * t1.val + 2, by omega⟩ : Fin 200) (⟨4 * t1.val + 3, by omega⟩ : Fin 200) (⟨4 * t1.val - 1, by omega⟩ : Fin 200) (⟨4 * t1.val - 2, by omega⟩ : Fin 200) rfl rfl rfl rfl (by show 4 * t1.val - 1 + 1 = 4 * t1.val; omega) (by show 4 * t1.val - 2 + 2 = 4 * t1.val; omega))
      isplitl [Hmw]; · iexact Hmw
      isplitl [TA]; · iexact TA
      isplitl [TT]; · iexact TT
      isplitl [TO]; · iexact TO
      isplitl [DN]; · iexact DN
      isplitl [T2]; · iexact T2
      isplitl [T3]; · iexact T3
      isplitl [O0]; · iexact O0
      isplitl [O1]; · iexact O1
      isplitl [O2]; · iexact O2
      isplitl [O3]; · iexact O3
      isplitl [H8]; · iexact H8
      isplitl [G0]; · iexact G0
      isplitl [R0]; · iexact R0
      isplitl [Si0]; · iexact Si0
      isplitl [Ss0]; · iexact Ss0
      isplitl [G1]; · iexact G1
      isplitl [R1]; · iexact R1
      isplitl [Si1]; · iexact Si1
      isplitl [Ss1]; · iexact Ss1
      isplitl [I2]; · iexact I2
      isplitl [S2]; · iexact S2
      isplitl [Sg2]; · iexact Sg2
      isplitl [I3]; · iexact I3
      isplitl [S3]; · iexact S3
      isplitl [Sg3]; · iexact Sg3
      iexact HO

end Cert.Proof.KI
end
-- ==== Proof.Inner0B.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.InnerStepB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps0" k:ident hk:ident g6:ident g8:ident X0:ident hX:ident : tactic => do
  for n in [0:128] do
    let m := 127 - n
    let kk := m / 8
    let dd := m % 8
    let offEq := mkIdent (Name.mkSimple s!"k0_off{2 + 1 + dd}_eq")
    let off6Eq := mkIdent (Name.mkSimple "k0_off2_eq")
    let off6Inb := mkIdent (Name.mkSimple "k0_off2_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (0 : Fin 4) $g6 $g8 $X0 _ ⟨($k).val, $hk⟩ ⟨$kkL, by first | done | decide⟩ ⟨$ddL, by first | done | decide⟩ ?_ (k0_off2 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 0: the slot's words and the type rows as they were, the row buffer's slot with its
    first 16 k rows handled. -/
def innerInv0 (g6 : C6 F) (g8 : C8 F) (X0 : C7 F) (k : ℕ) (_ : PUnit) : sProp 𝕄 :=
  iprop(((s60).view.loc (thr d L) ↦[(s60).view.set]{fullShare} g6) ∗ ((a8).view.loc (thr d L) ↦{fullShare} g8)
    ∗ ∃ X : C7 F, ((s70).view.loc (thr d L) ↦[(s70).view.set]{fullShare} X) ∗ ⌜Mix (0 : Fin 4) (128 * k) g6 g8 X0 X⌝)

set_option maxRecDepth 100000 in
set_option maxHeartbeats 4000000 in
/-- One trip of the inner loop on slot 0: sixteen rows, eight stores each. -/
theorem compute_region_0 (g6 : C6 F) (g8 : C8 F) (X0 : C7 F) (v1 v82 v84 : BitVec 32) (t1 : Fin k0_t1_loop.trips)
    (k : Fin k0_t2_loop.trips) (acc : PUnit) :
    innerInv0 (F := F) d L g6 g8 X0 k.val acc
      ⊢ wp frame (wpE (defs₀ (F := F)) 𝒱₀ (thr d L) none) Set.univ
          (k0_t2_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 v84 k acc)
          (innerInv0 (F := F) d L g6 g8 X0 (k.val + 1)) := by
  have hk : k.val < 8 := lt_of_lt_of_le k.isLt k0_t2_abs.2.1
  have hsub6 := sub6_0
  have hsub7 := sub7_0
  have hst7 := st7_0
  unfold innerInv0 k0_t2_body
  iintro ⟨H6, H8, %X, H7, %hX⟩
  sl_exec_parts
  sl_step
  isplitl [H6]; · iexact H6
  isplitl [H8]; · iexact H8
  iexists _; isplitl [H7]; · iexact H7
  ipureintro
  mix_steps0 k hk g6 g8 X0 hX

end Cert.Proof.KB
end
-- ==== Proof.Inner1B.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.InnerStepB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps1" k:ident hk:ident g6:ident g8:ident X0:ident hX:ident : tactic => do
  for n in [0:128] do
    let m := 127 - n
    let kk := m / 8
    let dd := m % 8
    let offEq := mkIdent (Name.mkSimple s!"k0_off{13 + 1 + dd}_eq")
    let off6Eq := mkIdent (Name.mkSimple "k0_off13_eq")
    let off6Inb := mkIdent (Name.mkSimple "k0_off13_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (1 : Fin 4) $g6 $g8 $X0 _ ⟨($k).val, $hk⟩ ⟨$kkL, by first | done | decide⟩ ⟨$ddL, by first | done | decide⟩ ?_ (k0_off13 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 1: the slot's words and the type rows as they were, the row buffer's slot with its
    first 16 k rows handled. -/
def innerInv1 (g6 : C6 F) (g8 : C8 F) (X0 : C7 F) (k : ℕ) (_ : PUnit) : sProp 𝕄 :=
  iprop(((s61).view.loc (thr d L) ↦[(s61).view.set]{fullShare} g6) ∗ ((a8).view.loc (thr d L) ↦{fullShare} g8)
    ∗ ∃ X : C7 F, ((s71).view.loc (thr d L) ↦[(s71).view.set]{fullShare} X) ∗ ⌜Mix (1 : Fin 4) (128 * k) g6 g8 X0 X⌝)

set_option maxRecDepth 100000 in
set_option maxHeartbeats 4000000 in
/-- One trip of the inner loop on slot 1: sixteen rows, eight stores each. -/
theorem compute_region_1 (g6 : C6 F) (g8 : C8 F) (X0 : C7 F) (v1 v82 v120 : BitVec 32) (t1 : Fin k0_t1_loop.trips)
    (k : Fin k0_t3_loop.trips) (acc : PUnit) :
    innerInv1 (F := F) d L g6 g8 X0 k.val acc
      ⊢ wp frame (wpE (defs₀ (F := F)) 𝒱₀ (thr d L) none) Set.univ
          (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 v120 k acc)
          (innerInv1 (F := F) d L g6 g8 X0 (k.val + 1)) := by
  have hk : k.val < 8 := lt_of_lt_of_le k.isLt k0_t3_abs.2.1
  have hsub6 := sub6_1
  have hsub7 := sub7_1
  have hst7 := st7_1
  unfold innerInv1 k0_t3_body
  iintro ⟨H6, H8, %X, H7, %hX⟩
  sl_exec_parts
  sl_step
  isplitl [H6]; · iexact H6
  isplitl [H8]; · iexact H8
  iexists _; isplitl [H7]; · iexact H7
  ipureintro
  mix_steps1 k hk g6 g8 X0 hX

end Cert.Proof.KB
end
-- ==== Proof.Inner2B.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.InnerStepB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps2" k:ident hk:ident g6:ident g8:ident X0:ident hX:ident : tactic => do
  for n in [0:128] do
    let m := 127 - n
    let kk := m / 8
    let dd := m % 8
    let offEq := mkIdent (Name.mkSimple s!"k0_off{23 + 1 + dd}_eq")
    let off6Eq := mkIdent (Name.mkSimple "k0_off23_eq")
    let off6Inb := mkIdent (Name.mkSimple "k0_off23_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (2 : Fin 4) $g6 $g8 $X0 _ ⟨($k).val, $hk⟩ ⟨$kkL, by first | done | decide⟩ ⟨$ddL, by first | done | decide⟩ ?_ (k0_off23 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 2: the slot's words and the type rows as they were, the row buffer's slot with its
    first 16 k rows handled. -/
def innerInv2 (g6 : C6 F) (g8 : C8 F) (X0 : C7 F) (k : ℕ) (_ : PUnit) : sProp 𝕄 :=
  iprop(((s62).view.loc (thr d L) ↦[(s62).view.set]{fullShare} g6) ∗ ((a8).view.loc (thr d L) ↦{fullShare} g8)
    ∗ ∃ X : C7 F, ((s72).view.loc (thr d L) ↦[(s72).view.set]{fullShare} X) ∗ ⌜Mix (2 : Fin 4) (128 * k) g6 g8 X0 X⌝)

set_option maxRecDepth 100000 in
set_option maxHeartbeats 4000000 in
/-- One trip of the inner loop on slot 2: sixteen rows, eight stores each. -/
theorem compute_region_2 (g6 : C6 F) (g8 : C8 F) (X0 : C7 F) (v1 v82 : BitVec 32) (t1 : Fin k0_t1_loop.trips)
    (k : Fin k0_t4_loop.trips) (acc : PUnit) :
    innerInv2 (F := F) d L g6 g8 X0 k.val acc
      ⊢ wp frame (wpE (defs₀ (F := F)) 𝒱₀ (thr d L) none) Set.univ
          (k0_t4_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 v82 k acc)
          (innerInv2 (F := F) d L g6 g8 X0 (k.val + 1)) := by
  have hk : k.val < 8 := lt_of_lt_of_le k.isLt k0_t4_abs.2.1
  have hsub6 := sub6_2
  have hsub7 := sub7_2
  have hst7 := st7_2
  unfold innerInv2 k0_t4_body
  iintro ⟨H6, H8, %X, H7, %hX⟩
  sl_exec_parts
  sl_step
  isplitl [H6]; · iexact H6
  isplitl [H8]; · iexact H8
  iexists _; isplitl [H7]; · iexact H7
  ipureintro
  mix_steps2 k hk g6 g8 X0 hX

end Cert.Proof.KB
end
-- ==== Proof.Inner3B.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.InnerStepB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Lean Elab Tactic in
/-- Peels the 128 stores of one trip off the row buffer's contents, newest first: each is one application of the
    store lemma, at row 16 k + kk and column group dd for store number 8 kk + dd. -/
elab "mix_steps3" k:ident hk:ident g6:ident g8:ident X0:ident hX:ident : tactic => do
  for n in [0:128] do
    let m := 127 - n
    let kk := m / 8
    let dd := m % 8
    let offEq := mkIdent (Name.mkSimple s!"k0_off{33 + 1 + dd}_eq")
    let off6Eq := mkIdent (Name.mkSimple "k0_off33_eq")
    let off6Inb := mkIdent (Name.mkSimple "k0_off33_inb")
    let hs := mkIdent (Name.mkSimple s!"slices_S16_o{kk}_S1")
    let h0 := mkIdent (Name.mkSimple s!"inb_S2x128_S1x16_0_{16 * dd}")
    let h1 := mkIdent (Name.mkSimple s!"inb_S2x128_S1x16_1_{16 * dd}")
    let kkL := Syntax.mkNumLit (toString kk)
    let ddL := Syntax.mkNumLit (toString dd)
    let cL := Syntax.mkNumLit (toString (16 * dd))
    evalTactic (← `(tactic| refine mix_cast _ _ _ _ _ (by first | done | rfl | omega | (simp only [Fin.val_mk]; omega))
      (mix_step (3 : Fin 4) $g6 $g8 $X0 _ ⟨($k).val, $hk⟩ ⟨$kkL, by first | done | decide⟩ ⟨$ddL, by first | done | decide⟩ ?_ (k0_off33 $k) ($off6Inb $k) $hs $cL $h0 $h1 _ _
        ($off6Eq $k) rfl ($offEq $k ⟨$kkL, by first | done | decide⟩) _ rfl)))
  evalTactic (← `(tactic| exact mix_cast _ _ _ _ _ (by first | done | rfl | omega | (simp only [Fin.val_mk]; omega)) $hX))

variable [FloatOps F] (d : Dev nD) (L : grid0.Coords)

/-- The inner loop's invariant on slot 3: the slot's words and the type rows as they were, the row buffer's slot with its
    first 16 k rows handled. -/
def innerInv3 (g6 : C6 F) (g8 : C8 F) (X0 : C7 F) (k : ℕ) (_ : PUnit) : sProp 𝕄 :=
  iprop(((s63).view.loc (thr d L) ↦[(s63).view.set]{fullShare} g6) ∗ ((a8).view.loc (thr d L) ↦{fullShare} g8)
    ∗ ∃ X : C7 F, ((s73).view.loc (thr d L) ↦[(s73).view.set]{fullShare} X) ∗ ⌜Mix (3 : Fin 4) (128 * k) g6 g8 X0 X⌝)

set_option maxRecDepth 100000 in
set_option maxHeartbeats 4000000 in
/-- One trip of the inner loop on slot 3: sixteen rows, eight stores each. -/
theorem compute_region_3 (g6 : C6 F) (g8 : C8 F) (X0 : C7 F) (v82 : BitVec 32) (t1 : Fin k0_t1_loop.trips)
    (k : Fin k0_t5_loop.trips) (acc : PUnit) :
    innerInv3 (F := F) d L g6 g8 X0 k.val acc
      ⊢ wp frame (wpE (defs₀ (F := F)) 𝒱₀ (thr d L) none) Set.univ
          (k0_t5_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 t1 v82 k acc)
          (innerInv3 (F := F) d L g6 g8 X0 (k.val + 1)) := by
  have hk : k.val < 8 := lt_of_lt_of_le k.isLt k0_t5_abs.2.1
  have hsub6 := sub6_3
  have hsub7 := sub7_3
  have hst7 := st7_3
  unfold innerInv3 k0_t5_body
  iintro ⟨H6, H8, %X, H7, %hX⟩
  sl_exec_parts
  sl_step
  isplitl [H6]; · iexact H6
  isplitl [H8]; · iexact H8
  iexists _; isplitl [H7]; · iexact H7
  ipureintro
  mix_steps3 k hk g6 g8 X0 hX

end Cert.Proof.KB
end
-- ==== Proof.TripLemmasB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.KerInvB
import proofs.«207534_g35055523070033_cont_8to1_b_222_9_alg».proof.Proof.CanonizeB
import proofs.«207534_g35055523070033_cont_8to1_b_222_9_alg».proof.Proof.Inner0B
import proofs.«207534_g35055523070033_cont_8to1_b_222_9_alg».proof.Proof.Inner1B
import proofs.«207534_g35055523070033_cont_8to1_b_222_9_alg».proof.Proof.Inner2B
import proofs.«207534_g35055523070033_cont_8to1_b_222_9_alg».proof.Proof.Inner3B
/-!
  Small facts the outer loop's trips share: a slot of the word buffer is its index list and the rest; the words of a
  landed index list are in range of the table; the trip's conditions decided by the trip's number; chunks added to the
  family of chunks done.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

theorem cond_pos : ∀ t1 : Fin k0_t1_loop.trips, 0 < t1.val →
    Scalar.cmpi .ne (Scalar.extui (Scalar.cmpi .sgt (Scalar.addi 0#32 (Scalar.muli (Scf.iv 0#32 1#32 t1) 1#32)) 0#32)) 0#32 = 1#1 := by decide +kernel

omit [FloatOps F] in
/-- Slot 0 of the word buffer is its index list (row 0) and the rest (row 1). -/
theorem split6_0 (g : C6 F) :
    (((s60).view.loc (thr d L) ↦[(s60).view.set]{fullShare} g : sProp 𝕄))
      ⊣⊢ iprop(((l60).view.loc (thr d L) ↦[(l60).view.set]{fullShare} g) ∗ ((s60).view.loc (thr d L) ↦[(s60).view.set \ (l60).view.set]{fullShare} g)) :=
  pointsTo_split_subset l60_sub

/-- The words a landed chunk's index list holds are in range of the table when every word of the stacked array is. -/
theorem hin_0 (hf2 : ∀ i, (f2 i).toNat < 100000) (c : Fin 6400) :
    ∀ x, (View.read (Elt F) (l60).view (itvC f2 c) x).toNat < S100000x128.size gathers_S100000x128_S128x128.axis := by
  intro x; rw [list_read_0 f2 c (itvC f2 c) (fun _ _ => rfl) x]; exact hf2 _

omit [FloatOps F] in
/-- Slot 1 of the word buffer is its index list (row 0) and the rest (row 1). -/
theorem split6_1 (g : C6 F) :
    (((s61).view.loc (thr d L) ↦[(s61).view.set]{fullShare} g : sProp 𝕄))
      ⊣⊢ iprop(((l61).view.loc (thr d L) ↦[(l61).view.set]{fullShare} g) ∗ ((s61).view.loc (thr d L) ↦[(s61).view.set \ (l61).view.set]{fullShare} g)) :=
  pointsTo_split_subset l61_sub

/-- The words a landed chunk's index list holds are in range of the table when every word of the stacked array is. -/
theorem hin_1 (hf2 : ∀ i, (f2 i).toNat < 100000) (c : Fin 6400) :
    ∀ x, (View.read (Elt F) (l61).view (itvC f2 c) x).toNat < S100000x128.size gathers_S100000x128_S128x128.axis := by
  intro x; rw [list_read_1 f2 c (itvC f2 c) (fun _ _ => rfl) x]; exact hf2 _

omit [FloatOps F] in
/-- Slot 2 of the word buffer is its index list (row 0) and the rest (row 1). -/
theorem split6_2 (g : C6 F) :
    (((s62).view.loc (thr d L) ↦[(s62).view.set]{fullShare} g : sProp 𝕄))
      ⊣⊢ iprop(((l62).view.loc (thr d L) ↦[(l62).view.set]{fullShare} g) ∗ ((s62).view.loc (thr d L) ↦[(s62).view.set \ (l62).view.set]{fullShare} g)) :=
  pointsTo_split_subset l62_sub

/-- The words a landed chunk's index list holds are in range of the table when every word of the stacked array is. -/
theorem hin_2 (hf2 : ∀ i, (f2 i).toNat < 100000) (c : Fin 6400) :
    ∀ x, (View.read (Elt F) (l62).view (itvC f2 c) x).toNat < S100000x128.size gathers_S100000x128_S128x128.axis := by
  intro x; rw [list_read_2 f2 c (itvC f2 c) (fun _ _ => rfl) x]; exact hf2 _

omit [FloatOps F] in
/-- Slot 3 of the word buffer is its index list (row 0) and the rest (row 1). -/
theorem split6_3 (g : C6 F) :
    (((s63).view.loc (thr d L) ↦[(s63).view.set]{fullShare} g : sProp 𝕄))
      ⊣⊢ iprop(((l63).view.loc (thr d L) ↦[(l63).view.set]{fullShare} g) ∗ ((s63).view.loc (thr d L) ↦[(s63).view.set \ (l63).view.set]{fullShare} g)) :=
  pointsTo_split_subset l63_sub

/-- The words a landed chunk's index list holds are in range of the table when every word of the stacked array is. -/
theorem hin_3 (hf2 : ∀ i, (f2 i).toNat < 100000) (c : Fin 6400) :
    ∀ x, (View.read (Elt F) (l63).view (itvC f2 c) x).toNat < S100000x128.size gathers_S100000x128_S128x128.axis := by
  intro x; rw [list_read_3 f2 c (itvC f2 c) (fun _ _ => rfl) x]; exact hf2 _

omit [FloatOps F] in
/-- Four more chunks done. -/
theorem done4' (n : ℕ) (a b c e : Fin 200) (ha : a.val = n) (hb : b.val = n + 1) (hc : c.val = n + 2) (he : e.val = n + 3) (Φ : Fin 200 → sProp 𝕄) :
    iprop(done (F := F) n Φ ∗ Φ a ∗ Φ b ∗ Φ c ∗ Φ e) ⊢ done (F := F) (n + 4) Φ := by
  have hn : n + 3 < 200 := by have := e.isLt; omega
  have ea : a = ⟨n, Nat.lt_of_le_of_lt (Nat.le_add_right n 3) hn⟩ := Fin.ext ha
  have eb : b = ⟨n + 1, Nat.lt_of_le_of_lt (Nat.add_le_add_left (by decide : 1 ≤ 3) n) hn⟩ := Fin.ext hb
  have ec : c = ⟨n + 2, Nat.lt_of_le_of_lt (Nat.add_le_add_left (by decide : 2 ≤ 3) n) hn⟩ := Fin.ext hc
  have ee : e = ⟨n + 3, hn⟩ := Fin.ext he
  rw [ea, eb, ec, ee, done_put (F := F) (n + 3) (by omega), done_put (F := F) (n + 2) (by omega), done_put (F := F) (n + 1) (by omega), done_put (F := F) n (by omega)]
  iintro ⟨HD, Ha, Hb, Hc, He⟩
  isplitl [He]; · iexact He
  isplitl [Hc]; · iexact Hc
  isplitl [Hb]; · iexact Hb
  isplitl [Ha]; · iexact Ha
  iexact HD

theorem cond_neg : ∀ t1 : Fin k0_t1_loop.trips, t1.val = 0 →
    ¬ Scalar.cmpi .ne (Scalar.extui (Scalar.cmpi .sgt (Scalar.addi 0#32 (Scalar.muli (Scf.iv 0#32 1#32 t1) 1#32)) 0#32)) 0#32 = 1#1 := by decide +kernel

omit [FloatOps F] in
/-- Two more chunks done. -/
theorem done2' (n : ℕ) (a b : Fin 200) (ha : a.val = n) (hb : b.val = n + 1) (Φ : Fin 200 → sProp 𝕄) :
    iprop(done (F := F) n Φ ∗ Φ a ∗ Φ b) ⊢ done (F := F) (n + 2) Φ := by
  have hn : n + 1 < 200 := by have := b.isLt; omega
  have ea : a = ⟨n, Nat.lt_of_le_of_lt (Nat.le_add_right n 1) hn⟩ := Fin.ext ha
  have eb : b = ⟨n + 1, hn⟩ := Fin.ext hb
  rw [ea, eb, done_put (F := F) (n + 1) (by omega), done_put (F := F) n (by omega)]
  iintro ⟨HD, Ha, Hb⟩
  isplitl [Hb]; · iexact Hb
  isplitl [Ha]; · iexact Ha
  iexact HD

omit [FloatOps F] in
/-- Past the last chunk nothing is left to come. -/
theorem todo_big (n m : ℕ) (hn : 200 ≤ n) (hm : 200 ≤ m) (Φ : Fin 200 → sProp 𝕄) : todo (F := F) n Φ = todo (F := F) m Φ := by
  unfold todo; congr 1; ext g; have := g.isLt
  simp only [Finset.mem_filter, Finset.mem_univ, true_and]; omega

end Cert.Proof.KB
end
-- ==== Proof.TripFirstB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.TripLemmasB
/-!
  One trip of the outer loop, the first: no write-back is in flight yet, so slots 2 and 3 of the row buffer are free.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_first (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : t1.val = 0) (hl : t1.val < 49)
    (X2 X3 : C7 F)
    (g0 g1 g2 g3 g4 g5 g6 g7  : Fin 200) (e0 : g0.val = 4 * t1.val) (e1 : g1.val = 4 * t1.val + 1) (e2 : g2.val = 4 * t1.val + 2) (e3 : g3.val = 4 * t1.val + 3)
    (e4 : g4.val = 4 * t1.val + 4) (e5 : g5.val = 4 * t1.val + 5) (e6 : g6.val = 4 * t1.val + 6) (e7 : g7.val = 4 * t1.val + 7)
     :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))
        ∗ a2piece d L f2 g4 ∗ a2piece d L f2 g5 ∗ a2piece d L f2 g6 ∗ a2piece d L f2 g7
        ∗ a3tok d L f3 g2 ∗ a3tok d L f3 g3 ∗ a3tok d L f3 g4 ∗ a3tok d L f3 g5
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ (((s72).view.loc (thr d L) ↦[(s72).view.set]{fullShare} X2) ∗ semVal (thr d L, SemLoc.dma cc0_scratch13.sem) 0) ∗ semVal (thr d L, SemLoc.dma cc0_scratch9.sem) 0
        ∗ IFl3 d L f2 g3 ∗ (((s73).view.loc (thr d L) ↦[(s73).view.set]{fullShare} X3) ∗ semVal (thr d L, SemLoc.dma cc0_scratch14.sem) 0) ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3
  iintro ⟨Hmw, TA, TT, TO, DN, A4, A5, A6, A7, T2, T3, T4, T5, O0, O1, O2, O3, H8, G0, R0, Si0, Ss0, G1, R1, Si1, Ss1, I2, ⟨S2_src, S2⟩, Sg2, I3, ⟨S3_src, S3⟩, Sg3, HO⟩
  have hc1 := cond_neg t1 h0
  have hc2 := cond2_pos t1 hl
  have hc4 := cond4_pos t1 hl
  have hc6 := cond6_pos t1 hl
  have hc8 := cond8_pos t1 hl
  ihave A4 := (Entails.of_eq (a2piece_prog (F := F) d L f2 g4 _ (k0_off11_inb L t1 hc2) (off11_eq L t1 g4 e4))) $$ A4
  ihave A5 := (Entails.of_eq (a2piece_prog (F := F) d L f2 g5 _ (k0_off22_inb L t1 hc4) (off22_eq L t1 g5 e5))) $$ A5
  ihave A6 := (Entails.of_eq (a2piece_prog (F := F) d L f2 g6 _ (k0_off32_inb L t1 hc6) (off32_eq L t1 g6 e6))) $$ A6
  ihave A7 := (Entails.of_eq (a2piece_prog (F := F) d L f2 g7 _ (k0_off42_inb L t1 hc8) (off42_eq L t1 g7 e7))) $$ A7
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H60 := (Entails.of_eq (pointsTo_congr (it_land_0 _ f2 (chunkNo L g4) _ (fun x => chunk_read f2 (chunkNo L g4) _ _ (off11_eq L t1 g4 e4).symm x)))) $$ H60
  ihave Hsp := ((split6_0 (F := F) d L _).1) $$ H60
  icases Hsp with ⟨L0, R0⟩
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H61 := (Entails.of_eq (pointsTo_congr (it_land_1 _ f2 (chunkNo L g5) _ (fun x => chunk_read f2 (chunkNo L g5) _ _ (off22_eq L t1 g5 e5).symm x)))) $$ H61
  ihave Hsp := ((split6_1 (F := F) d L _).1) $$ H61
  icases Hsp with ⟨L1, R1⟩
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg4 : gF (4 * (t1.val + 1) + 0) = g4 := Fin.ext (by rw [gF_val (by omega)]; omega)
  have eg5 : gF (4 * (t1.val + 1) + 1) = g5 := Fin.ext (by rw [gF_val (by omega)]; omega)
  have eg6 : gF (4 * (t1.val + 1) + 2) = g6 := Fin.ext (by rw [gF_val (by omega)]; omega)
  have eg7 : gF (4 * (t1.val + 1) + 3) = g7 := Fin.ext (by rw [gF_val (by omega)]; omega)
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_pos (by omega : t1.val + 1 < 50), if_pos (by omega : 0 < t1.val + 1)]
  rw [eg4, eg5, eg6, eg7, eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 2 from by omega]
  ihave DN := (done2' (F := F) (4 * t1.val - 2) g0 g1 (by omega) (by omega) (outpiece d L (outC f2 f3 f4))) $$ [DN O0 O1]
  · isplitl [DN]; · iexact DN
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src A4 A5 T4 T5 T2 T3
  isplitl [Hmw]; · iexact Hmw
  isplitl [TA]; · iexact TA
  isplitl [TT]; · iexact TT
  isplitl [TO]; · iexact TO
  isplitl [DN]; · iexact DN
  isplitl [H8]; · iexact H8
  isplitl [G0 R0 Si0 Ss0]
  · isplitl [G0]; · iapply (gfl_canon_0 d L f2 f3 g4 _ _ (gath_land_0 _ f2 f3 (chunkNo L g4) _ (fun x => list_read_0 f2 (chunkNo L g4) _ (fun _ _ => rfl) x) _ _ (fun _ => rfl)) (fun _ => rfl)); iexact G0
    isplitl [R0]; · iexact R0
    isplitl [Si0]; · iexact Si0
    iexact Ss0
  isplitl [G1 R1 Si1 Ss1]
  · isplitl [G1]; · iapply (gfl_canon_1 d L f2 f3 g5 _ _ (gath_land_1 _ f2 f3 (chunkNo L g5) _ (fun x => list_read_1 f2 (chunkNo L g5) _ (fun _ _ => rfl) x) _ _ (fun _ => rfl)) (fun _ => rfl)); iexact G1
    isplitl [R1]; · iexact R1
    isplitl [Si1]; · iexact Si1
    iexact Ss1
  isplitl [I2 S2 Sg2]
  · isplitl [I2]; · iapply (ifl_canon_2 d L f2 g6 _ _ (it_land_2 _ f2 (chunkNo L g6) _ (fun x => chunk_read f2 (chunkNo L g6) _ _ (off32_eq L t1 g6 e6).symm x)) _ _ (off32_eq L t1 g6 e6)); iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [I3 S3 Sg3]
  · isplitl [I3]; · iapply (ifl_canon_3 d L f2 g7 _ _ (it_land_3 _ f2 (chunkNo L g7) _ (fun x => chunk_read f2 (chunkNo L g7) _ _ (off42_eq L t1 g7 e7).symm x)) _ _ (off42_eq L t1 g7 e7)); iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KB
end
-- ==== Proof.TripMidB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.TripLemmasB
/-!
  One trip of the outer loop, neither the first nor the last.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_mid (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : 0 < t1.val) (hl : t1.val < 49)

    (g0 g1 g2 g3 g4 g5 g6 g7 gm1 gm2 : Fin 200) (e0 : g0.val = 4 * t1.val) (e1 : g1.val = 4 * t1.val + 1) (e2 : g2.val = 4 * t1.val + 2) (e3 : g3.val = 4 * t1.val + 3)
    (e4 : g4.val = 4 * t1.val + 4) (e5 : g5.val = 4 * t1.val + 5) (e6 : g6.val = 4 * t1.val + 6) (e7 : g7.val = 4 * t1.val + 7)
    (em1 : gm1.val + 1 = 4 * t1.val) (em2 : gm2.val + 2 = 4 * t1.val) :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))
        ∗ a2piece d L f2 g4 ∗ a2piece d L f2 g5 ∗ a2piece d L f2 g6 ∗ a2piece d L f2 g7
        ∗ a3tok d L f3 g2 ∗ a3tok d L f3 g3 ∗ a3tok d L f3 g4 ∗ a3tok d L f3 g5
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ SFl2 d L f2 f3 f4 gm2 ∗ semVal (thr d L, SemLoc.dma cc0_scratch9.sem) 0
        ∗ IFl3 d L f2 g3 ∗ SFl3 d L f2 f3 f4 gm1 ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3 SFl2 SFl3
  iintro ⟨Hmw, TA, TT, TO, DN, A4, A5, A6, A7, T2, T3, T4, T5, O0, O1, O2, O3, H8, G0, R0, Si0, Ss0, G1, R1, Si1, Ss1, I2, S2, Sg2, I3, S3, Sg3, HO⟩
  have hc1 := cond_pos t1 h0
  have hc2 := cond2_pos t1 hl
  have hc4 := cond4_pos t1 hl
  have hc6 := cond6_pos t1 hl
  have hc8 := cond8_pos t1 hl
  ihave A4 := (Entails.of_eq (a2piece_prog (F := F) d L f2 g4 _ (k0_off11_inb L t1 hc2) (off11_eq L t1 g4 e4))) $$ A4
  ihave A5 := (Entails.of_eq (a2piece_prog (F := F) d L f2 g5 _ (k0_off22_inb L t1 hc4) (off22_eq L t1 g5 e5))) $$ A5
  ihave A6 := (Entails.of_eq (a2piece_prog (F := F) d L f2 g6 _ (k0_off32_inb L t1 hc6) (off32_eq L t1 g6 e6))) $$ A6
  ihave A7 := (Entails.of_eq (a2piece_prog (F := F) d L f2 g7 _ (k0_off42_inb L t1 hc8) (off42_eq L t1 g7 e7))) $$ A7
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H60 := (Entails.of_eq (pointsTo_congr (it_land_0 _ f2 (chunkNo L g4) _ (fun x => chunk_read f2 (chunkNo L g4) _ _ (off11_eq L t1 g4 e4).symm x)))) $$ H60
  ihave Hsp := ((split6_0 (F := F) d L _).1) $$ H60
  icases Hsp with ⟨L0, R0⟩
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H61 := (Entails.of_eq (pointsTo_congr (it_land_1 _ f2 (chunkNo L g5) _ (fun x => chunk_read f2 (chunkNo L g5) _ _ (off22_eq L t1 g5 e5).symm x)))) $$ H61
  ihave Hsp := ((split6_1 (F := F) d L _).1) $$ H61
  icases Hsp with ⟨L1, R1⟩
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg4 : gF (4 * (t1.val + 1) + 0) = g4 := Fin.ext (by rw [gF_val (by omega)]; omega)
  have eg5 : gF (4 * (t1.val + 1) + 1) = g5 := Fin.ext (by rw [gF_val (by omega)]; omega)
  have eg6 : gF (4 * (t1.val + 1) + 2) = g6 := Fin.ext (by rw [gF_val (by omega)]; omega)
  have eg7 : gF (4 * (t1.val + 1) + 3) = g7 := Fin.ext (by rw [gF_val (by omega)]; omega)
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_pos (by omega : t1.val + 1 < 50), if_pos (by omega : 0 < t1.val + 1)]
  rw [eg4, eg5, eg6, eg7, eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 4 from by omega]
  ihave DN := (done4' (F := F) (4 * t1.val - 2) gm2 gm1 g0 g1 (by omega) (by omega) (by omega) (by omega) (outpiece d L (outC f2 f3 f4))) $$ [DN S2_dst S3_dst O0 O1]
  · isplitl [DN]; · iexact DN
    isplitl [S2_dst]; · iexact S2_dst
    isplitl [S3_dst]; · iexact S3_dst
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src A4 A5 T4 T5 T2 T3
  isplitl [Hmw]; · iexact Hmw
  isplitl [TA]; · iexact TA
  isplitl [TT]; · iexact TT
  isplitl [TO]; · iexact TO
  isplitl [DN]; · iexact DN
  isplitl [H8]; · iexact H8
  isplitl [G0 R0 Si0 Ss0]
  · isplitl [G0]; · iapply (gfl_canon_0 d L f2 f3 g4 _ _ (gath_land_0 _ f2 f3 (chunkNo L g4) _ (fun x => list_read_0 f2 (chunkNo L g4) _ (fun _ _ => rfl) x) _ _ (fun _ => rfl)) (fun _ => rfl)); iexact G0
    isplitl [R0]; · iexact R0
    isplitl [Si0]; · iexact Si0
    iexact Ss0
  isplitl [G1 R1 Si1 Ss1]
  · isplitl [G1]; · iapply (gfl_canon_1 d L f2 f3 g5 _ _ (gath_land_1 _ f2 f3 (chunkNo L g5) _ (fun x => list_read_1 f2 (chunkNo L g5) _ (fun _ _ => rfl) x) _ _ (fun _ => rfl)) (fun _ => rfl)); iexact G1
    isplitl [R1]; · iexact R1
    isplitl [Si1]; · iexact Si1
    iexact Ss1
  isplitl [I2 S2 Sg2]
  · isplitl [I2]; · iapply (ifl_canon_2 d L f2 g6 _ _ (it_land_2 _ f2 (chunkNo L g6) _ (fun x => chunk_read f2 (chunkNo L g6) _ _ (off32_eq L t1 g6 e6).symm x)) _ _ (off32_eq L t1 g6 e6)); iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [I3 S3 Sg3]
  · isplitl [I3]; · iapply (ifl_canon_3 d L f2 g7 _ _ (it_land_3 _ f2 (chunkNo L g7) _ (fun x => chunk_read f2 (chunkNo L g7) _ _ (off42_eq L t1 g7 e7).symm x)) _ _ (off42_eq L t1 g7 e7)); iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KB
end
-- ==== Proof.TripLastB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.TripLemmasB
/-!
  One trip of the outer loop, the last: no further chunk's indices are copied and no further gather is started.
  Trip t handles chunks 4 t … 4 t + 3. For slot b in turn: the write-back of the chunk two slots on is waited for
  (its rows join the chunks done), that slot's index copy is waited for and its gather started (its index list split
  off the slot, the rest kept for the type indices); this slot's gather is waited for, the inner loop adds the blend
  of the type rows to its 128 rows (sixteen rows a trip), the next chunk's indices are copied into the slot, and its
  rows are written back. Each wait hands back what the transfer carried; each start takes the chunk's piece of the
  array it reads or writes. At the end the invariant holds one trip further on.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
theorem trip_last (fo : C5 F) (O : CellTallies nD τ sig (HIx 1)) (W W' : Waits sig (HIx 1)) (hW' : ∀ p ∈ W', p ∈ W ∨ p.2 = none) (v1 : BitVec 32)
    (hf2 : ∀ i, (f2 i).toNat < 100000)
    (t1 : Fin k0_t1_loop.trips) (h0 : 0 < t1.val) (hl : t1.val = 49)

    (g0 g1 g2 g3  gm1 gm2 : Fin 200) (e0 : g0.val = 4 * t1.val) (e1 : g1.val = 4 * t1.val + 1) (e2 : g2.val = 4 * t1.val + 2) (e3 : g3.val = 4 * t1.val + 3)

    (em1 : gm1.val + 1 = 4 * t1.val) (em2 : gm2.val + 2 = 4 * t1.val) :
    iprop(Transfers.MayWaits (thr d L) (none : HIx 1) O
        ∗ todo (F := F) (4 * t1.val + 8) (a2piece d L f2) ∗ todo (F := F) (4 * t1.val + 6) (a3tok d L f3)
        ∗ todo (F := F) (4 * t1.val + 4) (outpiece d L fo) ∗ done (F := F) (4 * t1.val - 2) (outpiece d L (outC f2 f3 f4))

        ∗ a3tok d L f3 g2 ∗ a3tok d L f3 g3
        ∗ outpiece d L fo g0 ∗ outpiece d L fo g1 ∗ outpiece d L fo g2 ∗ outpiece d L fo g3
        ∗ ((a8).view.loc (thr d L) ↦{fullShare} ttC f4)
        ∗ GFl0 d L f2 f3 g0 ∗ ((s60).view.loc (thr d L) ↦[(s60).view.set \ (l60).view.set]{fullShare} itvC f2 (chunkNo L g0))
        ∗ semVal (thr d L, SemLoc.dma cc0_scratch3.sem) 0 ∗ semVal (thr d L, SemLoc.dma cc0_scratch11.sem) 0
        ∗ GFl1 d L f2 f3 g1 ∗ ((s61).view.loc (thr d L) ↦[(s61).view.set \ (l61).view.set]{fullShare} itvC f2 (chunkNo L g1))
        ∗ semVal (thr d L, SemLoc.dma cc0_scratch4.sem) 0 ∗ semVal (thr d L, SemLoc.dma cc0_scratch12.sem) 0
        ∗ IFl2 d L f2 g2 ∗ SFl2 d L f2 f3 f4 gm2 ∗ semVal (thr d L, SemLoc.dma cc0_scratch9.sem) 0
        ∗ IFl3 d L f2 g3 ∗ SFl3 d L f2 f3 f4 gm1 ∗ semVal (thr d L, SemLoc.dma cc0_scratch10.sem) 0
        ∗ owes (thr d L) O W')
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 ())
          (Inv d L f2 f3 f4 fo O W (t1.val + 1)) := by
  unfold k0_t1_body GFl0 GFl1 IFl2 IFl3 SFl2 SFl3
  iintro ⟨Hmw, TA, TT, TO, DN, T2, T3, O0, O1, O2, O3, H8, G0, R0, Si0, Ss0, G1, R1, Si1, Ss1, I2, S2, Sg2, I3, S3, Sg3, HO⟩
  have hc1 := cond_pos t1 h0
  have hc2 := cond2_neg t1 (by omega)
  have hc4 := cond4_neg t1 (by omega)
  have hc6 := cond6_neg t1 (by omega)
  have hc8 := cond8_neg t1 (by omega)
  ihave O0 := (Entails.of_eq (outpiece_prog (F := F) d L fo g0 _ (k0_off12_inb L t1 0) (off12_eq L t1 0 g0 (by simpa using e0)))) $$ O0
  ihave O1 := (Entails.of_eq (outpiece_prog (F := F) d L fo g1 _ (k0_off12_inb L t1 1) (off12_eq L t1 1 g1 (by simpa using e1)))) $$ O1
  ihave O2 := (Entails.of_eq (outpiece_prog (F := F) d L fo g2 _ (k0_off12_inb L t1 2) (off12_eq L t1 2 g2 (by simpa using e2)))) $$ O2
  ihave O3 := (Entails.of_eq (outpiece_prog (F := F) d L fo g3 _ (k0_off12_inb L t1 3) (off12_eq L t1 3 g3 (by simpa using e3)))) $$ O3
  have hin0 := hin_0 (F := F) f2 hf2
  have hin1 := hin_1 (F := F) f2 hf2
  have hin2 := hin_2 (F := F) f2 hf2
  have hin3 := hin_3 (F := F) f2 hf2
  have hsub60 := sub6_0
  have hsub61 := sub6_1
  have hsub62 := sub6_2
  have hsub63 := sub6_3
  sl_exec_parts
  ihave Hsp := ((split6_2 (F := F) d L _).1) $$ I2_dst
  icases Hsp with ⟨L2, R2⟩
  sl_exec_parts
  icases G0_dst with ⟨H70, L0⟩
  ihave H60 := ((split6_0 (F := F) d L _).2) $$ [L0 R0]
  · isplitl [L0] <;> iassumption
  sl_for (innerInv0 (F := F) d L (itvC f2 (chunkNo L g0)) (ttC f4) (gathC f2 f3 (chunkNo L g0))) $$ [H60 H8 H70]
  case region =>
    intro k acc
    exact compute_region_0 (F := F) d L _ _ _ _ _ _ _ k acc
  · unfold innerInv0
    isplitl [H60]; · iexact H60
    isplitl [H8]; · iexact H8
    iexists _; isplitl [H70]; · iexact H70
    ipureintro; exact mix_cast _ _ _ _ _ (by omega) (mix_zero _ _ _ _)
  iintro %_ HI
  unfold innerInv0
  icases HI with ⟨H60, H8, %X0, H70, %hX0⟩
  have hX0' : Mix (0 : Fin 4) 1024 (itvC f2 (chunkNo L g0)) (ttC f4) (gathC f2 f3 (chunkNo L g0)) X0 :=
    mix_cast _ _ _ _ _ (by have := k0_t2_abs.2.1; have h8 : k0_t2_loop.trips = 8 := by decide
                           show 128 * k0_t2_loop.trips = 1024; omega) hX0
  ihave H70 := (Entails.of_eq (pointsTo_congr (fin_of_mix_0 f2 f3 f4 (chunkNo L g0) _ _ _ _ (fun _ _ => rfl) rfl (fun _ _ => rfl) hX0'))) $$ H70
  sl_exec_parts
  ihave Hsp := ((split6_3 (F := F) d L _).1) $$ I3_dst
  icases Hsp with ⟨L3, R3⟩
  sl_exec_parts
  icases G1_dst with ⟨H71, L1⟩
  ihave H61 := ((split6_1 (F := F) d L _).2) $$ [L1 R1]
  · isplitl [L1] <;> iassumption
  sl_for (innerInv1 (F := F) d L (itvC f2 (chunkNo L g1)) (ttC f4) (gathC f2 f3 (chunkNo L g1))) $$ [H61 H8 H71]
  case region =>
    intro k acc
    exact compute_region_1 (F := F) d L _ _ _ _ _ _ _ k acc
  · unfold innerInv1
    isplitl [H61]; · iexact H61
    isplitl [H8]; · iexact H8
    iexists _; isplitl [H71]; · iexact H71
    ipureintro; exact mix_cast _ _ _ _ _ (by omega) (mix_zero _ _ _ _)
  iintro %_ HI
  unfold innerInv1
  icases HI with ⟨H61, H8, %X1, H71, %hX1⟩
  have hX1' : Mix (1 : Fin 4) 1024 (itvC f2 (chunkNo L g1)) (ttC f4) (gathC f2 f3 (chunkNo L g1)) X1 :=
    mix_cast _ _ _ _ _ (by have := k0_t3_abs.2.1; have h8 : k0_t3_loop.trips = 8 := by decide
                           show 128 * k0_t3_loop.trips = 1024; omega) hX1
  ihave H71 := (Entails.of_eq (pointsTo_congr (fin_of_mix_1 f2 f3 f4 (chunkNo L g1) _ _ _ _ (fun _ _ => rfl) rfl (fun _ _ => rfl) hX1'))) $$ H71
  sl_exec_parts
  ihave H72 := (Entails.of_eq (pointsTo_congr (gath_land_2 _ f2 f3 (chunkNo L g2) _ (fun x => list_read_2 f2 (chunkNo L g2) _ (fun _ _ => rfl) x) _ _ _))) $$ S2_src
  ihave H62 := ((split6_2 (F := F) d L _).2) $$ [L2 R2]
  · isplitl [L2] <;> iassumption
  sl_for (innerInv2 (F := F) d L (itvC f2 (chunkNo L g2)) (ttC f4) (gathC f2 f3 (chunkNo L g2))) $$ [H62 H8 H72]
  case region =>
    intro k acc
    exact compute_region_2 (F := F) d L _ _ _ _ _ _ k acc
  · unfold innerInv2
    isplitl [H62]; · iexact H62
    isplitl [H8]; · iexact H8
    iexists _; isplitl [H72]; · iexact H72
    ipureintro; exact mix_cast _ _ _ _ _ (by omega) (mix_zero _ _ _ _)
  iintro %_ HI
  unfold innerInv2
  icases HI with ⟨H62, H8, %X2, H72, %hX2⟩
  have hX2' : Mix (2 : Fin 4) 1024 (itvC f2 (chunkNo L g2)) (ttC f4) (gathC f2 f3 (chunkNo L g2)) X2 :=
    mix_cast _ _ _ _ _ (by have := k0_t4_abs.2.1; have h8 : k0_t4_loop.trips = 8 := by decide
                           show 128 * k0_t4_loop.trips = 1024; omega) hX2
  ihave H72 := (Entails.of_eq (pointsTo_congr (fin_of_mix_2 f2 f3 f4 (chunkNo L g2) _ _ _ _ (fun _ _ => rfl) rfl (fun _ _ => rfl) hX2'))) $$ H72
  sl_exec_parts
  ihave H73 := (Entails.of_eq (pointsTo_congr (gath_land_3 _ f2 f3 (chunkNo L g3) _ (fun x => list_read_3 f2 (chunkNo L g3) _ (fun _ _ => rfl) x) _ _ _))) $$ S3_src
  ihave H63 := ((split6_3 (F := F) d L _).2) $$ [L3 R3]
  · isplitl [L3] <;> iassumption
  sl_for (innerInv3 (F := F) d L (itvC f2 (chunkNo L g3)) (ttC f4) (gathC f2 f3 (chunkNo L g3))) $$ [H63 H8 H73]
  case region =>
    intro k acc
    exact compute_region_3 (F := F) d L _ _ _ _ _ k acc
  · unfold innerInv3
    isplitl [H63]; · iexact H63
    isplitl [H8]; · iexact H8
    iexists _; isplitl [H73]; · iexact H73
    ipureintro; exact mix_cast _ _ _ _ _ (by omega) (mix_zero _ _ _ _)
  iintro %_ HI
  unfold innerInv3
  icases HI with ⟨H63, H8, %X3, H73, %hX3⟩
  have hX3' : Mix (3 : Fin 4) 1024 (itvC f2 (chunkNo L g3)) (ttC f4) (gathC f2 f3 (chunkNo L g3)) X3 :=
    mix_cast _ _ _ _ _ (by have := k0_t5_abs.2.1; have h8 : k0_t5_loop.trips = 8 := by decide
                           show 128 * k0_t5_loop.trips = 1024; omega) hX3
  ihave H73 := (Entails.of_eq (pointsTo_congr (fin_of_mix_3 f2 f3 f4 (chunkNo L g3) _ _ _ _ (fun _ _ => rfl) rfl (fun _ _ => rfl) hX3'))) $$ H73
  sl_exec_parts
  sl_step
  sl_unfold_run_names
  have eg2 : gF (4 * (t1.val + 1) - 4 + 2) = g2 := Fin.ext (by rw [gF_val (by omega)]; omega)
  have eg3 : gF (4 * (t1.val + 1) - 4 + 3) = g3 := Fin.ext (by rw [gF_val (by omega)]; omega)
  unfold Inv slotA0 slotA1 slotB2 slotB3
  simp only [if_neg (by omega : ¬ t1.val + 1 < 50), if_pos (by omega : 0 < t1.val + 1)]
  rw [eg2, eg3,
    show 4 * (t1.val + 1) + 4 = 4 * t1.val + 8 from by omega, show 4 * (t1.val + 1) + 2 = 4 * t1.val + 6 from by omega,
    show 4 * (t1.val + 1) = 4 * t1.val + 4 from by omega]
  rw [show 4 * t1.val + 4 - 2 = 4 * t1.val - 2 + 4 from by omega]
  ihave DN := (done4' (F := F) (4 * t1.val - 2) gm2 gm1 g0 g1 (by omega) (by omega) (by omega) (by omega) (outpiece d L (outC f2 f3 f4))) $$ [DN S2_dst S3_dst O0 O1]
  · isplitl [DN]; · iexact DN
    isplitl [S2_dst]; · iexact S2_dst
    isplitl [S3_dst]; · iexact S3_dst
    isplitl [O0]; · iapply (out_canon d L f2 f3 f4 g0 (((a5).slice (Rect.unit (s := S819200x128) (k0_off12 L t1 (BitVec.ofNat 32 (0 : Fin 4).val)) S128x128.size (k0_off12_inb L t1 0)) (fun _ => rfl)).view.writes (Elt F) ((a5).slice (Rect.unit (s := S819200x128) (k0_off12 L t1 (BitVec.ofNat 32 (0 : Fin 4).val)) S128x128.size (k0_off12_inb L t1 0)) (fun _ => rfl)).view.junk [⟨Rect.whole S128x128, ReadAs.same.apply (View.read (Elt F) (s70).view (finC f2 f3 f4 (0 : Fin 4) (chunkNo L g0)))⟩]) _ _ (off12_eq L t1 0 g0 (by simpa using e0)) (out_land_0 L g0 f2 f3 f4 _ _ (fun _ _ => rfl) _ _ (off12_eq L t1 0 g0 (by simpa using e0)).symm)); iexact O0
    iapply (out_canon d L f2 f3 f4 g1 (((a5).slice (Rect.unit (s := S819200x128) (k0_off12 L t1 (BitVec.ofNat 32 (1 : Fin 4).val)) S128x128.size (k0_off12_inb L t1 1)) (fun _ => rfl)).view.writes (Elt F) ((a5).slice (Rect.unit (s := S819200x128) (k0_off12 L t1 (BitVec.ofNat 32 (1 : Fin 4).val)) S128x128.size (k0_off12_inb L t1 1)) (fun _ => rfl)).view.junk [⟨Rect.whole S128x128, ReadAs.same.apply (View.read (Elt F) (s71).view (finC f2 f3 f4 (1 : Fin 4) (chunkNo L g1)))⟩]) _ _ (off12_eq L t1 1 g1 (by simpa using e1)) (out_land_1 L g1 f2 f3 f4 _ _ (fun _ _ => rfl) _ _ (off12_eq L t1 1 g1 (by simpa using e1)).symm)); iexact O1
  iclear I2_src I3_src G0_src G1_src T2 T3
  isplitl [Hmw]; · iexact Hmw
  isplitl [TA]; · iexact TA
  isplitl [TT]; · iexact TT
  isplitl [TO]; · iexact TO
  isplitl [DN]; · iexact DN
  isplitl [H8]; · iexact H8
  isplitl [H60 H70 Si0 G0 Ss0]
  · isplitl [H60]; · iexists _; iexact H60
    isplitl [H70]; · iexists _; iexact H70
    isplitl [Si0]; · iexact Si0
    isplitl [G0]; · iexact G0
    iexact Ss0
  isplitl [H61 H71 Si1 G1 Ss1]
  · isplitl [H61]; · iexists _; iexact H61
    isplitl [H71]; · iexists _; iexact H71
    isplitl [Si1]; · iexact Si1
    isplitl [G1]; · iexact G1
    iexact Ss1
  isplitl [H62 I2 S2 Sg2]
  · isplitl [H62 I2]
    · isplitl [H62]; · iexists _; iexact H62
      iexact I2
    isplitl [S2]; · iapply (sfl_canon_2 d L f2 f3 f4 g2 (((a5).slice (Rect.unit (s := S819200x128) (k0_off12 L t1 (BitVec.ofNat 32 (2 : Fin 4).val)) S128x128.size (k0_off12_inb L t1 2)) (fun _ => rfl)).view.writes (Elt F) fo [⟨Rect.whole S128x128, ReadAs.same.apply (View.read (Elt F) (s72).view (finC f2 f3 f4 (2 : Fin 4) (chunkNo L g2)))⟩]) _ _ (off12_eq L t1 2 g2 (by simpa using e2)) (out_land_2 L g2 f2 f3 f4 fo _ (fun _ _ => rfl) _ _ (off12_eq L t1 2 g2 (by simpa using e2)).symm)); iexact S2
    iexact Sg2
  isplitl [H63 I3 S3 Sg3]
  · isplitl [H63 I3]
    · isplitl [H63]; · iexists _; iexact H63
      iexact I3
    isplitl [S3]; · iapply (sfl_canon_3 d L f2 f3 f4 g3 (((a5).slice (Rect.unit (s := S819200x128) (k0_off12 L t1 (BitVec.ofNat 32 (3 : Fin 4).val)) S128x128.size (k0_off12_inb L t1 3)) (fun _ => rfl)).view.writes (Elt F) fo [⟨Rect.whole S128x128, ReadAs.same.apply (View.read (Elt F) (s73).view (finC f2 f3 f4 (3 : Fin 4) (chunkNo L g3)))⟩]) _ _ (off12_eq L t1 3 g3 (by simpa using e3)) (out_land_3 L g3 f2 f3 f4 fo _ (fun _ _ => rfl) _ _ (off12_eq L t1 3 g3 (by simpa using e3)).symm)); iexact S3
    iexact Sg3
  iexists _; isplitr
  rotate_left
  · iexact HO
  · ipureintro; intro p hp
    iterate 14 (first | (rw [Finset.mem_insert] at hp; rcases hp with rfl | hp; · exact .inr rfl) | skip)
    exact hW' p hp

end Cert.Proof.KB
end
-- ==== Proof.KerTripB.lean ====
import proofs.«207534_g35055523070033_cont_8to1_b_222_9_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.KerPayB
import proofs.«207534_g35055523070033_cont_8to1_b_222_9_alg».proof.Proof.GeomB
import proofs.«207534_g35055523070033_cont_8to1_b_222_9_alg».proof.Proof.TripFirstB
import proofs.«207534_g35055523070033_cont_8to1_b_222_9_alg».proof.Proof.TripMidB
import proofs.«207534_g35055523070033_cont_8to1_b_222_9_alg».proof.Proof.TripLastB
/-!
  A trip of the outer loop keeps the ring's invariant, whichever trip it is: the invariant is opened at the trip's
  number (which transfers are in flight depends on whether it is the first or the last trip), the chunks the trip
  handles are taken out of the families of chunks still to come, and the case's own run is applied.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] (d : Dev nD) (L : grid0.Coords) (f2 : C2 F) (f3 : C3 F) (f4 : C4 F)

set_option maxHeartbeats 4000000 in
/-- One trip of the outer loop keeps the ring's invariant. -/
theorem trip (fo : C5 F) (O : CellTallies nD τ sig (HIx 1)) (W : Waits sig (HIx 1)) (hf2 : ∀ i, (f2 i).toNat < 100000) (v1 : BitVec 32)
    (t1 : Fin k0_t1_loop.trips) (acc : PUnit) :
    Inv d L f2 f3 f4 fo O W t1.val acc
      ⊢ wp frame (wpE (defs₀ (F := F)) 𝒱₀ (thr d L) none) Set.univ
          (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scoped0 v1 t1 acc)
          (Inv d L f2 f3 f4 fo O W (t1.val + 1)) := by
  have ht : t1.val < 50 := lt_of_lt_of_le t1.isLt k0_t1_abs.2.1
  cases acc
  have eq0 : gF (4 * t1.val + 0) = (⟨4 * t1.val, by omega⟩ : Fin 200) := Fin.ext (by rw [gF_val (by omega)]; simp)
  have eq1 : gF (4 * t1.val + 1) = (⟨4 * t1.val + 1, by omega⟩ : Fin 200) := Fin.ext (by rw [gF_val (by omega)])
  have eq2 : gF (4 * t1.val + 2) = (⟨4 * t1.val + 2, by omega⟩ : Fin 200) := Fin.ext (by rw [gF_val (by omega)])
  have eq3 : gF (4 * t1.val + 3) = (⟨4 * t1.val + 3, by omega⟩ : Fin 200) := Fin.ext (by rw [gF_val (by omega)])
  unfold Inv slotA0 slotA1 slotB2 slotB3
  simp only [if_pos ht, eq0, eq1, eq2, eq3]
  by_cases h0 : t1.val = 0
  · -- the first trip
    have hl : t1.val < 49 := by omega
    simp only [if_neg (by omega : ¬ 0 < t1.val)]
    iintro ⟨Hmw, TA, TT, TO, DN, H8, ⟨G0, R0, Si0, Ss0⟩, ⟨G1, R1, Si1, Ss1⟩, ⟨I2, ⟨⟨%X2, S2s⟩, Ss2⟩, Sg2⟩, ⟨I3, ⟨⟨%X3, S3s⟩, Ss3⟩, Sg3⟩, %W', %hW', HO⟩
    ihave TA := (todo4 (F := F) (4 * t1.val + 4) (by omega) _) $$ TA
    icases TA with ⟨A4, A5, A6, A7, TA⟩
    ihave TT := (todo4 (F := F) (4 * t1.val + 2) (by omega) _) $$ TT
    icases TT with ⟨T2, T3, T4, T5, TT⟩
    ihave TO := (todo4 (F := F) (4 * t1.val) (by omega) _) $$ TO
    icases TO with ⟨O0, O1, O2, O3, TO⟩
    iapply (trip_first d L f2 f3 f4 fo O W W' hW' v1 hf2 t1 h0 hl X2 X3 (⟨4 * t1.val, by omega⟩ : Fin 200) (⟨4 * t1.val + 1, by omega⟩ : Fin 200) (⟨4 * t1.val + 2, by omega⟩ : Fin 200) (⟨4 * t1.val + 3, by omega⟩ : Fin 200) (⟨4 * t1.val + 4, by omega⟩ : Fin 200) (⟨4 * t1.val + 5, by omega⟩ : Fin 200) (⟨4 * t1.val + 6, by omega⟩ : Fin 200) (⟨4 * t1.val + 7, by omega⟩ : Fin 200) rfl rfl rfl rfl rfl rfl rfl rfl)
    isplitl [Hmw]; · iexact Hmw
    isplitl [TA]; · iexact TA
    isplitl [TT]; · iexact TT
    isplitl [TO]; · iexact TO
    isplitl [DN]; · iexact DN
    isplitl [A4]; · iexact A4
    isplitl [A5]; · iexact A5
    isplitl [A6]; · iexact A6
    isplitl [A7]; · iexact A7
    isplitl [T2]; · iexact T2
    isplitl [T3]; · iexact T3
    isplitl [T4]; · iexact T4
    isplitl [T5]; · iexact T5
    isplitl [O0]; · iexact O0
    isplitl [O1]; · iexact O1
    isplitl [O2]; · iexact O2
    isplitl [O3]; · iexact O3
    isplitl [H8]; · iexact H8
    isplitl [G0]; · iexact G0
    isplitl [R0]; · iexact R0
    isplitl [Si0]; · iexact Si0
    isplitl [Ss0]; · iexact Ss0
    isplitl [G1]; · iexact G1
    isplitl [R1]; · iexact R1
    isplitl [Si1]; · iexact Si1
    isplitl [Ss1]; · iexact Ss1
    isplitl [I2]; · iexact I2
    isplitl [S2s Ss2]
    · isplitl [S2s]; · iexact S2s
      iexact Ss2
    isplitl [Sg2]; · iexact Sg2
    isplitl [I3]; · iexact I3
    isplitl [S3s Ss3]
    · isplitl [S3s]; · iexact S3s
      iexact Ss3
    isplitl [Sg3]; · iexact Sg3
    iexact HO
  · have h0' : 0 < t1.val := Nat.pos_of_ne_zero h0
    have em2 : gF (4 * t1.val - 4 + 2) = (⟨4 * t1.val - 2, by omega⟩ : Fin 200) := Fin.ext (by rw [gF_val (by omega)]; show 4 * t1.val - 4 + 2 = 4 * t1.val - 2; omega)
    have em1 : gF (4 * t1.val - 4 + 3) = (⟨4 * t1.val - 1, by omega⟩ : Fin 200) := Fin.ext (by rw [gF_val (by omega)]; show 4 * t1.val - 4 + 3 = 4 * t1.val - 1; omega)
    simp only [if_pos h0', em2, em1]
    iintro ⟨Hmw, TA, TT, TO, DN, H8, ⟨G0, R0, Si0, Ss0⟩, ⟨G1, R1, Si1, Ss1⟩, ⟨I2, S2, Sg2⟩, ⟨I3, S3, Sg3⟩, %W', %hW', HO⟩
    ihave TO := (todo4 (F := F) (4 * t1.val) (by omega) _) $$ TO
    icases TO with ⟨O0, O1, O2, O3, TO⟩
    by_cases hl : t1.val < 49
    · -- a middle trip
      ihave TA := (todo4 (F := F) (4 * t1.val + 4) (by omega) _) $$ TA
      icases TA with ⟨A4, A5, A6, A7, TA⟩
      ihave TT := (todo4 (F := F) (4 * t1.val + 2) (by omega) _) $$ TT
      icases TT with ⟨T2, T3, T4, T5, TT⟩
      iapply (trip_mid d L f2 f3 f4 fo O W W' hW' v1 hf2 t1 h0' hl (⟨4 * t1.val, by omega⟩ : Fin 200) (⟨4 * t1.val + 1, by omega⟩ : Fin 200) (⟨4 * t1.val + 2, by omega⟩ : Fin 200) (⟨4 * t1.val + 3, by omega⟩ : Fin 200) (⟨4 * t1.val + 4, by omega⟩ : Fin 200) (⟨4 * t1.val + 5, by omega⟩ : Fin 200) (⟨4 * t1.val + 6, by omega⟩ : Fin 200) (⟨4 * t1.val + 7, by omega⟩ : Fin 200) (⟨4 * t1.val - 1, by omega⟩ : Fin 200) (⟨4 * t1.val - 2, by omega⟩ : Fin 200) rfl rfl rfl rfl rfl rfl rfl rfl (by show 4 * t1.val - 1 + 1 = 4 * t1.val; omega) (by show 4 * t1.val - 2 + 2 = 4 * t1.val; omega))
      isplitl [Hmw]; · iexact Hmw
      isplitl [TA]; · iexact TA
      isplitl [TT]; · iexact TT
      isplitl [TO]; · iexact TO
      isplitl [DN]; · iexact DN
      isplitl [A4]; · iexact A4
      isplitl [A5]; · iexact A5
      isplitl [A6]; · iexact A6
      isplitl [A7]; · iexact A7
      isplitl [T2]; · iexact T2
      isplitl [T3]; · iexact T3
      isplitl [T4]; · iexact T4
      isplitl [T5]; · iexact T5
      isplitl [O0]; · iexact O0
      isplitl [O1]; · iexact O1
      isplitl [O2]; · iexact O2
      isplitl [O3]; · iexact O3
      isplitl [H8]; · iexact H8
      isplitl [G0]; · iexact G0
      isplitl [R0]; · iexact R0
      isplitl [Si0]; · iexact Si0
      isplitl [Ss0]; · iexact Ss0
      isplitl [G1]; · iexact G1
      isplitl [R1]; · iexact R1
      isplitl [Si1]; · iexact Si1
      isplitl [Ss1]; · iexact Ss1
      isplitl [I2]; · iexact I2
      isplitl [S2]; · iexact S2
      isplitl [Sg2]; · iexact Sg2
      isplitl [I3]; · iexact I3
      isplitl [S3]; · iexact S3
      isplitl [Sg3]; · iexact Sg3
      iexact HO
    · -- the last trip
      have hl' : t1.val = 49 := by omega
      ihave TT := (Entails.of_eq (todo_take (F := F) (4 * t1.val + 2) (by omega) _)) $$ TT
      icases TT with ⟨T2, TT⟩
      ihave TT := (Entails.of_eq (todo_take (F := F) (4 * t1.val + 2 + 1) (by omega) _)) $$ TT
      icases TT with ⟨T3, TT⟩
      ihave TT := (Entails.of_eq (todo_big (F := F) (4 * t1.val + 2 + 1 + 1) (4 * t1.val + 6) (by omega) (by omega) _)) $$ TT
      ihave TA := (Entails.of_eq (todo_big (F := F) (4 * t1.val + 4) (4 * t1.val + 8) (by omega) (by omega) _)) $$ TA
      iapply (trip_last d L f2 f3 f4 fo O W W' hW' v1 hf2 t1 h0' hl' (⟨4 * t1.val, by omega⟩ : Fin 200) (⟨4 * t1.val + 1, by omega⟩ : Fin 200) (⟨4 * t1.val + 2, by omega⟩ : Fin 200) (⟨4 * t1.val + 3, by omega⟩ : Fin 200) (⟨4 * t1.val - 1, by omega⟩ : Fin 200) (⟨4 * t1.val - 2, by omega⟩ : Fin 200) rfl rfl rfl rfl (by show 4 * t1.val - 1 + 1 = 4 * t1.val; omega) (by show 4 * t1.val - 2 + 2 = 4 * t1.val; omega))
      isplitl [Hmw]; · iexact Hmw
      isplitl [TA]; · iexact TA
      isplitl [TT]; · iexact TT
      isplitl [TO]; · iexact TO
      isplitl [DN]; · iexact DN
      isplitl [T2]; · iexact T2
      isplitl [T3]; · iexact T3
      isplitl [O0]; · iexact O0
      isplitl [O1]; · iexact O1
      isplitl [O2]; · iexact O2
      isplitl [O3]; · iexact O3
      isplitl [H8]; · iexact H8
      isplitl [G0]; · iexact G0
      isplitl [R0]; · iexact R0
      isplitl [Si0]; · iexact Si0
      isplitl [Ss0]; · iexact Ss0
      isplitl [G1]; · iexact G1
      isplitl [R1]; · iexact R1
      isplitl [Si1]; · iexact Si1
      isplitl [Ss1]; · iexact Ss1
      isplitl [I2]; · iexact I2
      isplitl [S2]; · iexact S2
      isplitl [Sg2]; · iexact Sg2
      isplitl [I3]; · iexact I3
      isplitl [S3]; · iexact S3
      isplitl [Sg3]; · iexact Sg3
      iexact HO

end Cert.Proof.KB
end
-- ==== Proof.lean ====
/-
  An embedding lookup: for every token, the word table's row named by the token's word index plus the type table's
  row named by its type index. The reference gathers both rows and adds them. The kernel stacks the two index arrays
  chunk by chunk, has each vector subcore gather the word rows of its chunks and add the blend
  row0 + t · (row1 - row0) of the two type rows, writes a flat [819200, 128] result, and reads it as [4096, 200, 128].

  The certificate's five claims follow from three runs (Proof/Assemble.lean): the kernel program's run at either float
  instance (Proof/KerRun.lean, Proof/KerRunB.lean: @main on the TensorCore around the launch, given each tile's task),
  the reference's run (Proof/RefRun.lean, Proof/RefValue.lean), and, at the ideal instance, the equality of the two
  values (Proof/FlatBridge.lean: the flat layout and the batch layout hold the same numbers; Proof/Blend.lean: for a
  type index 0 or 1 and real type rows the blend is the row the index names). What remains is each tile's task in the
  two printed kernel programs (Proof/KerTile.lean, Proof/KerTileB.lean: the tile's body around the ring's loop; Proof/KerTrip.lean,
  Proof/KerTripB.lean: one trip of the ring keeps its invariant).
-/
import proofs.«207534_g35055523070033_cont_8to1_b_222_9_alg».proof.Defs
import proofs.«207534_g35055523070033_cont_8to1_b_222_9_alg».proof.Proof.Gen.Kernel
import proofs.«207534_g35055523070033_cont_8to1_b_222_9_alg».proof.Proof.Gen.Kernel.Skeleton
import proofs.«207534_g35055523070033_cont_8to1_b_222_9_alg».proof.Proof.Gen.KernelIdeal
import proofs.«207534_g35055523070033_cont_8to1_b_222_9_alg».proof.Proof.Gen.KernelIdeal.Skeleton
import proofs.«207534_g35055523070033_cont_8to1_b_222_9_alg».proof.Proof.Gen.ReferenceIdeal
import proofs.«207534_g35055523070033_cont_8to1_b_222_9_alg».proof.Proof.Gen.Pre_input_domain
import Idealize.ShloMosaic.Adequacy
import Idealize.ShloMosaic.Init
import proofs.«207534_g35055523070033_cont_8to1_b_222_9_alg».proof.Proof.Assemble
import proofs.«207534_g35055523070033_cont_8to1_b_222_9_alg».proof.Proof.KerTile
import proofs.«207534_g35055523070033_cont_8to1_b_222_9_alg».proof.Proof.KerTileB
import proofs.«207534_g35055523070033_cont_8to1_b_222_9_alg».proof.Proof.KerTrip
import proofs.«207534_g35055523070033_cont_8to1_b_222_9_alg».proof.Proof.KerTripB

noncomputable section

namespace Cert.Proof

open Idealize.ShloMosaic Idealize.SL.Sem

theorem claim : Cert.Claim :=
  claim_of
    (fun m V2 hf2 => KB.tileObl (F := Bits)
      (fun d L f2 f3 f4 fo O W h v1 t1 acc => KB.trip (F := Bits) d L f2 f3 f4 fo O W h v1 t1 acc) m V2 hf2)
    (fun m V2 hf2 => KI.tileObl (F := Ideal)
      (fun d L f2 f3 f4 fo O W h v1 t1 acc => KI.trip (F := Ideal) d L f2 f3 f4 fo O W h v1 t1 acc) m V2 hf2)

end Cert.Proof

end
